-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v104)) (v1 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_v106) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_v165) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S20000x384 : Shape := ⟨2, ![20000, 384]⟩
abbrev S1600000 : Shape := ⟨1, ![1600000]⟩
abbrev S2000000 : Shape := ⟨1, ![2000000]⟩
abbrev S128x128 : Shape := ⟨2, ![128, 128]⟩
abbrev S128 : Shape := ⟨1, ![128]⟩
abbrev S384x128 : Shape := ⟨2, ![384, 128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S20000x384 : S_.BroadcastsInDim S20000x384 (![] : Fin 0 → Fin S20000x384.rank)
  reducesTo_S20000x384_S_d0_1 : S20000x384.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part6 {F : FTy → Type} [FloatOps F] (main_arg27 : FVec F S128x64 .f32) (main_arg28 : FVec F S64 .f32) (main_arg29 : FVec F S128x64 .f32) (main_v98 : IVec S_ 1) (main_v101 : IVec S128x64 1) (main_c_39 : IVec S_ 1) : IVec S_ 1 :=
  let main_v102 : IVec S_ 1 := (fun x v => Host.reduce IntOp.andi x v reducesTo_S128x64_S_d0_1 h_S_) main_v101 main_c_39
  let main_v103 : IVec S_ 1 := andi main_v98 main_v102
  let main_v104 : FVec F S128x64 .f32 := Host.absf main_arg27
  let main_cst_40 : FVec F S_ .f32 := constant S_ .f32 0x7F800000#32
  let main_v105 : FVec F S128x64 .f32 := broadcastInDim S128x64 ![] bcast_S_S128x64 main_cst_40
  let main_v106 : IVec S128x64 1 := cmpf .olt main_v104 main_v105
  let main_c_41 : IVec S_ 1 := constantI S_ 1 1#1
  let main_v107 : IVec S_ 1 := (fun x v => Host.reduce IntOp.andi x v reducesTo_S128x64_S_d0_1 h_S_) main_v106 main_c_41
  let main_v108 : IVec S_ 1 := andi main_v103 main_v107
  let main_v109 : FVec F S64 .f32 := Host.absf main_arg28
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S128x64 .f32 := Host.absf main_arg29
  let main_cst_44 : FVec F S_ .f32 := constant S_ .f32 0x7F800000#32
  let main_v115 : FVec F S128x64 .f32 := broadcastInDim S128x64 ![] bcast_S_S128x64 main_cst_44
  let main_v116 : IVec S128x64 1 := cmpf .olt main_v114 main_v115
  let main_c_45 : IVec S_ 1 := constantI S_ 1 1#1
  let main_v117 : IVec S_ 1 := (fun x v => Host.reduce IntOp.andi x v reducesTo_S128x64_S_d0_1 h_S_) main_v116 main_c_45
  let main_v118 : IVec S_ 1 := andi main_v113 main_v117
  main_v118

def fn_part5 {F : FTy → Type} [FloatOps F] (main_arg24 : FVec F S128x64 .f32) (main_arg25 : FVec F S64 .f32) (main_arg26 : FVec F S128x64 .f32) (main_arg27 : FVec F S128x64 .f32) (main_arg28 : FVec F S64 .f32) (main_arg29 : FVec F S128x64 .f32) (main_v83 : IVec S_ 1) (main_v84 : FVec F S128x64 .f32) (main_cst_32 : FVec F S_ .f32) : IVec S_ 1 :=
  let main_v85 : FVec F S128x64 .f32 := broadcastInDim S128x64 ![] bcast_S_S128x64 main_cst_32
  let main_v86 : IVec S128x64 1 := cmpf .olt main_v84 main_v85
  let main_c_33 : IVec S_ 1 := constantI S_ 1 1#1
  let main_v87 : IVec S_ 1 := (fun x v => Host.reduce IntOp.andi x v reducesTo_S128x64_S_d0_1 h_S_) main_v86 main_c_33
  let main_v88 : IVec S_ 1 := andi main_v83 main_v87
  let main_v89 : FVec F S128x64 .f32 := Host.absf main_arg24
  let main_cst_34 : FVec F S_ .f32 := constant S_ .f32 0x7F800000#32
  let main_v90 : FVec F S128x64 .f32 := broadcastInDim S128x64 ![] bcast_S_S128x64 main_cst_34
  let main_v91 : IVec S128x64 1 := cmpf .olt main_v89 main_v90
  let main_c_35 : IVec S_ 1 := constantI S_ 1 1#1
  let main_v92 : IVec S_ 1 := (fun x v => Host.reduce IntOp.andi x v reducesTo_S128x64_S_d0_1 h_S_) main_v91 main_c_35
  let main_v93 : IVec S_ 1 := andi main_v88 main_v92
  let main_v94 : FVec F S64 .f32 := Host.absf main_arg25
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S128x64 .f32 := Host.absf main_arg26
  let main_cst_38 : FVec F S_ .f32 := constant S_ .f32 0x7F800000#32
  let main_v100 : FVec F S128x64 .f32 := broadcastInDim S128x64 ![] bcast_S_S128x64 main_cst_38
  let main_v101 : IVec S128x64 1 := cmpf .olt main_v99 main_v100
  let main_c_39 : IVec S_ 1 := constantI S_ 1 1#1
  fn_part6 (F := F) main_arg27 main_arg28 main_arg29 main_v98 main_v101 main_c_39

def fn_part4 {F : FTy → Type} [FloatOps F] (main_arg20 : FVec F S128x128 .f32) (main_arg21 : FVec F S128x64 .f32) (main_arg22 : FVec F S64 .f32) (main_arg23 : FVec F S128x64 .f32) (main_arg24 : FVec F S128x64 .f32) (main_arg25 : FVec F S64 .f32) (main_arg26 : FVec F S128x64 .f32) (main_arg27 : FVec F S128x64 .f32) (main_arg28 : FVec F S64 .f32) (main_arg29 : FVec F S128x64 .f32) (main_v63 : IVec S_ 1) (main_v67 : IVec S_ 1) : IVec S_ 1 :=
  let main_v68 : IVec S_ 1 := andi main_v63 main_v67
  let main_v69 : FVec F S128x128 .f32 := Host.absf main_arg20
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128x64 .f32 := Host.absf main_arg21
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S64 .f32 := Host.absf main_arg22
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S128x64 .f32 := Host.absf main_arg23
  let main_cst_32 : FVec F S_ .f32 := constant S_ .f32 0x7F800000#32
  fn_part5 (F := F) main_arg24 main_arg25 main_arg26 main_arg27 main_arg28 main_arg29 main_v83 main_v84 main_cst_32

def fn_part3 {F : FTy → Type} [FloatOps F] (main_arg17 : FVec F S128x128 .f32) (main_arg18 : FVec F S128x128 .f32) (main_arg19 : FVec F S128 .f32) (main_arg20 : FVec F S128x128 .f32) (main_arg21 : FVec F S128x64 .f32) (main_arg22 : FVec F S64 .f32) (main_arg23 : FVec F S128x64 .f32) (main_arg24 : FVec F S128x64 .f32) (main_arg25 : FVec F S64 .f32) (main_arg26 : FVec F S128x64 .f32) (main_arg27 : FVec F S128x64 .f32) (main_arg28 : FVec F S64 .f32) (main_arg29 : FVec F S128x64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg17
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg18
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg19
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg20 main_arg21 main_arg22 main_arg23 main_arg24 main_arg25 main_arg26 main_arg27 main_arg28 main_arg29 main_v63 main_v67

def fn_part2 {F : FTy → Type} [FloatOps F] (main_arg13 : FVec F S128 .f32) (main_arg14 : FVec F S128x128 .f32) (main_arg15 : FVec F S128x128 .f32) (main_arg16 : FVec F S128 .f32) (main_arg17 : FVec F S128x128 .f32) (main_arg18 : FVec F S128x128 .f32) (main_arg19 : FVec F S128 .f32) (main_arg20 : FVec F S128x128 .f32) (main_arg21 : FVec F S128x64 .f32) (main_arg22 : FVec F S64 .f32) (main_arg23 : FVec F S128x64 .f32) (main_arg24 : FVec F S128x64 .f32) (main_arg25 : FVec F S64 .f32) (main_arg26 : FVec F S128x64 .f32) (main_arg27 : FVec F S128x64 .f32) (main_arg28 : FVec F S64 .f32) (main_arg29 : FVec F S128x64 .f32) (main_v33 : IVec S_ 1) : IVec S_ 1 :=
  let main_v34 : FVec F S128 .f32 := Host.absf main_arg13
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg14
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg15
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg16
  let main_cst_18 : FVec F S_ .f32 := constant S_ .f32 0x7F800000#32
  let main_v50 : FVec F S128 .f32 := broadcastInDim S128 ![] bcast_S_S128 main_cst_18
  fn_part3 (F := F) main_arg17 main_arg18 main_arg19 main_arg20 main_arg21 main_arg22 main_arg23 main_arg24 main_arg25 main_arg26 main_arg27 main_arg28 main_arg29 main_v48 main_v49 main_v50

def fn_part1 {F : FTy → Type} [FloatOps F] (main_arg10 : FVec F S384x128 .f32) (main_arg11 : FVec F S128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S128x128 .f32) (main_arg19 : FVec F S128 .f32) (main_arg20 : FVec F S128x128 .f32) (main_arg21 : FVec F S128x64 .f32) (main_arg22 : FVec F S64 .f32) (main_arg23 : FVec F S128x64 .f32) (main_arg24 : FVec F S128x64 .f32) (main_arg25 : FVec F S64 .f32) (main_arg26 : FVec F S128x64 .f32) (main_arg27 : FVec F S128x64 .f32) (main_arg28 : FVec F S64 .f32) (main_arg29 : FVec F S128x64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S384x128 .f32 := Host.absf main_arg10
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S128 .f32 := Host.absf main_arg11
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg12
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S100000x128 .f32) (main_arg1 : FVec F S20000x384 .f32) (main_arg2 : IVec S1600000 32) (main_arg3 : IVec S1600000 32) (main_arg4 : IVec S2000000 32) (main_arg5 : IVec S2000000 32) (main_arg6 : IVec S2000000 32) (main_arg7 : IVec S2000000 32) (main_arg8 : FVec F S128x128 .f32) (main_arg9 : FVec F S128 .f32) (main_arg10 : FVec F S384x128 .f32) (main_arg11 : FVec F S128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S128x128 .f32) (main_arg19 : FVec F S128 .f32) (main_arg20 : FVec F S128x128 .f32) (main_arg21 : FVec F S128x64 .f32) (main_arg22 : FVec F S64 .f32) (main_arg23 : FVec F S128x64 .f32) (main_arg24 : FVec F S128x64 .f32) (main_arg25 : FVec F S64 .f32) (main_arg26 : FVec F S128x64 .f32) (main_arg27 : FVec F S128x64 .f32) (main_arg28 : FVec F S64 .f32) (main_arg29 : FVec F S128x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S20000x384 .f32 := Host.absf main_arg1
  let main_cst_0 : FVec F S_ .f32 := constant S_ .f32 0x7F800000#32
  let main_v5 : FVec F S20000x384 .f32 := broadcastInDim S20000x384 ![] bcast_S_S20000x384 main_cst_0
  let main_v6 : IVec S20000x384 1 := cmpf .olt main_v4 main_v5
  let main_c_1 : IVec S_ 1 := constantI S_ 1 1#1
  let main_v7 : IVec S_ 1 := (fun x v => Host.reduce IntOp.andi x v reducesTo_S20000x384_S_d0_1 h_S_) main_v6 main_c_1
  let main_v8 : IVec S_ 1 := andi main_v3 main_v7
  let main_v9 : FVec F S128x128 .f32 := Host.absf main_arg8
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg9
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S100000x128 : Shape := ⟨2, ![100000, 128]⟩
abbrev S20000x384 : Shape := ⟨2, ![20000, 384]⟩
abbrev S1600000 : Shape := ⟨1, ![1600000]⟩
abbrev S2000000 : Shape := ⟨1, ![2000000]⟩
abbrev S128x128 : Shape := ⟨2, ![128, 128]⟩
abbrev S128 : Shape := ⟨1, ![128]⟩
abbrev S384x128 : Shape := ⟨2, ![384, 128]⟩
abbrev S128x64 : Shape := ⟨2, ![128, 64]⟩
abbrev S64 : Shape := ⟨1, ![64]⟩
abbrev S1x128 : Shape := ⟨2, ![1, 128]⟩
abbrev S2000x128 : Shape := ⟨2, ![2000, 128]⟩
abbrev S20000x128 : Shape := ⟨2, ![20000, 128]⟩
abbrev S2000x384 : Shape := ⟨2, ![2000, 384]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S2000000x1 : Shape := ⟨2, ![2000000, 1]⟩
abbrev S20000 : Shape := ⟨1, ![20000]⟩
abbrev S20000x1 : Shape := ⟨2, ![20000, 1]⟩
abbrev S1600000x128 : Shape := ⟨2, ![1600000, 128]⟩
abbrev S2000000x128 : Shape := ⟨2, ![2000000, 128]⟩
abbrev S2000x1 : Shape := ⟨2, ![2000, 1]⟩
abbrev S2000x64 : Shape := ⟨2, ![2000, 64]⟩
abbrev S100000x64 : Shape := ⟨2, ![100000, 64]⟩
abbrev S20000x64 : Shape := ⟨2, ![20000, 64]⟩
abbrev S1600000x64 : Shape := ⟨2, ![1600000, 64]⟩
abbrev S2000000x64 : Shape := ⟨2, ![2000000, 64]⟩
abbrev S1x64 : Shape := ⟨2, ![1, 64]⟩

abbrev nBuf : Space → Nat
  | .hbm => 167
  | .vmem => 74
  | .smem => 0
  | _ => 0

abbrev hbmTy0_0 (i : Nat) : BufTy := match i % 128 with
  | 0 => ⟨S100000x128, .f32⟩
  | 1 => ⟨S20000x384, .f32⟩
  | 2 => ⟨S1600000, .i32⟩
  | 3 => ⟨S1600000, .i32⟩
  | 4 => ⟨S2000000, .i32⟩
  | 5 => ⟨S2000000, .i32⟩
  | 6 => ⟨S2000000, .i32⟩
  | 7 => ⟨S2000000, .i32⟩
  | 8 => ⟨S128x128, .f32⟩
  | 9 => ⟨S128, .f32⟩
  | 10 => ⟨S384x128, .f32⟩
  | 11 => ⟨S128, .f32⟩
  | 12 => ⟨S128x128, .f32⟩
  | 13 => ⟨S128, .f32⟩
  | 14 => ⟨S128x128, .f32⟩
  | 15 => ⟨S128x128, .f32⟩
  | 16 => ⟨S128, .f32⟩
  | 17 => ⟨S128x128, .f32⟩
  | 18 => ⟨S128x128, .f32⟩
  | 19 => ⟨S128, .f32⟩
  | 20 => ⟨S128x128, .f32⟩
  | 21 => ⟨S128x64, .f32⟩
  | 22 => ⟨S64, .f32⟩
  | 23 => ⟨S128x64, .f32⟩
  | 24 => ⟨S128x64, .f32⟩
  | 25 => ⟨S64, .f32⟩
  | 26 => ⟨S128x64, .f32⟩
  | 27 => ⟨S128x64, .f32⟩
  | 28 => ⟨S64, .f32⟩
  | 29 => ⟨S128x64, .f32⟩
  | 30 => ⟨S1x128, .f32⟩
  | 31 => ⟨S100000x128, .f32⟩
  | 32 => ⟨S1x128, .f32⟩
  | 33 => ⟨S20000x128, .f32⟩
  | 34 => ⟨S_, .f32⟩
  | 35 => ⟨S1600000, .f32⟩
  | 36 => ⟨S_, .f32⟩
  | 37 => ⟨S100000, .f32⟩
  | 38 => ⟨S1600000x1, .i32⟩
  | 39 => ⟨S100000, .f32⟩
  | 40 => ⟨S_, .f32⟩
  | 41 => ⟨S100000, .f32⟩
  | 42 => ⟨S100000, .f32⟩
  | 43 => ⟨S_, .f32⟩
  | 44 => ⟨S100000, .f32⟩
  | 45 => ⟨S100000, .f32⟩
  | 46 => ⟨S100000x1, .f32⟩
  | 47 => ⟨S_, .f32⟩
  | 48 => ⟨S2000000, .f32⟩
  | 49 => ⟨S_, .f32⟩
  | 50 => ⟨S100000, .f32⟩
  | 51 => ⟨S2000000x1, .i32⟩
  | 52 => ⟨S100000, .f32⟩
  | 53 => ⟨S_, .f32⟩
  | 54 => ⟨S100000, .f32⟩
  | 55 => ⟨S100000, .f32⟩
  | 56 => ⟨S_, .f32⟩
  | 57 => ⟨S100000, .f32⟩
  | 58 => ⟨S100000, .f32⟩
  | 59 => ⟨S100000x1, .f32⟩
  | 60 => ⟨S_, .f32⟩
  | 61 => ⟨S2000000, .f32⟩
  | 62 => ⟨S_, .f32⟩
  | 63 => ⟨S20000, .f32⟩
  | 64 => ⟨S2000000x1, .i32⟩
  | 65 => ⟨S20000, .f32⟩
  | 66 => ⟨S_, .f32⟩
  | 67 => ⟨S20000, .f32⟩
  | 68 => ⟨S20000, .f32⟩
  | 69 => ⟨S_, .f32⟩
  | 70 => ⟨S20000, .f32⟩
  | 71 => ⟨S20000, .f32⟩
  | 72 => ⟨S20000x1, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x128, .f32⟩
  | 82 => ⟨S_, .f32⟩
  | 83 => ⟨S100000x128, .f32⟩
  | 84 => ⟨S1600000x1, .i32⟩
  | 85 => ⟨S100000x128, .f32⟩
  | 86 => ⟨S_, .i32⟩
  | 87 => ⟨S2000000, .i32⟩
  | 88 => ⟨S2000000, .i1⟩
  | 89 => ⟨S_, .i32⟩
  | 90 => ⟨S2000000, .i32⟩
  | 91 => ⟨S2000000, .i32⟩
  | 92 => ⟨S2000000, .i32⟩
  | 93 => ⟨S2000000x1, .i32⟩
  | 94 => ⟨S2000000x128, .f32⟩
  | 95 => ⟨S_, .f32⟩
  | 96 => ⟨S100000x128, .f32⟩
  | 97 => ⟨S2000000x1, .i32⟩
  | 98 => ⟨S100000x128, .f32⟩
  | 99 => ⟨S_, .i32⟩
  | 100 => ⟨S2000000, .i32⟩
  | 101 => ⟨S2000000, .i1⟩
  | 102 => ⟨S_, .i32⟩
  | 103 => ⟨S2000000, .i32⟩
  | 104 => ⟨S2000000, .i32⟩
  | 105 => ⟨S2000000, .i32⟩
  | 106 => ⟨S2000000x1, .i32⟩
  | 107 => ⟨S2000000x128, .f32⟩
  | 108 => ⟨S_, .f32⟩
  | 109 => ⟨S20000x128, .f32⟩
  | 110 => ⟨S2000000x1, .i32⟩
  | 111 => ⟨S20000x128, .f32⟩
  | 112 => ⟨S128x128, .f32⟩
  | 113 => ⟨S128, .f32⟩
  | 114 => ⟨S1x128, .f32⟩
  | 115 => ⟨S100000x128, .f32⟩
  | 116 => ⟨S1x128, .f32⟩
  | 117 => ⟨S20000x128, .f32⟩
  | 118 => ⟨S100000x128, .f32⟩
  | 119 => ⟨S100000x64, .f32⟩
  | 120 => ⟨S100000x64, .f32⟩
  | 121 => ⟨S20000x64, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x128, .f32⟩

abbrev hbmTy0_1 (i : Nat) : BufTy := match i % 128 with
  | 0 => ⟨S1600000, .i32⟩
  | 1 => ⟨S1600000x1, .i32⟩
  | 2 => ⟨S1600000x64, .f32⟩
  | 3 => ⟨S_, .f32⟩
  | 4 => ⟨S100000x64, .f32⟩
  | 5 => ⟨S1600000x1, .i32⟩
  | 6 => ⟨S100000x64, .f32⟩
  | 7 => ⟨S_, .i32⟩
  | 8 => ⟨S2000000, .i32⟩
  | 9 => ⟨S2000000, .i1⟩
  | 10 => ⟨S_, .i32⟩
  | 11 => ⟨S2000000, .i32⟩
  | 12 => ⟨S2000000, .i32⟩
  | 13 => ⟨S2000000, .i32⟩
  | 14 => ⟨S2000000x1, .i32⟩
  | 15 => ⟨S2000000x64, .f32⟩
  | 16 => ⟨S_, .f32⟩
  | 17 => ⟨S100000x64, .f32⟩
  | 18 => ⟨S2000000x1, .i32⟩
  | 19 => ⟨S100000x64, .f32⟩
  | 20 => ⟨S_, .i32⟩
  | 21 => ⟨S2000000, .i32⟩
  | 22 => ⟨S2000000, .i1⟩
  | 23 => ⟨S_, .i32⟩
  | 24 => ⟨S2000000, .i32⟩
  | 25 => ⟨S2000000, .i32⟩
  | 26 => ⟨S2000000, .i32⟩
  | 27 => ⟨S2000000x1, .i32⟩
  | 28 => ⟨S2000000x64, .f32⟩
  | 29 => ⟨S_, .f32⟩
  | 30 => ⟨S20000x64, .f32⟩
  | 31 => ⟨S2000000x1, .i32⟩
  | 32 => ⟨S20000x64, .f32⟩
  | 33 => ⟨S128x64, .f32⟩
  | 34 => ⟨S64, .f32⟩
  | 35 => ⟨S1x64, .f32⟩
  | 36 => ⟨S100000x64, .f32⟩
  | 37 => ⟨S1x64, .f32⟩
  | 38 => ⟨S20000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x384, .f32⟩
  | .local _ .vmem, ⟨7, _⟩ => ⟨S2000x384, .f32⟩
  | .local _ .vmem, ⟨8, _⟩ => ⟨S384x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x1, .f32⟩
  | .local _ .vmem, ⟨15, _⟩ => ⟨S2000x1, .f32⟩
  | .local _ .vmem, ⟨16, _⟩ => ⟨S2000x128, .f32⟩
  | .local _ .vmem, ⟨17, _⟩ => ⟨S2000x128, .f32⟩
  | .local _ .vmem, ⟨18, _⟩ => ⟨S2000x1, .f32⟩
  | .local _ .vmem, ⟨19, _⟩ => ⟨S2000x1, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x1, .f32⟩
  | .local _ .vmem, ⟨31, _⟩ => ⟨S2000x1, .f32⟩
  | .local _ .vmem, ⟨32, _⟩ => ⟨S2000x128, .f32⟩
  | .local _ .vmem, ⟨33, _⟩ => ⟨S2000x128, .f32⟩
  | .local _ .vmem, ⟨34, _⟩ => ⟨S128x128, .f32⟩
  | .local _ .vmem, ⟨35, _⟩ => ⟨S128x128, .f32⟩
  | .local _ .vmem, ⟨36, _⟩ => ⟨S1x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S128x64, .f32⟩
  | .local _ .vmem, ⟨42, _⟩ => ⟨S128x64, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S128x64, .f32⟩
  | .local _ .vmem, ⟨48, _⟩ => ⟨S2000x64, .f32⟩
  | .local _ .vmem, ⟨49, _⟩ => ⟨S2000x64, .f32⟩
  | .local _ .vmem, ⟨50, _⟩ => ⟨S2000x64, .f32⟩
  | .local _ .vmem, ⟨51, _⟩ => ⟨S2000x64, .f32⟩
  | .local _ .vmem, ⟨52, _⟩ => ⟨S2000x1, .f32⟩
  | .local _ .vmem, ⟨53, _⟩ => ⟨S2000x1, .f32⟩
  | .local _ .vmem, ⟨54, _⟩ => ⟨S2000x64, .f32⟩
  | .local _ .vmem, ⟨55, _⟩ => ⟨S2000x64, .f32⟩
  | .local _ .vmem, ⟨56, _⟩ => ⟨S2000x1, .f32⟩
  | .local _ .vmem, ⟨57, _⟩ => ⟨S2000x1, .f32⟩
  | .local _ .vmem, ⟨58, _⟩ => ⟨S2000x128, .f32⟩
  | .local _ .vmem, ⟨59, _⟩ => ⟨S2000x128, .f32⟩
  | .local _ .vmem, ⟨60, _⟩ => ⟨S128x64, .f32⟩
  | .local _ .vmem, ⟨61, _⟩ => ⟨S1x64, .f32⟩
  | .local _ .vmem, ⟨62, _⟩ => ⟨S2000x64, .f32⟩
  | .local _ .vmem, ⟨63, _⟩ => ⟨S2000x64, .f32⟩
  | .local _ .vmem, ⟨64, _⟩ => ⟨S2000x64, .f32⟩
  | .local _ .vmem, ⟨65, _⟩ => ⟨S2000x64, .f32⟩
  | .local _ .vmem, ⟨66, _⟩ => ⟨S2000x1, .f32⟩
  | .local _ .vmem, ⟨67, _⟩ => ⟨S2000x1, .f32⟩
  | .local _ .vmem, ⟨68, _⟩ => ⟨S2000x128, .f32⟩
  | .local _ .vmem, ⟨69, _⟩ => ⟨S2000x128, .f32⟩
  | .local _ .vmem, ⟨70, _⟩ => ⟨S128x64, .f32⟩
  | .local _ .vmem, ⟨71, _⟩ => ⟨S1x64, .f32⟩
  | .local _ .vmem, ⟨72, _⟩ => ⟨S2000x64, .f32⟩
  | .local _ .vmem, ⟨73, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_cst : Ref sig .tc := ⟨.hbm, 34, rfl⟩
abbrev main_v4 : Ref sig .tc := ⟨.hbm, 35, rfl⟩
abbrev main_cst_0 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_cst_1 : Ref sig .tc := ⟨.hbm, 40, rfl⟩
abbrev main_v8 : Ref sig .tc := ⟨.hbm, 41, rfl⟩
abbrev main_v9 : Ref sig .tc := ⟨.hbm, 42, rfl⟩
abbrev main_cst_2 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_cst_3 : Ref sig .tc := ⟨.hbm, 47, rfl⟩
abbrev main_v13 : Ref sig .tc := ⟨.hbm, 48, rfl⟩
abbrev main_cst_4 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_cst_5 : Ref sig .tc := ⟨.hbm, 53, rfl⟩
abbrev main_v17 : Ref sig .tc := ⟨.hbm, 54, rfl⟩
abbrev main_v18 : Ref sig .tc := ⟨.hbm, 55, rfl⟩
abbrev main_cst_6 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_cst_7 : Ref sig .tc := ⟨.hbm, 60, rfl⟩
abbrev main_v22 : Ref sig .tc := ⟨.hbm, 61, rfl⟩
abbrev main_cst_8 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_cst_9 : Ref sig .tc := ⟨.hbm, 66, rfl⟩
abbrev main_v26 : Ref sig .tc := ⟨.hbm, 67, rfl⟩
abbrev main_v27 : Ref sig .tc := ⟨.hbm, 68, rfl⟩
abbrev main_cst_10 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_c : Ref sig .tc := ⟨.hbm, 73, rfl⟩
abbrev main_v31 : Ref sig .tc := ⟨.hbm, 74, rfl⟩
abbrev main_v32 : Ref sig .tc := ⟨.hbm, 75, rfl⟩
abbrev main_c_11 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_cst_12 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_c_13 : Ref sig .tc := ⟨.hbm, 86, rfl⟩
abbrev main_v41 : Ref sig .tc := ⟨.hbm, 87, rfl⟩
abbrev main_v42 : Ref sig .tc := ⟨.hbm, 88, rfl⟩
abbrev main_c_14 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_cst_15 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_c_16 : Ref sig .tc := ⟨.hbm, 99, rfl⟩
abbrev main_v51 : Ref sig .tc := ⟨.hbm, 100, rfl⟩
abbrev main_v52 : Ref sig .tc := ⟨.hbm, 101, rfl⟩
abbrev main_c_17 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_cst_18 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_c_19 : Ref sig .tc := ⟨.hbm, 122, rfl⟩
abbrev main_v71 : Ref sig .tc := ⟨.hbm, 123, rfl⟩
abbrev main_v72 : Ref sig .tc := ⟨.hbm, 124, rfl⟩
abbrev main_c_20 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_cst_21 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_c_22 : Ref sig .tc := ⟨.hbm, 135, rfl⟩
abbrev main_v81 : Ref sig .tc := ⟨.hbm, 136, rfl⟩
abbrev main_v82 : Ref sig .tc := ⟨.hbm, 137, rfl⟩
abbrev main_c_23 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_cst_24 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_c_25 : Ref sig .tc := ⟨.hbm, 148, rfl⟩
abbrev main_v91 : Ref sig .tc := ⟨.hbm, 149, rfl⟩
abbrev main_v92 : Ref sig .tc := ⟨.hbm, 150, rfl⟩
abbrev main_c_26 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_cst_27 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc2_stg9_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg6_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg3_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg2_0 : Ref sig .tc := ⟨.vmem, 48, rfl⟩
abbrev cc5_stg2_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg1_1 : Ref sig .tc := ⟨.vmem, 53, rfl⟩
abbrev cc6_stg2_0 : Ref sig .tc := ⟨.vmem, 54, rfl⟩
abbrev cc6_stg2_1 : Ref sig .tc := ⟨.vmem, 55, rfl⟩
abbrev cc6_stg3_0 : Ref sig .tc := ⟨.vmem, 56, rfl⟩
abbrev cc6_stg3_1 : Ref sig .tc := ⟨.vmem, 57, rfl⟩
abbrev cc6_stg4_0 : Ref sig .tc := ⟨.vmem, 58, rfl⟩
abbrev cc6_stg4_1 : Ref sig .tc := ⟨.vmem, 59, rfl⟩
abbrev cc6_stg5_0 : Ref sig .tc := ⟨.vmem, 60, rfl⟩
abbrev cc6_stg6_0 : Ref sig .tc := ⟨.vmem, 61, rfl⟩
abbrev cc6_stg7_0 : Ref sig .tc := ⟨.vmem, 62, rfl⟩
abbrev cc6_stg7_1 : Ref sig .tc := ⟨.vmem, 63, rfl⟩
abbrev cc7_stg0_0 : Ref sig .tc := ⟨.vmem, 64, rfl⟩
abbrev cc7_stg0_1 : Ref sig .tc := ⟨.vmem, 65, rfl⟩
abbrev cc7_stg1_0 : Ref sig .tc := ⟨.vmem, 66, rfl⟩
abbrev cc7_stg1_1 : Ref sig .tc := ⟨.vmem, 67, rfl⟩
abbrev cc7_stg2_0 : Ref sig .tc := ⟨.vmem, 68, rfl⟩
abbrev cc7_stg2_1 : Ref sig .tc := ⟨.vmem, 69, rfl⟩
abbrev cc7_stg3_0 : Ref sig .tc := ⟨.vmem, 70, rfl⟩
abbrev cc7_stg4_0 : Ref sig .tc := ⟨.vmem, 71, rfl⟩
abbrev cc7_stg5_0 : Ref sig .tc := ⟨.vmem, 72, rfl⟩
abbrev cc7_stg5_1 : Ref sig .tc := ⟨.vmem, 73, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem6_0 : DmaSem sig := 23
abbrev cc2_sem7_0 : DmaSem sig := 24
abbrev cc2_sem8_0 : DmaSem sig := 25
abbrev cc2_sem9_0 : DmaSem sig := 26
abbrev cc2_sem9_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem6_1 : DmaSem sig := 38
abbrev cc4_sem0_0 : DmaSem sig := 39
abbrev cc4_sem0_1 : DmaSem sig := 40
abbrev cc4_sem1_0 : DmaSem sig := 41
abbrev cc4_sem2_0 : DmaSem sig := 42
abbrev cc4_sem3_0 : DmaSem sig := 43
abbrev cc4_sem3_1 : DmaSem sig := 44
abbrev cc5_sem0_0 : DmaSem sig := 45
abbrev cc5_sem0_1 : DmaSem sig := 46
abbrev cc5_sem1_0 : DmaSem sig := 47
abbrev cc5_sem2_0 : DmaSem sig := 48
abbrev cc5_sem2_1 : DmaSem sig := 49
abbrev cc6_sem0_0 : DmaSem sig := 50
abbrev cc6_sem0_1 : DmaSem sig := 51
abbrev cc6_sem1_0 : DmaSem sig := 52
abbrev cc6_sem1_1 : DmaSem sig := 53
abbrev cc6_sem2_0 : DmaSem sig := 54
abbrev cc6_sem2_1 : DmaSem sig := 55
abbrev cc6_sem3_0 : DmaSem sig := 56
abbrev cc6_sem3_1 : DmaSem sig := 57
abbrev cc6_sem4_0 : DmaSem sig := 58
abbrev cc6_sem4_1 : DmaSem sig := 59
abbrev cc6_sem5_0 : DmaSem sig := 60
abbrev cc6_sem6_0 : DmaSem sig := 61
abbrev cc6_sem7_0 : DmaSem sig := 62
abbrev cc6_sem7_1 : DmaSem sig := 63
abbrev cc7_sem0_0 : DmaSem sig := 64
abbrev cc7_sem0_1 : DmaSem sig := 65
abbrev cc7_sem1_0 : DmaSem sig := 66
abbrev cc7_sem1_1 : DmaSem sig := 67
abbrev cc7_sem2_0 : DmaSem sig := 68
abbrev cc7_sem2_1 : DmaSem sig := 69
abbrev cc7_sem3_0 : DmaSem sig := 70
abbrev cc7_sem4_0 : DmaSem sig := 71
abbrev cc7_sem5_0 : DmaSem sig := 72
abbrev cc7_sem5_1 : DmaSem sig := 73

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S384x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S2000x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S2000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S128x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S2000x64 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S128x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S2000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x384_S2000x384_0_0 : ∀ a, (![0, 0] : Fin 2 → Nat) a + S2000x384.size a ≤ S2000x384.size a
  h_S2000x384 : 0 < S2000x384.numel
  inb_S384x128_S384x128_0_0 : ∀ a, (![0, 0] : Fin 2 → Nat) a + S384x128.size a ≤ S384x128.size a
  h_S384x128 : 0 < S384x128.numel
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S20000 : S_.BroadcastsInDim S20000 (![] : Fin 0 → Fin S20000.rank)
  shapeCasts_S20000_S20000x1 : S20000.ShapeCasts S20000x1
  bcast_S_S100000x128 : S_.BroadcastsInDim S100000x128 (![] : Fin 0 → Fin S100000x128.rank)
  bcast_S_S20000x128 : S_.BroadcastsInDim S20000x128 (![] : Fin 0 → Fin S20000x128.rank)
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  shapeCasts_S128x128_S128x128 : S128x128.ShapeCasts S128x128
  inb_S128x64_S128x64_0_0 : ∀ a, (![0, 0] : Fin 2 → Nat) a + S128x64.size a ≤ S128x64.size a
  h_S128x64 : 0 < S128x64.numel
  inb_S2000x128_S2000x64_0_0 : ∀ a, (![0, 0] : Fin 2 → Nat) a + S2000x64.size a ≤ S2000x128.size a
  h_S2000x64 : 0 < S2000x64.numel
  inb_S2000x128_S2000x64_0_64 : ∀ a, (![0, 64] : Fin 2 → Nat) a + S2000x64.size a ≤ S2000x128.size a
  slices_S100000x128_S100000x64_0_0 : S100000x128.Slices ![0, 0] S100000x64
  slices_S100000x128_S100000x64_0_64 : S100000x128.Slices ![0, 64] S100000x64
  inb_S2000x64_S2000x64_0_0 : ∀ a, (![0, 0] : Fin 2 → Nat) a + S2000x64.size a ≤ S2000x64.size a
  bcast_S_S100000x64 : S_.BroadcastsInDim S100000x64 (![] : Fin 0 → Fin S100000x64.rank)
  bcast_S_S20000x64 : S_.BroadcastsInDim S20000x64 (![] : Fin 0 → Fin S20000x64.rank)
  shapeCasts_S64_S1x64 : S64.ShapeCasts S1x64
  shapeCasts_S2000x64_S2000x64 : S2000x64.ShapeCasts S2000x64
  broadcasts_S2000x1_S2000x64 : S2000x1.Broadcasts S2000x64
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  dot_S2000x128_S128x128_S2000x128_1_0_0_1_n_n_wf : DotDims.WF S2000x128 S128x128 S2000x128 [1] [0] [0] [1] [] []
  dot_S2000x384_S384x128_S2000x128_1_0_0_1_n_n_wf : DotDims.WF S2000x384 S384x128 S2000x128 [1] [0] [0] [1] [] []
  scatter_S100000_S1600000x1_S1600000_n_0_0_1_wf : ScatterDims.WF S100000 S1600000x1 S1600000 [] [0] [0] 1
  scatter_S100000_S2000000x1_S2000000_n_0_0_1_wf : ScatterDims.WF S100000 S2000000x1 S2000000 [] [0] [0] 1
  scatter_S20000_S2000000x1_S2000000_n_0_0_1_wf : ScatterDims.WF S20000 S2000000x1 S2000000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S20000x128_S2000000x1_S2000000x128_1_0_n_n_0_1_1128_wf : GatherDims.WF S20000x128 S2000000x1 S2000000x128 [1] [0] [] [0] [] 1 ![1, 128]
  scatter_S100000x128_S2000000x1_S2000000x128_1_0_0_1_wf : ScatterDims.WF S100000x128 S2000000x1 S2000000x128 [1] [0] [0] 1
  gather_S100000x128_S2000000x1_S2000000x128_1_0_n_n_0_1_1128_wf : GatherDims.WF S100000x128 S2000000x1 S2000000x128 [1] [0] [] [0] [] 1 ![1, 128]
  scatter_S20000x128_S2000000x1_S2000000x128_1_0_0_1_wf : ScatterDims.WF S20000x128 S2000000x1 S2000000x128 [1] [0] [0] 1
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S20000x64_S2000000x1_S2000000x64_1_0_n_n_0_1_164_wf : GatherDims.WF S20000x64 S2000000x1 S2000000x64 [1] [0] [] [0] [] 1 ![1, 64]
  scatter_S100000x64_S2000000x1_S2000000x64_1_0_0_1_wf : ScatterDims.WF S100000x64 S2000000x1 S2000000x64 [1] [0] [0] 1
  gather_S100000x64_S2000000x1_S2000000x64_1_0_n_n_0_1_164_wf : GatherDims.WF S100000x64 S2000000x1 S2000000x64 [1] [0] [] [0] [] 1 ![1, 64]
  scatter_S20000x64_S2000000x1_S2000000x64_1_0_0_1_wf : ScatterDims.WF S20000x64 S2000000x1 S2000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x384.size a ≤ S20000x384.size a
  hwx1_0 : ∀ i : grid1.Coords, EltTy.bits .f32 = 32 ∨ (Rect.block (s := S20000x384) S2000x384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S384x128.size a ≤ S384x128.size a
  hwx1_1 : ∀ i : grid1.Coords, EltTy.bits .f32 = 32 ∨ (Rect.block (s := S384x128) S384x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S20000x128.size a
  hwx1_3 : ∀ i : grid1.Coords, EltTy.bits .f32 = 32 ∨ (Rect.block (s := S20000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S100000x1.size a
  hwx2_3 : ∀ i : grid2.Coords, EltTy.bits .f32 = 32 ∨ (Rect.block (s := S100000x1) S2000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S100000x128.size a
  hwx2_4 : ∀ i : grid2.Coords, EltTy.bits .f32 = 32 ∨ (Rect.block (s := S100000x128) S2000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x128.size a ≤ S100000x128.size a
  hwx2_9 : ∀ i : grid2.Coords, EltTy.bits .f32 = 32 ∨ (Rect.block (s := S100000x128) S2000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S20000x128.size a
  hwx3_0 : ∀ i : grid3.Coords, EltTy.bits .f32 = 32 ∨ (Rect.block (s := S20000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S20000x1.size a
  hwx3_1 : ∀ i : grid3.Coords, EltTy.bits .f32 = 32 ∨ (Rect.block (s := S20000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S20000x128.size a
  hwx3_2 : ∀ i : grid3.Coords, EltTy.bits .f32 = 32 ∨ (Rect.block (s := S20000x128) S2000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S20000x128.size a
  hwx3_6 : ∀ i : grid3.Coords, EltTy.bits .f32 = 32 ∨ (Rect.block (s := S20000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .f32 = 32 ∨ (Rect.block (s := S128x64) S128x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S100000x128.size a
  hwx4_3 : ∀ i : grid4.Coords, EltTy.bits .f32 = 32 ∨ (Rect.block (s := S100000x128) S2000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S20000x128.size a
  hwx5_0 : ∀ i : grid5.Coords, EltTy.bits .f32 = 32 ∨ (Rect.block (s := S20000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x64.size a ≤ S128x64.size a
  hwx5_1 : ∀ i : grid5.Coords, EltTy.bits .f32 = 32 ∨ (Rect.block (s := S128x64) S128x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x64.size a ≤ S20000x64.size a
  hwx5_2 : ∀ i : grid5.Coords, EltTy.bits .f32 = 32 ∨ (Rect.block (s := S20000x64) S2000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S100000x64.size a
  hwx6_0 : ∀ i : grid6.Coords, EltTy.bits .f32 = 32 ∨ (Rect.block (s := S100000x64) S2000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S100000x1.size a
  hwx6_1 : ∀ i : grid6.Coords, EltTy.bits .f32 = 32 ∨ (Rect.block (s := S100000x1) S2000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x64.size a ≤ S100000x64.size a
  hwx6_2 : ∀ i : grid6.Coords, EltTy.bits .f32 = 32 ∨ (Rect.block (s := S100000x64) S2000x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x1.size a ≤ S100000x1.size a
  hwx6_3 : ∀ i : grid6.Coords, EltTy.bits .f32 = 32 ∨ (Rect.block (s := S100000x1) S2000x1.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x128.size a ≤ S100000x128.size a
  hwx6_4 : ∀ i : grid6.Coords, EltTy.bits .f32 = 32 ∨ (Rect.block (s := S100000x128) S2000x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x64.size a ≤ S128x64.size a
  hwx6_5 : ∀ i : grid6.Coords, EltTy.bits .f32 = 32 ∨ (Rect.block (s := S128x64) S128x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S2000x64.size a ≤ S100000x64.size a
  hwx6_7 : ∀ i : grid6.Coords, EltTy.bits .f32 = 32 ∨ (Rect.block (s := S100000x64) S2000x64.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S20000x64.size a
  hwx7_0 : ∀ i : grid7.Coords, EltTy.bits .f32 = 32 ∨ (Rect.block (s := S20000x64) S2000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x1.size a ≤ S20000x1.size a
  hwx7_1 : ∀ i : grid7.Coords, EltTy.bits .f32 = 32 ∨ (Rect.block (s := S20000x1) S2000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x128.size a ≤ S20000x128.size a
  hwx7_2 : ∀ i : grid7.Coords, EltTy.bits .f32 = 32 ∨ (Rect.block (s := S20000x128) S2000x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x64.size a ≤ S128x64.size a
  hwx7_3 : ∀ i : grid7.Coords, EltTy.bits .f32 = 32 ∨ (Rect.block (s := S128x64) S128x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x64.size a ≤ S20000x64.size a
  hwx7_5 : ∀ i : grid7.Coords, EltTy.bits .f32 = 32 ∨ (Rect.block (s := S20000x64) S2000x64.size (cc7_transform_5 i) (hinb7_5 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x384_S384x128_S2000x128_1_0_0_1_n_n : DotDims S2000x384 S384x128 S2000x128 where
  lhsContracting := [1]
  rhsContracting := [0]
  lhsNonContracting := [0]
  rhsNonContracting := [1]
  lhsBatch := []
  rhsBatch := []
  wf := dot_S2000x384_S384x128_S2000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def scatter_S20000_S2000000x1_S2000000_n_0_0_1 : ScatterDims S20000 S2000000x1 S2000000 where
  updateWindowDims := []
  insertedWindowDims := [0]
  scatterDimsToOperandDims := [0]
  indexVectorDim := 1
  wf := scatter_S20000_S2000000x1_S2000000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S20000x128_S2000000x1_S2000000x128_1_0_n_n_0_1_1128 : GatherDims S20000x128 S2000000x1 S2000000x128 where
  offsetDims := [1]
  collapsedSliceDims := [0]
  operandBatchingDims := []
  startIndicesBatchingDims := []
  startIndexMap := [0]
  indexVectorDim := 1
  sliceSizes := ![1, 128]
  wf := gather_S20000x128_S2000000x1_S2000000x128_1_0_n_n_0_1_1128_wf
def scatter_S100000x128_S2000000x1_S2000000x128_1_0_0_1 : ScatterDims S100000x128 S2000000x1 S2000000x128 where
  updateWindowDims := [1]
  insertedWindowDims := [0]
  scatterDimsToOperandDims := [0]
  indexVectorDim := 1
  wf := scatter_S100000x128_S2000000x1_S2000000x128_1_0_0_1_wf
def gather_S100000x128_S2000000x1_S2000000x128_1_0_n_n_0_1_1128 : GatherDims S100000x128 S2000000x1 S2000000x128 where
  offsetDims := [1]
  collapsedSliceDims := [0]
  operandBatchingDims := []
  startIndicesBatchingDims := []
  startIndexMap := [0]
  indexVectorDim := 1
  sliceSizes := ![1, 128]
  wf := gather_S100000x128_S2000000x1_S2000000x128_1_0_n_n_0_1_1128_wf
def scatter_S20000x128_S2000000x1_S2000000x128_1_0_0_1 : ScatterDims S20000x128 S2000000x1 S2000000x128 where
  updateWindowDims := [1]
  insertedWindowDims := [0]
  scatterDimsToOperandDims := [0]
  indexVectorDim := 1
  wf := scatter_S20000x128_S2000000x1_S2000000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S20000x64_S2000000x1_S2000000x64_1_0_n_n_0_1_164 : GatherDims S20000x64 S2000000x1 S2000000x64 where
  offsetDims := [1]
  collapsedSliceDims := [0]
  operandBatchingDims := []
  startIndicesBatchingDims := []
  startIndexMap := [0]
  indexVectorDim := 1
  sliceSizes := ![1, 64]
  wf := gather_S20000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S20000x64_S2000000x1_S2000000x64_1_0_0_1 : ScatterDims S20000x64 S2000000x1 S2000000x64 where
  updateWindowDims := [1]
  insertedWindowDims := [0]
  scatterDimsToOperandDims := [0]
  indexVectorDim := 1
  wf := scatter_S20000x64_S2000000x1_S2000000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S384x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v40) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v21) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v1) S2000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg18) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v61) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v63) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v64) S2000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v60) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v3) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg15) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg17) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v65) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v66) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v64) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg21) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg24) S128x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v67) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v66) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg27) S128x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v70) S2000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v80) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v12) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v90) S2000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v21) S2000x1.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v64) S2000x128.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v101) S128x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v103) S1x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v104) S2000x64.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v100) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v30) S2000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v66) S2000x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_arg26) S128x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v105) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v106) S2000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S100000x128 : Shape := ⟨2, ![100000, 128]⟩
abbrev S20000x384 : Shape := ⟨2, ![20000, 384]⟩
abbrev S1600000 : Shape := ⟨1, ![1600000]⟩
abbrev S2000000 : Shape := ⟨1, ![2000000]⟩
abbrev S128x128 : Shape := ⟨2, ![128, 128]⟩
abbrev S128 : Shape := ⟨1, ![128]⟩
abbrev S384x128 : Shape := ⟨2, ![384, 128]⟩
abbrev S128x64 : Shape := ⟨2, ![128, 64]⟩
abbrev S64 : Shape := ⟨1, ![64]⟩
abbrev S1x128 : Shape := ⟨2, ![1, 128]⟩
abbrev S_ : Shape := ⟨0, ![]⟩
abbrev S20000x128 : Shape := ⟨2, ![20000, 128]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S2000000x1 : Shape := ⟨2, ![2000000, 1]⟩
abbrev S2000000x128 : Shape := ⟨2, ![2000000, 128]⟩
abbrev S20000 : Shape := ⟨1, ![20000]⟩
abbrev S20000x1 : Shape := ⟨2, ![20000, 1]⟩
abbrev S100000x64 : Shape := ⟨2, ![100000, 64]⟩
abbrev S1x64 : Shape := ⟨2, ![1, 64]⟩
abbrev S20000x64 : Shape := ⟨2, ![20000, 64]⟩

abbrev nBuf : Space → Nat
  | .hbm => 244
  | .vmem => 0
  | .smem => 0
  | _ => 0

abbrev hbmTy0_0 (i : Nat) : BufTy := match i % 128 with
  | 0 => ⟨S100000x128, .f32⟩
  | 1 => ⟨S20000x384, .f32⟩
  | 2 => ⟨S1600000, .i32⟩
  | 3 => ⟨S1600000, .i32⟩
  | 4 => ⟨S2000000, .i32⟩
  | 5 => ⟨S2000000, .i32⟩
  | 6 => ⟨S2000000, .i32⟩
  | 7 => ⟨S2000000, .i32⟩
  | 8 => ⟨S128x128, .f32⟩
  | 9 => ⟨S128, .f32⟩
  | 10 => ⟨S384x128, .f32⟩
  | 11 => ⟨S128, .f32⟩
  | 12 => ⟨S128x128, .f32⟩
  | 13 => ⟨S128, .f32⟩
  | 14 => ⟨S128x128, .f32⟩
  | 15 => ⟨S128x128, .f32⟩
  | 16 => ⟨S128, .f32⟩
  | 17 => ⟨S128x128, .f32⟩
  | 18 => ⟨S128x128, .f32⟩
  | 19 => ⟨S128, .f32⟩
  | 20 => ⟨S128x128, .f32⟩
  | 21 => ⟨S128x64, .f32⟩
  | 22 => ⟨S64, .f32⟩
  | 23 => ⟨S128x64, .f32⟩
  | 24 => ⟨S128x64, .f32⟩
  | 25 => ⟨S64, .f32⟩
  | 26 => ⟨S128x64, .f32⟩
  | 27 => ⟨S128x64, .f32⟩
  | 28 => ⟨S64, .f32⟩
  | 29 => ⟨S128x64, .f32⟩
  | 30 => ⟨S100000x128, .f32⟩
  | 31 => ⟨S1x128, .f32⟩
  | 32 => ⟨S100000x128, .f32⟩
  | 33 => ⟨S100000x128, .f32⟩
  | 34 => ⟨S_, .f32⟩
  | 35 => ⟨S100000x128, .f32⟩
  | 36 => ⟨S100000x128, .f32⟩
  | 37 => ⟨S20000x128, .f32⟩
  | 38 => ⟨S1x128, .f32⟩
  | 39 => ⟨S20000x128, .f32⟩
  | 40 => ⟨S20000x128, .f32⟩
  | 41 => ⟨S_, .f32⟩
  | 42 => ⟨S20000x128, .f32⟩
  | 43 => ⟨S20000x128, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x128, .f32⟩
  | 53 => ⟨S_, .f32⟩
  | 54 => ⟨S100000x128, .f32⟩
  | 55 => ⟨S1600000x1, .i32⟩
  | 56 => ⟨S100000x128, .f32⟩
  | 57 => ⟨S_, .f32⟩
  | 58 => ⟨S1600000, .f32⟩
  | 59 => ⟨S_, .f32⟩
  | 60 => ⟨S100000, .f32⟩
  | 61 => ⟨S1600000x1, .i32⟩
  | 62 => ⟨S100000, .f32⟩
  | 63 => ⟨S_, .f32⟩
  | 64 => ⟨S100000, .f32⟩
  | 65 => ⟨S100000, .f32⟩
  | 66 => ⟨S100000x1, .f32⟩
  | 67 => ⟨S100000x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S100000x128, .f32⟩
  | 74 => ⟨S100000x128, .f32⟩
  | 75 => ⟨S_, .i32⟩
  | 76 => ⟨S2000000, .i32⟩
  | 77 => ⟨S2000000, .i1⟩
  | 78 => ⟨S_, .i32⟩
  | 79 => ⟨S2000000, .i32⟩
  | 80 => ⟨S2000000, .i32⟩
  | 81 => ⟨S2000000, .i32⟩
  | 82 => ⟨S2000000x1, .i32⟩
  | 83 => ⟨S2000000x128, .f32⟩
  | 84 => ⟨S_, .f32⟩
  | 85 => ⟨S100000x128, .f32⟩
  | 86 => ⟨S2000000x1, .i32⟩
  | 87 => ⟨S100000x128, .f32⟩
  | 88 => ⟨S_, .f32⟩
  | 89 => ⟨S2000000, .f32⟩
  | 90 => ⟨S_, .f32⟩
  | 91 => ⟨S100000, .f32⟩
  | 92 => ⟨S2000000x1, .i32⟩
  | 93 => ⟨S100000, .f32⟩
  | 94 => ⟨S_, .f32⟩
  | 95 => ⟨S100000, .f32⟩
  | 96 => ⟨S100000, .f32⟩
  | 97 => ⟨S100000x1, .f32⟩
  | 98 => ⟨S100000x128, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S100000x128, .f32⟩
  | 105 => ⟨S100000x128, .f32⟩
  | 106 => ⟨S100000x128, .f32⟩
  | 107 => ⟨S_, .f32⟩
  | 108 => ⟨S100000x128, .f32⟩
  | 109 => ⟨S100000x128, .f32⟩
  | 110 => ⟨S_, .i32⟩
  | 111 => ⟨S2000000, .i32⟩
  | 112 => ⟨S2000000, .i1⟩
  | 113 => ⟨S_, .i32⟩
  | 114 => ⟨S2000000, .i32⟩
  | 115 => ⟨S2000000, .i32⟩
  | 116 => ⟨S2000000, .i32⟩
  | 117 => ⟨S2000000x1, .i32⟩
  | 118 => ⟨S2000000x128, .f32⟩
  | 119 => ⟨S_, .f32⟩
  | 120 => ⟨S20000x128, .f32⟩
  | 121 => ⟨S2000000x1, .i32⟩
  | 122 => ⟨S20000x128, .f32⟩
  | 123 => ⟨S_, .f32⟩
  | 124 => ⟨S2000000, .f32⟩
  | 125 => ⟨S_, .f32⟩
  | 126 => ⟨S20000, .f32⟩
  | 127 => ⟨S2000000x1, .i32⟩
  | _ => ⟨S100000x128, .f32⟩

abbrev hbmTy0_1 (i : Nat) : BufTy := match i % 128 with
  | 0 => ⟨S20000, .f32⟩
  | 1 => ⟨S_, .f32⟩
  | 2 => ⟨S20000, .f32⟩
  | 3 => ⟨S20000, .f32⟩
  | 4 => ⟨S20000x1, .f32⟩
  | 5 => ⟨S20000x128, .f32⟩
  | 6 => ⟨S20000x128, .f32⟩
  | 7 => ⟨S20000x128, .f32⟩
  | 8 => ⟨S1x128, .f32⟩
  | 9 => ⟨S20000x128, .f32⟩
  | 10 => ⟨S20000x128, .f32⟩
  | 11 => ⟨S20000x128, .f32⟩
  | 12 => ⟨S20000x128, .f32⟩
  | 13 => ⟨S_, .f32⟩
  | 14 => ⟨S20000x128, .f32⟩
  | 15 => ⟨S20000x128, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x128, .f32⟩
  | 25 => ⟨S_, .f32⟩
  | 26 => ⟨S100000x128, .f32⟩
  | 27 => ⟨S1600000x1, .i32⟩
  | 28 => ⟨S100000x128, .f32⟩
  | 29 => ⟨S_, .f32⟩
  | 30 => ⟨S1600000, .f32⟩
  | 31 => ⟨S_, .f32⟩
  | 32 => ⟨S100000, .f32⟩
  | 33 => ⟨S1600000x1, .i32⟩
  | 34 => ⟨S100000, .f32⟩
  | 35 => ⟨S_, .f32⟩
  | 36 => ⟨S100000, .f32⟩
  | 37 => ⟨S100000, .f32⟩
  | 38 => ⟨S100000x1, .f32⟩
  | 39 => ⟨S100000x128, .f32⟩
  | 40 => ⟨S100000x128, .f32⟩
  | 41 => ⟨S100000x64, .f32⟩
  | 42 => ⟨S1x64, .f32⟩
  | 43 => ⟨S100000x64, .f32⟩
  | 44 => ⟨S100000x64, .f32⟩
  | 45 => ⟨S100000x64, .f32⟩
  | 46 => ⟨S100000x64, .f32⟩
  | 47 => ⟨S_, .i32⟩
  | 48 => ⟨S2000000, .i32⟩
  | 49 => ⟨S2000000, .i1⟩
  | 50 => ⟨S_, .i32⟩
  | 51 => ⟨S2000000, .i32⟩
  | 52 => ⟨S2000000, .i32⟩
  | 53 => ⟨S2000000, .i32⟩
  | 54 => ⟨S2000000x1, .i32⟩
  | 55 => ⟨S2000000x128, .f32⟩
  | 56 => ⟨S_, .f32⟩
  | 57 => ⟨S100000x128, .f32⟩
  | 58 => ⟨S2000000x1, .i32⟩
  | 59 => ⟨S100000x128, .f32⟩
  | 60 => ⟨S_, .f32⟩
  | 61 => ⟨S2000000, .f32⟩
  | 62 => ⟨S_, .f32⟩
  | 63 => ⟨S100000, .f32⟩
  | 64 => ⟨S2000000x1, .i32⟩
  | 65 => ⟨S100000, .f32⟩
  | 66 => ⟨S_, .f32⟩
  | 67 => ⟨S100000, .f32⟩
  | 68 => ⟨S100000, .f32⟩
  | 69 => ⟨S100000x1, .f32⟩
  | 70 => ⟨S100000x128, .f32⟩
  | 71 => ⟨S100000x128, .f32⟩
  | 72 => ⟨S100000x64, .f32⟩
  | 73 => ⟨S1x64, .f32⟩
  | 74 => ⟨S100000x64, .f32⟩
  | 75 => ⟨S100000x64, .f32⟩
  | 76 => ⟨S100000x64, .f32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S_, .i32⟩
  | 83 => ⟨S2000000, .i32⟩
  | 84 => ⟨S2000000, .i1⟩
  | 85 => ⟨S_, .i32⟩
  | 86 => ⟨S2000000, .i32⟩
  | 87 => ⟨S2000000, .i32⟩
  | 88 => ⟨S2000000, .i32⟩
  | 89 => ⟨S2000000x1, .i32⟩
  | 90 => ⟨S2000000x128, .f32⟩
  | 91 => ⟨S_, .f32⟩
  | 92 => ⟨S20000x128, .f32⟩
  | 93 => ⟨S2000000x1, .i32⟩
  | 94 => ⟨S20000x128, .f32⟩
  | 95 => ⟨S_, .f32⟩
  | 96 => ⟨S2000000, .f32⟩
  | 97 => ⟨S_, .f32⟩
  | 98 => ⟨S20000, .f32⟩
  | 99 => ⟨S2000000x1, .i32⟩
  | 100 => ⟨S20000, .f32⟩
  | 101 => ⟨S_, .f32⟩
  | 102 => ⟨S20000, .f32⟩
  | 103 => ⟨S20000, .f32⟩
  | 104 => ⟨S20000x1, .f32⟩
  | 105 => ⟨S20000x128, .f32⟩
  | 106 => ⟨S20000x128, .f32⟩
  | 107 => ⟨S20000x64, .f32⟩
  | 108 => ⟨S1x64, .f32⟩
  | 109 => ⟨S20000x64, .f32⟩
  | 110 => ⟨S20000x64, .f32⟩
  | 111 => ⟨S20000x64, .f32⟩
  | 112 => ⟨S20000x64, .f32⟩
  | 113 => ⟨S_, .f32⟩
  | 114 => ⟨S20000x64, .f32⟩
  | 115 => ⟨S20000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_call0_cst : Ref sig .tc := ⟨.hbm, 34, rfl⟩
abbrev main_call0_v0 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_call1_cst : Ref sig .tc := ⟨.hbm, 41, rfl⟩
abbrev main_call1_v0 : Ref sig .tc := ⟨.hbm, 42, rfl⟩
abbrev main_v9 : Ref sig .tc := ⟨.hbm, 43, rfl⟩
abbrev main_c : Ref sig .tc := ⟨.hbm, 44, rfl⟩
abbrev main_v10 : Ref sig .tc := ⟨.hbm, 45, rfl⟩
abbrev main_v11 : Ref sig .tc := ⟨.hbm, 46, rfl⟩
abbrev main_c_0 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_cst : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_cst_1 : Ref sig .tc := ⟨.hbm, 57, rfl⟩
abbrev main_v20 : Ref sig .tc := ⟨.hbm, 58, rfl⟩
abbrev main_cst_2 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_cst_3 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_c_4 : Ref sig .tc := ⟨.hbm, 75, rfl⟩
abbrev main_v35 : Ref sig .tc := ⟨.hbm, 76, rfl⟩
abbrev main_v36 : Ref sig .tc := ⟨.hbm, 77, rfl⟩
abbrev main_c_5 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_cst_6 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_cst_7 : Ref sig .tc := ⟨.hbm, 88, rfl⟩
abbrev main_v45 : Ref sig .tc := ⟨.hbm, 89, rfl⟩
abbrev main_cst_8 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_cst_9 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_call2_cst : Ref sig .tc := ⟨.hbm, 107, rfl⟩
abbrev main_call2_v0 : Ref sig .tc := ⟨.hbm, 108, rfl⟩
abbrev main_v61 : Ref sig .tc := ⟨.hbm, 109, rfl⟩
abbrev main_c_10 : Ref sig .tc := ⟨.hbm, 110, rfl⟩
abbrev main_v62 : Ref sig .tc := ⟨.hbm, 111, rfl⟩
abbrev main_v63 : Ref sig .tc := ⟨.hbm, 112, rfl⟩
abbrev main_c_11 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_cst_12 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_cst_13 : Ref sig .tc := ⟨.hbm, 123, rfl⟩
abbrev main_v72 : Ref sig .tc := ⟨.hbm, 124, rfl⟩
abbrev main_cst_14 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_cst_15 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_call3_cst : Ref sig .tc := ⟨.hbm, 141, rfl⟩
abbrev main_call3_v0 : Ref sig .tc := ⟨.hbm, 142, rfl⟩
abbrev main_v87 : Ref sig .tc := ⟨.hbm, 143, rfl⟩
abbrev main_c_16 : Ref sig .tc := ⟨.hbm, 144, rfl⟩
abbrev main_v88 : Ref sig .tc := ⟨.hbm, 145, rfl⟩
abbrev main_v89 : Ref sig .tc := ⟨.hbm, 146, rfl⟩
abbrev main_c_17 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_cst_18 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_cst_19 : Ref sig .tc := ⟨.hbm, 157, rfl⟩
abbrev main_v98 : Ref sig .tc := ⟨.hbm, 158, rfl⟩
abbrev main_cst_20 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_cst_21 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_c_22 : Ref sig .tc := ⟨.hbm, 175, rfl⟩
abbrev main_v113 : Ref sig .tc := ⟨.hbm, 176, rfl⟩
abbrev main_v114 : Ref sig .tc := ⟨.hbm, 177, rfl⟩
abbrev main_c_23 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_cst_24 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_cst_25 : Ref sig .tc := ⟨.hbm, 188, rfl⟩
abbrev main_v123 : Ref sig .tc := ⟨.hbm, 189, rfl⟩
abbrev main_cst_26 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_cst_27 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_call4_cst : Ref sig .tc := ⟨.hbm, 207, rfl⟩
abbrev main_call4_v0 : Ref sig .tc := ⟨.hbm, 208, rfl⟩
abbrev main_v139 : Ref sig .tc := ⟨.hbm, 209, rfl⟩
abbrev main_c_28 : Ref sig .tc := ⟨.hbm, 210, rfl⟩
abbrev main_v140 : Ref sig .tc := ⟨.hbm, 211, rfl⟩
abbrev main_v141 : Ref sig .tc := ⟨.hbm, 212, rfl⟩
abbrev main_c_29 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_cst_30 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_cst_31 : Ref sig .tc := ⟨.hbm, 223, rfl⟩
abbrev main_v150 : Ref sig .tc := ⟨.hbm, 224, rfl⟩
abbrev main_cst_32 : Ref sig .tc := ⟨.hbm, 225, rfl⟩
abbrev main_v151 : Ref sig .tc := ⟨.hbm, 226, rfl⟩
abbrev main_v152 : Ref sig .tc := ⟨.hbm, 227, rfl⟩
abbrev main_v153 : Ref sig .tc := ⟨.hbm, 228, rfl⟩
abbrev main_cst_33 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_call5_cst : Ref sig .tc := ⟨.hbm, 241, rfl⟩
abbrev main_call5_v0 : Ref sig .tc := ⟨.hbm, 242, rfl⟩
abbrev main_v165 : Ref sig .tc := ⟨.hbm, 243, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1x64_S20000x64_0_1 : S1x64.BroadcastsInDim S20000x64 (![0, 1] : Fin 2 → Fin S20000x64.rank)
  bcast_S_S20000x64 : S_.BroadcastsInDim S20000x64 (![] : Fin 0 → Fin S20000x64.rank)
  dot_S100000x128_S128x128_S100000x128_1_0_0_1_n_n_wf : DotDims.WF S100000x128 S128x128 S100000x128 [1] [0] [0] [1] [] []
  dot_S20000x384_S384x128_S20000x128_1_0_0_1_n_n_wf : DotDims.WF S20000x384 S384x128 S20000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  gather_S20000x128_S2000000x1_S2000000x128_1_0_n_n_0_1_1128_wf : GatherDims.WF S20000x128 S2000000x1 S2000000x128 [1] [0] [] [0] [] 1 ![1, 128]
  scatter_S100000x128_S2000000x1_S2000000x128_1_0_0_1_wf : ScatterDims.WF S100000x128 S2000000x1 S2000000x128 [1] [0] [0] 1
  scatter_S100000_S2000000x1_S2000000_n_0_0_1_wf : ScatterDims.WF S100000 S2000000x1 S2000000 [] [0] [0] 1
  gather_S100000x128_S2000000x1_S2000000x128_1_0_n_n_0_1_1128_wf : GatherDims.WF S100000x128 S2000000x1 S2000000x128 [1] [0] [] [0] [] 1 ![1, 128]
  scatter_S20000x128_S2000000x1_S2000000x128_1_0_0_1_wf : ScatterDims.WF S20000x128 S2000000x1 S2000000x128 [1] [0] [0] 1
  scatter_S20000_S2000000x1_S2000000_n_0_0_1_wf : ScatterDims.WF S20000 S2000000x1 S2000000 [] [0] [0] 1
  dot_S20000x128_S128x128_S20000x128_1_0_0_1_n_n_wf : DotDims.WF S20000x128 S128x128 S20000x128 [1] [0] [0] [1] [] []
  dot_S100000x128_S128x64_S100000x64_1_0_0_1_n_n_wf : DotDims.WF S100000x128 S128x64 S100000x64 [1] [0] [0] [1] [] []
  dot_S20000x128_S128x64_S20000x64_1_0_0_1_n_n_wf : DotDims.WF S20000x128 S128x64 S20000x64 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S20000x384_S384x128_S20000x128_1_0_0_1_n_n : DotDims S20000x384 S384x128 S20000x128 where
  lhsContracting := [1]
  rhsContracting := [0]
  lhsNonContracting := [0]
  rhsNonContracting := [1]
  lhsBatch := []
  rhsBatch := []
  wf := dot_S20000x384_S384x128_S20000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S20000x128_S2000000x1_S2000000x128_1_0_n_n_0_1_1128 : GatherDims S20000x128 S2000000x1 S2000000x128 where
  offsetDims := [1]
  collapsedSliceDims := [0]
  operandBatchingDims := []
  startIndicesBatchingDims := []
  startIndexMap := [0]
  indexVectorDim := 1
  sliceSizes := ![1, 128]
  wf := gather_S20000x128_S2000000x1_S2000000x128_1_0_n_n_0_1_1128_wf
def scatter_S100000x128_S2000000x1_S2000000x128_1_0_0_1 : ScatterDims S100000x128 S2000000x1 S2000000x128 where
  updateWindowDims := [1]
  insertedWindowDims := [0]
  scatterDimsToOperandDims := [0]
  indexVectorDim := 1
  wf := scatter_S100000x128_S2000000x1_S2000000x128_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def gather_S100000x128_S2000000x1_S2000000x128_1_0_n_n_0_1_1128 : GatherDims S100000x128 S2000000x1 S2000000x128 where
  offsetDims := [1]
  collapsedSliceDims := [0]
  operandBatchingDims := []
  startIndicesBatchingDims := []
  startIndexMap := [0]
  indexVectorDim := 1
  sliceSizes := ![1, 128]
  wf := gather_S100000x128_S2000000x1_S2000000x128_1_0_n_n_0_1_1128_wf
def scatter_S20000x128_S2000000x1_S2000000x128_1_0_0_1 : ScatterDims S20000x128 S2000000x1 S2000000x128 where
  updateWindowDims := [1]
  insertedWindowDims := [0]
  scatterDimsToOperandDims := [0]
  indexVectorDim := 1
  wf := scatter_S20000x128_S2000000x1_S2000000x128_1_0_0_1_wf
def scatter_S20000_S2000000x1_S2000000_n_0_0_1 : ScatterDims S20000 S2000000x1 S2000000 where
  updateWindowDims := []
  insertedWindowDims := [0]
  scatterDimsToOperandDims := [0]
  indexVectorDim := 1
  wf := scatter_S20000_S2000000x1_S2000000_n_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf

class Facts : Prop extends Facts₀ where

variable [Facts]
-- ==== Proof.KernelRun.lean ====
/-
  The idealized kernel program's run with its two results named.

  The program is eight kernel regions among stretches of host operations. The buffer contents at each boundary
  are a fold through the program (a host stretch applies its operations; a region leaves its arrays at what its
  write-backs give and every other buffer as entered), and the launch theorem over the segments ends with every
  unscoped buffer at the last boundary's contents. Reading that final state at the two result buffers and at the
  thirty arguments gives: every weakly fair execution terminates without a fault, the results are the last boundary's
  contents at the result buffers, and the arguments end as launched.
-/
import proofs.«119514_j10857677324737_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the two result buffers end at the last
    boundary's contents and the arguments as launched. -/
theorem run : θ_run defs (onTc (τ := τ) (main (F := F))) ⟨m, fun _ => 0, ρ⟩ (fun r => ∀ c : Dev nD,
      r.2.mem ((c.tc : Thread nD τ).loc main_v104) = W15 m ρ c (Proc.devRef .tc main_v104)
      ∧ r.2.mem ((c.tc : Thread nD τ).loc main_v106) = W15 m ρ c (Proc.devRef .tc main_v106)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v104 (by decide)),
       h c _ (mem_uc main_v106 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c),
       (h c _ (mem_uc main_arg17 (by decide))).trans (W15_main_arg17 m ρ c),
       (h c _ (mem_uc main_arg18 (by decide))).trans (W15_main_arg18 m ρ c),
       (h c _ (mem_uc main_arg19 (by decide))).trans (W15_main_arg19 m ρ c),
       (h c _ (mem_uc main_arg20 (by decide))).trans (W15_main_arg20 m ρ c),
       (h c _ (mem_uc main_arg21 (by decide))).trans (W15_main_arg21 m ρ c),
       (h c _ (mem_uc main_arg22 (by decide))).trans (W15_main_arg22 m ρ c),
       (h c _ (mem_uc main_arg23 (by decide))).trans (W15_main_arg23 m ρ c),
       (h c _ (mem_uc main_arg24 (by decide))).trans (W15_main_arg24 m ρ c),
       (h c _ (mem_uc main_arg25 (by decide))).trans (W15_main_arg25 m ρ c),
       (h c _ (mem_uc main_arg26 (by decide))).trans (W15_main_arg26 m ρ c),
       (h c _ (mem_uc main_arg27 (by decide))).trans (W15_main_arg27 m ρ c),
       (h c _ (mem_uc main_arg28 (by decide))).trans (W15_main_arg28 m ρ c),
       (h c _ (mem_uc main_arg29 (by decide))).trans (W15_main_arg29 m ρ c)⟩)

end Cert.KernelIdeal.ValueRun

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.Region0.lean ====
/-
  Region 0: a dense layer with bias and rectifier over the 100000 rows of its input, tiled in blocks of 2000 rows.

  Grid point `t` multiplies rows `2000·t … 2000·t + 1999` of the input by the whole weight matrix, adds the bias row and
  takes the maximum with zero. The block it writes back is the restriction to those rows of ONE function of the whole
  arrays, the fifty blocks tile the output, so the output array ends holding that function: at `(i, j)` it is
  `max (∑ k, x (i, k) * W (k, j) + b (0, j)) 0` on the extended reals, term by term (no finiteness is asked).
-/
import proofs.«119514_j10857677324737_2_alg».proof.Proof.Gen.KernelIdeal.Frame
import proofs.«119514_j10857677324737_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region0

open Cert.KernelIdeal Idealize.ShloMosaic Idealize.ShloMosaic.TcCoe Idealize.ShloMosaic.ValueIdx Idealize.SL.Sem
open Idealize.ShloMosaic.Pipeline (Dat)

/-- The layer at entry `(i, j)`: the row of the input against the column of the weights, plus the bias, cut at zero. -/
def dense (X : S100000x128.Idx → EReal) (W : S128x128.Idx → EReal) (b : S1x128.Idx → EReal) (i : Fin 100000) (j : Fin 128) : EReal :=
  max ((∑ k : Fin 128, X (ix2 i k) * W (ix2 k j)) + b (ix2 0 j)) 0

/-- The layer as one function of the whole arrays, index by index. -/
abbrev G (X : S100000x128.Idx → EReal) (W : S128x128.Idx → EReal) (b : S1x128.Idx → EReal) : S100000x128.Idx → EReal :=
  fun i => dense X W b (i 0) (i 1)

theorem hz : (![0, 0] : Fin 2 → Nat) = fun _ => 0 := funext fun a => by fin_cases a <;> rfl

/-- The body's arithmetic at entry `(p, q)` of a block: the product into the zero accumulator is the sum over the
    contracted axis, the bias row is read at column `q`, the rectifier's constant is zero. -/
theorem pay_apply (x0 : Vec Ideal S2000x128 .f32) (x1 : Vec Ideal S128x128 .f32) (x2 : Vec Ideal S1x128 .f32)
    (p : Fin 2000) (q : Fin 128) :
    (Gen.k0_pay1 x0 x1 x2 : S2000x128.Idx → EReal) (ix2 p q)
      = max ((∑ k : Fin 128, (x0 : S2000x128.Idx → EReal) (ix2 p k) * (x1 : S128x128.Idx → EReal) (ix2 k q))
          + (x2 : S1x128.Idx → EReal) (ix2 0 q)) 0 := by
  unfold Gen.k0_pay1
  show max (FloatOps.matmul (F := Ideal) dot_S2000x128_S128x128_S2000x128_1_0_0_1_n_n none _ _ _ (ix2 p q)
      + broadcastTo S2000x128 (shapeCast S1x128 x2 _) _ (ix2 p q)) (Ideal.ofBits .f32 0x00000000#32) = _
  rw [Ideal.ofBits_zero_f32]
  refine congrArg (fun z => max z 0) (congrArg₂ (· + ·) ?_ ?_)
  · exact Cert.Lib.PlainDot.matmul_zero_apply (M := 2000) (K := 128) (N := 128) none _ _ p q
  · rw [shapeCast_self]
    exact broadcastTo_1b_ab_apply x2 _ p q

/-- The printed index maps, decided over the grid: the input's and the output's block index is the point on the row
    axis, and the weights and the bias are whole at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input's block at point `t` is rows `2000·t … 2000·t + 1999` of the array. -/
theorem x_read (A : S100000x128.Idx → EReal) (t : Fin cfg0.N) (p : Fin 2000) (k : Fin 128) (P : Fin 100000)
    (hP : P.val = 2000 * t.val + p.val) :
    (((cfg0.win 0).blk t).view.read (Elt Ideal) A : S2000x128.Idx → EReal) (ix2 p k) = A (ix2 P k) := by
  obtain ⟨e0, e1, -⟩ := idx_facts t
  show A (((cfg0.win 0).blk t).view.emb (ix2 p k)) = A (ix2 P k)
  refine congrArg A (funext fun a => Fin.ext ?_)
  match a with
  | ⟨0, _⟩ => show win0_0.index t (0 : Fin 2) * 2000 + 1 * p.val = P.val; omega
  | ⟨1, _⟩ => show win0_0.index t (1 : Fin 2) * 128 + 1 * k.val = k.val; omega

/-- The weights' block at every point is the whole array. -/
theorem w_read (A : S128x128.Idx → EReal) (t : Fin cfg0.N) (y : S128x128.Idx) :
    (((cfg0.win 1).blk t).view.read (Elt Ideal) A : S128x128.Idx → EReal) y = A y := by
  obtain ⟨-, -, e0, e1, -⟩ := idx_facts t
  show A (((cfg0.win 1).blk t).view.emb y) = A y
  refine congrArg A (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The bias row's block at every point is the whole row. -/
theorem b_read (A : S1x128.Idx → EReal) (t : Fin cfg0.N) (y : S1x128.Idx) :
    (((cfg0.win 2).blk t).view.read (Elt Ideal) A : S1x128.Idx → EReal) y = A y := by
  obtain ⟨-, -, -, -, e0, e1, -⟩ := idx_facts t
  show A (((cfg0.win 2).blk t).view.emb y) = A y
  refine congrArg A (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- What the body computes from the three blocks at point `t`, at entry `y` of the block, is the layer at row
    `2000·t + y₀`, column `y₁` of the whole arrays. -/
theorem block_apply (A0 : S100000x128.Idx → EReal) (A1 : S128x128.Idx → EReal) (A2 : S1x128.Idx → EReal) (t : Fin cfg0.N)
    (y : S2000x128.Idx) (P : Fin 100000) (Q : Fin 128) (hP : P.val = 2000 * t.val + (y 0).val) (hQ : Q.val = (y 1).val) :
    (Gen.k0_pay1 (((cfg0.win 0).blk t).view.read (Elt Ideal) A0) (((cfg0.win 1).blk t).view.read (Elt Ideal) A1)
        (((cfg0.win 2).blk t).view.read (Elt Ideal) A2) : S2000x128.Idx → EReal) y = dense A0 A1 A2 P Q := by
  obtain ⟨p, q, rfl⟩ : ∃ (p : Fin 2000) (q : Fin 128), y = ix2 p q := ⟨y 0, y 1, eq_ix2 y⟩
  have hP' : P.val = 2000 * t.val + p.val := hP
  obtain rfl : Q = q := Fin.ext hQ
  refine (pay_apply _ _ _ p Q).trans ?_
  unfold dense
  refine congrArg (fun z => max z 0) (congrArg₂ (· + ·) (Finset.sum_congr rfl fun k _ => congrArg₂ (· * ·) ?_ ?_) ?_)
  · exact x_read A0 t p k P hP'
  · exact w_read A1 t (ix2 k Q)
  · exact b_read A2 t (ix2 0 Q)

/-- WHAT POINT `t` WRITES BACK is block `t` of the layer of the arrays as the region finds them. -/
theorem flushed_eq (V : (c : Dev nD) → (b : Ref sig .tc) → Buf (Elt Ideal) ((c : Thread nD τ).loc b)) (c : Dev nD)
    (t : Fin cfg0.N) :
    (Gen.dat0 (F := Ideal) V c).flushed 3 t
      = ((cfg0.win 3).blk t).view.read (Elt Ideal)
          (G (V c (Pipeline.arrRef spec0 0)) (V c (Pipeline.arrRef spec0 1)) (V c (Pipeline.arrRef spec0 2))) := by
  show (cfg0.win 3).cut (grid0.coords t) ((Gen.dat0 (F := Ideal) V c).after 3 t) = _
  rw [Gen.after0_3]
  unfold Gen.out0_3
  rw [View.canon_unit_zero hz]
  simp only [View.ld_unit_zero (S := S2000x128) hz, View.ld_unit_zero (S := S128x128) hz, View.ld_unit_zero (S := S1x128) hz]
  unfold Gen.iblk0
  obtain ⟨-, -, -, -, -, -, e0, e1⟩ := idx_facts t
  funext j
  have hj0 : (j 0).val < 2000 := (j 0).isLt
  have hj1 : (j 1).val < 128 := (j 1).isLt
  refine block_apply _ _ _ t j ((((cfg0.win 3).blk t).view.emb j) 0) ((((cfg0.win 3).blk t).view.emb j) 1) ?_ ?_
  · show win0_3.index t (0 : Fin 2) * 2000 + 1 * (j 0).val = 2000 * t.val + (j 0).val; omega
  · show win0_3.index t (1 : Fin 2) * 128 + 1 * (j 1).val = (j 1).val; omega

/-- An index of the array is in point `t`'s block iff each coordinate is in the block's range on its axis. -/
theorem mem_blk (t : Fin cfg0.N) (i : S100000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v1).slice (win0_3.rect t)).set ↔ _
  rw [View.set_slice_whole, Rect.mem_set_unit]
  exact Iff.rfl

/-- Row `r` of the output is in the block of point `r / 2000`: the 50 blocks tile the array. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := Gen.N_0
  obtain ⟨t, ht⟩ : ∃ t : Fin cfg0.N, t.val = (i 0).val / 2000 := ⟨⟨(i 0).val / 2000, by rw [hN]; omega⟩, rfl⟩
  obtain ⟨-, -, -, -, -, -, e0, e1⟩ := idx_facts t
  refine ⟨t, Gen.flush0_3 t, ?_⟩
  rw [mem_blk]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 128 ≤ (i 1).val ∧ (i 1).val < win0_3.index t (1 : Fin 2) * 128 + 128
    omega

/-- THE OUTPUT ARRAY after the region: the layer of the arrays as the region finds them, at every index. -/
theorem final (V : (c : Dev nD) → (b : Ref sig .tc) → Buf (Elt Ideal) ((c : Thread nD τ).loc b)) (c : Dev nD) :
    (Gen.dat0 (F := Ideal) V c).arrAt 3 cfg0.N
      = G (V c (Pipeline.arrRef spec0 0)) (V c (Pipeline.arrRef spec0 1)) (V c (Pipeline.arrRef spec0 2)) :=
  (Gen.dat0 (F := Ideal) V c).arrAt_eq_of_cover 3 _ (fun t _ => flushed_eq V c t) cover

/-- The output array read at `(i, j)`. The arrays enter as functions on their literal index types, each with its
    equation to the region's data, so that every operation of the formula is the extended reals'. -/
theorem out_apply (V : (c : Dev nD) → (b : Ref sig .tc) → Buf (Elt Ideal) ((c : Thread nD τ).loc b)) (c : Dev nD)
    (O : S100000x128.Idx → EReal) (X : S100000x128.Idx → EReal) (W : S128x128.Idx → EReal) (b : S1x128.Idx → EReal)
    (hO : O = (Gen.dat0 (F := Ideal) V c).arrAt 3 cfg0.N) (hX : X = V c (Pipeline.arrRef spec0 0))
    (hW : W = V c (Pipeline.arrRef spec0 1)) (hb : b = V c (Pipeline.arrRef spec0 2))
    (i : Fin 100000) (j : Fin 128) :
    O (ix2 i j) = max ((∑ k : Fin 128, X (ix2 i k) * W (ix2 k j)) + b (ix2 0 j)) 0 := by
  subst hO hX hW hb
  exact congrFun (final V c) (ix2 i j)

end Cert.KernelIdeal.Region0

end
-- ==== Proof.Region1.lean ====
/-
  Region 1: a dense layer with bias and rectifier over the 20000 rows of its input (384 features), tiled in blocks of
  2000 rows.

  Grid point `t` multiplies rows `2000·t … 2000·t + 1999` of the input by the whole weight matrix, adds the bias row and
  takes the maximum with zero. The block it writes back is the restriction to those rows of ONE function of the whole
  arrays, the ten blocks tile the output, so the output array ends holding that function: at `(i, j)` it is
  `max (∑ k, x (i, k) * W (k, j) + b (0, j)) 0` on the extended reals, term by term (no finiteness is asked).
-/
import proofs.«119514_j10857677324737_2_alg».proof.Proof.Gen.KernelIdeal.Frame
import proofs.«119514_j10857677324737_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region1

open Cert.KernelIdeal Idealize.ShloMosaic Idealize.ShloMosaic.TcCoe Idealize.ShloMosaic.ValueIdx Idealize.SL.Sem
open Idealize.ShloMosaic.Pipeline (Dat)

/-- The layer at entry `(i, j)`: the row of the input against the column of the weights, plus the bias, cut at zero. -/
def dense (X : S20000x384.Idx → EReal) (W : S384x128.Idx → EReal) (b : S1x128.Idx → EReal) (i : Fin 20000) (j : Fin 128) : EReal :=
  max ((∑ k : Fin 384, X (ix2 i k) * W (ix2 k j)) + b (ix2 0 j)) 0

/-- The layer as one function of the whole arrays, index by index. -/
abbrev G (X : S20000x384.Idx → EReal) (W : S384x128.Idx → EReal) (b : S1x128.Idx → EReal) : S20000x128.Idx → EReal :=
  fun i => dense X W b (i 0) (i 1)

theorem hz : (![0, 0] : Fin 2 → Nat) = fun _ => 0 := funext fun a => by fin_cases a <;> rfl

/-- The body's arithmetic at entry `(p, q)` of a block: the product into the zero accumulator is the sum over the
    contracted axis, the bias row is read at column `q`, the rectifier's constant is zero. -/
theorem pay_apply (x0 : Vec Ideal S2000x384 .f32) (x1 : Vec Ideal S384x128 .f32) (x2 : Vec Ideal S1x128 .f32)
    (p : Fin 2000) (q : Fin 128) :
    (Gen.k1_pay1 x0 x1 x2 : S2000x128.Idx → EReal) (ix2 p q)
      = max ((∑ k : Fin 384, (x0 : S2000x384.Idx → EReal) (ix2 p k) * (x1 : S384x128.Idx → EReal) (ix2 k q))
          + (x2 : S1x128.Idx → EReal) (ix2 0 q)) 0 := by
  unfold Gen.k1_pay1
  show max (FloatOps.matmul (F := Ideal) dot_S2000x384_S384x128_S2000x128_1_0_0_1_n_n none _ _ _ (ix2 p q)
      + broadcastTo S2000x128 (shapeCast S1x128 x2 _) _ (ix2 p q)) (Ideal.ofBits .f32 0x00000000#32) = _
  rw [Ideal.ofBits_zero_f32]
  refine congrArg (fun z => max z 0) (congrArg₂ (· + ·) ?_ ?_)
  · exact Cert.Lib.PlainDot.matmul_zero_apply (M := 2000) (K := 384) (N := 128) none _ _ p q
  · rw [shapeCast_self]
    exact broadcastTo_1b_ab_apply x2 _ p q

/-- The printed index maps, decided over the grid: the input's and the output's block index is the point on the row
    axis, and the weights and the bias are whole at every point. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The input's block at point `t` is rows `2000·t … 2000·t + 1999` of the array. -/
theorem x_read (A : S20000x384.Idx → EReal) (t : Fin cfg1.N) (p : Fin 2000) (k : Fin 384) (P : Fin 20000)
    (hP : P.val = 2000 * t.val + p.val) :
    (((cfg1.win 0).blk t).view.read (Elt Ideal) A : S2000x384.Idx → EReal) (ix2 p k) = A (ix2 P k) := by
  obtain ⟨e0, e1, -⟩ := idx_facts t
  show A (((cfg1.win 0).blk t).view.emb (ix2 p k)) = A (ix2 P k)
  refine congrArg A (funext fun a => Fin.ext ?_)
  match a with
  | ⟨0, _⟩ => show win1_0.index t (0 : Fin 2) * 2000 + 1 * p.val = P.val; omega
  | ⟨1, _⟩ => show win1_0.index t (1 : Fin 2) * 384 + 1 * k.val = k.val; omega

/-- The weights' block at every point is the whole array. -/
theorem w_read (A : S384x128.Idx → EReal) (t : Fin cfg1.N) (y : S384x128.Idx) :
    (((cfg1.win 1).blk t).view.read (Elt Ideal) A : S384x128.Idx → EReal) y = A y := by
  obtain ⟨-, -, e0, e1, -⟩ := idx_facts t
  show A (((cfg1.win 1).blk t).view.emb y) = A y
  refine congrArg A (funext fun a => Fin.ext ?_)
  match a with
  | ⟨0, _⟩ => show win1_1.index t (0 : Fin 2) * 384 + 1 * (y 0).val = (y 0).val; omega
  | ⟨1, _⟩ => show win1_1.index t (1 : Fin 2) * 128 + 1 * (y 1).val = (y 1).val; omega

/-- The bias row's block at every point is the whole row. -/
theorem b_read (A : S1x128.Idx → EReal) (t : Fin cfg1.N) (y : S1x128.Idx) :
    (((cfg1.win 2).blk t).view.read (Elt Ideal) A : S1x128.Idx → EReal) y = A y := by
  obtain ⟨-, -, -, -, e0, e1, -⟩ := idx_facts t
  show A (((cfg1.win 2).blk t).view.emb y) = A y
  refine congrArg A (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- What the body computes from the three blocks at point `t`, at entry `y` of the block, is the layer at row
    `2000·t + y₀`, column `y₁` of the whole arrays. -/
theorem block_apply (A0 : S20000x384.Idx → EReal) (A1 : S384x128.Idx → EReal) (A2 : S1x128.Idx → EReal) (t : Fin cfg1.N)
    (y : S2000x128.Idx) (P : Fin 20000) (Q : Fin 128) (hP : P.val = 2000 * t.val + (y 0).val) (hQ : Q.val = (y 1).val) :
    (Gen.k1_pay1 (((cfg1.win 0).blk t).view.read (Elt Ideal) A0) (((cfg1.win 1).blk t).view.read (Elt Ideal) A1)
        (((cfg1.win 2).blk t).view.read (Elt Ideal) A2) : S2000x128.Idx → EReal) y = dense A0 A1 A2 P Q := by
  obtain ⟨p, q, rfl⟩ : ∃ (p : Fin 2000) (q : Fin 128), y = ix2 p q := ⟨y 0, y 1, eq_ix2 y⟩
  have hP' : P.val = 2000 * t.val + p.val := hP
  obtain rfl : Q = q := Fin.ext hQ
  refine (pay_apply _ _ _ p Q).trans ?_
  unfold dense
  refine congrArg (fun z => max z 0) (congrArg₂ (· + ·) (Finset.sum_congr rfl fun k _ => congrArg₂ (· * ·) ?_ ?_) ?_)
  · exact x_read A0 t p k P hP'
  · exact w_read A1 t (ix2 k Q)
  · exact b_read A2 t (ix2 0 Q)

/-- WHAT POINT `t` WRITES BACK is block `t` of the layer of the arrays as the region finds them. -/
theorem flushed_eq (V : (c : Dev nD) → (b : Ref sig .tc) → Buf (Elt Ideal) ((c : Thread nD τ).loc b)) (c : Dev nD)
    (t : Fin cfg1.N) :
    (Gen.dat1 (F := Ideal) V c).flushed 3 t
      = ((cfg1.win 3).blk t).view.read (Elt Ideal)
          (G (V c (Pipeline.arrRef spec1 0)) (V c (Pipeline.arrRef spec1 1)) (V c (Pipeline.arrRef spec1 2))) := by
  show (cfg1.win 3).cut (grid1.coords t) ((Gen.dat1 (F := Ideal) V c).after 3 t) = _
  rw [Gen.after1_3]
  unfold Gen.out1_3
  rw [View.canon_unit_zero hz]
  simp only [View.ld_unit_zero (S := S2000x384) hz, View.ld_unit_zero (S := S384x128) hz, View.ld_unit_zero (S := S1x128) hz]
  unfold Gen.iblk1
  obtain ⟨-, -, -, -, -, -, e0, e1⟩ := idx_facts t
  funext j
  have hj0 : (j 0).val < 2000 := (j 0).isLt
  have hj1 : (j 1).val < 128 := (j 1).isLt
  refine block_apply _ _ _ t j ((((cfg1.win 3).blk t).view.emb j) 0) ((((cfg1.win 3).blk t).view.emb j) 1) ?_ ?_
  · show win1_3.index t (0 : Fin 2) * 2000 + 1 * (j 0).val = 2000 * t.val + (j 0).val; omega
  · show win1_3.index t (1 : Fin 2) * 128 + 1 * (j 1).val = (j 1).val; omega

/-- An index of the array is in point `t`'s block iff each coordinate is in the block's range on its axis. -/
theorem mem_blk (t : Fin cfg1.N) (i : S20000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v3).slice (win1_3.rect t)).set ↔ _
  rw [View.set_slice_whole, Rect.mem_set_unit]
  exact Iff.rfl

/-- Row `r` of the output is in the block of point `r / 2000`: the 10 blocks tile the array. -/
theorem cover (i : S20000x128.Idx) :
    ∃ t : Fin cfg1.N, (cfg1.win 3).flush t = true ∧ i ∈ ((cfg1.win 3).blk t).view.set := by
  have hi0 : (i 0).val < 20000 := (i 0).isLt
  have hi1 : (i 1).val < 128 := (i 1).isLt
  have hN : cfg1.N = 10 := Gen.N_1
  obtain ⟨t, ht⟩ : ∃ t : Fin cfg1.N, t.val = (i 0).val / 2000 := ⟨⟨(i 0).val / 2000, by rw [hN]; omega⟩, rfl⟩
  obtain ⟨-, -, -, -, -, -, e0, e1⟩ := idx_facts t
  refine ⟨t, Gen.flush1_3 t, ?_⟩
  rw [mem_blk]
  intro a
  match a with
  | ⟨0, _⟩ =>
    show win1_3.index t (0 : Fin 2) * 2000 ≤ (i 0).val ∧ (i 0).val < win1_3.index t (0 : Fin 2) * 2000 + 2000
    omega
  | ⟨1, _⟩ =>
    show win1_3.index t (1 : Fin 2) * 128 ≤ (i 1).val ∧ (i 1).val < win1_3.index t (1 : Fin 2) * 128 + 128
    omega

/-- THE OUTPUT ARRAY after the region: the layer of the arrays as the region finds them, at every index. -/
theorem final (V : (c : Dev nD) → (b : Ref sig .tc) → Buf (Elt Ideal) ((c : Thread nD τ).loc b)) (c : Dev nD) :
    (Gen.dat1 (F := Ideal) V c).arrAt 3 cfg1.N
      = G (V c (Pipeline.arrRef spec1 0)) (V c (Pipeline.arrRef spec1 1)) (V c (Pipeline.arrRef spec1 2)) :=
  (Gen.dat1 (F := Ideal) V c).arrAt_eq_of_cover 3 _ (fun t _ => flushed_eq V c t) cover

/-- The output array read at `(i, j)`. The arrays enter as functions on their literal index types, each with its
    equation to the region's data, so that every operation of the formula is the extended reals'. -/
theorem out_apply (V : (c : Dev nD) → (b : Ref sig .tc) → Buf (Elt Ideal) ((c : Thread nD τ).loc b)) (c : Dev nD)
    (O : S20000x128.Idx → EReal) (X : S20000x384.Idx → EReal) (W : S384x128.Idx → EReal) (b : S1x128.Idx → EReal)
    (hO : O = (Gen.dat1 (F := Ideal) V c).arrAt 3 cfg1.N) (hX : X = V c (Pipeline.arrRef spec1 0))
    (hW : W = V c (Pipeline.arrRef spec1 1)) (hb : b = V c (Pipeline.arrRef spec1 2))
    (i : Fin 20000) (j : Fin 128) :
    O (ix2 i j) = max ((∑ k : Fin 384, X (ix2 i k) * W (ix2 k j)) + b (ix2 0 j)) 0 := by
  subst hO hX hW hb
  exact congrFun (final V c) (ix2 i j)

end Cert.KernelIdeal.Region1

end
-- ==== Proof.ColBroadcast.lean ====
/-
  A column broadcast over many columns, read at an entry.

  An `[a, 1]` array — one value per row — broadcast to `[a, b]` holds, at row `p` and any column `c`, the
  operand's value of row `p`: the unit axis of the operand is read at its only coordinate, the row axis at the
  result's row. It is the companion of the library's row broadcast `[1, b] → [a, b]`.
-/
import Idealize.ShloMosaic.Lib.ValueLayout

namespace Cert.Lib.ColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColBroadcast
-- ==== Proof.Region2.lean ====
/-
  Region 2: the first layer's update of the 100000 target rows, tiled in blocks of 2000 rows.

  Grid point `t` takes rows `2000·t … 2000·t + 1999` of two neighbour sums, scales each row by its own factor (a
  one-column array) and multiplies it by its whole weight matrix, adds the rows of the target features multiplied by
  theirs, adds the bias row and takes the maximum with zero. The block it writes back is the restriction to those rows
  of ONE function of the whole arrays, the fifty blocks tile the output, so the output array ends holding that
  function: at `(i, j)` it is
  `max (∑ k, (s₁ (i, k) * r₁ (i, 0)) * W₁ (k, j) + ∑ k, (s₂ (i, k) * r₂ (i, 0)) * W₂ (k, j) + ∑ k, x (i, k) * W (k, j) + b (0, j)) 0`
  on the extended reals, term by term (no finiteness is asked).
-/
import proofs.«119514_j10857677324737_2_alg».proof.Proof.Gen.KernelIdeal.Frame
import proofs.«119514_j10857677324737_2_alg».proof.Proof.LibPlainDot
import proofs.«119514_j10857677324737_2_alg».proof.Proof.ColBroadcast
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region2

open Cert.KernelIdeal Idealize.ShloMosaic Idealize.ShloMosaic.TcCoe Idealize.ShloMosaic.ValueIdx Idealize.SL.Sem
open Idealize.ShloMosaic.Pipeline (Dat)

/-- The layer at entry `(i, j)`: each neighbour sum, its row scaled by the row's factor, against the column of its
    weight matrix; plus the row of the target features against the column of theirs; plus the bias; cut at zero. -/
def layer (X0 : S100000x128.Idx → EReal) (X1 : S100000x1.Idx → EReal) (X2 : S100000x128.Idx → EReal) (X3 : S100000x1.Idx → EReal) (X4 : S100000x128.Idx → EReal) (X5 : S128x128.Idx → EReal) (X6 : S128x128.Idx → EReal) (X7 : S128x128.Idx → EReal) (X8 : S1x128.Idx → EReal) (i : Fin 100000) (j : Fin 128) : EReal :=
  max ((((∑ k : Fin 128, (X0 (ix2 i k) * X1 (ix2 i 0)) * X5 (ix2 k j))
          + (∑ k : Fin 128, (X2 (ix2 i k) * X3 (ix2 i 0)) * X6 (ix2 k j)))
        + (∑ k : Fin 128, X4 (ix2 i k) * X7 (ix2 k j))) + X8 (ix2 0 j)) 0

/-- The layer as one function of the whole arrays, index by index. -/
abbrev G (X0 : S100000x128.Idx → EReal) (X1 : S100000x1.Idx → EReal) (X2 : S100000x128.Idx → EReal) (X3 : S100000x1.Idx → EReal) (X4 : S100000x128.Idx → EReal) (X5 : S128x128.Idx → EReal) (X6 : S128x128.Idx → EReal) (X7 : S128x128.Idx → EReal) (X8 : S1x128.Idx → EReal) : S100000x128.Idx → EReal :=
  fun i => layer X0 X1 X2 X3 X4 X5 X6 X7 X8 (i 0) (i 1)

theorem hz : (![0, 0] : Fin 2 → Nat) = fun _ => 0 := funext fun a => by fin_cases a <;> rfl

/-- The body's arithmetic at entry `(p, q)` of a block: the casts to the same shape and the format changes are the
    identity, a one-column block is read at its row, each product into the zero accumulator is the sum over the
    contracted axis, the bias row is read at column `q`, the rectifier's constant is zero. -/
theorem pay_apply (x0 : Vec Ideal S2000x128 .f32) (x1 : Vec Ideal S2000x1 .f32) (x2 : Vec Ideal S2000x128 .f32) (x3 : Vec Ideal S2000x1 .f32) (x4 : Vec Ideal S2000x128 .f32) (x5 : Vec Ideal S128x128 .f32) (x6 : Vec Ideal S128x128 .f32) (x7 : Vec Ideal S128x128 .f32) (x8 : Vec Ideal S1x128 .f32)
    (p : Fin 2000) (q : Fin 128) :
    (Gen.k2_pay1 x0 x1 x2 x3 x4 x5 x6 x7 x8 : S2000x128.Idx → EReal) (ix2 p q)
      = max ((((∑ k : Fin 128, ((x0 : S2000x128.Idx → EReal) (ix2 p k) * (x1 : S2000x1.Idx → EReal) (ix2 p 0)) * (x5 : S128x128.Idx → EReal) (ix2 k q))
          + (∑ k : Fin 128, ((x2 : S2000x128.Idx → EReal) (ix2 p k) * (x3 : S2000x1.Idx → EReal) (ix2 p 0)) * (x6 : S128x128.Idx → EReal) (ix2 k q)))
        + (∑ k : Fin 128, (x4 : S2000x128.Idx → EReal) (ix2 p k) * (x7 : S128x128.Idx → EReal) (ix2 k q))) + (x8 : S1x128.Idx → EReal) (ix2 0 q)) 0 := by
  unfold Gen.k2_pay1
  show max (((FloatOps.matmul (F := Ideal) dot_S2000x128_S128x128_S2000x128_1_0_0_1_n_n none _ _ _ (ix2 p q)
          + FloatOps.matmul (F := Ideal) dot_S2000x128_S128x128_S2000x128_1_0_0_1_n_n none _ _ _ (ix2 p q))
        + FloatOps.matmul (F := Ideal) dot_S2000x128_S128x128_S2000x128_1_0_0_1_n_n none _ _ _ (ix2 p q))
      + broadcastTo S2000x128 (shapeCast S1x128 x8 _) _ (ix2 p q)) (Ideal.ofBits .f32 0x00000000#32) = _
  rw [Ideal.ofBits_zero_f32]
  refine congrArg (fun z => max z 0) (congrArg₂ (· + ·) (congrArg₂ (· + ·) (congrArg₂ (· + ·) ?_ ?_) ?_) ?_)
  · refine (Cert.Lib.PlainDot.matmul_zero_apply (M := 2000) (K := 128) (N := 128) none _ _ p q).trans ?_
    refine Finset.sum_congr rfl fun k _ => congrArg₂ (· * ·) ?_ rfl
    show shapeCast S2000x128 x0 _ (ix2 p k) * broadcastTo S2000x128 (shapeCast S2000x1 x1 _) _ (ix2 p k)
      = x0 (ix2 p k) * x1 (ix2 p 0)
    refine congrArg₂ (· * ·) ?_ ?_
    · rw [shapeCast_self]
    · rw [shapeCast_self]
      exact Cert.Lib.ColBroadcast.broadcastTo_a1_ab_apply x1 _ p k
  · refine (Cert.Lib.PlainDot.matmul_zero_apply (M := 2000) (K := 128) (N := 128) none _ _ p q).trans ?_
    refine Finset.sum_congr rfl fun k _ => congrArg₂ (· * ·) ?_ rfl
    show shapeCast S2000x128 x2 _ (ix2 p k) * broadcastTo S2000x128 (shapeCast S2000x1 x3 _) _ (ix2 p k)
      = x2 (ix2 p k) * x3 (ix2 p 0)
    refine congrArg₂ (· * ·) ?_ ?_
    · rw [shapeCast_self]
    · rw [shapeCast_self]
      exact Cert.Lib.ColBroadcast.broadcastTo_a1_ab_apply x3 _ p k
  · refine (Cert.Lib.PlainDot.matmul_zero_apply (M := 2000) (K := 128) (N := 128) none _ _ p q).trans ?_
    refine Finset.sum_congr rfl fun k _ => congrArg₂ (· * ·) ?_ ?_
    · show shapeCast S2000x128 x4 _ (ix2 p k) = x4 (ix2 p k)
      rw [shapeCast_self]
    · show shapeCast S128x128 x7 _ (ix2 k q) = x7 (ix2 k q)
      rw [shapeCast_self]
  · rw [shapeCast_self]
    exact broadcastTo_1b_ab_apply x8 _ p q

/-! The printed index maps, decided over the grid: the five row operands' and the output's block index is the point on
    the row axis; the three weight matrices and the bias are whole at every point. -/

theorem idx0 : ∀ t : Fin cfg2.N, win2_0.index t (0 : Fin 2) = t.val ∧ win2_0.index t (1 : Fin 2) = 0 :=
  (by decide +kernel : ∀ t : Fin grid2.N, _)
theorem idx1 : ∀ t : Fin cfg2.N, win2_1.index t (0 : Fin 2) = t.val ∧ win2_1.index t (1 : Fin 2) = 0 :=
  (by decide +kernel : ∀ t : Fin grid2.N, _)
theorem idx2 : ∀ t : Fin cfg2.N, win2_2.index t (0 : Fin 2) = t.val ∧ win2_2.index t (1 : Fin 2) = 0 :=
  (by decide +kernel : ∀ t : Fin grid2.N, _)
theorem idx3 : ∀ t : Fin cfg2.N, win2_3.index t (0 : Fin 2) = t.val ∧ win2_3.index t (1 : Fin 2) = 0 :=
  (by decide +kernel : ∀ t : Fin grid2.N, _)
theorem idx4 : ∀ t : Fin cfg2.N, win2_4.index t (0 : Fin 2) = t.val ∧ win2_4.index t (1 : Fin 2) = 0 :=
  (by decide +kernel : ∀ t : Fin grid2.N, _)
theorem idx5 : ∀ t : Fin cfg2.N, win2_5.index t (0 : Fin 2) = 0 ∧ win2_5.index t (1 : Fin 2) = 0 :=
  (by decide +kernel : ∀ t : Fin grid2.N, _)
theorem idx6 : ∀ t : Fin cfg2.N, win2_6.index t (0 : Fin 2) = 0 ∧ win2_6.index t (1 : Fin 2) = 0 :=
  (by decide +kernel : ∀ t : Fin grid2.N, _)
theorem idx7 : ∀ t : Fin cfg2.N, win2_7.index t (0 : Fin 2) = 0 ∧ win2_7.index t (1 : Fin 2) = 0 :=
  (by decide +kernel : ∀ t : Fin grid2.N, _)
theorem idx8 : ∀ t : Fin cfg2.N, win2_8.index t (0 : Fin 2) = 0 ∧ win2_8.index t (1 : Fin 2) = 0 :=
  (by decide +kernel : ∀ t : Fin grid2.N, _)
theorem idx9 : ∀ t : Fin cfg2.N, win2_9.index t (0 : Fin 2) = t.val ∧ win2_9.index t (1 : Fin 2) = 0 :=
  (by decide +kernel : ∀ t : Fin grid2.N, _)

/-- The first neighbour sum's block at point `t` is rows `2000·t … 2000·t + 1999` of the array. -/
theorem read0 (A : S100000x128.Idx → EReal) (t : Fin cfg2.N) (p : Fin 2000) (k : Fin 128) (P : Fin 100000)
    (hP : P.val = 2000 * t.val + p.val) :
    (((cfg2.win 0).blk t).view.read (Elt Ideal) A : S2000x128.Idx → EReal) (ix2 p k) = A (ix2 P k) := by
  obtain ⟨e0, e1⟩ := idx0 t
  show A (((cfg2.win 0).blk t).view.emb (ix2 p k)) = A (ix2 P k)
  refine congrArg A (funext fun a => Fin.ext ?_)
  match a with
  | ⟨0, _⟩ => show win2_0.index t (0 : Fin 2) * 2000 + 1 * p.val = P.val; omega
  | ⟨1, _⟩ => show win2_0.index t (1 : Fin 2) * 128 + 1 * k.val = k.val; omega

/-- The first scaling column's block at point `t` is rows `2000·t … 2000·t + 1999` of the array. -/
theorem read1 (A : S100000x1.Idx → EReal) (t : Fin cfg2.N) (p : Fin 2000) (k : Fin 1) (P : Fin 100000)
    (hP : P.val = 2000 * t.val + p.val) :
    (((cfg2.win 1).blk t).view.read (Elt Ideal) A : S2000x1.Idx → EReal) (ix2 p k) = A (ix2 P k) := by
  obtain ⟨e0, e1⟩ := idx1 t
  show A (((cfg2.win 1).blk t).view.emb (ix2 p k)) = A (ix2 P k)
  refine congrArg A (funext fun a => Fin.ext ?_)
  match a with
  | ⟨0, _⟩ => show win2_1.index t (0 : Fin 2) * 2000 + 1 * p.val = P.val; omega
  | ⟨1, _⟩ => show win2_1.index t (1 : Fin 2) * 1 + 1 * k.val = k.val; omega

/-- The second neighbour sum's block at point `t` is rows `2000·t … 2000·t + 1999` of the array. -/
theorem read2 (A : S100000x128.Idx → EReal) (t : Fin cfg2.N) (p : Fin 2000) (k : Fin 128) (P : Fin 100000)
    (hP : P.val = 2000 * t.val + p.val) :
    (((cfg2.win 2).blk t).view.read (Elt Ideal) A : S2000x128.Idx → EReal) (ix2 p k) = A (ix2 P k) := by
  obtain ⟨e0, e1⟩ := idx2 t
  show A (((cfg2.win 2).blk t).view.emb (ix2 p k)) = A (ix2 P k)
  refine congrArg A (funext fun a => Fin.ext ?_)
  match a with
  | ⟨0, _⟩ => show win2_2.index t (0 : Fin 2) * 2000 + 1 * p.val = P.val; omega
  | ⟨1, _⟩ => show win2_2.index t (1 : Fin 2) * 128 + 1 * k.val = k.val; omega

/-- The second scaling column's block at point `t` is rows `2000·t … 2000·t + 1999` of the array. -/
theorem read3 (A : S100000x1.Idx → EReal) (t : Fin cfg2.N) (p : Fin 2000) (k : Fin 1) (P : Fin 100000)
    (hP : P.val = 2000 * t.val + p.val) :
    (((cfg2.win 3).blk t).view.read (Elt Ideal) A : S2000x1.Idx → EReal) (ix2 p k) = A (ix2 P k) := by
  obtain ⟨e0, e1⟩ := idx3 t
  show A (((cfg2.win 3).blk t).view.emb (ix2 p k)) = A (ix2 P k)
  refine congrArg A (funext fun a => Fin.ext ?_)
  match a with
  | ⟨0, _⟩ => show win2_3.index t (0 : Fin 2) * 2000 + 1 * p.val = P.val; omega
  | ⟨1, _⟩ => show win2_3.index t (1 : Fin 2) * 1 + 1 * k.val = k.val; omega

/-- The target features's block at point `t` is rows `2000·t … 2000·t + 1999` of the array. -/
theorem read4 (A : S100000x128.Idx → EReal) (t : Fin cfg2.N) (p : Fin 2000) (k : Fin 128) (P : Fin 100000)
    (hP : P.val = 2000 * t.val + p.val) :
    (((cfg2.win 4).blk t).view.read (Elt Ideal) A : S2000x128.Idx → EReal) (ix2 p k) = A (ix2 P k) := by
  obtain ⟨e0, e1⟩ := idx4 t
  show A (((cfg2.win 4).blk t).view.emb (ix2 p k)) = A (ix2 P k)
  refine congrArg A (funext fun a => Fin.ext ?_)
  match a with
  | ⟨0, _⟩ => show win2_4.index t (0 : Fin 2) * 2000 + 1 * p.val = P.val; omega
  | ⟨1, _⟩ => show win2_4.index t (1 : Fin 2) * 128 + 1 * k.val = k.val; omega

/-- The first neighbour weights's block at every point is the whole array. -/
theorem read5 (A : S128x128.Idx → EReal) (t : Fin cfg2.N) (y : S128x128.Idx) :
    (((cfg2.win 5).blk t).view.read (Elt Ideal) A : S128x128.Idx → EReal) y = A y := by
  obtain ⟨e0, e1⟩ := idx5 t
  show A (((cfg2.win 5).blk t).view.emb y) = A y
  refine congrArg A (funext fun a => Fin.ext ?_)
  match a with
  | ⟨0, _⟩ => show win2_5.index t (0 : Fin 2) * 128 + 1 * (y 0).val = (y 0).val; omega
  | ⟨1, _⟩ => show win2_5.index t (1 : Fin 2) * 128 + 1 * (y 1).val = (y 1).val; omega

/-- The second neighbour weights's block at every point is the whole array. -/
theorem read6 (A : S128x128.Idx → EReal) (t : Fin cfg2.N) (y : S128x128.Idx) :
    (((cfg2.win 6).blk t).view.read (Elt Ideal) A : S128x128.Idx → EReal) y = A y := by
  obtain ⟨e0, e1⟩ := idx6 t
  show A (((cfg2.win 6).blk t).view.emb y) = A y
  refine congrArg A (funext fun a => Fin.ext ?_)
  match a with
  | ⟨0, _⟩ => show win2_6.index t (0 : Fin 2) * 128 + 1 * (y 0).val = (y 0).val; omega
  | ⟨1, _⟩ => show win2_6.index t (1 : Fin 2) * 128 + 1 * (y 1).val = (y 1).val; omega

/-- The target weights's block at every point is the whole array. -/
theorem read7 (A : S128x128.Idx → EReal) (t : Fin cfg2.N) (y : S128x128.Idx) :
    (((cfg2.win 7).blk t).view.read (Elt Ideal) A : S128x128.Idx → EReal) y = A y := by
  obtain ⟨e0, e1⟩ := idx7 t
  show A (((cfg2.win 7).blk t).view.emb y) = A y
  refine congrArg A (funext fun a => Fin.ext ?_)
  match a with
  | ⟨0, _⟩ => show win2_7.index t (0 : Fin 2) * 128 + 1 * (y 0).val = (y 0).val; omega
  | ⟨1, _⟩ => show win2_7.index t (1 : Fin 2) * 128 + 1 * (y 1).val = (y 1).val; omega

/-- The bias row's block at every point is the whole array. -/
theorem read8 (A : S1x128.Idx → EReal) (t : Fin cfg2.N) (y : S1x128.Idx) :
    (((cfg2.win 8).blk t).view.read (Elt Ideal) A : S1x128.Idx → EReal) y = A y := by
  obtain ⟨e0, e1⟩ := idx8 t
  show A (((cfg2.win 8).blk t).view.emb y) = A y
  refine congrArg A (funext fun a => Fin.ext ?_)
  match a with
  | ⟨0, _⟩ => show win2_8.index t (0 : Fin 2) * 1 + 1 * (y 0).val = (y 0).val; omega
  | ⟨1, _⟩ => show win2_8.index t (1 : Fin 2) * 128 + 1 * (y 1).val = (y 1).val; omega

/-- What the body computes from the nine blocks at point `t`, at entry `y` of the block, is the layer at row
    `2000·t + y₀`, column `y₁` of the whole arrays. -/
theorem block_apply (A0 : S100000x128.Idx → EReal) (A1 : S100000x1.Idx → EReal) (A2 : S100000x128.Idx → EReal) (A3 : S100000x1.Idx → EReal) (A4 : S100000x128.Idx → EReal) (A5 : S128x128.Idx → EReal) (A6 : S128x128.Idx → EReal) (A7 : S128x128.Idx → EReal) (A8 : S1x128.Idx → EReal) (t : Fin cfg2.N)
    (y : S2000x128.Idx) (P : Fin 100000) (Q : Fin 128) (hP : P.val = 2000 * t.val + (y 0).val) (hQ : Q.val = (y 1).val) :
    (Gen.k2_pay1 (((cfg2.win 0).blk t).view.read (Elt Ideal) A0)
        (((cfg2.win 1).blk t).view.read (Elt Ideal) A1)
        (((cfg2.win 2).blk t).view.read (Elt Ideal) A2)
        (((cfg2.win 3).blk t).view.read (Elt Ideal) A3)
        (((cfg2.win 4).blk t).view.read (Elt Ideal) A4)
        (((cfg2.win 5).blk t).view.read (Elt Ideal) A5)
        (((cfg2.win 6).blk t).view.read (Elt Ideal) A6)
        (((cfg2.win 7).blk t).view.read (Elt Ideal) A7)
        (((cfg2.win 8).blk t).view.read (Elt Ideal) A8)
        : S2000x128.Idx → EReal) y = layer A0 A1 A2 A3 A4 A5 A6 A7 A8 P Q := by
  obtain ⟨p, q, rfl⟩ : ∃ (p : Fin 2000) (q : Fin 128), y = ix2 p q := ⟨y 0, y 1, eq_ix2 y⟩
  have hP' : P.val = 2000 * t.val + p.val := hP
  obtain rfl : Q = q := Fin.ext hQ
  refine (pay_apply _ _ _ _ _ _ _ _ _ p Q).trans ?_
  unfold layer
  refine congrArg (fun z => max z 0) (congrArg₂ (· + ·) (congrArg₂ (· + ·) (congrArg₂ (· + ·)
    (Finset.sum_congr rfl fun k _ => congrArg₂ (· * ·) (congrArg₂ (· * ·) ?_ ?_) ?_)
    (Finset.sum_congr rfl fun k _ => congrArg₂ (· * ·) (congrArg₂ (· * ·) ?_ ?_) ?_))
    (Finset.sum_congr rfl fun k _ => congrArg₂ (· * ·) ?_ ?_)) ?_)
  · exact read0 A0 t p k P hP'
  · exact read1 A1 t p 0 P hP'
  · exact read5 A5 t (ix2 k Q)
  · exact read2 A2 t p k P hP'
  · exact read3 A3 t p 0 P hP'
  · exact read6 A6 t (ix2 k Q)
  · exact read4 A4 t p k P hP'
  · exact read7 A7 t (ix2 k Q)
  · exact read8 A8 t (ix2 0 Q)

/-- What the body leaves in the output's buffer at point `t`: its one store covers the buffer, so it is the payload of
    the nine blocks at `t`. -/
theorem after_eq (V : (c : Dev nD) → (b : Ref sig .tc) → Buf (Elt Ideal) ((c : Thread nD τ).loc b)) (c : Dev nD)
    (t : Fin cfg2.N) :
    (Gen.dat2 (F := Ideal) V c).after 9 t = Gen.k2_pay1 (Gen.iblk2 V c 0 t) (Gen.iblk2 V c 1 t) (Gen.iblk2 V c 2 t) (Gen.iblk2 V c 3 t) (Gen.iblk2 V c 4 t) (Gen.iblk2 V c 5 t) (Gen.iblk2 V c 6 t) (Gen.iblk2 V c 7 t) (Gen.iblk2 V c 8 t) := by
  rw [Gen.after2_9]
  unfold Gen.out2_9
  rw [View.canon_unit_zero hz]
  simp only [View.ld_unit_zero (S := S2000x128) hz, View.ld_unit_zero (S := S2000x1) hz, View.ld_unit_zero (S := S128x128) hz, View.ld_unit_zero (S := S1x128) hz]

set_option maxHeartbeats 1000000 in
/-- WHAT POINT `t` WRITES BACK is block `t` of `G` of the arrays as the region finds them. -/
theorem flushed_eq (V : (c : Dev nD) → (b : Ref sig .tc) → Buf (Elt Ideal) ((c : Thread nD τ).loc b)) (c : Dev nD)
    (t : Fin cfg2.N) :
    (Gen.dat2 (F := Ideal) V c).flushed 9 t
      = ((cfg2.win 9).blk t).view.read (Elt Ideal) (G (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8))) := by
  show (cfg2.win 9).cut (grid2.coords t) ((Gen.dat2 (F := Ideal) V c).after 9 t) = _
  rw [after_eq]
  unfold Gen.iblk2
  obtain ⟨e0, e1⟩ := idx9 t
  funext j
  have hj0 : (j 0).val < 2000 := (j 0).isLt
  have hj1 : (j 1).val < 128 := (j 1).isLt
  refine block_apply (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) t j ((((cfg2.win 9).blk t).view.emb j) 0) ((((cfg2.win 9).blk t).view.emb j) 1) ?_ ?_
  · show win2_9.index t (0 : Fin 2) * 2000 + 1 * (j 0).val = 2000 * t.val + (j 0).val; omega
  · show win2_9.index t (1 : Fin 2) * 128 + 1 * (j 1).val = (j 1).val; omega

/-- An index of the array is in point `t`'s block iff each coordinate is in the block's range on its axis. -/
theorem mem_blk (t : Fin cfg2.N) (i : S100000x128.Idx) :
    i ∈ ((cfg2.win 9).blk t).view.set ↔ ∀ a : Fin 2, win2_9.index t a * S2000x128.size a ≤ (i a).val
      ∧ (i a).val < win2_9.index t a * S2000x128.size a + S2000x128.size a := by
  show i ∈ ((View.whole main_v64).slice (win2_9.rect t)).set ↔ _
  rw [View.set_slice_whole, Rect.mem_set_unit]
  exact Iff.rfl

/-- Row `r` of the output is in the block of point `r / 2000`: the 50 blocks tile the array. -/
theorem cover (i : S100000x128.Idx) :
    ∃ t : Fin cfg2.N, (cfg2.win 9).flush t = true ∧ i ∈ ((cfg2.win 9).blk t).view.set := by
  have hi0 : (i 0).val < 100000 := (i 0).isLt
  have hi1 : (i 1).val < 128 := (i 1).isLt
  have hN : cfg2.N = 50 := Gen.N_2
  obtain ⟨t, ht⟩ : ∃ t : Fin cfg2.N, t.val = (i 0).val / 2000 := ⟨⟨(i 0).val / 2000, by rw [hN]; omega⟩, rfl⟩
  obtain ⟨e0, e1⟩ := idx9 t
  refine ⟨t, Gen.flush2_9 t, ?_⟩
  rw [mem_blk]
  intro a
  match a with
  | ⟨0, _⟩ =>
    show win2_9.index t (0 : Fin 2) * 2000 ≤ (i 0).val ∧ (i 0).val < win2_9.index t (0 : Fin 2) * 2000 + 2000
    omega
  | ⟨1, _⟩ =>
    show win2_9.index t (1 : Fin 2) * 128 ≤ (i 1).val ∧ (i 1).val < win2_9.index t (1 : Fin 2) * 128 + 128
    omega

/-- THE OUTPUT ARRAY after the region: `G` of the arrays as the region finds them, at every index. -/
theorem final (V : (c : Dev nD) → (b : Ref sig .tc) → Buf (Elt Ideal) ((c : Thread nD τ).loc b)) (c : Dev nD) :
    (Gen.dat2 (F := Ideal) V c).arrAt 9 cfg2.N = G (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) :=
  (Gen.dat2 (F := Ideal) V c).arrAt_eq_of_cover 9 _ (fun t _ => flushed_eq V c t) cover

/-- The output array read at `(i, j)`. The arrays enter as functions on their literal index types, each with its
    equation to the region's data, so that every operation of the formula is the extended reals'. -/
theorem out_apply (V : (c : Dev nD) → (b : Ref sig .tc) → Buf (Elt Ideal) ((c : Thread nD τ).loc b)) (c : Dev nD)
    (O : S100000x128.Idx → EReal) (X0 : S100000x128.Idx → EReal) (X1 : S100000x1.Idx → EReal) (X2 : S100000x128.Idx → EReal) (X3 : S100000x1.Idx → EReal) (X4 : S100000x128.Idx → EReal) (X5 : S128x128.Idx → EReal) (X6 : S128x128.Idx → EReal) (X7 : S128x128.Idx → EReal) (X8 : S1x128.Idx → EReal)
    (hO : O = (Gen.dat2 (F := Ideal) V c).arrAt 9 cfg2.N)
    (h0 : X0 = V c (Pipeline.arrRef spec2 0)) (h1 : X1 = V c (Pipeline.arrRef spec2 1)) (h2 : X2 = V c (Pipeline.arrRef spec2 2)) (h3 : X3 = V c (Pipeline.arrRef spec2 3)) (h4 : X4 = V c (Pipeline.arrRef spec2 4)) (h5 : X5 = V c (Pipeline.arrRef spec2 5)) (h6 : X6 = V c (Pipeline.arrRef spec2 6)) (h7 : X7 = V c (Pipeline.arrRef spec2 7)) (h8 : X8 = V c (Pipeline.arrRef spec2 8))
    (i : Fin 100000) (j : Fin 128) :
    O (ix2 i j) = max ((((∑ k : Fin 128, (X0 (ix2 i k) * X1 (ix2 i 0)) * X5 (ix2 k j))
          + (∑ k : Fin 128, (X2 (ix2 i k) * X3 (ix2 i 0)) * X6 (ix2 k j)))
        + (∑ k : Fin 128, X4 (ix2 i k) * X7 (ix2 k j))) + X8 (ix2 0 j)) 0 := by
  subst hO h0 h1 h2 h3 h4 h5 h6 h7 h8
  exact congrFun (final V c) (ix2 i j)

end Cert.KernelIdeal.Region2

end
-- ==== Proof.Region3.lean ====
/-
  Region 3: the combine layer of a mean-aggregating graph convolution over 20000 destination rows, tiled in blocks of
  2000 rows.

  Grid point `t` takes rows `2000·t … 2000·t + 1999` of the neighbour sums, scales each row by that row's inverse degree
  (a one-column array broadcast over the 128 columns), multiplies by the neighbour weights, adds the rows of the
  destination features multiplied by the root weights, adds the bias row and takes the maximum with zero. The block it
  writes back is the restriction to those rows of ONE function of the whole arrays, the ten blocks tile the output, so
  the output array ends holding that function: at `(i, j)` it is
  `max ((∑ k, (s (i, k) * d (i, 0)) * Wl (k, j) + ∑ k, x (i, k) * Wr (k, j)) + b (0, j)) 0` on the extended reals, term by
  term (no finiteness is asked).
-/
import proofs.«119514_j10857677324737_2_alg».proof.Proof.Gen.KernelIdeal.Frame
import proofs.«119514_j10857677324737_2_alg».proof.Proof.LibPlainDot
import proofs.«119514_j10857677324737_2_alg».proof.Proof.ColBroadcast
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region3

open Cert.KernelIdeal Idealize.ShloMosaic Idealize.ShloMosaic.TcCoe Idealize.ShloMosaic.ValueIdx Idealize.SL.Sem
open Idealize.ShloMosaic.Pipeline (Dat)
open Cert.Lib.ColBroadcast

/-- The layer at entry `(i, j)`: the scaled row of neighbour sums against the column of the neighbour weights, plus the
    row of destination features against the column of the root weights, plus the bias, cut at zero. -/
def combine (S : S20000x128.Idx → EReal) (D : S20000x1.Idx → EReal) (X : S20000x128.Idx → EReal)
    (Wl Wr : S128x128.Idx → EReal) (b : S1x128.Idx → EReal) (i : Fin 20000) (j : Fin 128) : EReal :=
  max (((∑ k : Fin 128, (S (ix2 i k) * D (ix2 i 0)) * Wl (ix2 k j)) + (∑ k : Fin 128, X (ix2 i k) * Wr (ix2 k j)))
    + b (ix2 0 j)) 0

/-- The layer as one function of the whole arrays, index by index. -/
abbrev G (S : S20000x128.Idx → EReal) (D : S20000x1.Idx → EReal) (X : S20000x128.Idx → EReal)
    (Wl Wr : S128x128.Idx → EReal) (b : S1x128.Idx → EReal) : S20000x128.Idx → EReal :=
  fun i => combine S D X Wl Wr b (i 0) (i 1)

theorem hz : (![0, 0] : Fin 2 → Nat) = fun _ => 0 := funext fun a => by fin_cases a <;> rfl

/-- A `2000×128` by `128×128` product into the zero accumulator, at entry `(p, q)`: the printed dimension numbers are
    those of a plain matrix product. -/
theorem matmul_apply {φ₁ φ₂ : FTy} (l : FVec Ideal S2000x128 φ₁) (r : FVec Ideal S128x128 φ₂) (p : Fin 2000) (q : Fin 128) :
    matmul dot_S2000x128_S128x128_S2000x128_1_0_0_1_n_n none l r (constant S2000x128 .f32 0x00000000#32) (ix2 p q)
      = ∑ k : Fin 128, l (ix2 p k) * r (ix2 k q) :=
  Cert.Lib.PlainDot.matmul_zero_apply (M := 2000) (K := 128) (N := 128) none l r p q

/-- The body's arithmetic at entry `(p, q)` of a block: the casts to the same shape and the changes of format are the
    identity, the column of inverse degrees is read at row `p`, each product into the zero accumulator is the sum over
    the contracted axis, the bias row is read at column `q`, the rectifier's constant is zero. -/
theorem pay_apply (x0 : Vec Ideal S2000x128 .f32) (x1 : Vec Ideal S2000x1 .f32) (x2 : Vec Ideal S2000x128 .f32)
    (x3 x4 : Vec Ideal S128x128 .f32) (x5 : Vec Ideal S1x128 .f32) (p : Fin 2000) (q : Fin 128) :
    Gen.k3_pay1 x0 x1 x2 x3 x4 x5 (ix2 p q)
      = max (((∑ k : Fin 128, (x0 (ix2 p k) * x1 (ix2 p 0)) * x3 (ix2 k q))
              + ∑ k : Fin 128, x2 (ix2 p k) * x4 (ix2 k q)) + x5 (ix2 0 q)) 0 := by
  unfold Gen.k3_pay1
  simp only [shapeCast_self]
  rw [maximumf_apply, addf_apply, addf_apply, matmul_apply, matmul_apply, broadcast_apply,
    broadcastTo_1b_ab_apply]
  simp only [truncf_apply, mulf_apply, broadcastTo_a1_ab_apply]
  show max _ (Ideal.ofBits .f32 0x00000000#32) = _
  rw [Ideal.ofBits_zero_f32]

/-- The printed index maps, decided over the grid: a row-tiled window's block index at point `t` is `(t, 0)`, a
    whole window's `(0, 0)`. -/
theorem idx_facts : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = t.val ∧ win3_6.index t (1 : Fin 2) = 0) :=
  (by decide +kernel : ∀ t : Fin grid3.N, _)

/-- The neighbour sums' block at point `t` is rows `2000·t … 2000·t + 1999` of the array. -/
theorem read0 (A : S20000x128.Idx → EReal) (t : Fin cfg3.N) (p : Fin 2000) (k : Fin 128) (P : Fin 20000)
    (hP : P.val = 2000 * t.val + p.val) :
    (((cfg3.win 0).blk t).view.read (Elt Ideal) A : S2000x128.Idx → EReal) (ix2 p k) = A (ix2 P k) := by
  obtain ⟨⟨e0, e1⟩, -⟩ := idx_facts t
  show A (((cfg3.win 0).blk t).view.emb (ix2 p k)) = A (ix2 P k)
  refine congrArg A (funext fun a => Fin.ext ?_)
  match a with
  | ⟨0, _⟩ => show win3_0.index t (0 : Fin 2) * 2000 + 1 * p.val = P.val; omega
  | ⟨1, _⟩ => show win3_0.index t (1 : Fin 2) * 128 + 1 * k.val = k.val; omega

/-- The inverse degrees' block at point `t` is the same rows of the one-column array. -/
theorem read1 (A : S20000x1.Idx → EReal) (t : Fin cfg3.N) (p : Fin 2000) (P : Fin 20000)
    (hP : P.val = 2000 * t.val + p.val) :
    (((cfg3.win 1).blk t).view.read (Elt Ideal) A : S2000x1.Idx → EReal) (ix2 p 0) = A (ix2 P 0) := by
  obtain ⟨-, ⟨e0, e1⟩, -⟩ := idx_facts t
  show A (((cfg3.win 1).blk t).view.emb (ix2 p 0)) = A (ix2 P 0)
  refine congrArg A (funext fun a => Fin.ext ?_)
  match a with
  | ⟨0, _⟩ => show win3_1.index t (0 : Fin 2) * 2000 + 1 * p.val = P.val; omega
  | ⟨1, _⟩ => show win3_1.index t (1 : Fin 2) * 1 + 1 * 0 = 0; omega

/-- The destination features' block at point `t` is the same rows of their array. -/
theorem read2 (A : S20000x128.Idx → EReal) (t : Fin cfg3.N) (p : Fin 2000) (k : Fin 128) (P : Fin 20000)
    (hP : P.val = 2000 * t.val + p.val) :
    (((cfg3.win 2).blk t).view.read (Elt Ideal) A : S2000x128.Idx → EReal) (ix2 p k) = A (ix2 P k) := by
  obtain ⟨-, -, ⟨e0, e1⟩, -⟩ := idx_facts t
  show A (((cfg3.win 2).blk t).view.emb (ix2 p k)) = A (ix2 P k)
  refine congrArg A (funext fun a => Fin.ext ?_)
  match a with
  | ⟨0, _⟩ => show win3_2.index t (0 : Fin 2) * 2000 + 1 * p.val = P.val; omega
  | ⟨1, _⟩ => show win3_2.index t (1 : Fin 2) * 128 + 1 * k.val = k.val; omega

/-- The neighbour weights' block at every point is the whole array. -/
theorem read3 (A : S128x128.Idx → EReal) (t : Fin cfg3.N) (k q : Fin 128) :
    (((cfg3.win 3).blk t).view.read (Elt Ideal) A : S128x128.Idx → EReal) (ix2 k q) = A (ix2 k q) := by
  obtain ⟨-, -, -, ⟨e0, e1⟩, -⟩ := idx_facts t
  show A (((cfg3.win 3).blk t).view.emb (ix2 k q)) = A (ix2 k q)
  refine congrArg A (funext fun a => Fin.ext ?_)
  match a with
  | ⟨0, _⟩ => show win3_3.index t (0 : Fin 2) * 128 + 1 * k.val = k.val; omega
  | ⟨1, _⟩ => show win3_3.index t (1 : Fin 2) * 128 + 1 * q.val = q.val; omega

/-- The root weights' block at every point is the whole array. -/
theorem read4 (A : S128x128.Idx → EReal) (t : Fin cfg3.N) (k q : Fin 128) :
    (((cfg3.win 4).blk t).view.read (Elt Ideal) A : S128x128.Idx → EReal) (ix2 k q) = A (ix2 k q) := by
  obtain ⟨-, -, -, -, ⟨e0, e1⟩, -⟩ := idx_facts t
  show A (((cfg3.win 4).blk t).view.emb (ix2 k q)) = A (ix2 k q)
  refine congrArg A (funext fun a => Fin.ext ?_)
  match a with
  | ⟨0, _⟩ => show win3_4.index t (0 : Fin 2) * 128 + 1 * k.val = k.val; omega
  | ⟨1, _⟩ => show win3_4.index t (1 : Fin 2) * 128 + 1 * q.val = q.val; omega

/-- The bias row's block at every point is the whole row. -/
theorem read5 (A : S1x128.Idx → EReal) (t : Fin cfg3.N) (q : Fin 128) :
    (((cfg3.win 5).blk t).view.read (Elt Ideal) A : S1x128.Idx → EReal) (ix2 0 q) = A (ix2 0 q) := by
  obtain ⟨-, -, -, -, -, ⟨e0, e1⟩, -⟩ := idx_facts t
  show A (((cfg3.win 5).blk t).view.emb (ix2 0 q)) = A (ix2 0 q)
  refine congrArg A (funext fun a => Fin.ext ?_)
  match a with
  | ⟨0, _⟩ => show win3_5.index t (0 : Fin 2) * 1 + 1 * 0 = 0; omega
  | ⟨1, _⟩ => show win3_5.index t (1 : Fin 2) * 128 + 1 * q.val = q.val; omega

/-- What the body computes from the six blocks at point `t`, at entry `y` of the block, is the layer at row
    `2000·t + y₀`, column `y₁` of the whole arrays. -/
theorem block_apply (A0 : S20000x128.Idx → EReal) (A1 : S20000x1.Idx → EReal) (A2 : S20000x128.Idx → EReal)
    (A3 A4 : S128x128.Idx → EReal) (A5 : S1x128.Idx → EReal) (t : Fin cfg3.N)
    (y : S2000x128.Idx) (P : Fin 20000) (Q : Fin 128) (hP : P.val = 2000 * t.val + (y 0).val) (hQ : Q.val = (y 1).val) :
    (Gen.k3_pay1 (((cfg3.win 0).blk t).view.read (Elt Ideal) A0) (((cfg3.win 1).blk t).view.read (Elt Ideal) A1)
        (((cfg3.win 2).blk t).view.read (Elt Ideal) A2) (((cfg3.win 3).blk t).view.read (Elt Ideal) A3)
        (((cfg3.win 4).blk t).view.read (Elt Ideal) A4) (((cfg3.win 5).blk t).view.read (Elt Ideal) A5)
        : S2000x128.Idx → EReal) y = combine A0 A1 A2 A3 A4 A5 P Q := by
  obtain ⟨p, q, rfl⟩ : ∃ (p : Fin 2000) (q : Fin 128), y = ix2 p q := ⟨y 0, y 1, eq_ix2 y⟩
  have hP' : P.val = 2000 * t.val + p.val := hP
  obtain rfl : Q = q := Fin.ext hQ
  refine (pay_apply _ _ _ _ _ _ p Q).trans ?_
  unfold combine
  refine congrArg (fun z => max z 0) (congrArg₂ (· + ·) (congrArg₂ (· + ·)
    (Finset.sum_congr rfl fun k _ => congrArg₂ (· * ·) (congrArg₂ (· * ·) ?_ ?_) ?_)
    (Finset.sum_congr rfl fun k _ => congrArg₂ (· * ·) ?_ ?_)) ?_)
  · exact read0 A0 t p k P hP'
  · exact read1 A1 t p P hP'
  · exact read3 A3 t k Q
  · exact read2 A2 t p k P hP'
  · exact read4 A4 t k Q
  · exact read5 A5 t Q

set_option maxHeartbeats 1000000 in
/-- WHAT POINT `t` WRITES BACK is block `t` of the layer of the arrays as the region finds them. -/
theorem flushed_eq (V : (c : Dev nD) → (b : Ref sig .tc) → Buf (Elt Ideal) ((c : Thread nD τ).loc b)) (c : Dev nD)
    (t : Fin cfg3.N) :
    (Gen.dat3 (F := Ideal) V c).flushed 6 t
      = ((cfg3.win 6).blk t).view.read (Elt Ideal)
          (G (V c (Pipeline.arrRef spec3 0)) (V c (Pipeline.arrRef spec3 1)) (V c (Pipeline.arrRef spec3 2))
            (V c (Pipeline.arrRef spec3 3)) (V c (Pipeline.arrRef spec3 4)) (V c (Pipeline.arrRef spec3 5))) := by
  show (cfg3.win 6).cut (grid3.coords t) ((Gen.dat3 (F := Ideal) V c).after 6 t) = _
  rw [Gen.after3_6]
  unfold Gen.out3_6
  rw [View.canon_unit_zero hz]
  simp only [View.ld_unit_zero (S := S2000x128) hz, View.ld_unit_zero (S := S2000x1) hz,
    View.ld_unit_zero (S := S128x128) hz, View.ld_unit_zero (S := S1x128) hz]
  unfold Gen.iblk3
  obtain ⟨-, -, -, -, -, -, e0, e1⟩ := idx_facts t
  funext j
  have hj0 : (j 0).val < 2000 := (j 0).isLt
  have hj1 : (j 1).val < 128 := (j 1).isLt
  refine block_apply _ _ _ _ _ _ t j ((((cfg3.win 6).blk t).view.emb j) 0) ((((cfg3.win 6).blk t).view.emb j) 1) ?_ ?_
  · show win3_6.index t (0 : Fin 2) * 2000 + 1 * (j 0).val = 2000 * t.val + (j 0).val; omega
  · show win3_6.index t (1 : Fin 2) * 128 + 1 * (j 1).val = (j 1).val; omega

/-- An index of the array is in point `t`'s block iff each coordinate is in the block's range on its axis. -/
theorem mem_blk (t : Fin cfg3.N) (i : S20000x128.Idx) :
    i ∈ ((cfg3.win 6).blk t).view.set ↔ ∀ a : Fin 2, win3_6.index t a * S2000x128.size a ≤ (i a).val
      ∧ (i a).val < win3_6.index t a * S2000x128.size a + S2000x128.size a := by
  show i ∈ ((View.whole main_v66).slice (win3_6.rect t)).set ↔ _
  rw [View.set_slice_whole, Rect.mem_set_unit]
  exact Iff.rfl

/-- Row `r` of the output is in the block of point `r / 2000`: the 10 blocks tile the array. -/
theorem cover (i : S20000x128.Idx) :
    ∃ t : Fin cfg3.N, (cfg3.win 6).flush t = true ∧ i ∈ ((cfg3.win 6).blk t).view.set := by
  have hi0 : (i 0).val < 20000 := (i 0).isLt
  have hi1 : (i 1).val < 128 := (i 1).isLt
  have hN : cfg3.N = 10 := Gen.N_3
  obtain ⟨t, ht⟩ : ∃ t : Fin cfg3.N, t.val = (i 0).val / 2000 := ⟨⟨(i 0).val / 2000, by rw [hN]; omega⟩, rfl⟩
  obtain ⟨-, -, -, -, -, -, e0, e1⟩ := idx_facts t
  refine ⟨t, Gen.flush3_6 t, ?_⟩
  rw [mem_blk]
  intro a
  match a with
  | ⟨0, _⟩ =>
    show win3_6.index t (0 : Fin 2) * 2000 ≤ (i 0).val ∧ (i 0).val < win3_6.index t (0 : Fin 2) * 2000 + 2000
    omega
  | ⟨1, _⟩ =>
    show win3_6.index t (1 : Fin 2) * 128 ≤ (i 1).val ∧ (i 1).val < win3_6.index t (1 : Fin 2) * 128 + 128
    omega

/-- THE OUTPUT ARRAY after the region: the layer of the arrays as the region finds them, at every index. -/
theorem final (V : (c : Dev nD) → (b : Ref sig .tc) → Buf (Elt Ideal) ((c : Thread nD τ).loc b)) (c : Dev nD) :
    (Gen.dat3 (F := Ideal) V c).arrAt 6 cfg3.N
      = G (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5)) :=
  (Gen.dat3 (F := Ideal) V c).arrAt_eq_of_cover 6 _ (fun t _ => flushed_eq V c t) cover

/-- The output array read at `(i, j)`. The arrays enter as functions on their literal index types, each with its
    equation to the region's data, so that every operation of the formula is the extended reals'. -/
theorem out_apply (V : (c : Dev nD) → (b : Ref sig .tc) → Buf (Elt Ideal) ((c : Thread nD τ).loc b)) (c : Dev nD)
    (O : S20000x128.Idx → EReal) (X0 : S20000x128.Idx → EReal) (X1 : S20000x1.Idx → EReal) (X2 : S20000x128.Idx → EReal)
    (X3 X4 : S128x128.Idx → EReal) (X5 : S1x128.Idx → EReal)
    (hO : O = (Gen.dat3 (F := Ideal) V c).arrAt 6 cfg3.N) (h0 : X0 = V c (Pipeline.arrRef spec3 0))
    (h1 : X1 = V c (Pipeline.arrRef spec3 1)) (h2 : X2 = V c (Pipeline.arrRef spec3 2))
    (h3 : X3 = V c (Pipeline.arrRef spec3 3)) (h4 : X4 = V c (Pipeline.arrRef spec3 4))
    (h5 : X5 = V c (Pipeline.arrRef spec3 5)) (i : Fin 20000) (j : Fin 128) :
    O (ix2 i j) = max (((∑ k : Fin 128, (X0 (ix2 i k) * X1 (ix2 i 0)) * X3 (ix2 k j))
        + (∑ k : Fin 128, X2 (ix2 i k) * X4 (ix2 k j))) + X5 (ix2 0 j)) 0 := by
  subst hO h0 h1 h2 h3 h4 h5
  exact congrFun (final V c) (ix2 i j)

end Cert.KernelIdeal.Region3

end
-- ==== Proof.Region4.lean ====
/-
  Region 4: two matrix products of the same 100000-row input, written side by side into one 128-column output, tiled
  in blocks of 2000 rows.

  Grid point `t` multiplies rows `2000·t … 2000·t + 1999` of the input by each of two whole weight matrices and stores
  the first product into columns `0 … 63` of its output block and the second into columns `64 … 127`. The two stores
  are two pieces of ONE function of the whole arrays restricted to those rows, and together they cover the block; the
  fifty blocks tile the output, so the output array ends holding that function: at `(i, j)` it is
  `∑ k, x (i, k) * W₁ (k, j)` for `j < 64` and `∑ k, x (i, k) * W₂ (k, j − 64)` otherwise, on the extended reals, term by
  term (no finiteness is asked).
-/
import proofs.«119514_j10857677324737_2_alg».proof.Proof.Gen.KernelIdeal.Frame
import proofs.«119514_j10857677324737_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region4

open Cert.KernelIdeal Idealize.ShloMosaic Idealize.ShloMosaic.TcCoe Idealize.ShloMosaic.ValueIdx Idealize.SL.Sem
open Idealize.ShloMosaic.Pipeline (Dat)

/-- The two products side by side at entry `(i, j)`: columns `0 … 63` hold the input against the first weight matrix,
    columns `64 … 127` the input against the second. -/
def half (X : S100000x128.Idx → EReal) (W1 W2 : S128x64.Idx → EReal) (i : Fin 100000) (j : Fin 128) : EReal :=
  if h : j.val < 64 then ∑ k : Fin 128, X (ix2 i k) * W1 (ix2 k ⟨j.val, h⟩)
  else ∑ k : Fin 128, X (ix2 i k) * W2 (ix2 k ⟨j.val - 64, by have := j.isLt; omega⟩)

/-- The two products side by side as one function of the whole arrays, index by index. -/
abbrev G (X : S100000x128.Idx → EReal) (W1 W2 : S128x64.Idx → EReal) : S100000x128.Idx → EReal :=
  fun i => half X W1 W2 (i 0) (i 1)

/-- A column of the left half. -/
theorem half_eq_left (X : S100000x128.Idx → EReal) (W1 W2 : S128x64.Idx → EReal) (P : Fin 100000) (Q : Fin 128) (q : Fin 64)
    (hQ : Q.val = q.val) : half X W1 W2 P Q = ∑ k : Fin 128, X (ix2 P k) * W1 (ix2 k q) := by
  have hq : q.val < 64 := q.isLt
  unfold half
  rw [dif_pos (show Q.val < 64 by omega)]
  exact Finset.sum_congr rfl fun k _ => congrArg (fun z => X (ix2 P k) * W1 (ix2 k z)) (Fin.ext hQ)

/-- A column of the right half. -/
theorem half_eq_right (X : S100000x128.Idx → EReal) (W1 W2 : S128x64.Idx → EReal) (P : Fin 100000) (Q : Fin 128) (q : Fin 64)
    (hQ : Q.val = 64 + q.val) : half X W1 W2 P Q = ∑ k : Fin 128, X (ix2 P k) * W2 (ix2 k q) := by
  unfold half
  rw [dif_neg (show ¬Q.val < 64 by omega)]
  exact Finset.sum_congr rfl fun k _ => congrArg (fun z => X (ix2 P k) * W2 (ix2 k z)) (Fin.ext (show Q.val - 64 = q.val by omega))

theorem hz : (![0, 0] : Fin 2 → Nat) = fun _ => 0 := funext fun a => by fin_cases a <;> rfl

/-- The input block after the cast to its own shape and the change of format, at an entry: itself. -/
theorem pay1_apply (x0 : Vec Ideal S2000x128 .f32) (p : Fin 2000) (k : Fin 128) :
    (Gen.k4_pay1 x0 : S2000x128.Idx → EReal) (ix2 p k) = (x0 : S2000x128.Idx → EReal) (ix2 p k) := by
  unfold Gen.k4_pay1
  show shapeCast S2000x128 x0 _ (ix2 p k) = x0 (ix2 p k)
  rw [shapeCast_self]

/-- The first store's payload at entry `(p, q)`: the product with the first weight matrix. -/
theorem pay2_apply (x0 : Vec Ideal S2000x128 .f32) (x1 : Vec Ideal S128x64 .f32) (p : Fin 2000) (q : Fin 64) :
    (Gen.k4_pay2 x0 x1 : S2000x64.Idx → EReal) (ix2 p q)
      = ∑ k : Fin 128, (x0 : S2000x128.Idx → EReal) (ix2 p k) * (x1 : S128x64.Idx → EReal) (ix2 k q) := by
  unfold Gen.k4_pay2
  refine (Cert.Lib.PlainDot.matmul_zero_apply (M := 2000) (K := 128) (N := 64) none _ _ p q).trans ?_
  exact Finset.sum_congr rfl fun k _ => congrArg₂ (· * ·) (pay1_apply x0 p k) rfl

/-- The second store's payload at entry `(p, q)`: the product with the second weight matrix. -/
theorem pay3_apply (x0 : Vec Ideal S2000x128 .f32) (x2 : Vec Ideal S128x64 .f32) (p : Fin 2000) (q : Fin 64) :
    (Gen.k4_pay3 x0 x2 : S2000x64.Idx → EReal) (ix2 p q)
      = ∑ k : Fin 128, (x0 : S2000x128.Idx → EReal) (ix2 p k) * (x2 : S128x64.Idx → EReal) (ix2 k q) := by
  unfold Gen.k4_pay3
  refine (Cert.Lib.PlainDot.matmul_zero_apply (M := 2000) (K := 128) (N := 64) none _ _ p q).trans ?_
  exact Finset.sum_congr rfl fun k _ => congrArg₂ (· * ·) (pay1_apply x0 p k) rfl

/-- The printed index maps, decided over the grid: the input's and the output's block index is the point on the row
    axis, and the two weight matrices are whole at every point. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The input's block at point `t` is rows `2000·t … 2000·t + 1999` of the array. -/
theorem x_read (A : S100000x128.Idx → EReal) (t : Fin cfg4.N) (p : Fin 2000) (k : Fin 128) (P : Fin 100000)
    (hP : P.val = 2000 * t.val + p.val) :
    (((cfg4.win 0).blk t).view.read (Elt Ideal) A : S2000x128.Idx → EReal) (ix2 p k) = A (ix2 P k) := by
  obtain ⟨e0, e1, -⟩ := idx_facts t
  show A (((cfg4.win 0).blk t).view.emb (ix2 p k)) = A (ix2 P k)
  refine congrArg A (funext fun a => Fin.ext ?_)
  match a with
  | ⟨0, _⟩ => show win4_0.index t (0 : Fin 2) * 2000 + 1 * p.val = P.val; omega
  | ⟨1, _⟩ => show win4_0.index t (1 : Fin 2) * 128 + 1 * k.val = k.val; omega

/-- The first weight matrix's block at every point is the whole array. -/
theorem w1_read (A : S128x64.Idx → EReal) (t : Fin cfg4.N) (y : S128x64.Idx) :
    (((cfg4.win 1).blk t).view.read (Elt Ideal) A : S128x64.Idx → EReal) y = A y := by
  obtain ⟨-, -, e0, e1, -⟩ := idx_facts t
  show A (((cfg4.win 1).blk t).view.emb y) = A y
  refine congrArg A (funext fun a => Fin.ext ?_)
  match a with
  | ⟨0, _⟩ => show win4_1.index t (0 : Fin 2) * 128 + 1 * (y 0).val = (y 0).val; omega
  | ⟨1, _⟩ => show win4_1.index t (1 : Fin 2) * 64 + 1 * (y 1).val = (y 1).val; omega

/-- The second weight matrix's block at every point is the whole array. -/
theorem w2_read (A : S128x64.Idx → EReal) (t : Fin cfg4.N) (y : S128x64.Idx) :
    (((cfg4.win 2).blk t).view.read (Elt Ideal) A : S128x64.Idx → EReal) y = A y := by
  obtain ⟨-, -, -, -, e0, e1, -⟩ := idx_facts t
  show A (((cfg4.win 2).blk t).view.emb y) = A y
  refine congrArg A (funext fun a => Fin.ext ?_)
  match a with
  | ⟨0, _⟩ => show win4_2.index t (0 : Fin 2) * 128 + 1 * (y 0).val = (y 0).val; omega
  | ⟨1, _⟩ => show win4_2.index t (1 : Fin 2) * 64 + 1 * (y 1).val = (y 1).val; omega

/-- The first store's payload at entry `x` is the block of `G` at point `t`, read at the buffer index `y` with the same
    coordinates: a column of the left half. -/
theorem left_apply (A0 : S100000x128.Idx → EReal) (A1 A2 : S128x64.Idx → EReal) (t : Fin cfg4.N)
    (x : S2000x64.Idx) (y : S2000x128.Idx) (hy0 : (y 0).val = (x 0).val) (hy1 : (y 1).val = (x 1).val) :
    (Gen.k4_pay2 (((cfg4.win 0).blk t).view.read (Elt Ideal) A0) (((cfg4.win 1).blk t).view.read (Elt Ideal) A1)
        : S2000x64.Idx → EReal) x
      = (((cfg4.win 3).blk t).view.read (Elt Ideal) (G A0 A1 A2) : S2000x128.Idx → EReal) y := by
  obtain ⟨p, q, rfl⟩ : ∃ (p : Fin 2000) (q : Fin 64), x = ix2 p q := ⟨x 0, x 1, eq_ix2 x⟩
  have hy0' : (y 0).val = p.val := hy0
  have hy1' : (y 1).val = q.val := hy1
  obtain ⟨-, -, -, -, -, -, e0, e1⟩ := idx_facts t
  have hP : ((((cfg4.win 3).blk t).view.emb y) 0).val = 2000 * t.val + p.val := by
    show win4_3.index t (0 : Fin 2) * 2000 + 1 * (y 0).val = 2000 * t.val + p.val; omega
  have hQ : ((((cfg4.win 3).blk t).view.emb y) 1).val = q.val := by
    show win4_3.index t (1 : Fin 2) * 128 + 1 * (y 1).val = q.val; omega
  refine (pay2_apply _ _ p q).trans ?_
  show _ = half A0 A1 A2 ((((cfg4.win 3).blk t).view.emb y) 0) ((((cfg4.win 3).blk t).view.emb y) 1)
  refine Eq.trans ?_ (half_eq_left A0 A1 A2 ((((cfg4.win 3).blk t).view.emb y) 0) ((((cfg4.win 3).blk t).view.emb y) 1) q hQ).symm
  refine Finset.sum_congr rfl fun k _ => congrArg₂ (· * ·) ?_ ?_
  · exact x_read A0 t p k _ hP
  · exact w1_read A1 t (ix2 k q)

/-- The second store's payload at entry `x` is the block of `G` at point `t`, read at the buffer index `y` sixty-four
    columns along: a column of the right half. -/
theorem right_apply (A0 : S100000x128.Idx → EReal) (A1 A2 : S128x64.Idx → EReal) (t : Fin cfg4.N)
    (x : S2000x64.Idx) (y : S2000x128.Idx) (hy0 : (y 0).val = (x 0).val) (hy1 : (y 1).val = 64 + (x 1).val) :
    (Gen.k4_pay3 (((cfg4.win 0).blk t).view.read (Elt Ideal) A0) (((cfg4.win 2).blk t).view.read (Elt Ideal) A2)
        : S2000x64.Idx → EReal) x
      = (((cfg4.win 3).blk t).view.read (Elt Ideal) (G A0 A1 A2) : S2000x128.Idx → EReal) y := by
  obtain ⟨p, q, rfl⟩ : ∃ (p : Fin 2000) (q : Fin 64), x = ix2 p q := ⟨x 0, x 1, eq_ix2 x⟩
  have hy0' : (y 0).val = p.val := hy0
  have hy1' : (y 1).val = 64 + q.val := hy1
  obtain ⟨-, -, -, -, -, -, e0, e1⟩ := idx_facts t
  have hP : ((((cfg4.win 3).blk t).view.emb y) 0).val = 2000 * t.val + p.val := by
    show win4_3.index t (0 : Fin 2) * 2000 + 1 * (y 0).val = 2000 * t.val + p.val; omega
  have hQ : ((((cfg4.win 3).blk t).view.emb y) 1).val = 64 + q.val := by
    show win4_3.index t (1 : Fin 2) * 128 + 1 * (y 1).val = 64 + q.val; omega
  refine (pay3_apply _ _ p q).trans ?_
  show _ = half A0 A1 A2 ((((cfg4.win 3).blk t).view.emb y) 0) ((((cfg4.win 3).blk t).view.emb y) 1)
  refine Eq.trans ?_ (half_eq_right A0 A1 A2 ((((cfg4.win 3).blk t).view.emb y) 0) ((((cfg4.win 3).blk t).view.emb y) 1) q hQ).symm
  refine Finset.sum_congr rfl fun k _ => congrArg₂ (· * ·) ?_ ?_
  · exact x_read A0 t p k _ hP
  · exact w2_read A2 t (ix2 k q)

/-- WHAT POINT `t` WRITES BACK is block `t` of `G` of the arrays as the region finds them: the two column-slice stores
    are two pieces of that one function, and together they cover the buffer. -/
theorem flushed_eq (V : (c : Dev nD) → (b : Ref sig .tc) → Buf (Elt Ideal) ((c : Thread nD τ).loc b)) (c : Dev nD)
    (t : Fin cfg4.N) :
    (Gen.dat4 (F := Ideal) V c).flushed 3 t
      = ((cfg4.win 3).blk t).view.read (Elt Ideal)
          (G (V c (Pipeline.arrRef spec4 0)) (V c (Pipeline.arrRef spec4 1)) (V c (Pipeline.arrRef spec4 2))) := by
  show (cfg4.win 3).cut (grid4.coords t) ((Gen.dat4 (F := Ideal) V c).after 3 t) = _
  rw [Gen.after4_3]
  unfold Gen.out4_3
  simp only [View.ld_unit_zero (S := S2000x128) hz, View.ld_unit_zero (S := S128x64) hz]
  unfold Gen.iblk4
  funext j
  refine View.canon_apply_of_pieces
    (((cfg4.win 3).blk t).view.read (Elt Ideal)
      (G (V c (Pipeline.arrRef spec4 0)) (V c (Pipeline.arrRef spec4 1)) (V c (Pipeline.arrRef spec4 2)))) _ ?_ j
    (Gen.cover4_3 (F := Ideal) _ _ j)
  intro pc hpc x
  rcases List.mem_cons.mp hpc with rfl | hpc
  · refine right_apply _ _ _ t x (Gen.r4_3.emb x) ?_ ?_
    · show (![0, 64] : Fin 2 → Nat) 0 + 1 * (x 0).val = (x 0).val; show 0 + 1 * (x 0).val = (x 0).val; omega
    · show (![0, 64] : Fin 2 → Nat) 1 + 1 * (x 1).val = 64 + (x 1).val; show 64 + 1 * (x 1).val = 64 + (x 1).val; omega
  rcases List.mem_cons.mp hpc with rfl | hpc
  · refine left_apply _ _ _ t x (Gen.r4_2.emb x) ?_ ?_
    · show (![0, 0] : Fin 2 → Nat) 0 + 1 * (x 0).val = (x 0).val; show 0 + 1 * (x 0).val = (x 0).val; omega
    · show (![0, 0] : Fin 2 → Nat) 1 + 1 * (x 1).val = (x 1).val; show 0 + 1 * (x 1).val = (x 1).val; omega
  · exact absurd hpc List.not_mem_nil

/-- An index of the array is in point `t`'s block iff each coordinate is in the block's range on its axis. -/
theorem mem_blk (t : Fin cfg4.N) (i : S100000x128.Idx) :
    i ∈ ((cfg4.win 3).blk t).view.set ↔ ∀ a : Fin 2, win4_3.index t a * S2000x128.size a ≤ (i a).val
      ∧ (i a).val < win4_3.index t a * S2000x128.size a + S2000x128.size a := by
  show i ∈ ((View.whole main_v67).slice (win4_3.rect t)).set ↔ _
  rw [View.set_slice_whole, Rect.mem_set_unit]
  exact Iff.rfl

/-- Row `r` of the output is in the block of point `r / 2000`: the 50 blocks tile the array. -/
theorem cover (i : S100000x128.Idx) :
    ∃ t : Fin cfg4.N, (cfg4.win 3).flush t = true ∧ i ∈ ((cfg4.win 3).blk t).view.set := by
  have hi0 : (i 0).val < 100000 := (i 0).isLt
  have hi1 : (i 1).val < 128 := (i 1).isLt
  have hN : cfg4.N = 50 := Gen.N_4
  obtain ⟨t, ht⟩ : ∃ t : Fin cfg4.N, t.val = (i 0).val / 2000 := ⟨⟨(i 0).val / 2000, by rw [hN]; omega⟩, rfl⟩
  obtain ⟨-, -, -, -, -, -, e0, e1⟩ := idx_facts t
  refine ⟨t, Gen.flush4_3 t, ?_⟩
  rw [mem_blk]
  intro a
  match a with
  | ⟨0, _⟩ =>
    show win4_3.index t (0 : Fin 2) * 2000 ≤ (i 0).val ∧ (i 0).val < win4_3.index t (0 : Fin 2) * 2000 + 2000
    omega
  | ⟨1, _⟩ =>
    show win4_3.index t (1 : Fin 2) * 128 ≤ (i 1).val ∧ (i 1).val < win4_3.index t (1 : Fin 2) * 128 + 128
    omega

/-- THE OUTPUT ARRAY after the region: the two products side by side, of the arrays as the region finds them. -/
theorem final (V : (c : Dev nD) → (b : Ref sig .tc) → Buf (Elt Ideal) ((c : Thread nD τ).loc b)) (c : Dev nD) :
    (Gen.dat4 (F := Ideal) V c).arrAt 3 cfg4.N
      = G (V c (Pipeline.arrRef spec4 0)) (V c (Pipeline.arrRef spec4 1)) (V c (Pipeline.arrRef spec4 2)) :=
  (Gen.dat4 (F := Ideal) V c).arrAt_eq_of_cover 3 _ (fun t _ => flushed_eq V c t) cover

/-- The output array read at `(i, j)`, `j` a column of the left half. The arrays enter as functions on their literal
    index types, each with its equation to the region's data, so that every operation of the formula is the extended
    reals'. -/
theorem out_apply_left (V : (c : Dev nD) → (b : Ref sig .tc) → Buf (Elt Ideal) ((c : Thread nD τ).loc b)) (c : Dev nD)
    (O : S100000x128.Idx → EReal) (X : S100000x128.Idx → EReal) (W1 W2 : S128x64.Idx → EReal)
    (hO : O = (Gen.dat4 (F := Ideal) V c).arrAt 3 cfg4.N) (hX : X = V c (Pipeline.arrRef spec4 0))
    (hW1 : W1 = V c (Pipeline.arrRef spec4 1)) (hW2 : W2 = V c (Pipeline.arrRef spec4 2))
    (i : Fin 100000) (j : Fin 64) :
    O (ix2 i (⟨j.val, by omega⟩ : Fin 128)) = ∑ k : Fin 128, X (ix2 i k) * W1 (ix2 k j) := by
  subst hO hX hW1 hW2
  exact (congrFun (final V c) (ix2 i (⟨j.val, by omega⟩ : Fin 128))).trans (half_eq_left _ _ _ i _ j rfl)

/-- The output array read at `(i, j + 64)`, a column of the right half. -/
theorem out_apply_right (V : (c : Dev nD) → (b : Ref sig .tc) → Buf (Elt Ideal) ((c : Thread nD τ).loc b)) (c : Dev nD)
    (O : S100000x128.Idx → EReal) (X : S100000x128.Idx → EReal) (W1 W2 : S128x64.Idx → EReal)
    (hO : O = (Gen.dat4 (F := Ideal) V c).arrAt 3 cfg4.N) (hX : X = V c (Pipeline.arrRef spec4 0))
    (hW1 : W1 = V c (Pipeline.arrRef spec4 1)) (hW2 : W2 = V c (Pipeline.arrRef spec4 2))
    (i : Fin 100000) (j : Fin 64) :
    O (ix2 i (⟨j.val + 64, by omega⟩ : Fin 128)) = ∑ k : Fin 128, X (ix2 i k) * W2 (ix2 k j) := by
  subst hO hX hW1 hW2
  exact (congrFun (final V c) (ix2 i (⟨j.val + 64, by omega⟩ : Fin 128))).trans
    (half_eq_right _ _ _ i _ j (show j.val + 64 = 64 + j.val by omega))

end Cert.KernelIdeal.Region4

end
-- ==== Proof.Region5.lean ====
/-
  Region 5: a matrix product over the 20000 rows of its input, tiled in blocks of 2000 rows.

  Grid point `t` multiplies rows `2000·t … 2000·t + 1999` of the input by the whole weight matrix. The block it writes
  back is the restriction to those rows of ONE function of the whole arrays, the ten blocks tile the output, so the
  output array ends holding that function: at `(i, j)` it is `∑ k, x (i, k) * W (k, j)` on the extended reals, term by
  term (no finiteness is asked).
-/
import proofs.«119514_j10857677324737_2_alg».proof.Proof.Gen.KernelIdeal.Frame
import proofs.«119514_j10857677324737_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region5

open Cert.KernelIdeal Idealize.ShloMosaic Idealize.ShloMosaic.TcCoe Idealize.ShloMosaic.ValueIdx Idealize.SL.Sem
open Idealize.ShloMosaic.Pipeline (Dat)

/-- The product at entry `(i, j)`: the row of the input against the column of the weights. -/
def prod (X : S20000x128.Idx → EReal) (W : S128x64.Idx → EReal) (i : Fin 20000) (j : Fin 64) : EReal :=
  ∑ k : Fin 128, X (ix2 i k) * W (ix2 k j)

/-- The product as one function of the whole arrays, index by index. -/
abbrev G (X : S20000x128.Idx → EReal) (W : S128x64.Idx → EReal) : S20000x64.Idx → EReal :=
  fun i => prod X W (i 0) (i 1)

theorem hz : (![0, 0] : Fin 2 → Nat) = fun _ => 0 := funext fun a => by fin_cases a <;> rfl

/-- The body's arithmetic at entry `(p, q)` of a block: the product into the zero accumulator is the sum over the
    contracted axis; the cast to the same shape and the format changes are the identity on the extended reals. -/
theorem pay_apply (x0 : Vec Ideal S2000x128 .f32) (x1 : Vec Ideal S128x64 .f32) (p : Fin 2000) (q : Fin 64) :
    (Gen.k5_pay1 x0 x1 : S2000x64.Idx → EReal) (ix2 p q)
      = ∑ k : Fin 128, (x0 : S2000x128.Idx → EReal) (ix2 p k) * (x1 : S128x64.Idx → EReal) (ix2 k q) := by
  unfold Gen.k5_pay1
  refine (Cert.Lib.PlainDot.matmul_zero_apply (M := 2000) (K := 128) (N := 64) none _ _ p q).trans ?_
  refine Finset.sum_congr rfl fun k _ => congrArg₂ (· * ·) ?_ rfl
  show shapeCast S2000x128 x0 _ (ix2 p k) = x0 (ix2 p k)
  rw [shapeCast_self]

/-- The printed index maps, decided over the grid: the input's and the output's block index is the point on the row
    axis, and the weights are whole at every point. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The input's block at point `t` is rows `2000·t … 2000·t + 1999` of the array. -/
theorem x_read (A : S20000x128.Idx → EReal) (t : Fin cfg5.N) (p : Fin 2000) (k : Fin 128) (P : Fin 20000)
    (hP : P.val = 2000 * t.val + p.val) :
    (((cfg5.win 0).blk t).view.read (Elt Ideal) A : S2000x128.Idx → EReal) (ix2 p k) = A (ix2 P k) := by
  obtain ⟨e0, e1, -⟩ := idx_facts t
  show A (((cfg5.win 0).blk t).view.emb (ix2 p k)) = A (ix2 P k)
  refine congrArg A (funext fun a => Fin.ext ?_)
  match a with
  | ⟨0, _⟩ => show win5_0.index t (0 : Fin 2) * 2000 + 1 * p.val = P.val; omega
  | ⟨1, _⟩ => show win5_0.index t (1 : Fin 2) * 128 + 1 * k.val = k.val; omega

/-- The weights' block at every point is the whole array. -/
theorem w_read (A : S128x64.Idx → EReal) (t : Fin cfg5.N) (y : S128x64.Idx) :
    (((cfg5.win 1).blk t).view.read (Elt Ideal) A : S128x64.Idx → EReal) y = A y := by
  obtain ⟨-, -, e0, e1, -⟩ := idx_facts t
  show A (((cfg5.win 1).blk t).view.emb y) = A y
  refine congrArg A (funext fun a => Fin.ext ?_)
  match a with
  | ⟨0, _⟩ => show win5_1.index t (0 : Fin 2) * 128 + 1 * (y 0).val = (y 0).val; omega
  | ⟨1, _⟩ => show win5_1.index t (1 : Fin 2) * 64 + 1 * (y 1).val = (y 1).val; omega

/-- What the body computes from the two blocks at point `t`, at entry `y` of the block, is the product at row
    `2000·t + y₀`, column `y₁` of the whole arrays. -/
theorem block_apply (A0 : S20000x128.Idx → EReal) (A1 : S128x64.Idx → EReal) (t : Fin cfg5.N)
    (y : S2000x64.Idx) (P : Fin 20000) (Q : Fin 64) (hP : P.val = 2000 * t.val + (y 0).val) (hQ : Q.val = (y 1).val) :
    (Gen.k5_pay1 (((cfg5.win 0).blk t).view.read (Elt Ideal) A0) (((cfg5.win 1).blk t).view.read (Elt Ideal) A1)
        : S2000x64.Idx → EReal) y = prod A0 A1 P Q := by
  obtain ⟨p, q, rfl⟩ : ∃ (p : Fin 2000) (q : Fin 64), y = ix2 p q := ⟨y 0, y 1, eq_ix2 y⟩
  have hP' : P.val = 2000 * t.val + p.val := hP
  obtain rfl : Q = q := Fin.ext hQ
  refine (pay_apply _ _ p Q).trans ?_
  unfold prod
  refine Finset.sum_congr rfl fun k _ => congrArg₂ (· * ·) ?_ ?_
  · exact x_read A0 t p k P hP'
  · exact w_read A1 t (ix2 k Q)

/-- WHAT POINT `t` WRITES BACK is block `t` of the product of the arrays as the region finds them. -/
theorem flushed_eq (V : (c : Dev nD) → (b : Ref sig .tc) → Buf (Elt Ideal) ((c : Thread nD τ).loc b)) (c : Dev nD)
    (t : Fin cfg5.N) :
    (Gen.dat5 (F := Ideal) V c).flushed 2 t
      = ((cfg5.win 2).blk t).view.read (Elt Ideal)
          (G (V c (Pipeline.arrRef spec5 0)) (V c (Pipeline.arrRef spec5 1))) := by
  show (cfg5.win 2).cut (grid5.coords t) ((Gen.dat5 (F := Ideal) V c).after 2 t) = _
  rw [Gen.after5_2]
  unfold Gen.out5_2
  rw [View.canon_unit_zero hz]
  simp only [View.ld_unit_zero (S := S2000x128) hz, View.ld_unit_zero (S := S128x64) hz]
  unfold Gen.iblk5
  obtain ⟨-, -, -, -, e0, e1⟩ := idx_facts t
  funext j
  have hj0 : (j 0).val < 2000 := (j 0).isLt
  have hj1 : (j 1).val < 64 := (j 1).isLt
  refine block_apply _ _ t j ((((cfg5.win 2).blk t).view.emb j) 0) ((((cfg5.win 2).blk t).view.emb j) 1) ?_ ?_
  · show win5_2.index t (0 : Fin 2) * 2000 + 1 * (j 0).val = 2000 * t.val + (j 0).val; omega
  · show win5_2.index t (1 : Fin 2) * 64 + 1 * (j 1).val = (j 1).val; omega

/-- An index of the array is in point `t`'s block iff each coordinate is in the block's range on its axis. -/
theorem mem_blk (t : Fin cfg5.N) (i : S20000x64.Idx) :
    i ∈ ((cfg5.win 2).blk t).view.set ↔ ∀ a : Fin 2, win5_2.index t a * S2000x64.size a ≤ (i a).val
      ∧ (i a).val < win5_2.index t a * S2000x64.size a + S2000x64.size a := by
  show i ∈ ((View.whole main_v70).slice (win5_2.rect t)).set ↔ _
  rw [View.set_slice_whole, Rect.mem_set_unit]
  exact Iff.rfl

/-- Row `r` of the output is in the block of point `r / 2000`: the 10 blocks tile the array. -/
theorem cover (i : S20000x64.Idx) :
    ∃ t : Fin cfg5.N, (cfg5.win 2).flush t = true ∧ i ∈ ((cfg5.win 2).blk t).view.set := by
  have hi0 : (i 0).val < 20000 := (i 0).isLt
  have hi1 : (i 1).val < 64 := (i 1).isLt
  have hN : cfg5.N = 10 := Gen.N_5
  obtain ⟨t, ht⟩ : ∃ t : Fin cfg5.N, t.val = (i 0).val / 2000 := ⟨⟨(i 0).val / 2000, by rw [hN]; omega⟩, rfl⟩
  obtain ⟨-, -, -, -, e0, e1⟩ := idx_facts t
  refine ⟨t, Gen.flush5_2 t, ?_⟩
  rw [mem_blk]
  intro a
  match a with
  | ⟨0, _⟩ =>
    show win5_2.index t (0 : Fin 2) * 2000 ≤ (i 0).val ∧ (i 0).val < win5_2.index t (0 : Fin 2) * 2000 + 2000
    omega
  | ⟨1, _⟩ =>
    show win5_2.index t (1 : Fin 2) * 64 ≤ (i 1).val ∧ (i 1).val < win5_2.index t (1 : Fin 2) * 64 + 64
    omega

/-- THE OUTPUT ARRAY after the region: the product of the arrays as the region finds them, at every index. -/
theorem final (V : (c : Dev nD) → (b : Ref sig .tc) → Buf (Elt Ideal) ((c : Thread nD τ).loc b)) (c : Dev nD) :
    (Gen.dat5 (F := Ideal) V c).arrAt 2 cfg5.N
      = G (V c (Pipeline.arrRef spec5 0)) (V c (Pipeline.arrRef spec5 1)) :=
  (Gen.dat5 (F := Ideal) V c).arrAt_eq_of_cover 2 _ (fun t _ => flushed_eq V c t) cover

/-- The output array read at `(i, j)`. The arrays enter as functions on their literal index types, each with its
    equation to the region's data, so that every operation of the formula is the extended reals'. -/
theorem out_apply (V : (c : Dev nD) → (b : Ref sig .tc) → Buf (Elt Ideal) ((c : Thread nD τ).loc b)) (c : Dev nD)
    (O : S20000x64.Idx → EReal) (X : S20000x128.Idx → EReal) (W : S128x64.Idx → EReal)
    (hO : O = (Gen.dat5 (F := Ideal) V c).arrAt 2 cfg5.N) (hX : X = V c (Pipeline.arrRef spec5 0))
    (hW : W = V c (Pipeline.arrRef spec5 1)) (i : Fin 20000) (j : Fin 64) :
    O (ix2 i j) = ∑ k : Fin 128, X (ix2 i k) * W (ix2 k j) := by
  subst hO hX hW
  exact congrFun (final V c) (ix2 i j)

end Cert.KernelIdeal.Region5

end
-- ==== Proof.Region6.lean ====
/-
  Region 6: the second layer's update of the 100000 target rows, tiled in blocks of 2000 rows.

  Grid point `t` takes rows `2000·t … 2000·t + 1999` of two neighbour sums, scales each row by its own factor (a
  one-column array), adds the rows of the target features multiplied by the whole weight matrix, adds the bias row and
  takes the maximum with zero. The block it writes back is the restriction to those rows of ONE function of the whole
  arrays, the fifty blocks tile the output, so the output array ends holding that function: at `(i, j)` it is
  `max (s₁ (i, j) * r₁ (i, 0) + s₂ (i, j) * r₂ (i, 0) + ∑ k, x (i, k) * W (k, j) + b (0, j)) 0` on the extended
  reals, term by term (no finiteness is asked).
-/
import proofs.«119514_j10857677324737_2_alg».proof.Proof.Gen.KernelIdeal.Frame
import proofs.«119514_j10857677324737_2_alg».proof.Proof.LibPlainDot
import proofs.«119514_j10857677324737_2_alg».proof.Proof.ColBroadcast
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region6

open Cert.KernelIdeal Idealize.ShloMosaic Idealize.ShloMosaic.TcCoe Idealize.ShloMosaic.ValueIdx Idealize.SL.Sem
open Idealize.ShloMosaic.Pipeline (Dat)

/-- The layer at entry `(i, j)`: the two neighbour sums, each scaled by its row's factor, plus the row of the target
    features against the column of the weights, plus the bias, cut at zero. -/
def layer (X0 : S100000x64.Idx → EReal) (X1 : S100000x1.Idx → EReal) (X2 : S100000x64.Idx → EReal) (X3 : S100000x1.Idx → EReal) (X4 : S100000x128.Idx → EReal) (X5 : S128x64.Idx → EReal) (X6 : S1x64.Idx → EReal) (i : Fin 100000) (j : Fin 64) : EReal :=
  max ((((X0 (ix2 i j) * X1 (ix2 i 0)) + (X2 (ix2 i j) * X3 (ix2 i 0)))
        + (∑ k : Fin 128, X4 (ix2 i k) * X5 (ix2 k j))) + X6 (ix2 0 j)) 0

/-- The layer as one function of the whole arrays, index by index. -/
abbrev G (X0 : S100000x64.Idx → EReal) (X1 : S100000x1.Idx → EReal) (X2 : S100000x64.Idx → EReal) (X3 : S100000x1.Idx → EReal) (X4 : S100000x128.Idx → EReal) (X5 : S128x64.Idx → EReal) (X6 : S1x64.Idx → EReal) : S100000x64.Idx → EReal :=
  fun i => layer X0 X1 X2 X3 X4 X5 X6 (i 0) (i 1)

theorem hz : (![0, 0] : Fin 2 → Nat) = fun _ => 0 := funext fun a => by fin_cases a <;> rfl

/-- The body's arithmetic at entry `(p, q)` of a block: the casts to the same shape and the format changes are the
    identity, a one-column block is read at its row, the product into the zero accumulator is the sum over the
    contracted axis, the bias row is read at column `q`, the rectifier's constant is zero. -/
theorem pay_apply (x0 : Vec Ideal S2000x64 .f32) (x1 : Vec Ideal S2000x1 .f32) (x2 : Vec Ideal S2000x64 .f32) (x3 : Vec Ideal S2000x1 .f32) (x4 : Vec Ideal S2000x128 .f32) (x5 : Vec Ideal S128x64 .f32) (x6 : Vec Ideal S1x64 .f32)
    (p : Fin 2000) (q : Fin 64) :
    (Gen.k6_pay1 x0 x1 x2 x3 x4 x5 x6 : S2000x64.Idx → EReal) (ix2 p q)
      = max (((((x0 : S2000x64.Idx → EReal) (ix2 p q) * (x1 : S2000x1.Idx → EReal) (ix2 p 0)) + ((x2 : S2000x64.Idx → EReal) (ix2 p q) * (x3 : S2000x1.Idx → EReal) (ix2 p 0)))
        + (∑ k : Fin 128, (x4 : S2000x128.Idx → EReal) (ix2 p k) * (x5 : S128x64.Idx → EReal) (ix2 k q))) + (x6 : S1x64.Idx → EReal) (ix2 0 q)) 0 := by
  unfold Gen.k6_pay1
  show max ((((shapeCast S2000x64 x0 _ (ix2 p q) * broadcastTo S2000x64 (shapeCast S2000x1 x1 _) _ (ix2 p q))
        + (shapeCast S2000x64 x2 _ (ix2 p q) * broadcastTo S2000x64 (shapeCast S2000x1 x3 _) _ (ix2 p q)))
       + FloatOps.matmul (F := Ideal) dot_S2000x128_S128x64_S2000x64_1_0_0_1_n_n none _ _ _ (ix2 p q))
      + broadcastTo S2000x64 (shapeCast S1x64 x6 _) _ (ix2 p q)) (Ideal.ofBits .f32 0x00000000#32) = _
  rw [Ideal.ofBits_zero_f32]
  refine congrArg (fun z => max z 0) (congrArg₂ (· + ·) (congrArg₂ (· + ·) (congrArg₂ (· + ·)
    (congrArg₂ (· * ·) ?_ ?_) (congrArg₂ (· * ·) ?_ ?_)) ?_) ?_)
  · rw [shapeCast_self]
  · rw [shapeCast_self]
    exact Cert.Lib.ColBroadcast.broadcastTo_a1_ab_apply x1 _ p q
  · rw [shapeCast_self]
  · rw [shapeCast_self]
    exact Cert.Lib.ColBroadcast.broadcastTo_a1_ab_apply x3 _ p q
  · refine (Cert.Lib.PlainDot.matmul_zero_apply (M := 2000) (K := 128) (N := 64) none _ _ p q).trans ?_
    refine Finset.sum_congr rfl fun k _ => congrArg₂ (· * ·) ?_ ?_
    · show shapeCast S2000x128 x4 _ (ix2 p k) = x4 (ix2 p k)
      rw [shapeCast_self]
    · show shapeCast S128x64 x5 _ (ix2 k q) = x5 (ix2 k q)
      rw [shapeCast_self]
  · rw [shapeCast_self]
    exact broadcastTo_1b_ab_apply x6 _ p q

/-! The printed index maps, decided over the grid: the five row operands' and the output's block index is the point on
    the row axis; the weights and the bias are whole at every point. -/

theorem idx0 : ∀ t : Fin cfg6.N, win6_0.index t (0 : Fin 2) = t.val ∧ win6_0.index t (1 : Fin 2) = 0 :=
  (by decide +kernel : ∀ t : Fin grid6.N, _)
theorem idx1 : ∀ t : Fin cfg6.N, win6_1.index t (0 : Fin 2) = t.val ∧ win6_1.index t (1 : Fin 2) = 0 :=
  (by decide +kernel : ∀ t : Fin grid6.N, _)
theorem idx2 : ∀ t : Fin cfg6.N, win6_2.index t (0 : Fin 2) = t.val ∧ win6_2.index t (1 : Fin 2) = 0 :=
  (by decide +kernel : ∀ t : Fin grid6.N, _)
theorem idx3 : ∀ t : Fin cfg6.N, win6_3.index t (0 : Fin 2) = t.val ∧ win6_3.index t (1 : Fin 2) = 0 :=
  (by decide +kernel : ∀ t : Fin grid6.N, _)
theorem idx4 : ∀ t : Fin cfg6.N, win6_4.index t (0 : Fin 2) = t.val ∧ win6_4.index t (1 : Fin 2) = 0 :=
  (by decide +kernel : ∀ t : Fin grid6.N, _)
theorem idx5 : ∀ t : Fin cfg6.N, win6_5.index t (0 : Fin 2) = 0 ∧ win6_5.index t (1 : Fin 2) = 0 :=
  (by decide +kernel : ∀ t : Fin grid6.N, _)
theorem idx6 : ∀ t : Fin cfg6.N, win6_6.index t (0 : Fin 2) = 0 ∧ win6_6.index t (1 : Fin 2) = 0 :=
  (by decide +kernel : ∀ t : Fin grid6.N, _)
theorem idx7 : ∀ t : Fin cfg6.N, win6_7.index t (0 : Fin 2) = t.val ∧ win6_7.index t (1 : Fin 2) = 0 :=
  (by decide +kernel : ∀ t : Fin grid6.N, _)

/-- The first neighbour sum's block at point `t` is rows `2000·t … 2000·t + 1999` of the array. -/
theorem read0 (A : S100000x64.Idx → EReal) (t : Fin cfg6.N) (p : Fin 2000) (k : Fin 64) (P : Fin 100000)
    (hP : P.val = 2000 * t.val + p.val) :
    (((cfg6.win 0).blk t).view.read (Elt Ideal) A : S2000x64.Idx → EReal) (ix2 p k) = A (ix2 P k) := by
  obtain ⟨e0, e1⟩ := idx0 t
  show A (((cfg6.win 0).blk t).view.emb (ix2 p k)) = A (ix2 P k)
  refine congrArg A (funext fun a => Fin.ext ?_)
  match a with
  | ⟨0, _⟩ => show win6_0.index t (0 : Fin 2) * 2000 + 1 * p.val = P.val; omega
  | ⟨1, _⟩ => show win6_0.index t (1 : Fin 2) * 64 + 1 * k.val = k.val; omega

/-- The first scaling column's block at point `t` is rows `2000·t … 2000·t + 1999` of the array. -/
theorem read1 (A : S100000x1.Idx → EReal) (t : Fin cfg6.N) (p : Fin 2000) (k : Fin 1) (P : Fin 100000)
    (hP : P.val = 2000 * t.val + p.val) :
    (((cfg6.win 1).blk t).view.read (Elt Ideal) A : S2000x1.Idx → EReal) (ix2 p k) = A (ix2 P k) := by
  obtain ⟨e0, e1⟩ := idx1 t
  show A (((cfg6.win 1).blk t).view.emb (ix2 p k)) = A (ix2 P k)
  refine congrArg A (funext fun a => Fin.ext ?_)
  match a with
  | ⟨0, _⟩ => show win6_1.index t (0 : Fin 2) * 2000 + 1 * p.val = P.val; omega
  | ⟨1, _⟩ => show win6_1.index t (1 : Fin 2) * 1 + 1 * k.val = k.val; omega

/-- The second neighbour sum's block at point `t` is rows `2000·t … 2000·t + 1999` of the array. -/
theorem read2 (A : S100000x64.Idx → EReal) (t : Fin cfg6.N) (p : Fin 2000) (k : Fin 64) (P : Fin 100000)
    (hP : P.val = 2000 * t.val + p.val) :
    (((cfg6.win 2).blk t).view.read (Elt Ideal) A : S2000x64.Idx → EReal) (ix2 p k) = A (ix2 P k) := by
  obtain ⟨e0, e1⟩ := idx2 t
  show A (((cfg6.win 2).blk t).view.emb (ix2 p k)) = A (ix2 P k)
  refine congrArg A (funext fun a => Fin.ext ?_)
  match a with
  | ⟨0, _⟩ => show win6_2.index t (0 : Fin 2) * 2000 + 1 * p.val = P.val; omega
  | ⟨1, _⟩ => show win6_2.index t (1 : Fin 2) * 64 + 1 * k.val = k.val; omega

/-- The second scaling column's block at point `t` is rows `2000·t … 2000·t + 1999` of the array. -/
theorem read3 (A : S100000x1.Idx → EReal) (t : Fin cfg6.N) (p : Fin 2000) (k : Fin 1) (P : Fin 100000)
    (hP : P.val = 2000 * t.val + p.val) :
    (((cfg6.win 3).blk t).view.read (Elt Ideal) A : S2000x1.Idx → EReal) (ix2 p k) = A (ix2 P k) := by
  obtain ⟨e0, e1⟩ := idx3 t
  show A (((cfg6.win 3).blk t).view.emb (ix2 p k)) = A (ix2 P k)
  refine congrArg A (funext fun a => Fin.ext ?_)
  match a with
  | ⟨0, _⟩ => show win6_3.index t (0 : Fin 2) * 2000 + 1 * p.val = P.val; omega
  | ⟨1, _⟩ => show win6_3.index t (1 : Fin 2) * 1 + 1 * k.val = k.val; omega

/-- The target features's block at point `t` is rows `2000·t … 2000·t + 1999` of the array. -/
theorem read4 (A : S100000x128.Idx → EReal) (t : Fin cfg6.N) (p : Fin 2000) (k : Fin 128) (P : Fin 100000)
    (hP : P.val = 2000 * t.val + p.val) :
    (((cfg6.win 4).blk t).view.read (Elt Ideal) A : S2000x128.Idx → EReal) (ix2 p k) = A (ix2 P k) := by
  obtain ⟨e0, e1⟩ := idx4 t
  show A (((cfg6.win 4).blk t).view.emb (ix2 p k)) = A (ix2 P k)
  refine congrArg A (funext fun a => Fin.ext ?_)
  match a with
  | ⟨0, _⟩ => show win6_4.index t (0 : Fin 2) * 2000 + 1 * p.val = P.val; omega
  | ⟨1, _⟩ => show win6_4.index t (1 : Fin 2) * 128 + 1 * k.val = k.val; omega

/-- The weights's block at every point is the whole array. -/
theorem read5 (A : S128x64.Idx → EReal) (t : Fin cfg6.N) (y : S128x64.Idx) :
    (((cfg6.win 5).blk t).view.read (Elt Ideal) A : S128x64.Idx → EReal) y = A y := by
  obtain ⟨e0, e1⟩ := idx5 t
  show A (((cfg6.win 5).blk t).view.emb y) = A y
  refine congrArg A (funext fun a => Fin.ext ?_)
  match a with
  | ⟨0, _⟩ => show win6_5.index t (0 : Fin 2) * 128 + 1 * (y 0).val = (y 0).val; omega
  | ⟨1, _⟩ => show win6_5.index t (1 : Fin 2) * 64 + 1 * (y 1).val = (y 1).val; omega

/-- The bias row's block at every point is the whole array. -/
theorem read6 (A : S1x64.Idx → EReal) (t : Fin cfg6.N) (y : S1x64.Idx) :
    (((cfg6.win 6).blk t).view.read (Elt Ideal) A : S1x64.Idx → EReal) y = A y := by
  obtain ⟨e0, e1⟩ := idx6 t
  show A (((cfg6.win 6).blk t).view.emb y) = A y
  refine congrArg A (funext fun a => Fin.ext ?_)
  match a with
  | ⟨0, _⟩ => show win6_6.index t (0 : Fin 2) * 1 + 1 * (y 0).val = (y 0).val; omega
  | ⟨1, _⟩ => show win6_6.index t (1 : Fin 2) * 64 + 1 * (y 1).val = (y 1).val; omega

/-- What the body computes from the seven blocks at point `t`, at entry `y` of the block, is the layer at row
    `2000·t + y₀`, column `y₁` of the whole arrays. -/
theorem block_apply (A0 : S100000x64.Idx → EReal) (A1 : S100000x1.Idx → EReal) (A2 : S100000x64.Idx → EReal) (A3 : S100000x1.Idx → EReal) (A4 : S100000x128.Idx → EReal) (A5 : S128x64.Idx → EReal) (A6 : S1x64.Idx → EReal) (t : Fin cfg6.N)
    (y : S2000x64.Idx) (P : Fin 100000) (Q : Fin 64) (hP : P.val = 2000 * t.val + (y 0).val) (hQ : Q.val = (y 1).val) :
    (Gen.k6_pay1 (((cfg6.win 0).blk t).view.read (Elt Ideal) A0)
        (((cfg6.win 1).blk t).view.read (Elt Ideal) A1)
        (((cfg6.win 2).blk t).view.read (Elt Ideal) A2)
        (((cfg6.win 3).blk t).view.read (Elt Ideal) A3)
        (((cfg6.win 4).blk t).view.read (Elt Ideal) A4)
        (((cfg6.win 5).blk t).view.read (Elt Ideal) A5)
        (((cfg6.win 6).blk t).view.read (Elt Ideal) A6)
        : S2000x64.Idx → EReal) y = layer A0 A1 A2 A3 A4 A5 A6 P Q := by
  obtain ⟨p, q, rfl⟩ : ∃ (p : Fin 2000) (q : Fin 64), y = ix2 p q := ⟨y 0, y 1, eq_ix2 y⟩
  have hP' : P.val = 2000 * t.val + p.val := hP
  obtain rfl : Q = q := Fin.ext hQ
  refine (pay_apply _ _ _ _ _ _ _ p Q).trans ?_
  unfold layer
  refine congrArg (fun z => max z 0) (congrArg₂ (· + ·) (congrArg₂ (· + ·) (congrArg₂ (· + ·)
    (congrArg₂ (· * ·) ?_ ?_) (congrArg₂ (· * ·) ?_ ?_))
    (Finset.sum_congr rfl fun k _ => congrArg₂ (· * ·) ?_ ?_)) ?_)
  · exact read0 A0 t p Q P hP'
  · exact read1 A1 t p 0 P hP'
  · exact read2 A2 t p Q P hP'
  · exact read3 A3 t p 0 P hP'
  · exact read4 A4 t p k P hP'
  · exact read5 A5 t (ix2 k Q)
  · exact read6 A6 t (ix2 0 Q)

/-- WHAT POINT `t` WRITES BACK is block `t` of `G` of the arrays as the region finds them. -/
theorem flushed_eq (V : (c : Dev nD) → (b : Ref sig .tc) → Buf (Elt Ideal) ((c : Thread nD τ).loc b)) (c : Dev nD)
    (t : Fin cfg6.N) :
    (Gen.dat6 (F := Ideal) V c).flushed 7 t
      = ((cfg6.win 7).blk t).view.read (Elt Ideal) (G (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6))) := by
  show (cfg6.win 7).cut (grid6.coords t) ((Gen.dat6 (F := Ideal) V c).after 7 t) = _
  rw [Gen.after6_7]
  unfold Gen.out6_7
  rw [View.canon_unit_zero hz]
  simp only [View.ld_unit_zero (S := S2000x64) hz, View.ld_unit_zero (S := S2000x1) hz, View.ld_unit_zero (S := S2000x128) hz, View.ld_unit_zero (S := S128x64) hz, View.ld_unit_zero (S := S1x64) hz]
  unfold Gen.iblk6
  obtain ⟨e0, e1⟩ := idx7 t
  funext j
  have hj0 : (j 0).val < 2000 := (j 0).isLt
  have hj1 : (j 1).val < 64 := (j 1).isLt
  refine block_apply _ _ _ _ _ _ _ t j ((((cfg6.win 7).blk t).view.emb j) 0) ((((cfg6.win 7).blk t).view.emb j) 1) ?_ ?_
  · show win6_7.index t (0 : Fin 2) * 2000 + 1 * (j 0).val = 2000 * t.val + (j 0).val; omega
  · show win6_7.index t (1 : Fin 2) * 64 + 1 * (j 1).val = (j 1).val; omega

/-- An index of the array is in point `t`'s block iff each coordinate is in the block's range on its axis. -/
theorem mem_blk (t : Fin cfg6.N) (i : S100000x64.Idx) :
    i ∈ ((cfg6.win 7).blk t).view.set ↔ ∀ a : Fin 2, win6_7.index t a * S2000x64.size a ≤ (i a).val
      ∧ (i a).val < win6_7.index t a * S2000x64.size a + S2000x64.size a := by
  show i ∈ ((View.whole main_v104).slice (win6_7.rect t)).set ↔ _
  rw [View.set_slice_whole, Rect.mem_set_unit]
  exact Iff.rfl

/-- Row `r` of the output is in the block of point `r / 2000`: the 50 blocks tile the array. -/
theorem cover (i : S100000x64.Idx) :
    ∃ t : Fin cfg6.N, (cfg6.win 7).flush t = true ∧ i ∈ ((cfg6.win 7).blk t).view.set := by
  have hi0 : (i 0).val < 100000 := (i 0).isLt
  have hi1 : (i 1).val < 64 := (i 1).isLt
  have hN : cfg6.N = 50 := Gen.N_6
  obtain ⟨t, ht⟩ : ∃ t : Fin cfg6.N, t.val = (i 0).val / 2000 := ⟨⟨(i 0).val / 2000, by rw [hN]; omega⟩, rfl⟩
  obtain ⟨e0, e1⟩ := idx7 t
  refine ⟨t, Gen.flush6_7 t, ?_⟩
  rw [mem_blk]
  intro a
  match a with
  | ⟨0, _⟩ =>
    show win6_7.index t (0 : Fin 2) * 2000 ≤ (i 0).val ∧ (i 0).val < win6_7.index t (0 : Fin 2) * 2000 + 2000
    omega
  | ⟨1, _⟩ =>
    show win6_7.index t (1 : Fin 2) * 64 ≤ (i 1).val ∧ (i 1).val < win6_7.index t (1 : Fin 2) * 64 + 64
    omega

/-- THE OUTPUT ARRAY after the region: `G` of the arrays as the region finds them, at every index. -/
theorem final (V : (c : Dev nD) → (b : Ref sig .tc) → Buf (Elt Ideal) ((c : Thread nD τ).loc b)) (c : Dev nD) :
    (Gen.dat6 (F := Ideal) V c).arrAt 7 cfg6.N = G (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) :=
  (Gen.dat6 (F := Ideal) V c).arrAt_eq_of_cover 7 _ (fun t _ => flushed_eq V c t) cover

/-- The output array read at `(i, j)`. The arrays enter as functions on their literal index types, each with its
    equation to the region's data, so that every operation of the formula is the extended reals'. -/
theorem out_apply (V : (c : Dev nD) → (b : Ref sig .tc) → Buf (Elt Ideal) ((c : Thread nD τ).loc b)) (c : Dev nD)
    (O : S100000x64.Idx → EReal) (X0 : S100000x64.Idx → EReal) (X1 : S100000x1.Idx → EReal) (X2 : S100000x64.Idx → EReal) (X3 : S100000x1.Idx → EReal) (X4 : S100000x128.Idx → EReal) (X5 : S128x64.Idx → EReal) (X6 : S1x64.Idx → EReal)
    (hO : O = (Gen.dat6 (F := Ideal) V c).arrAt 7 cfg6.N)
    (h0 : X0 = V c (Pipeline.arrRef spec6 0)) (h1 : X1 = V c (Pipeline.arrRef spec6 1)) (h2 : X2 = V c (Pipeline.arrRef spec6 2)) (h3 : X3 = V c (Pipeline.arrRef spec6 3)) (h4 : X4 = V c (Pipeline.arrRef spec6 4)) (h5 : X5 = V c (Pipeline.arrRef spec6 5)) (h6 : X6 = V c (Pipeline.arrRef spec6 6))
    (i : Fin 100000) (j : Fin 64) :
    O (ix2 i j) = max ((((X0 (ix2 i j) * X1 (ix2 i 0)) + (X2 (ix2 i j) * X3 (ix2 i 0)))
        + (∑ k : Fin 128, X4 (ix2 i k) * X5 (ix2 k j))) + X6 (ix2 0 j)) 0 := by
  subst hO h0 h1 h2 h3 h4 h5 h6
  exact congrFun (final V c) (ix2 i j)

end Cert.KernelIdeal.Region6

end
-- ==== Proof.Region7.lean ====
/-
  Region 7: the second layer's update of the 20000 author rows, tiled in blocks of 2000 rows.

  Grid point `t` takes rows `2000·t … 2000·t + 1999` of the aggregated sum, scales each row by its reciprocal degree
  (a column broadcast along the row), adds the product of the same rows of the destination features with the whole
  weight matrix, adds the bias row and takes the maximum with zero. The block it writes back is the restriction to
  those rows of ONE function of the whole arrays, the ten blocks tile the output, so the output array ends holding
  that function: at `(i, j)` it is `max (((s (i, j) * d (i, 0)) + ∑ k, x (i, k) * W (k, j)) + b (0, j)) 0` on the extended
  reals, term by term (no finiteness is asked).
-/
import proofs.«119514_j10857677324737_2_alg».proof.Proof.Gen.KernelIdeal.Frame
import proofs.«119514_j10857677324737_2_alg».proof.Proof.LibPlainDot
import proofs.«119514_j10857677324737_2_alg».proof.Proof.ColBroadcast
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region7

open Cert.KernelIdeal Idealize.ShloMosaic Idealize.ShloMosaic.TcCoe Idealize.ShloMosaic.ValueIdx Idealize.SL.Sem
open Idealize.ShloMosaic.Pipeline (Dat)

/-- The update at entry `(i, j)`: the aggregated sum scaled by the row's reciprocal degree, plus the row of the
    destination features against the column of the weights, plus the bias, cut at zero. -/
def upd (S : S20000x64.Idx → EReal) (D : S20000x1.Idx → EReal) (X : S20000x128.Idx → EReal) (W : S128x64.Idx → EReal)
    (b : S1x64.Idx → EReal) (i : Fin 20000) (j : Fin 64) : EReal :=
  max (((S (ix2 i j) * D (ix2 i 0)) + (∑ k : Fin 128, X (ix2 i k) * W (ix2 k j))) + b (ix2 0 j)) 0

/-- The update as one function of the whole arrays, index by index. -/
abbrev G (S : S20000x64.Idx → EReal) (D : S20000x1.Idx → EReal) (X : S20000x128.Idx → EReal) (W : S128x64.Idx → EReal)
    (b : S1x64.Idx → EReal) : S20000x64.Idx → EReal :=
  fun i => upd S D X W b (i 0) (i 1)

theorem hz : (![0, 0] : Fin 2 → Nat) = fun _ => 0 := funext fun a => by fin_cases a <;> rfl

/-- The body's arithmetic at entry `(p, q)` of a block: the degree column is read at row `p`, the product into the
    zero accumulator is the sum over the contracted axis, the bias row is read at column `q`, the rectifier's constant
    is zero; the casts to the same shape and the format changes are the identity on the extended reals. -/
theorem pay_apply (x0 : Vec Ideal S2000x64 .f32) (x1 : Vec Ideal S2000x1 .f32) (x2 : Vec Ideal S2000x128 .f32)
    (x3 : Vec Ideal S128x64 .f32) (x4 : Vec Ideal S1x64 .f32) (p : Fin 2000) (q : Fin 64) :
    (Gen.k7_pay1 x0 x1 x2 x3 x4 : S2000x64.Idx → EReal) (ix2 p q)
      = max ((((x0 : S2000x64.Idx → EReal) (ix2 p q) * (x1 : S2000x1.Idx → EReal) (ix2 p 0))
            + (∑ k : Fin 128, (x2 : S2000x128.Idx → EReal) (ix2 p k) * (x3 : S128x64.Idx → EReal) (ix2 k q)))
          + (x4 : S1x64.Idx → EReal) (ix2 0 q)) 0 := by
  unfold Gen.k7_pay1
  show max (((shapeCast S2000x64 x0 _ (ix2 p q) * broadcastTo S2000x64 (shapeCast S2000x1 x1 _) _ (ix2 p q))
        + FloatOps.matmul (F := Ideal) dot_S2000x128_S128x64_S2000x64_1_0_0_1_n_n none _ _ _ (ix2 p q))
      + broadcastTo S2000x64 (shapeCast S1x64 x4 _) _ (ix2 p q)) (Ideal.ofBits .f32 0x00000000#32) = _
  rw [Ideal.ofBits_zero_f32]
  refine congrArg (fun z => max z 0) (congrArg₂ (· + ·) (congrArg₂ (· + ·) (congrArg₂ (· * ·) ?_ ?_) ?_) ?_)
  · rw [shapeCast_self]
  · rw [shapeCast_self]
    exact Cert.Lib.ColBroadcast.broadcastTo_a1_ab_apply x1 _ p q
  · refine (Cert.Lib.PlainDot.matmul_zero_apply (M := 2000) (K := 128) (N := 64) none _ _ p q).trans ?_
    refine Finset.sum_congr rfl fun k _ => congrArg₂ (· * ·) ?_ rfl
    show shapeCast S2000x128 x2 _ (ix2 p k) = x2 (ix2 p k)
    rw [shapeCast_self]
  · rw [shapeCast_self]
    exact broadcastTo_1b_ab_apply x4 _ p q

/-! The printed index maps, decided over the grid: the three row-tiled inputs' and the output's block index is the
    point on the row axis, and the weights and the bias are whole at every point. -/

theorem idx0 : ∀ t : Fin cfg7.N, win7_0.index t (0 : Fin 2) = t.val ∧ win7_0.index t (1 : Fin 2) = 0 :=
  (by decide +kernel : ∀ t : Fin grid7.N, _)
theorem idx1 : ∀ t : Fin cfg7.N, win7_1.index t (0 : Fin 2) = t.val ∧ win7_1.index t (1 : Fin 2) = 0 :=
  (by decide +kernel : ∀ t : Fin grid7.N, _)
theorem idx2 : ∀ t : Fin cfg7.N, win7_2.index t (0 : Fin 2) = t.val ∧ win7_2.index t (1 : Fin 2) = 0 :=
  (by decide +kernel : ∀ t : Fin grid7.N, _)
theorem idx3 : ∀ t : Fin cfg7.N, win7_3.index t (0 : Fin 2) = 0 ∧ win7_3.index t (1 : Fin 2) = 0 :=
  (by decide +kernel : ∀ t : Fin grid7.N, _)
theorem idx4 : ∀ t : Fin cfg7.N, win7_4.index t (0 : Fin 2) = 0 ∧ win7_4.index t (1 : Fin 2) = 0 :=
  (by decide +kernel : ∀ t : Fin grid7.N, _)
theorem idx5 : ∀ t : Fin cfg7.N, win7_5.index t (0 : Fin 2) = t.val ∧ win7_5.index t (1 : Fin 2) = 0 :=
  (by decide +kernel : ∀ t : Fin grid7.N, _)

/-- The aggregated sum's block at point `t` is rows `2000·t … 2000·t + 1999` of the array. -/
theorem s_read (A : S20000x64.Idx → EReal) (t : Fin cfg7.N) (p : Fin 2000) (q : Fin 64) (P : Fin 20000)
    (hP : P.val = 2000 * t.val + p.val) :
    (((cfg7.win 0).blk t).view.read (Elt Ideal) A : S2000x64.Idx → EReal) (ix2 p q) = A (ix2 P q) := by
  obtain ⟨e0, e1⟩ := idx0 t
  show A (((cfg7.win 0).blk t).view.emb (ix2 p q)) = A (ix2 P q)
  refine congrArg A (funext fun a => Fin.ext ?_)
  match a with
  | ⟨0, _⟩ => show win7_0.index t (0 : Fin 2) * 2000 + 1 * p.val = P.val; omega
  | ⟨1, _⟩ => show win7_0.index t (1 : Fin 2) * 64 + 1 * q.val = q.val; omega

/-- The degree column's block at point `t` is rows `2000·t … 2000·t + 1999` of the column. -/
theorem d_read (A : S20000x1.Idx → EReal) (t : Fin cfg7.N) (p : Fin 2000) (z : Fin 1) (P : Fin 20000)
    (hP : P.val = 2000 * t.val + p.val) :
    (((cfg7.win 1).blk t).view.read (Elt Ideal) A : S2000x1.Idx → EReal) (ix2 p z) = A (ix2 P z) := by
  obtain ⟨e0, e1⟩ := idx1 t
  show A (((cfg7.win 1).blk t).view.emb (ix2 p z)) = A (ix2 P z)
  refine congrArg A (funext fun a => Fin.ext ?_)
  match a with
  | ⟨0, _⟩ => show win7_1.index t (0 : Fin 2) * 2000 + 1 * p.val = P.val; omega
  | ⟨1, _⟩ => show win7_1.index t (1 : Fin 2) * 1 + 1 * z.val = z.val; omega

/-- The destination features' block at point `t` is rows `2000·t … 2000·t + 1999` of the array. -/
theorem x_read (A : S20000x128.Idx → EReal) (t : Fin cfg7.N) (p : Fin 2000) (k : Fin 128) (P : Fin 20000)
    (hP : P.val = 2000 * t.val + p.val) :
    (((cfg7.win 2).blk t).view.read (Elt Ideal) A : S2000x128.Idx → EReal) (ix2 p k) = A (ix2 P k) := by
  obtain ⟨e0, e1⟩ := idx2 t
  show A (((cfg7.win 2).blk t).view.emb (ix2 p k)) = A (ix2 P k)
  refine congrArg A (funext fun a => Fin.ext ?_)
  match a with
  | ⟨0, _⟩ => show win7_2.index t (0 : Fin 2) * 2000 + 1 * p.val = P.val; omega
  | ⟨1, _⟩ => show win7_2.index t (1 : Fin 2) * 128 + 1 * k.val = k.val; omega

/-- The weights' block at every point is the whole array. -/
theorem w_read (A : S128x64.Idx → EReal) (t : Fin cfg7.N) (y : S128x64.Idx) :
    (((cfg7.win 3).blk t).view.read (Elt Ideal) A : S128x64.Idx → EReal) y = A y := by
  obtain ⟨e0, e1⟩ := idx3 t
  show A (((cfg7.win 3).blk t).view.emb y) = A y
  refine congrArg A (funext fun a => Fin.ext ?_)
  match a with
  | ⟨0, _⟩ => show win7_3.index t (0 : Fin 2) * 128 + 1 * (y 0).val = (y 0).val; omega
  | ⟨1, _⟩ => show win7_3.index t (1 : Fin 2) * 64 + 1 * (y 1).val = (y 1).val; omega

/-- The bias row's block at every point is the whole row. -/
theorem b_read (A : S1x64.Idx → EReal) (t : Fin cfg7.N) (y : S1x64.Idx) :
    (((cfg7.win 4).blk t).view.read (Elt Ideal) A : S1x64.Idx → EReal) y = A y := by
  obtain ⟨e0, e1⟩ := idx4 t
  show A (((cfg7.win 4).blk t).view.emb y) = A y
  refine congrArg A (funext fun a => Fin.ext ?_)
  match a with
  | ⟨0, _⟩ => show win7_4.index t (0 : Fin 2) * 1 + 1 * (y 0).val = (y 0).val; omega
  | ⟨1, _⟩ => show win7_4.index t (1 : Fin 2) * 64 + 1 * (y 1).val = (y 1).val; omega

/-- What the body computes from the five blocks at point `t`, at entry `y` of the block, is the update at row
    `2000·t + y₀`, column `y₁` of the whole arrays. -/
theorem block_apply (A0 : S20000x64.Idx → EReal) (A1 : S20000x1.Idx → EReal) (A2 : S20000x128.Idx → EReal)
    (A3 : S128x64.Idx → EReal) (A4 : S1x64.Idx → EReal) (t : Fin cfg7.N)
    (y : S2000x64.Idx) (P : Fin 20000) (Q : Fin 64) (hP : P.val = 2000 * t.val + (y 0).val) (hQ : Q.val = (y 1).val) :
    (Gen.k7_pay1 (((cfg7.win 0).blk t).view.read (Elt Ideal) A0) (((cfg7.win 1).blk t).view.read (Elt Ideal) A1)
        (((cfg7.win 2).blk t).view.read (Elt Ideal) A2) (((cfg7.win 3).blk t).view.read (Elt Ideal) A3)
        (((cfg7.win 4).blk t).view.read (Elt Ideal) A4) : S2000x64.Idx → EReal) y = upd A0 A1 A2 A3 A4 P Q := by
  obtain ⟨p, q, rfl⟩ : ∃ (p : Fin 2000) (q : Fin 64), y = ix2 p q := ⟨y 0, y 1, eq_ix2 y⟩
  have hP' : P.val = 2000 * t.val + p.val := hP
  obtain rfl : Q = q := Fin.ext hQ
  refine (pay_apply _ _ _ _ _ p Q).trans ?_
  unfold upd
  refine congrArg (fun z => max z 0) (congrArg₂ (· + ·) (congrArg₂ (· + ·) (congrArg₂ (· * ·) ?_ ?_)
    (Finset.sum_congr rfl fun k _ => congrArg₂ (· * ·) ?_ ?_)) ?_)
  · exact s_read A0 t p Q P hP'
  · exact d_read A1 t p 0 P hP'
  · exact x_read A2 t p k P hP'
  · exact w_read A3 t (ix2 k Q)
  · exact b_read A4 t (ix2 0 Q)

/-- WHAT POINT `t` WRITES BACK is block `t` of the update of the arrays as the region finds them. -/
theorem flushed_eq (V : (c : Dev nD) → (b : Ref sig .tc) → Buf (Elt Ideal) ((c : Thread nD τ).loc b)) (c : Dev nD)
    (t : Fin cfg7.N) :
    (Gen.dat7 (F := Ideal) V c).flushed 5 t
      = ((cfg7.win 5).blk t).view.read (Elt Ideal)
          (G (V c (Pipeline.arrRef spec7 0)) (V c (Pipeline.arrRef spec7 1)) (V c (Pipeline.arrRef spec7 2))
            (V c (Pipeline.arrRef spec7 3)) (V c (Pipeline.arrRef spec7 4))) := by
  show (cfg7.win 5).cut (grid7.coords t) ((Gen.dat7 (F := Ideal) V c).after 5 t) = _
  rw [Gen.after7_5]
  unfold Gen.out7_5
  rw [View.canon_unit_zero hz]
  simp only [View.ld_unit_zero (S := S2000x64) hz, View.ld_unit_zero (S := S2000x1) hz, View.ld_unit_zero (S := S2000x128) hz,
    View.ld_unit_zero (S := S128x64) hz, View.ld_unit_zero (S := S1x64) hz]
  unfold Gen.iblk7
  obtain ⟨e0, e1⟩ := idx5 t
  funext j
  have hj0 : (j 0).val < 2000 := (j 0).isLt
  have hj1 : (j 1).val < 64 := (j 1).isLt
  refine block_apply _ _ _ _ _ t j ((((cfg7.win 5).blk t).view.emb j) 0) ((((cfg7.win 5).blk t).view.emb j) 1) ?_ ?_
  · show win7_5.index t (0 : Fin 2) * 2000 + 1 * (j 0).val = 2000 * t.val + (j 0).val; omega
  · show win7_5.index t (1 : Fin 2) * 64 + 1 * (j 1).val = (j 1).val; omega

/-- An index of the array is in point `t`'s block iff each coordinate is in the block's range on its axis. -/
theorem mem_blk (t : Fin cfg7.N) (i : S20000x64.Idx) :
    i ∈ ((cfg7.win 5).blk t).view.set ↔ ∀ a : Fin 2, win7_5.index t a * S2000x64.size a ≤ (i a).val
      ∧ (i a).val < win7_5.index t a * S2000x64.size a + S2000x64.size a := by
  show i ∈ ((View.whole main_v106).slice (win7_5.rect t)).set ↔ _
  rw [View.set_slice_whole, Rect.mem_set_unit]
  exact Iff.rfl

/-- Row `r` of the output is in the block of point `r / 2000`: the 10 blocks tile the array. -/
theorem cover (i : S20000x64.Idx) :
    ∃ t : Fin cfg7.N, (cfg7.win 5).flush t = true ∧ i ∈ ((cfg7.win 5).blk t).view.set := by
  have hi0 : (i 0).val < 20000 := (i 0).isLt
  have hi1 : (i 1).val < 64 := (i 1).isLt
  have hN : cfg7.N = 10 := Gen.N_7
  obtain ⟨t, ht⟩ : ∃ t : Fin cfg7.N, t.val = (i 0).val / 2000 := ⟨⟨(i 0).val / 2000, by rw [hN]; omega⟩, rfl⟩
  obtain ⟨e0, e1⟩ := idx5 t
  refine ⟨t, Gen.flush7_5 t, ?_⟩
  rw [mem_blk]
  intro a
  match a with
  | ⟨0, _⟩ =>
    show win7_5.index t (0 : Fin 2) * 2000 ≤ (i 0).val ∧ (i 0).val < win7_5.index t (0 : Fin 2) * 2000 + 2000
    omega
  | ⟨1, _⟩ =>
    show win7_5.index t (1 : Fin 2) * 64 ≤ (i 1).val ∧ (i 1).val < win7_5.index t (1 : Fin 2) * 64 + 64
    omega

/-- THE OUTPUT ARRAY after the region: the update of the arrays as the region finds them, at every index. -/
theorem final (V : (c : Dev nD) → (b : Ref sig .tc) → Buf (Elt Ideal) ((c : Thread nD τ).loc b)) (c : Dev nD) :
    (Gen.dat7 (F := Ideal) V c).arrAt 5 cfg7.N
      = G (V c (Pipeline.arrRef spec7 0)) (V c (Pipeline.arrRef spec7 1)) (V c (Pipeline.arrRef spec7 2))
          (V c (Pipeline.arrRef spec7 3)) (V c (Pipeline.arrRef spec7 4)) :=
  (Gen.dat7 (F := Ideal) V c).arrAt_eq_of_cover 5 _ (fun t _ => flushed_eq V c t) cover

/-- The output array read at `(i, j)`. The arrays enter as functions on their literal index types, each with its
    equation to the region's data, so that every operation of the formula is the extended reals'. -/
theorem out_apply (V : (c : Dev nD) → (b : Ref sig .tc) → Buf (Elt Ideal) ((c : Thread nD τ).loc b)) (c : Dev nD)
    (O : S20000x64.Idx → EReal) (X0 : S20000x64.Idx → EReal) (X1 : S20000x1.Idx → EReal) (X2 : S20000x128.Idx → EReal)
    (X3 : S128x64.Idx → EReal) (X4 : S1x64.Idx → EReal)
    (hO : O = (Gen.dat7 (F := Ideal) V c).arrAt 5 cfg7.N) (h0 : X0 = V c (Pipeline.arrRef spec7 0))
    (h1 : X1 = V c (Pipeline.arrRef spec7 1)) (h2 : X2 = V c (Pipeline.arrRef spec7 2))
    (h3 : X3 = V c (Pipeline.arrRef spec7 3)) (h4 : X4 = V c (Pipeline.arrRef spec7 4))
    (i : Fin 20000) (j : Fin 64) :
    O (ix2 i j) = max (((X0 (ix2 i j) * X1 (ix2 i 0)) + (∑ k : Fin 128, X2 (ix2 i k) * X3 (ix2 k j))) + X4 (ix2 0 j)) 0 := by
  subst hO h0 h1 h2 h3 h4
  exact congrFun (final V c) (ix2 i j)

end Cert.KernelIdeal.Region7

end
-- ==== Proof.LibWrittenRefs.lean ====
/-
  A straight line of host operations each of which writes exactly one buffer: when the buffers written, in order,
  are the references of a list `W`, a reference outside `W` is written by no operation of the line, and so keeps its
  contents across the line. The hypothesis is one equation between two lists (the operations' written sets against the
  singletons of `W`), which for a literal line holds by unfolding; membership in `W` is then decided over references alone.
-/
import Idealize.ShloMosaic.Lib.StableHlo.Run

namespace Idealize.ShloMosaic.StableHlo

variable {τ : Topo} {sig : RefSig} {Val : EltTy → Type}

/-- Every operation of a line whose written sets are, in order, the singletons of the references `W` writes only
    references of `W`. -/
theorem writes_sub_of_map_eq :
    ∀ (ops : List (HloOp τ sig Val)) (W : List (Ref sig .tc)),
      ops.map (fun op => op.writes) = W.map (fun r => ({Proc.devRef (τ := τ) .tc r} : Finset (DevRef τ sig))) →
      ∀ op ∈ ops, op.writes ⊆ (W.map (Proc.devRef (τ := τ) .tc)).toFinset
  | [], _, _ => fun _ hop => nomatch hop
  | _ :: _, [], h => nomatch h
  | o :: os, r :: W', h => by
    simp only [List.map_cons, List.cons.injEq] at h
    intro op hop
    rcases List.mem_cons.mp hop with rfl | hop
    · rw [h.1]
      intro b hb
      rw [Finset.mem_singleton] at hb
      subst hb
      exact List.mem_toFinset.mpr (List.mem_map.mpr ⟨r, List.mem_cons_self, rfl⟩)
    · refine (writes_sub_of_map_eq os W' h.2 op hop).trans fun b hb => ?_
      obtain ⟨y, hy, he⟩ := List.mem_map.mp (List.mem_toFinset.mp hb)
      exact List.mem_toFinset.mpr (List.mem_map.mpr ⟨y, List.mem_cons_of_mem _ hy, he⟩)

/-- No operation of such a line writes a reference outside `W`. -/
theorem not_mem_writes_of_map_eq {ops : List (HloOp τ sig Val)} {W : List (Ref sig .tc)}
    (h : ops.map (fun op => op.writes) = W.map (fun r => ({Proc.devRef (τ := τ) .tc r} : Finset (DevRef τ sig))))
    {r : Ref sig .tc} (hr : r ∉ W) {op : HloOp τ sig Val} (hop : op ∈ ops) : Proc.devRef (τ := τ) .tc r ∉ op.writes := fun hw => by
  obtain ⟨y, hy, he⟩ := List.mem_map.mp (List.mem_toFinset.mp (writes_sub_of_map_eq ops W h op hop hw))
  exact hr (Proc.devRef_injective _ he ▸ hy)

/-- A reference outside `W` holds after such a line what it held before it. -/
theorem after_of_map_writes_eq {ops : List (HloOp τ sig Val)} {W : List (Ref sig .tc)}
    (h : ops.map (fun op => op.writes) = W.map (fun r => ({Proc.devRef (τ := τ) .tc r} : Finset (DevRef τ sig))))
    (V : Valuation τ sig Val) {r : Ref sig .tc} (hr : r ∉ W) :
    after ops V (Proc.devRef .tc r) = V (Proc.devRef .tc r) :=
  after_of_forall_not_mem ops V fun _ hop => not_mem_writes_of_map_eq h hr hop

end Idealize.ShloMosaic.StableHlo
-- ==== Proof.LibRowGather.lean ====
/-
  Rows of a matrix taken and added by an index column, read at an entry.

  `x[idx]` of a matrix `x : [N, C]` at an integer column `idx : [R, 1]` lowers to a gather with offset axis 1, collapsed
  slice axis 0, start index map `[0]`, index vector axis 1 and slice sizes `[1, C]`: result entry `(e, f)` is `x` at row
  `idx[e, 0]`, read as a signed integer and clamped into `[0, N − 1]`, column `f` (`rowGather_apply`); for a vector
  `x : [N]` the same with no offset axis (`vecGather_apply`). The accumulating scatter with update window axis 1,
  inserted window axis 0, scatter-dims-to-operand-dims `[0]` and index vector axis 1 adds update row `e` onto row
  `idx[e, 0]`, read signed and NOT clamped, of an `[N, C]` operand, and drops it when that row is outside: an update
  entry `(e, f)` lands on operand entry `i` only if `idx[e, 0]` is the row of `i` (`rowScatter_row_of_hit`).
-/
import Idealize.ShloMosaic.Lib.ValueIdx

noncomputable section

namespace Cert.Lib.Rows

open Idealize.ShloMosaic Idealize.ShloMosaic.ValueIdx

section Gather
variable {α : Type}

/-- The dimension numbers of taking rows of an `[N, C]` matrix at an index column `[R, 1]`. -/
abbrev rowGatherDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start index names: read signed, clamped into `[0, N − 1]`. -/
def clampRow {w : Nat} (N : Nat) (hN : 0 < N) (v : BitVec w) : Fin N := ⟨min v.toInt.toNat (N - 1), by omega⟩

/-- Rows taken from a matrix, at entry `(e, f)`: the matrix at the clamped row `idx[e, 0]`, column `f`. -/
theorem rowGather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (f : Fin C) :
    Host.gather (rowGatherDims N R C wf) x idx (ix2 e f) = x (ix2 (clampRow N hN (idx (ix2 e 0))) f) := by
  unfold Host.gather
  congr 1
  funext a
  refine Fin.ext ?_
  match a with
  | ⟨0, _⟩ =>
    show (rowGatherDims N R C wf).start (ix2 e f) idx 0 + (rowGatherDims N R C wf).batchCoord (ix2 e f) 0
      + (rowGatherDims N R C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e f) ⟨List.idxOf (0 : Fin 2) (rowGatherDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N R C wf).start (ix2 e f) idx 1 + (rowGatherDims N R C wf).batchCoord (ix2 e f) 1
      + (rowGatherDims N R C wf).offCoord (ix2 e f) 1 = _
    rw [GatherDims.batchCoord_eq_zero _ _ _ List.not_mem_nil]
    unfold GatherDims.start
    rw [dif_neg (show ¬ (1 : Fin 2) ∈ ([0] : List (Fin 2)) by decide)]
    simp only [Nat.add_zero, Nat.zero_add]
    rfl

/-- The dimension numbers of taking entries of a vector `[N]` at an index column `[R, 1]`. -/
abbrev vecGatherDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entries taken from a vector, at `e`: the vector at the clamped `idx[e, 0]`. -/
theorem vecGather_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e) = x (ix1 (clampRow N hN (idx (ix2 e 0)))) := by
  unfold Host.gather
  congr 1
  funext a
  obtain rfl : a = 0 := Subsingleton.elim _ _
  refine Fin.ext ?_
  show (vecGatherDims N R wf).start (ix1 e) idx 0 + (vecGatherDims N R wf).batchCoord (ix1 e) 0
    + (vecGatherDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 e) ⟨List.idxOf (0 : Fin 1) (vecGatherDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

section Scatter

/-- The dimension numbers of adding update rows `[R, C]` onto the rows of an `[N, C]` operand that an index column
    `[R, 1]` names. -/
abbrev rowScatterDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- An update entry `(e, f)` that lands on operand entry `i` has its start index `idx[e, 0]`, read signed, equal to
    the row of `i`. -/
theorem rowScatter_row_of_hit {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (i : (⟨2, ![N, C]⟩ : Shape).Idx)
    (h : (rowScatterDims N R C wf).resultIdx? j idx = some i) :
    (idx (ix2 (j 0) 0)).toInt = ((i 0).val : Int) := by
  unfold ScatterDims.resultIdx? at h
  split at h
  · rename_i hall
    have h0 := congrArg (fun k : (⟨2, ![N, C]⟩ : Shape).Idx => (k 0).val) (Option.some.inj h)
    have hpos := (hall 0).1
    have hst : (rowScatterDims N R C wf).start j idx 0 = (idx (ix2 (j 0) 0)).toInt := by
      unfold ScatterDims.start
      rw [dif_pos (show (0 : Fin 2) ∈ (rowScatterDims N R C wf).scatterDimsToOperandDims from List.mem_singleton.mpr rfl)]
      have hsi : (rowScatterDims N R C wf).siIdx j ⟨List.idxOf (0 : Fin 2) (rowScatterDims N R C wf).scatterDimsToOperandDims,
          List.idxOf_lt_length_iff.2 (List.mem_singleton.mpr rfl)⟩ = ix2 (j 0) 0 := by
        funext b; refine Fin.ext ?_
        match b with
        | ⟨0, _⟩ => rfl
        | ⟨1, _⟩ => rfl
      exact congrArg (fun k => (idx k).toInt) hsi
    have hw : (rowScatterDims N R C wf).window j 0 = 0 := by
      unfold ScatterDims.window
      rw [dif_neg (show ¬ (0 : Fin 2) ∈ (rowScatterDims N R C wf).sKept by simp [ScatterDims.sKept, Shape.kept])]
    simp only [hst, hw] at h0 hpos
    omega
  · exact absurd h (by simp)

end Scatter

end Cert.Lib.Rows

end
-- ==== Proof.LibEdgeAggregate.lean ====
/-
  A graph aggregation read at an entry: `agg[i, k] = Σ over edges e with dst[e] = i of x[src[e], k]`, on the extended
  reals.

  The aggregation is computed as rows of `x : [N, C]` taken at the edges' source column, then added onto the rows of a
  zero `[N, C]` array that the edges' destination column names. An accumulating row scatter of updates `[R, C]` at an
  index column `[R, 1]` lands update entry `(e, f)` on operand entry `(i, k)` exactly when `idx[e, 0]`, read signed, is
  `i` and `f = k` (`rowScatter_resultIdx_iff`); so its value at `(i, k)` is the operand there plus the sum over the update
  rows `e` of `upd[e, k]` where `idx[e, 0] = i` and `0` elsewhere (`rowScatterAdd_apply`).

  With 32-bit source and destination vectors `src, dst : [E]`, a negative source wrapped once by a constant `cN`
  (`wrapIdx`) and then clamped by the gather (`srcRow`), edge `e` adds `edge … i k e` to entry `(i, k)`: `x[srcRow e, k]`
  when `dst[e] = i`, else `0`. The aggregation over ALL edges at once is `0 + Σ_{e < E} edge e` (`whole_apply`); the
  aggregation over the `n` edges `o … o + n − 1`, their indices taken by a slice and the rows taken from a narrower-format
  copy of the matrix that is then widened (the identity on the extended reals), is `0 + Σ_{e < n} edge (o + e)` of the SAME
  per-edge function (`chunk_apply`), so that consecutive chunks add up to the whole.
-/
import Idealize.ShloMosaic.Lib.ValueIdx
import Idealize.ShloMosaic.Lib.Pipeline.Value
import Idealize.ShloMosaic.PureOps.Ideal.Laws
import proofs.«119514_j10857677324737_2_alg».proof.Proof.LibRowGather

noncomputable section

open scoped BigOperators

namespace Cert.Lib.EdgeAggregate

open Idealize.ShloMosaic Idealize.ShloMosaic.ValueIdx Cert.Lib.Rows

section Scatter

variable {N R C w : Nat} (wf : ScatterDims.WF ⟨2, ![N, C]⟩ ⟨2, ![R, 1]⟩ ⟨2, ![R, C]⟩ [1] [0] [0] 1)

/-- The window of update entry `(e, f)` starts, on the row axis, at `idx[e, 0]` read signed. -/
theorem rowScatter_start0 (idx : IVec ⟨2, ![R, 1]⟩ w) (j : (⟨2, ![R, C]⟩ : Shape).Idx) :
    (rowScatterDims N R C wf).start j idx 0 = (idx (ix2 (j 0) 0)).toInt := by
  unfold ScatterDims.start
  rw [dif_pos (show (0 : Fin 2) ∈ (rowScatterDims N R C wf).scatterDimsToOperandDims from List.mem_singleton.mpr rfl)]
  have hsi : (rowScatterDims N R C wf).siIdx j ⟨List.idxOf (0 : Fin 2) (rowScatterDims N R C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  exact congrArg (fun k => (idx k).toInt) hsi

/-- … and, on the column axis, at `0`. -/
theorem rowScatter_start1 (idx : IVec ⟨2, ![R, 1]⟩ w) (j : (⟨2, ![R, C]⟩ : Shape).Idx) :
    (rowScatterDims N R C wf).start j idx 1 = 0 := by
  unfold ScatterDims.start
  rw [dif_neg (show ¬ (1 : Fin 2) ∈ ([0] : List (Fin 2)) by decide)]

/-- The window coordinate of an update entry on the row axis is `0` (the axis is inserted). -/
theorem rowScatter_window0 (j : (⟨2, ![R, C]⟩ : Shape).Idx) : (rowScatterDims N R C wf).window j 0 = 0 := by
  unfold ScatterDims.window
  rw [dif_neg (show ¬ (0 : Fin 2) ∈ (rowScatterDims N R C wf).sKept by simp [ScatterDims.sKept, Shape.kept])]

/-- The window coordinate of update entry `(e, f)` on the column axis is `f`. -/
theorem rowScatter_window1 (j : (⟨2, ![R, C]⟩ : Shape).Idx) : (rowScatterDims N R C wf).window j 1 = (j 1).val := by
  unfold ScatterDims.window
  have hk : (rowScatterDims N R C wf).sKept = [1] := rfl
  rw [dif_pos (show (1 : Fin 2) ∈ (rowScatterDims N R C wf).sKept by rw [hk]; exact List.mem_singleton.mpr rfl)]
  rfl

/-- Update entry `(e, f)` lands on operand entry `(i, k)` exactly when `idx[e, 0]`, read signed, is `i`, and `f = k`. -/
theorem rowScatter_resultIdx_iff (idx : IVec ⟨2, ![R, 1]⟩ w) (e : Fin R) (f : Fin C) (i : Fin N) (k : Fin C) :
    (rowScatterDims N R C wf).resultIdx? (ix2 e f) idx = some (ix2 i k)
      ↔ (idx (ix2 e 0)).toInt = (i.val : Int) ∧ f = k := by
  have hs0 := rowScatter_start0 wf idx (ix2 e f)
  have hs1 := rowScatter_start1 wf idx (ix2 e f)
  have hw0 := rowScatter_window0 wf (ix2 e f)
  have hw1 := rowScatter_window1 wf (ix2 e f)
  have he0 : (ix2 e f : (⟨2, ![R, C]⟩ : Shape).Idx) 0 = e := rfl
  have he1 : (ix2 e f : (⟨2, ![R, C]⟩ : Shape).Idx) 1 = f := rfl
  rw [he0] at hs0
  rw [he1] at hw1
  constructor
  · intro h
    unfold ScatterDims.resultIdx? at h
    split at h
    · rename_i hall
      have h0 := congrArg (fun q : (⟨2, ![N, C]⟩ : Shape).Idx => (q 0).val) (Option.some.inj h)
      have h1 := congrArg (fun q : (⟨2, ![N, C]⟩ : Shape).Idx => (q 1).val) (Option.some.inj h)
      have hpos := (hall 0).1
      simp only [hs0, hw0] at h0 hpos
      simp only [hs1, hw1] at h1
      refine ⟨?_, Fin.ext ?_⟩
      · have : ((ix2 i k : (⟨2, ![N, C]⟩ : Shape).Idx) 0).val = i.val := rfl
        omega
      · have : ((ix2 i k : (⟨2, ![N, C]⟩ : Shape).Idx) 1).val = k.val := rfl
        omega
    · exact absurd h (by simp)
  · rintro ⟨hi, rfl⟩
    unfold ScatterDims.resultIdx?
    have hall : ∀ a, 0 ≤ (rowScatterDims N R C wf).start (ix2 e f) idx a + (rowScatterDims N R C wf).window (ix2 e f) a ∧
        (rowScatterDims N R C wf).start (ix2 e f) idx a + (rowScatterDims N R C wf).window (ix2 e f) a
          < (⟨2, ![N, C]⟩ : Shape).size a := by
      intro a
      match a with
      | ⟨0, _⟩ =>
        show 0 ≤ (rowScatterDims N R C wf).start (ix2 e f) idx 0 + (rowScatterDims N R C wf).window (ix2 e f) 0 ∧
          (rowScatterDims N R C wf).start (ix2 e f) idx 0 + (rowScatterDims N R C wf).window (ix2 e f) 0 < (N : Int)
        rw [hs0, hw0, hi]
        have := i.isLt
        omega
      | ⟨1, _⟩ =>
        show 0 ≤ (rowScatterDims N R C wf).start (ix2 e f) idx 1 + (rowScatterDims N R C wf).window (ix2 e f) 1 ∧
          (rowScatterDims N R C wf).start (ix2 e f) idx 1 + (rowScatterDims N R C wf).window (ix2 e f) 1 < (C : Int)
        rw [hs1, hw1]
        have := f.isLt
        omega
    rw [dif_pos hall]
    congr 1
    funext a
    refine Fin.ext ?_
    match a with
    | ⟨0, _⟩ =>
      show ((rowScatterDims N R C wf).start (ix2 e f) idx 0 + (rowScatterDims N R C wf).window (ix2 e f) 0).toNat = i.val
      rw [hs0, hw0, hi]
      omega
    | ⟨1, _⟩ =>
      show ((rowScatterDims N R C wf).start (ix2 e f) idx 1 + (rowScatterDims N R C wf).window (ix2 e f) 1).toNat = f.val
      rw [hs1, hw1]
      omega

/-- THE ACCUMULATING ROW SCATTER READ AT `(i, k)`: the operand there plus, over the update rows `e`, `upd[e, k]` where
    `idx[e, 0]` read signed is `i`, and `0` where it is not (a row outside the operand is dropped). -/
theorem rowScatterAdd_apply {φ : FTy} (x : FVec Ideal ⟨2, ![N, C]⟩ φ) (idx : IVec ⟨2, ![R, 1]⟩ w)
    (upd : FVec Ideal ⟨2, ![R, C]⟩ φ) (i : Fin N) (k : Fin C) :
    Host.scatterAdd (rowScatterDims N R C wf) x idx upd (ix2 i k)
      = x (ix2 i k) + ∑ e : Fin R, if (idx (ix2 e 0)).toInt = (i.val : Int) then upd (ix2 e k) else 0 := by
  show Ideal.hostScatterAdd (rowScatterDims N R C wf) x idx upd (ix2 i k) = _
  unfold Ideal.hostScatterAdd
  congr 1
  rw [Finset.sum_filter, sum_idx2]
  refine Finset.sum_congr rfl fun e _ => ?_
  by_cases he : (idx (ix2 e 0)).toInt = (i.val : Int)
  · rw [if_pos he]
    have : ∀ f : Fin C, (if (rowScatterDims N R C wf).resultIdx? (ix2 e f) idx = some (ix2 i k) then upd (ix2 e f) else 0)
        = if f = k then upd (ix2 e f) else 0 := by
      intro f
      by_cases hf : f = k
      · rw [if_pos hf, if_pos ((rowScatter_resultIdx_iff wf idx e f i k).mpr ⟨he, hf⟩)]
      · rw [if_neg hf, if_neg (fun h => hf ((rowScatter_resultIdx_iff wf idx e f i k).mp h).2)]
    rw [Finset.sum_congr rfl fun f _ => this f]
    simp
  · rw [if_neg he]
    refine Finset.sum_eq_zero fun f _ => ?_
    rw [if_neg (fun h => he ((rowScatter_resultIdx_iff wf idx e f i k).mp h).1)]

end Scatter

/-! ## The aggregation at an entry, as a sum over edges of one per-edge function -/

section Edges

variable {N E C : Nat}

/-- An edge's source index with a negative value wrapped once by `cN`: `v + cN` if `v < 0` (signed), else `v`. -/
def wrapIdx (cN v : BitVec 32) : BitVec 32 := Scalar.select (IntOp.cmpi .slt v 0#32) (IntOp.addi v cN) v

/-- The row of `x` an edge's source index names: wrapped, then clamped into `[0, N − 1]`. -/
def srcRow (N : Nat) (hN : 0 < N) (cN v : BitVec 32) : Fin N := clampRow N hN (wrapIdx cN v)

/-- What edge `e` adds to entry `(i, k)` of the aggregation: `x` at the edge's source row, column `k`, when the edge's
    destination (read signed) is `i`; `0` otherwise. -/
def edge (hN : 0 < N) (cN : BitVec 32) (x : (⟨2, ![N, C]⟩ : Shape).Idx → EReal) (src dst : IVec ⟨1, ![E]⟩ 32)
    (i : Fin N) (k : Fin C) (e : Fin E) : EReal :=
  if (dst (ix1 e)).toInt = (i.val : Int) then x (ix2 (srcRow N hN cN (src (ix1 e))) k) else 0

/-- A vector `[R]` broadcast to a column `[R, 1]`, read at `(e, 0)`: the vector at `e`. -/
theorem col_apply {α : Type} {R : Nat} (hc : (⟨1, ![R]⟩ : Shape).BroadcastsInDim ⟨2, ![R, 1]⟩ ![0])
    (v : (⟨1, ![R]⟩ : Shape).Idx → α) (e : Fin R) (z : Fin 1) :
    broadcastInDim ⟨2, ![R, 1]⟩ ![0] hc v (ix2 e z) = v (ix1 e) := by
  refine broadcastInDim_apply _ hc v _ (ix1 e) fun a => ?_
  match a with
  | ⟨0, _⟩ =>
    show e.val = if R = 1 then 0 else e.val
    split
    · have := e.isLt; omega
    · rfl

/-- The wrapped source indices as the program computes them (compare with a broadcast `0`, add a broadcast `cN`,
    select), read at `e`. -/
theorem wrap_apply {R : Nat} (h0 : (⟨0, ![]⟩ : Shape).BroadcastsInDim ⟨1, ![R]⟩ ![]) (cN : BitVec 32)
    (s : IVec ⟨1, ![R]⟩ 32) (e : Fin R) :
    select (cmpi .slt s (broadcastInDim ⟨1, ![R]⟩ ![] h0 (constantI ⟨0, ![]⟩ 32 0#32)))
      (addi s (broadcastInDim ⟨1, ![R]⟩ ![] h0 (constantI ⟨0, ![]⟩ 32 cN))) s (ix1 e) = wrapIdx cN (s (ix1 e)) := rfl

/-- The zero `[N, C]` array the scatter accumulates into, at an entry: the extended real `0`. -/
theorem zeros_apply (hz : (⟨0, ![]⟩ : Shape).BroadcastsInDim ⟨2, ![N, C]⟩ ![]) (j : (⟨2, ![N, C]⟩ : Shape).Idx) :
    broadcastInDim ⟨2, ![N, C]⟩ ![] hz (constant (F := Ideal) ⟨0, ![]⟩ .f32 0x00000000#32) j = 0 :=
  Ideal.ofBits_zero_f32

/-- THE WHOLE FORM: rows of `x` taken at all `E` edges' wrapped sources and added onto zeros at their destinations, read
    at `(i, k)`, is `0` plus the sum over the edges of `edge`. -/
theorem whole_apply (hN : 0 < N) (cN : BitVec 32)
    (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (h0 : (⟨0, ![]⟩ : Shape).BroadcastsInDim ⟨1, ![E]⟩ ![])
    (hc : (⟨1, ![E]⟩ : Shape).BroadcastsInDim ⟨2, ![E, 1]⟩ ![0])
    (hz : (⟨0, ![]⟩ : Shape).BroadcastsInDim ⟨2, ![N, C]⟩ ![])
    (x : FVec Ideal ⟨2, ![N, C]⟩ .f32) (src dst : IVec ⟨1, ![E]⟩ 32) (i : Fin N) (k : Fin C) :
    Host.scatterAdd (rowScatterDims N E C wfS)
        (broadcastInDim ⟨2, ![N, C]⟩ ![] hz (constant (F := Ideal) ⟨0, ![]⟩ .f32 0x00000000#32))
        (broadcastInDim ⟨2, ![E, 1]⟩ ![0] hc dst)
        (Host.gather (rowGatherDims N E C wfG) x
          (broadcastInDim ⟨2, ![E, 1]⟩ ![0] hc
            (select (cmpi .slt src (broadcastInDim ⟨1, ![E]⟩ ![] h0 (constantI ⟨0, ![]⟩ 32 0#32)))
              (addi src (broadcastInDim ⟨1, ![E]⟩ ![] h0 (constantI ⟨0, ![]⟩ 32 cN))) src)))
        (ix2 i k)
      = 0 + ∑ e : Fin E, edge hN cN x src dst i k e := by
  rw [rowScatterAdd_apply, zeros_apply]
  congr 1
  refine Finset.sum_congr rfl fun e _ => ?_
  rw [col_apply, rowGather_apply hN, col_apply, wrap_apply]
  rfl

/-- THE CHUNK FORM: the same for the `n` edges `o, …, o + n − 1`, their sources and destinations taken by a slice, the rows
    taken from a narrower-format copy of the matrix and widened: `0` plus the sum over the chunk's edges of the SAME
    `edge`, at edge `o + e`. -/
theorem chunk_apply {n o : Nat} (hN : 0 < N) (cN : BitVec 32)
    (wfG : GatherDims.WF ⟨2, ![N, C]⟩ ⟨2, ![n, 1]⟩ ⟨2, ![n, C]⟩ [1] [0] [] [0] [] 1 ![1, C])
    (wfS : ScatterDims.WF ⟨2, ![N, C]⟩ ⟨2, ![n, 1]⟩ ⟨2, ![n, C]⟩ [1] [0] [0] 1)
    (h0 : (⟨0, ![]⟩ : Shape).BroadcastsInDim ⟨1, ![n]⟩ ![])
    (hc : (⟨1, ![n]⟩ : Shape).BroadcastsInDim ⟨2, ![n, 1]⟩ ![0])
    (hz : (⟨0, ![]⟩ : Shape).BroadcastsInDim ⟨2, ![N, C]⟩ ![])
    (hsl : (⟨1, ![E]⟩ : Shape).Slices ![o] ⟨1, ![n]⟩) (ho : o + n ≤ E) (hbits : FTy.bf16.bits < FTy.f32.bits)
    (xb : FVec Ideal ⟨2, ![N, C]⟩ .bf16) (src dst : IVec ⟨1, ![E]⟩ 32) (i : Fin N) (k : Fin C) :
    Host.scatterAdd (rowScatterDims N n C wfS)
        (broadcastInDim ⟨2, ![N, C]⟩ ![] hz (constant (F := Ideal) ⟨0, ![]⟩ .f32 0x00000000#32))
        (broadcastInDim ⟨2, ![n, 1]⟩ ![0] hc (extractStridedSlice ⟨1, ![n]⟩ ![o] dst hsl))
        (extf .f32 (Host.gather (rowGatherDims N n C wfG) xb
          (broadcastInDim ⟨2, ![n, 1]⟩ ![0] hc
            (select (cmpi .slt (extractStridedSlice ⟨1, ![n]⟩ ![o] src hsl)
                (broadcastInDim ⟨1, ![n]⟩ ![] h0 (constantI ⟨0, ![]⟩ 32 0#32)))
              (addi (extractStridedSlice ⟨1, ![n]⟩ ![o] src hsl)
                (broadcastInDim ⟨1, ![n]⟩ ![] h0 (constantI ⟨0, ![]⟩ 32 cN)))
              (extractStridedSlice ⟨1, ![n]⟩ ![o] src hsl)))) hbits)
        (ix2 i k)
      = 0 + ∑ e : Fin n, edge hN cN xb src dst i k ⟨o + e.val, by omega⟩ := by
  rw [rowScatterAdd_apply, zeros_apply]
  congr 1
  refine Finset.sum_congr rfl fun e _ => ?_
  have hsl_apply : ∀ v : IVec ⟨1, ![E]⟩ 32,
      extractStridedSlice ⟨1, ![n]⟩ ![o] v hsl (ix1 e) = v (ix1 ⟨o + e.val, by omega⟩) := fun v =>
    extractStridedSlice_apply _ v hsl (ix1 e) (ix1 ⟨o + e.val, by omega⟩) fun a => by
      match a with
      | ⟨0, _⟩ => rfl
  rw [col_apply, extf_apply, rowGather_apply hN, col_apply, wrap_apply, hsl_apply, hsl_apply]
  rfl

end Edges

end Cert.Lib.EdgeAggregate

end
-- ==== Proof.EdgeSum.lean ====
/-
  Rows of a table gathered along edges and added at the edges' destinations, when the table and the target have
  different numbers of rows.

  A relation's edge `e` carries a source index `src e` into a table `x : [Ns, C]` and a destination index `dst e` into a
  target of `Nd` rows. The program wraps a negative source once by `Ns`, takes row `src e` of `x` (clamped into the
  table), and adds it onto row `dst e` of a zero `[Nd, C]` array, dropping an edge whose destination is outside. Read
  at entry `(i, k)` the result is `0` plus the sum over all edges of the edge's contribution `edge2`: `x` at the edge's
  source row, column `k`, when the edge's destination is `i`, and `0` otherwise. The contribution does not depend on
  the width `C` except through the column read, so two aggregations of different widths over the same edges sum over
  the same edges.
-/
import proofs.«119514_j10857677324737_2_alg».proof.Proof.LibEdgeAggregate

noncomputable section

open scoped BigOperators

namespace Cert.EdgeSum

open Idealize.ShloMosaic Idealize.ShloMosaic.ValueIdx Cert.Lib.Rows Cert.Lib.EdgeAggregate

variable {Ns Nd E C : ℕ}

/-- What edge `e` adds to entry `(i, k)` of the aggregation into `Nd` rows of a table of `Ns` rows. -/
def edge2 (hN : 0 < Ns) (cN : BitVec 32) (x : (⟨2, ![Ns, C]⟩ : Shape).Idx → EReal) (src dst : IVec ⟨1, ![E]⟩ 32)
    (i : Fin Nd) (k : Fin C) (e : Fin E) : EReal :=
  if (dst (ix1 e)).toInt = (i.val : Int) then x (ix2 (srcRow Ns hN cN (src (ix1 e))) k) else 0

/-- Rows of `x` taken at all edges' wrapped sources and added onto zeros at their destinations, read at `(i, k)`. -/
theorem gather_scatter_apply (hN : 0 < Ns) (cN : BitVec 32)
    (wfG : GatherDims.WF ⟨2, ![Ns, C]⟩ ⟨2, ![E, 1]⟩ ⟨2, ![E, C]⟩ [1] [0] [] [0] [] 1 ![1, C])
    (wfS : ScatterDims.WF ⟨2, ![Nd, C]⟩ ⟨2, ![E, 1]⟩ ⟨2, ![E, C]⟩ [1] [0] [0] 1)
    (h0 : (⟨0, ![]⟩ : Shape).BroadcastsInDim ⟨1, ![E]⟩ ![])
    (hc : (⟨1, ![E]⟩ : Shape).BroadcastsInDim ⟨2, ![E, 1]⟩ ![0])
    (hz : (⟨0, ![]⟩ : Shape).BroadcastsInDim ⟨2, ![Nd, C]⟩ ![])
    (x : FVec Ideal ⟨2, ![Ns, C]⟩ .f32) (src dst : IVec ⟨1, ![E]⟩ 32) (i : Fin Nd) (k : Fin C) :
    Host.scatterAdd (rowScatterDims Nd E C wfS)
        (broadcastInDim ⟨2, ![Nd, C]⟩ ![] hz (constant (F := Ideal) ⟨0, ![]⟩ .f32 0x00000000#32))
        (broadcastInDim ⟨2, ![E, 1]⟩ ![0] hc dst)
        (Host.gather (rowGatherDims Ns E C wfG) x
          (broadcastInDim ⟨2, ![E, 1]⟩ ![0] hc
            (select (cmpi .slt src (broadcastInDim ⟨1, ![E]⟩ ![] h0 (constantI ⟨0, ![]⟩ 32 0#32)))
              (addi src (broadcastInDim ⟨1, ![E]⟩ ![] h0 (constantI ⟨0, ![]⟩ 32 cN))) src)))
        (ix2 i k)
      = 0 + ∑ e : Fin E, edge2 hN cN x src dst i k e := by
  rw [rowScatterAdd_apply, zeros_apply]
  congr 1
  refine Finset.sum_congr rfl fun e _ => ?_
  rw [col_apply, rowGather_apply hN, col_apply, wrap_apply]
  rfl

end Cert.EdgeSum

end
-- ==== Proof.EntryHost.lean ====
/-
  The program's stretches of host operations, read buffer by buffer, from ANY contents `W` a stretch starts from.
  Each lemma takes the buffer a later region reads, unfolds the stretch's operations down to the buffers the stretch
  itself starts from, and reads the result at an index: a bias recast as a row is the bias; a sum of two weights is
  the sum entry by entry; a reciprocal-degree column is one over the larger of the edge count and one (the count kept
  as an opaque term); a half of the 128 columns is those columns; and a relation's aggregation (rows gathered at the
  wrapped sources, added at the destinations onto zeros) is `0` plus the sum over the edges of `edge2`.
-/
import proofs.«119514_j10857677324737_2_alg».proof.Proof.Gen.KernelIdeal.Launch
import proofs.«119514_j10857677324737_2_alg».proof.Proof.EdgeSum
import Idealize.ShloMosaic.Lib.StableHlo.Run
import Idealize.ShloMosaic.Lib.IdealHost
import Idealize.ShloMosaic.Lib.Pipeline.Value

set_option maxRecDepth 16384

noncomputable section

open scoped BigOperators

namespace Cert.KernelIdeal.Entry

open Idealize.ShloMosaic Idealize.ShloMosaic.ValueIdx Idealize.ShloMosaic.TcCoe
open Cert.KernelIdeal Cert.KernelIdeal.Gen Cert.EdgeSum

/-- A vector `[n]` recast as one row `[1, n]`, read at `(0, j)`: the vector at `j`. -/
theorem row_apply {α : Type} {n : Nat} (h : (⟨1, ![n]⟩ : Shape).ShapeCasts ⟨2, ![1, n]⟩) (x : (⟨1, ![n]⟩ : Shape).Idx → α)
    (z : Fin 1) (j : Fin n) : shapeCast ⟨2, ![1, n]⟩ x h (ix2 z j) = x (ix1 j) := by
  refine shapeCast_apply x h _ (ix1 j) ?_
  rw [Shape.rowMajor_val_one, Shape.rowMajor_val_two]
  have hz : z.val = 0 := by have := z.isLt; omega
  show j.val = z.val * n + j.val
  rw [hz]
  omega

/-- A vector `[n]` recast as one column `[n, 1]`, read at `(i, 0)`: the vector at `i`. -/
theorem column_apply {α : Type} {n : Nat} (h : (⟨1, ![n]⟩ : Shape).ShapeCasts ⟨2, ![n, 1]⟩) (x : (⟨1, ![n]⟩ : Shape).Idx → α)
    (i : Fin n) (z : Fin 1) : shapeCast ⟨2, ![n, 1]⟩ x h (ix2 i z) = x (ix1 i) := by
  refine shapeCast_apply x h _ (ix1 i) ?_
  rw [Shape.rowMajor_val_one, Shape.rowMajor_val_two]
  show i.val = i.val * 1 + z.val
  have := z.isLt
  omega

/-! ## The edge counts, kept whole

Per destination row, how many edges of a relation arrive there: ones added onto zeros at the edges' destinations.
Nothing below reads these terms; the regions only meet `1 / max count 1`. -/

/-- Ones added at the destinations `d` of the 1600000 edges into 100000 rows. -/
def cntFF (d : IVec S1600000 32) : S100000.Idx → EReal :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 d)
    (broadcastInDim S1600000 ![] bcast_S_S1600000 (constant (F := Ideal) S_ .f32 0x3F800000#32))
/-- Ones added at the destinations `d` of the 2000000 edges into 100000 rows. -/
def cntRB (d : IVec S2000000 32) : S100000.Idx → EReal :=
  Host.scatterAdd scatter_S100000_S2000000x1_S2000000_n_0_0_1
    (broadcastInDim S100000 ![] bcast_S_S100000 (constant (F := Ideal) S_ .f32 0x00000000#32))
    (broadcastInDim S2000000x1 ![0] bcast_S2000000_S2000000x1_0 d)
    (broadcastInDim S2000000 ![] bcast_S_S2000000 (constant (F := Ideal) S_ .f32 0x3F800000#32))
/-- Ones added at the destinations `d` of the 2000000 edges into 20000 rows. -/
def cntREV (d : IVec S2000000 32) : S20000.Idx → EReal :=
  Host.scatterAdd scatter_S20000_S2000000x1_S2000000_n_0_0_1
    (broadcastInDim S20000 ![] bcast_S_S20000 (constant (F := Ideal) S_ .f32 0x00000000#32))
    (broadcastInDim S2000000x1 ![0] bcast_S2000000_S2000000x1_0 d)
    (broadcastInDim S2000000 ![] bcast_S_S2000000 (constant (F := Ideal) S_ .f32 0x3F800000#32))

variable (W : Valuation τ sig (Elt Ideal))

/-! ## Biases recast as rows, sums of weights, halves of the columns -/

/-- `main_v0` is `main_arg9` recast as one row. -/
theorem H0_v0 (b : S128.Idx → EReal) (hb : W (Proc.devRef .tc main_arg9) = b) (z : Fin 1) (j : Fin 128) :
    (StableHlo.after (hostOps0 (F := Ideal)) W (Proc.devRef .tc main_v0) : S1x128.Idx → EReal) (ix2 z j) = b (ix1 j) := by
  subst hb
  have e : (StableHlo.after (hostOps0 (F := Ideal)) W (Proc.devRef .tc main_v0) : S1x128.Idx → EReal)
      = shapeCast S1x128 (W (Proc.devRef .tc main_arg9) : S128.Idx → EReal) shapeCasts_S128_S1x128 := by
    after_results
    try rfl
  rw [e, row_apply]

/-- `main_v2` is `main_arg11` recast as one row. -/
theorem H1_v2 (b : S128.Idx → EReal) (hb : W (Proc.devRef .tc main_arg11) = b) (z : Fin 1) (j : Fin 128) :
    (StableHlo.after (hostOps1 (F := Ideal)) W (Proc.devRef .tc main_v2) : S1x128.Idx → EReal) (ix2 z j) = b (ix1 j) := by
  subst hb
  have e : (StableHlo.after (hostOps1 (F := Ideal)) W (Proc.devRef .tc main_v2) : S1x128.Idx → EReal)
      = shapeCast S1x128 (W (Proc.devRef .tc main_arg11) : S128.Idx → EReal) shapeCasts_S128_S1x128 := by
    after_results
    try rfl
  rw [e, row_apply]

/-- `main_v65` is `main_arg16` recast as one row. -/
theorem H3_v65 (b : S128.Idx → EReal) (hb : W (Proc.devRef .tc main_arg16) = b) (z : Fin 1) (j : Fin 128) :
    (StableHlo.after (hostOps3 (F := Ideal)) W (Proc.devRef .tc main_v65) : S1x128.Idx → EReal) (ix2 z j) = b (ix1 j) := by
  subst hb
  have e : (StableHlo.after (hostOps3 (F := Ideal)) W (Proc.devRef .tc main_v65) : S1x128.Idx → EReal)
      = shapeCast S1x128 (W (Proc.devRef .tc main_arg16) : S128.Idx → EReal) shapeCasts_S128_S1x128 := by
    after_results
    try rfl
  rw [e, row_apply]

/-- `main_v105` is `main_arg25` recast as one row. -/
theorem H7_v105 (b : S64.Idx → EReal) (hb : W (Proc.devRef .tc main_arg25) = b) (z : Fin 1) (j : Fin 64) :
    (StableHlo.after (hostOps7 (F := Ideal)) W (Proc.devRef .tc main_v105) : S1x64.Idx → EReal) (ix2 z j) = b (ix1 j) := by
  subst hb
  have e : (StableHlo.after (hostOps7 (F := Ideal)) W (Proc.devRef .tc main_v105) : S1x64.Idx → EReal)
      = shapeCast S1x64 (W (Proc.devRef .tc main_arg25) : S64.Idx → EReal) shapeCasts_S64_S1x64 := by
    after_results
    try rfl
  rw [e, row_apply]

set_option maxHeartbeats 4000000 in
/-- `main_v61` is the sum of `main_arg14` and `main_arg20`, entry by entry. -/
theorem H2_v61 (a b : S128x128.Idx → EReal) (ha : W (Proc.devRef .tc main_arg14) = a) (hb : W (Proc.devRef .tc main_arg20) = b) (j : S128x128.Idx) :
    (StableHlo.after (hostOps2 (F := Ideal)) W (Proc.devRef .tc main_v61) : S128x128.Idx → EReal) j = a j + b j := by
  have e : (StableHlo.after (hostOps2 (F := Ideal)) W (Proc.devRef .tc main_v61) : S128x128.Idx → EReal)
      = addf (F := Ideal) (φ := .f32) a b := by
    subst ha hb
    after_results_simp
    try rfl
  rw [e, addf_apply]

set_option maxHeartbeats 4000000 in
/-- `main_v101` is the sum of `main_arg23` and `main_arg29`, entry by entry. -/
theorem H6_v101 (a b : S128x64.Idx → EReal) (ha : W (Proc.devRef .tc main_arg23) = a) (hb : W (Proc.devRef .tc main_arg29) = b) (j : S128x64.Idx) :
    (StableHlo.after (hostOps6 (F := Ideal)) W (Proc.devRef .tc main_v101) : S128x64.Idx → EReal) j = a j + b j := by
  have e : (StableHlo.after (hostOps6 (F := Ideal)) W (Proc.devRef .tc main_v101) : S128x64.Idx → EReal)
      = addf (F := Ideal) (φ := .f32) a b := by
    subst ha hb
    after_results_simp
    try rfl
  rw [e, addf_apply]

set_option maxHeartbeats 4000000 in
/-- `main_v63` is the sum of `main_arg13` and `main_arg19` recast as one row. -/
theorem H2_v63 (a b : S128.Idx → EReal) (ha : W (Proc.devRef .tc main_arg13) = a) (hb : W (Proc.devRef .tc main_arg19) = b) (z : Fin 1) (j : Fin 128) :
    (StableHlo.after (hostOps2 (F := Ideal)) W (Proc.devRef .tc main_v63) : S1x128.Idx → EReal) (ix2 z j) = a (ix1 j) + b (ix1 j) := by
  have e : (StableHlo.after (hostOps2 (F := Ideal)) W (Proc.devRef .tc main_v63) : S1x128.Idx → EReal)
      = shapeCast S1x128 (addf (F := Ideal) (φ := .f32) a b) shapeCasts_S128_S1x128 := by
    subst ha hb
    after_results_simp
    try rfl
  rw [e, row_apply, addf_apply]

set_option maxHeartbeats 4000000 in
/-- `main_v103` is the sum of `main_arg22` and `main_arg28` recast as one row. -/
theorem H6_v103 (a b : S64.Idx → EReal) (ha : W (Proc.devRef .tc main_arg22) = a) (hb : W (Proc.devRef .tc main_arg28) = b) (z : Fin 1) (j : Fin 64) :
    (StableHlo.after (hostOps6 (F := Ideal)) W (Proc.devRef .tc main_v103) : S1x64.Idx → EReal) (ix2 z j) = a (ix1 j) + b (ix1 j) := by
  have e : (StableHlo.after (hostOps6 (F := Ideal)) W (Proc.devRef .tc main_v103) : S1x64.Idx → EReal)
      = shapeCast S1x64 (addf (F := Ideal) (φ := .f32) a b) shapeCasts_S64_S1x64 := by
    subst ha hb
    after_results_simp
    try rfl
  rw [e, row_apply, addf_apply]

/-- `main_v68` is the left half (columns 0 … 63) of `main_v67`. -/
theorem H5_v68 (x : S100000x128.Idx → EReal) (hx : W (Proc.devRef .tc main_v67) = x) (r : Fin 100000) (k : Fin 64) :
    (StableHlo.after (hostOps5 (F := Ideal)) W (Proc.devRef .tc main_v68) : S100000x64.Idx → EReal) (ix2 r k)
      = x (ix2 r ⟨k.val, by omega⟩) := by
  subst hx
  have e : (StableHlo.after (hostOps5 (F := Ideal)) W (Proc.devRef .tc main_v68) : S100000x64.Idx → EReal)
      = extractStridedSlice S100000x64 ![0, 0] (W (Proc.devRef .tc main_v67) : S100000x128.Idx → EReal) slices_S100000x128_S100000x64_0_0 := by
    after_results
    try rfl
  rw [e]
  refine extractStridedSlice_apply _ _ _ _ (ix2 r ⟨k.val, by omega⟩) fun a => ?_
  match a with
  | ⟨0, _⟩ => show r.val = 0 + r.val; omega
  | ⟨1, _⟩ => show k.val = 0 + k.val; omega

/-- `main_v69` is the right half (columns 64 … 127) of `main_v67`. -/
theorem H5_v69 (x : S100000x128.Idx → EReal) (hx : W (Proc.devRef .tc main_v67) = x) (r : Fin 100000) (k : Fin 64) :
    (StableHlo.after (hostOps5 (F := Ideal)) W (Proc.devRef .tc main_v69) : S100000x64.Idx → EReal) (ix2 r k)
      = x (ix2 r ⟨k.val + 64, by omega⟩) := by
  subst hx
  have e : (StableHlo.after (hostOps5 (F := Ideal)) W (Proc.devRef .tc main_v69) : S100000x64.Idx → EReal)
      = extractStridedSlice S100000x64 ![0, 64] (W (Proc.devRef .tc main_v67) : S100000x128.Idx → EReal) slices_S100000x128_S100000x64_0_64 := by
    after_results
    try rfl
  rw [e]
  refine extractStridedSlice_apply _ _ _ _ (ix2 r ⟨k.val + 64, by omega⟩) fun a => ?_
  match a with
  | ⟨0, _⟩ => show r.val = 0 + r.val; omega
  | ⟨1, _⟩ => show k.val + 64 = 64 + k.val; omega

/-! ## The reciprocal-degree columns -/

set_option maxHeartbeats 4000000 in
/-- The reciprocal-degree column `main_v12`, read at row `i`: one over the larger of the row's edge count and one. -/
theorem H2_v12 (dst : IVec S1600000 32) (hd : W (Proc.devRef .tc main_arg3) = dst) (i : Fin 100000) (z : Fin 1) :
    (StableHlo.after (hostOps2 (F := Ideal)) W (Proc.devRef .tc main_v12) : S100000x1.Idx → EReal) (ix2 i z)
      = Ideal.div 1 (max (cntFF dst (ix1 i)) 1) := by
  subst hd
  have e : (StableHlo.after (hostOps2 (F := Ideal)) W (Proc.devRef .tc main_v12) : S100000x1.Idx → EReal)
      = shapeCast S100000x1 (Host.divf (broadcastInDim S100000 ![] bcast_S_S100000 (constant (F := Ideal) S_ .f32 0x3F800000#32))
          (maximumf (cntFF (W (Proc.devRef .tc main_arg3))) (broadcastInDim S100000 ![] bcast_S_S100000 (constant (F := Ideal) S_ .f32 0x3F800000#32))))
          shapeCasts_S100000_S100000x1 := by
    after_results_simp
    try rfl
  rw [e, column_apply, hostDivf_apply, maximumf_apply, broadcastInDim_scalar_apply, constant_apply, Ideal.ofBits_one_f32]

set_option maxHeartbeats 4000000 in
/-- The reciprocal-degree column `main_v21`, read at row `i`: one over the larger of the row's edge count and one. -/
theorem H2_v21 (dst : IVec S2000000 32) (hd : W (Proc.devRef .tc main_arg7) = dst) (i : Fin 100000) (z : Fin 1) :
    (StableHlo.after (hostOps2 (F := Ideal)) W (Proc.devRef .tc main_v21) : S100000x1.Idx → EReal) (ix2 i z)
      = Ideal.div 1 (max (cntRB dst (ix1 i)) 1) := by
  subst hd
  have e : (StableHlo.after (hostOps2 (F := Ideal)) W (Proc.devRef .tc main_v21) : S100000x1.Idx → EReal)
      = shapeCast S100000x1 (Host.divf (broadcastInDim S100000 ![] bcast_S_S100000 (constant (F := Ideal) S_ .f32 0x3F800000#32))
          (maximumf (cntRB (W (Proc.devRef .tc main_arg7))) (broadcastInDim S100000 ![] bcast_S_S100000 (constant (F := Ideal) S_ .f32 0x3F800000#32))))
          shapeCasts_S100000_S100000x1 := by
    after_results_simp
    try rfl
  rw [e, column_apply, hostDivf_apply, maximumf_apply, broadcastInDim_scalar_apply, constant_apply, Ideal.ofBits_one_f32]

set_option maxHeartbeats 4000000 in
/-- The reciprocal-degree column `main_v30`, read at row `i`: one over the larger of the row's edge count and one. -/
theorem H2_v30 (dst : IVec S2000000 32) (hd : W (Proc.devRef .tc main_arg5) = dst) (i : Fin 20000) (z : Fin 1) :
    (StableHlo.after (hostOps2 (F := Ideal)) W (Proc.devRef .tc main_v30) : S20000x1.Idx → EReal) (ix2 i z)
      = Ideal.div 1 (max (cntREV dst (ix1 i)) 1) := by
  subst hd
  have e : (StableHlo.after (hostOps2 (F := Ideal)) W (Proc.devRef .tc main_v30) : S20000x1.Idx → EReal)
      = shapeCast S20000x1 (Host.divf (broadcastInDim S20000 ![] bcast_S_S20000 (constant (F := Ideal) S_ .f32 0x3F800000#32))
          (maximumf (cntREV (W (Proc.devRef .tc main_arg5))) (broadcastInDim S20000 ![] bcast_S_S20000 (constant (F := Ideal) S_ .f32 0x3F800000#32))))
          shapeCasts_S20000_S20000x1 := by
    after_results_simp
    try rfl
  rw [e, column_apply, hostDivf_apply, maximumf_apply, broadcastInDim_scalar_apply, constant_apply, Ideal.ofBits_one_f32]

/-! ## The aggregations -/

set_option maxHeartbeats 4000000 in
/-- The stretch's aggregation into `main_v40`, as the operations' term over the table `x` (`main_v1`), the sources `src`
    (`main_arg2`) and the destinations `dst` (`main_arg3`) the stretch starts from. -/
theorem H2_v40_raw (x : S100000x128.Idx → EReal) (src dst : IVec S1600000 32)
    (hx : W (Proc.devRef .tc main_v1) = x) (hs : W (Proc.devRef .tc main_arg2) = src) (hd : W (Proc.devRef .tc main_arg3) = dst) :
    (StableHlo.after (hostOps2 (F := Ideal)) W (Proc.devRef .tc main_v40) : S100000x128.Idx → EReal)
    = Host.scatterAdd scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 dst)
        (Host.gather gather_S100000x128_S1600000x1_S1600000x128_1_0_n_n_0_1_1128 x
          (broadcastInDim S1600000x1 ![0] bcast_S1600000_S1600000x1_0
            (select (cmpi .slt src (broadcastInDim S1600000 ![] bcast_S_S1600000 (constantI S_ 32 0#32)))
              (addi src (broadcastInDim S1600000 ![] bcast_S_S1600000 (constantI S_ 32 100000#32))) src))) := by
  subst hx hs hd
  after_results_simp
  try rfl

/-- Read at an entry: `0` plus the sum over the relation's edges of each edge's contribution. -/
theorem H2_v40 (x : S100000x128.Idx → EReal) (src dst : IVec S1600000 32)
    (hx : W (Proc.devRef .tc main_v1) = x) (hs : W (Proc.devRef .tc main_arg2) = src) (hd : W (Proc.devRef .tc main_arg3) = dst) (i : Fin 100000) (k : Fin 128) :
    (StableHlo.after (hostOps2 (F := Ideal)) W (Proc.devRef .tc main_v40) : S100000x128.Idx → EReal) (ix2 i k)
      = 0 + ∑ e : Fin 1600000, edge2 (Ns := 100000) (by norm_num) 100000#32 x src dst i k e := by
  rw [H2_v40_raw W x src dst hx hs hd]
  exact gather_scatter_apply (Ns := 100000) (Nd := 100000) (E := 1600000) (C := 128) (by norm_num) 100000#32 gather_S100000x128_S1600000x1_S1600000x128_1_0_n_n_0_1_1128_wf scatter_S100000x128_S1600000x1_S1600000x128_1_0_0_1_wf
    bcast_S_S1600000 bcast_S1600000_S1600000x1_0 bcast_S_S100000x128 x src dst i k

set_option maxHeartbeats 4000000 in
/-- The stretch's aggregation into `main_v50`, as the operations' term over the table `x` (`main_v3`), the sources `src`
    (`main_arg6`) and the destinations `dst` (`main_arg7`) the stretch starts from. -/
theorem H2_v50_raw (x : S20000x128.Idx → EReal) (src dst : IVec S2000000 32)
    (hx : W (Proc.devRef .tc main_v3) = x) (hs : W (Proc.devRef .tc main_arg6) = src) (hd : W (Proc.devRef .tc main_arg7) = dst) :
    (StableHlo.after (hostOps2 (F := Ideal)) W (Proc.devRef .tc main_v50) : S100000x128.Idx → EReal)
    = Host.scatterAdd scatter_S100000x128_S2000000x1_S2000000x128_1_0_0_1
        (broadcastInDim S100000x128 ![] bcast_S_S100000x128 (constant (F := Ideal) S_ .f32 0x00000000#32))
        (broadcastInDim S2000000x1 ![0] bcast_S2000000_S2000000x1_0 dst)
        (Host.gather gather_S20000x128_S2000000x1_S2000000x128_1_0_n_n_0_1_1128 x
          (broadcastInDim S2000000x1 ![0] bcast_S2000000_S2000000x1_0
            (select (cmpi .slt src (broadcastInDim S2000000 ![] bcast_S_S2000000 (constantI S_ 32 0#32)))
              (addi src (broadcastInDim S2000000 ![] bcast_S_S2000000 (constantI S_ 32 20000#32))) src))) := by
  subst hx hs hd
  after_results_simp
  try rfl

/-- Read at an entry: `0` plus the sum over the relation's edges of each edge's contribution. -/
theorem H2_v50 (x : S20000x128.Idx → EReal) (src dst : IVec S2000000 32)
    (hx : W (Proc.devRef .tc main_v3) = x) (hs : W (Proc.devRef .tc main_arg6) = src) (hd : W (Proc.devRef .tc main_arg7) = dst) (i : Fin 100000) (k : Fin 128) :
    (StableHlo.after (hostOps2 (F := Ideal)) W (Proc.devRef .tc main_v50) : S100000x128.Idx → EReal) (ix2 i k)
      = 0 + ∑ e : Fin 2000000, edge2 (Ns := 20000) (by norm_num) 20000#32 x src dst i k e := by
  rw [H2_v50_raw W x src dst hx hs hd]
  exact gather_scatter_apply (Ns := 20000) (Nd := 100000) (E := 2000000) (C := 128) (by norm_num) 20000#32 gather_S20000x128_S2000000x1_S2000000x128_1_0_n_n_0_1_1128_wf scatter_S100000x128_S2000000x1_S2000000x128_1_0_0_1_wf
    bcast_S_S2000000 bcast_S2000000_S2000000x1_0 bcast_S_S100000x128 x src dst i k

set_option maxHeartbeats 4000000 in
/-- The stretch's aggregation into `main_v60`, as the operations' term over the table `x` (`main_v1`), the sources `src`
    (`main_arg4`) and the destinations `dst` (`main_arg5`) the stretch starts from. -/
theorem H2_v60_raw (x : S100000x128.Idx → EReal) (src dst : IVec S2000000 32)
    (hx : W (Proc.devRef .tc main_v1) = x) (hs : W (Proc.devRef .tc main_arg4) = src) (hd : W (Proc.devRef .tc main_arg5) = dst) :
    (StableHlo.after (hostOps2 (F := Ideal)) W (Proc.devRef .tc main_v60) : S20000x128.Idx → EReal)
    = Host.scatterAdd scatter_S20000x128_S2000000x1_S2000000x128_1_0_0_1
        (broadcastInDim S20000x128 ![] bcast_S_S20000x128 (constant (F := Ideal) S_ .f32 0x00000000#32))
        (broadcastInDim S2000000x1 ![0] bcast_S2000000_S2000000x1_0 dst)
        (Host.gather gather_S100000x128_S2000000x1_S2000000x128_1_0_n_n_0_1_1128 x
          (broadcastInDim S2000000x1 ![0] bcast_S2000000_S2000000x1_0
            (select (cmpi .slt src (broadcastInDim S2000000 ![] bcast_S_S2000000 (constantI S_ 32 0#32)))
              (addi src (broadcastInDim S2000000 ![] bcast_S_S2000000 (constantI S_ 32 100000#32))) src))) := by
  subst hx hs hd
  after_results_simp
  try rfl

/-- Read at an entry: `0` plus the sum over the relation's edges of each edge's contribution. -/
theorem H2_v60 (x : S100000x128.Idx → EReal) (src dst : IVec S2000000 32)
    (hx : W (Proc.devRef .tc main_v1) = x) (hs : W (Proc.devRef .tc main_arg4) = src) (hd : W (Proc.devRef .tc main_arg5) = dst) (i : Fin 20000) (k : Fin 128) :
    (StableHlo.after (hostOps2 (F := Ideal)) W (Proc.devRef .tc main_v60) : S20000x128.Idx → EReal) (ix2 i k)
      = 0 + ∑ e : Fin 2000000, edge2 (Ns := 100000) (by norm_num) 100000#32 x src dst i k e := by
  rw [H2_v60_raw W x src dst hx hs hd]
  exact gather_scatter_apply (Ns := 100000) (Nd := 20000) (E := 2000000) (C := 128) (by norm_num) 100000#32 gather_S100000x128_S2000000x1_S2000000x128_1_0_n_n_0_1_1128_wf scatter_S20000x128_S2000000x1_S2000000x128_1_0_0_1_wf
    bcast_S_S2000000 bcast_S2000000_S2000000x1_0 bcast_S_S20000x128 x src dst i k

set_option maxHeartbeats 4000000 in
/-- The stretch's aggregation into `main_v80`, as the operations' term over the table `x` (`main_v68`), the sources `src`
    (`main_arg2`) and the destinations `dst` (`main_arg3`) the stretch starts from. -/
theorem H6_v80_raw (x : S100000x64.Idx → EReal) (src dst : IVec S1600000 32)
    (hx : W (Proc.devRef .tc main_v68) = x) (hs : W (Proc.devRef .tc main_arg2) = src) (hd : W (Proc.devRef .tc main_arg3) = dst) :
    (StableHlo.after (hostOps6 (F := Ideal)) W (Proc.devRef .tc main_v80) : S100000x64.Idx → EReal)
    = Host.scatterAdd scatter_S100000x64_S1600000x1_S1600000x64_1_0_0_1
        (broadcastInDim S100000x64 ![] bcast_S_S100000x64 (constant (F := Ideal) S_ .f32 0x00000000#32))
        (broadcastInDim S1600000x1 ![0] bcast_S1600000_S1600000x1_0 dst)
        (Host.gather gather_S100000x64_S1600000x1_S1600000x64_1_0_n_n_0_1_164 x
          (broadcastInDim S1600000x1 ![0] bcast_S1600000_S1600000x1_0
            (select (cmpi .slt src (broadcastInDim S1600000 ![] bcast_S_S1600000 (constantI S_ 32 0#32)))
              (addi src (broadcastInDim S1600000 ![] bcast_S_S1600000 (constantI S_ 32 100000#32))) src))) := by
  subst hx hs hd
  after_results_simp
  try rfl

/-- Read at an entry: `0` plus the sum over the relation's edges of each edge's contribution. -/
theorem H6_v80 (x : S100000x64.Idx → EReal) (src dst : IVec S1600000 32)
    (hx : W (Proc.devRef .tc main_v68) = x) (hs : W (Proc.devRef .tc main_arg2) = src) (hd : W (Proc.devRef .tc main_arg3) = dst) (i : Fin 100000) (k : Fin 64) :
    (StableHlo.after (hostOps6 (F := Ideal)) W (Proc.devRef .tc main_v80) : S100000x64.Idx → EReal) (ix2 i k)
      = 0 + ∑ e : Fin 1600000, edge2 (Ns := 100000) (by norm_num) 100000#32 x src dst i k e := by
  rw [H6_v80_raw W x src dst hx hs hd]
  exact gather_scatter_apply (Ns := 100000) (Nd := 100000) (E := 1600000) (C := 64) (by norm_num) 100000#32 gather_S100000x64_S1600000x1_S1600000x64_1_0_n_n_0_1_164_wf scatter_S100000x64_S1600000x1_S1600000x64_1_0_0_1_wf
    bcast_S_S1600000 bcast_S1600000_S1600000x1_0 bcast_S_S100000x64 x src dst i k

set_option maxHeartbeats 4000000 in
/-- The stretch's aggregation into `main_v90`, as the operations' term over the table `x` (`main_v70`), the sources `src`
    (`main_arg6`) and the destinations `dst` (`main_arg7`) the stretch starts from. -/
theorem H6_v90_raw (x : S20000x64.Idx → EReal) (src dst : IVec S2000000 32)
    (hx : W (Proc.devRef .tc main_v70) = x) (hs : W (Proc.devRef .tc main_arg6) = src) (hd : W (Proc.devRef .tc main_arg7) = dst) :
    (StableHlo.after (hostOps6 (F := Ideal)) W (Proc.devRef .tc main_v90) : S100000x64.Idx → EReal)
    = Host.scatterAdd scatter_S100000x64_S2000000x1_S2000000x64_1_0_0_1
        (broadcastInDim S100000x64 ![] bcast_S_S100000x64 (constant (F := Ideal) S_ .f32 0x00000000#32))
        (broadcastInDim S2000000x1 ![0] bcast_S2000000_S2000000x1_0 dst)
        (Host.gather gather_S20000x64_S2000000x1_S2000000x64_1_0_n_n_0_1_164 x
          (broadcastInDim S2000000x1 ![0] bcast_S2000000_S2000000x1_0
            (select (cmpi .slt src (broadcastInDim S2000000 ![] bcast_S_S2000000 (constantI S_ 32 0#32)))
              (addi src (broadcastInDim S2000000 ![] bcast_S_S2000000 (constantI S_ 32 20000#32))) src))) := by
  subst hx hs hd
  after_results_simp
  try rfl

/-- Read at an entry: `0` plus the sum over the relation's edges of each edge's contribution. -/
theorem H6_v90 (x : S20000x64.Idx → EReal) (src dst : IVec S2000000 32)
    (hx : W (Proc.devRef .tc main_v70) = x) (hs : W (Proc.devRef .tc main_arg6) = src) (hd : W (Proc.devRef .tc main_arg7) = dst) (i : Fin 100000) (k : Fin 64) :
    (StableHlo.after (hostOps6 (F := Ideal)) W (Proc.devRef .tc main_v90) : S100000x64.Idx → EReal) (ix2 i k)
      = 0 + ∑ e : Fin 2000000, edge2 (Ns := 20000) (by norm_num) 20000#32 x src dst i k e := by
  rw [H6_v90_raw W x src dst hx hs hd]
  exact gather_scatter_apply (Ns := 20000) (Nd := 100000) (E := 2000000) (C := 64) (by norm_num) 20000#32 gather_S20000x64_S2000000x1_S2000000x64_1_0_n_n_0_1_164_wf scatter_S100000x64_S2000000x1_S2000000x64_1_0_0_1_wf
    bcast_S_S2000000 bcast_S2000000_S2000000x1_0 bcast_S_S100000x64 x src dst i k

set_option maxHeartbeats 4000000 in
/-- The stretch's aggregation into `main_v100`, as the operations' term over the table `x` (`main_v69`), the sources `src`
    (`main_arg4`) and the destinations `dst` (`main_arg5`) the stretch starts from. -/
theorem H6_v100_raw (x : S100000x64.Idx → EReal) (src dst : IVec S2000000 32)
    (hx : W (Proc.devRef .tc main_v69) = x) (hs : W (Proc.devRef .tc main_arg4) = src) (hd : W (Proc.devRef .tc main_arg5) = dst) :
    (StableHlo.after (hostOps6 (F := Ideal)) W (Proc.devRef .tc main_v100) : S20000x64.Idx → EReal)
    = Host.scatterAdd scatter_S20000x64_S2000000x1_S2000000x64_1_0_0_1
        (broadcastInDim S20000x64 ![] bcast_S_S20000x64 (constant (F := Ideal) S_ .f32 0x00000000#32))
        (broadcastInDim S2000000x1 ![0] bcast_S2000000_S2000000x1_0 dst)
        (Host.gather gather_S100000x64_S2000000x1_S2000000x64_1_0_n_n_0_1_164 x
          (broadcastInDim S2000000x1 ![0] bcast_S2000000_S2000000x1_0
            (select (cmpi .slt src (broadcastInDim S2000000 ![] bcast_S_S2000000 (constantI S_ 32 0#32)))
              (addi src (broadcastInDim S2000000 ![] bcast_S_S2000000 (constantI S_ 32 100000#32))) src))) := by
  subst hx hs hd
  after_results_simp
  try rfl

/-- Read at an entry: `0` plus the sum over the relation's edges of each edge's contribution. -/
theorem H6_v100 (x : S100000x64.Idx → EReal) (src dst : IVec S2000000 32)
    (hx : W (Proc.devRef .tc main_v69) = x) (hs : W (Proc.devRef .tc main_arg4) = src) (hd : W (Proc.devRef .tc main_arg5) = dst) (i : Fin 20000) (k : Fin 64) :
    (StableHlo.after (hostOps6 (F := Ideal)) W (Proc.devRef .tc main_v100) : S20000x64.Idx → EReal) (ix2 i k)
      = 0 + ∑ e : Fin 2000000, edge2 (Ns := 100000) (by norm_num) 100000#32 x src dst i k e := by
  rw [H6_v100_raw W x src dst hx hs hd]
  exact gather_scatter_apply (Ns := 100000) (Nd := 20000) (E := 2000000) (C := 64) (by norm_num) 100000#32 gather_S100000x64_S2000000x1_S2000000x64_1_0_n_n_0_1_164_wf scatter_S20000x64_S2000000x1_S2000000x64_1_0_0_1_wf
    bcast_S_S2000000 bcast_S2000000_S2000000x1_0 bcast_S_S20000x64 x src dst i k

end Cert.KernelIdeal.Entry

end
-- ==== Proof.EntryLib.lean ====
/-
  The host side of the program, shared vocabulary. Between two regions the program runs a stretch of host
  operations; a buffer that no operation of a stretch writes keeps its contents across it, and a buffer that is not
  a region's output array keeps its contents across the region. Here: the references each stretch writes, in order
  (so that "not written" is decided over references), one step back through the run at each boundary, and the launch
  contents of the arguments and the regions' outputs by name.
-/
import proofs.«119514_j10857677324737_2_alg».proof.Proof.Gen.KernelIdeal.Frame
import proofs.«119514_j10857677324737_2_alg».proof.Proof.LibWrittenRefs
import proofs.«119514_j10857677324737_2_alg».proof.Proof.EntryHost

set_option maxRecDepth 16384

noncomputable section

open scoped BigOperators

namespace Cert.KernelIdeal.Entry

open Idealize.ShloMosaic Idealize.ShloMosaic.ValueIdx Idealize.ShloMosaic.TcCoe
open Cert.KernelIdeal Cert.KernelIdeal.Gen

/-! ## The references each stretch of host operations writes, in order -/

abbrev written0 : List (Ref sig .tc) := [main_v0]
abbrev written1 : List (Ref sig .tc) := [main_v2]
abbrev written2 : List (Ref sig .tc) :=
  [main_cst, main_v4, main_cst_0, main_v5, main_v6, main_v7, main_cst_1, main_v8, main_v9, main_cst_2, main_v10, main_v11, main_v12,
   main_cst_3, main_v13, main_cst_4, main_v14, main_v15, main_v16, main_cst_5, main_v17, main_v18, main_cst_6, main_v19, main_v20, main_v21,
   main_cst_7, main_v22, main_cst_8, main_v23, main_v24, main_v25, main_cst_9, main_v26, main_v27, main_cst_10, main_v28, main_v29, main_v30,
   main_c, main_v31, main_v32, main_c_11, main_v33, main_v34, main_v35, main_v36, main_v37, main_cst_12, main_v38, main_v39, main_v40,
   main_c_13, main_v41, main_v42, main_c_14, main_v43, main_v44, main_v45, main_v46, main_v47, main_cst_15, main_v48, main_v49, main_v50,
   main_c_16, main_v51, main_v52, main_c_17, main_v53, main_v54, main_v55, main_v56, main_v57, main_cst_18, main_v58, main_v59, main_v60,
   main_v61, main_v62, main_v63]
abbrev written3 : List (Ref sig .tc) := [main_v65]
abbrev written5 : List (Ref sig .tc) := [main_v68, main_v69]
abbrev written6 : List (Ref sig .tc) :=
  [main_c_19, main_v71, main_v72, main_c_20, main_v73, main_v74, main_v75, main_v76, main_v77, main_cst_21, main_v78, main_v79, main_v80,
   main_c_22, main_v81, main_v82, main_c_23, main_v83, main_v84, main_v85, main_v86, main_v87, main_cst_24, main_v88, main_v89, main_v90,
   main_c_25, main_v91, main_v92, main_c_26, main_v93, main_v94, main_v95, main_v96, main_v97, main_cst_27, main_v98, main_v99, main_v100,
   main_v101, main_v102, main_v103]
abbrev written7 : List (Ref sig .tc) := [main_v105]

/-- A reference the first stretch does not write keeps its contents across it. -/
theorem keep0 (V : Valuation τ sig (Elt Ideal)) {r : Ref sig .tc} (hr : r ∉ written0) :
    StableHlo.after (hostOps0 (F := Ideal)) V (Proc.devRef .tc r) = V (Proc.devRef .tc r) :=
  StableHlo.after_of_map_writes_eq (W := written0) rfl V hr
theorem keep1 (V : Valuation τ sig (Elt Ideal)) {r : Ref sig .tc} (hr : r ∉ written1) :
    StableHlo.after (hostOps1 (F := Ideal)) V (Proc.devRef .tc r) = V (Proc.devRef .tc r) :=
  StableHlo.after_of_map_writes_eq (W := written1) rfl V hr
theorem keep2 (V : Valuation τ sig (Elt Ideal)) {r : Ref sig .tc} (hr : r ∉ written2) :
    StableHlo.after (hostOps2 (F := Ideal)) V (Proc.devRef .tc r) = V (Proc.devRef .tc r) :=
  StableHlo.after_of_map_writes_eq (W := written2) rfl V hr
theorem keep3 (V : Valuation τ sig (Elt Ideal)) {r : Ref sig .tc} (hr : r ∉ written3) :
    StableHlo.after (hostOps3 (F := Ideal)) V (Proc.devRef .tc r) = V (Proc.devRef .tc r) :=
  StableHlo.after_of_map_writes_eq (W := written3) rfl V hr
theorem keep5 (V : Valuation τ sig (Elt Ideal)) {r : Ref sig .tc} (hr : r ∉ written5) :
    StableHlo.after (hostOps5 (F := Ideal)) V (Proc.devRef .tc r) = V (Proc.devRef .tc r) :=
  StableHlo.after_of_map_writes_eq (W := written5) rfl V hr
theorem keep6 (V : Valuation τ sig (Elt Ideal)) {r : Ref sig .tc} (hr : r ∉ written6) :
    StableHlo.after (hostOps6 (F := Ideal)) V (Proc.devRef .tc r) = V (Proc.devRef .tc r) :=
  StableHlo.after_of_map_writes_eq (W := written6) rfl V hr
theorem keep7 (V : Valuation τ sig (Elt Ideal)) {r : Ref sig .tc} (hr : r ∉ written7) :
    StableHlo.after (hostOps7 (F := Ideal)) V (Proc.devRef .tc r) = V (Proc.devRef .tc r) :=
  StableHlo.after_of_map_writes_eq (W := written7) rfl V hr

variable (m : (ℓ : Loc nD τ sig) → Buf (Elt Ideal) ℓ) (ρ : Dev nD → PrngReg) (c : Dev nD)

/-! ## One step back through the run

Across a stretch of host operations a reference the stretch does not write keeps its contents (`host…`); across a
region every buffer but the region's output array keeps its contents (`across…`: a buffer that is not one of the
region's arrays by the frame, an input array because the pipeline leaves the inputs as entered). -/

theorem host1 {r : Ref sig .tc} (hr : r ∉ written0) :
    W1 m ρ c (Proc.devRef .tc r) = W0 m ρ c (Proc.devRef .tc r) := keep0 _ hr
theorem host3 {r : Ref sig .tc} (hr : r ∉ written1) :
    W3 m ρ c (Proc.devRef .tc r) = W2 m ρ c (Proc.devRef .tc r) := keep1 _ hr
theorem host5 {r : Ref sig .tc} (hr : r ∉ written2) :
    W5 m ρ c (Proc.devRef .tc r) = W4 m ρ c (Proc.devRef .tc r) := keep2 _ hr
theorem host7 {r : Ref sig .tc} (hr : r ∉ written3) :
    W7 m ρ c (Proc.devRef .tc r) = W6 m ρ c (Proc.devRef .tc r) := keep3 _ hr
theorem host10 {r : Ref sig .tc} (hr : r ∉ written5) :
    W10 m ρ c (Proc.devRef .tc r) = W9 m ρ c (Proc.devRef .tc r) := keep5 _ hr
theorem host12 {r : Ref sig .tc} (hr : r ∉ written6) :
    W12 m ρ c (Proc.devRef .tc r) = W11 m ρ c (Proc.devRef .tc r) := keep6 _ hr
theorem host14 {r : Ref sig .tc} (hr : r ∉ written7) :
    W14 m ρ c (Proc.devRef .tc r) = W13 m ρ c (Proc.devRef .tc r) := keep7 _ hr

theorem across2 {r : Ref sig .tc} (hr : r ≠ main_v1) :
    W2 m ρ c (Proc.devRef .tc r) = W1 m ρ c (Proc.devRef .tc r) := by
  by_cases h : ∃ w, Pipeline.arrRef spec0 w = r
  · obtain ⟨w, rfl⟩ := h
    have hin : (cfg0.win w).isOut = false := by revert w; decide
    exact (W2_arr m ρ c w).trans (((dat0 (V1 m ρ) c).arrAt_in w hin _).trans (A_eq0 (V1 m ρ) c w))
  · exact W2_of_ne m ρ c r fun w e => h ⟨w, e⟩
theorem across4 {r : Ref sig .tc} (hr : r ≠ main_v3) :
    W4 m ρ c (Proc.devRef .tc r) = W3 m ρ c (Proc.devRef .tc r) := by
  by_cases h : ∃ w, Pipeline.arrRef spec1 w = r
  · obtain ⟨w, rfl⟩ := h
    have hin : (cfg1.win w).isOut = false := by revert w; decide
    exact (W4_arr m ρ c w).trans (((dat1 (V3 m ρ) c).arrAt_in w hin _).trans (A_eq1 (V3 m ρ) c w))
  · exact W4_of_ne m ρ c r fun w e => h ⟨w, e⟩
theorem across6 {r : Ref sig .tc} (hr : r ≠ main_v64) :
    W6 m ρ c (Proc.devRef .tc r) = W5 m ρ c (Proc.devRef .tc r) := by
  by_cases h : ∃ w, Pipeline.arrRef spec2 w = r
  · obtain ⟨w, rfl⟩ := h
    have hin : (cfg2.win w).isOut = false := by revert w; decide
    exact (W6_arr m ρ c w).trans (((dat2 (V5 m ρ) c).arrAt_in w hin _).trans (A_eq2 (V5 m ρ) c w))
  · exact W6_of_ne m ρ c r fun w e => h ⟨w, e⟩
theorem across8 {r : Ref sig .tc} (hr : r ≠ main_v66) :
    W8 m ρ c (Proc.devRef .tc r) = W7 m ρ c (Proc.devRef .tc r) := by
  by_cases h : ∃ w, Pipeline.arrRef spec3 w = r
  · obtain ⟨w, rfl⟩ := h
    have hin : (cfg3.win w).isOut = false := by revert w; decide
    exact (W8_arr m ρ c w).trans (((dat3 (V7 m ρ) c).arrAt_in w hin _).trans (A_eq3 (V7 m ρ) c w))
  · exact W8_of_ne m ρ c r fun w e => h ⟨w, e⟩
theorem across9 {r : Ref sig .tc} (hr : r ≠ main_v67) :
    W9 m ρ c (Proc.devRef .tc r) = W8 m ρ c (Proc.devRef .tc r) := by
  by_cases h : ∃ w, Pipeline.arrRef spec4 w = r
  · obtain ⟨w, rfl⟩ := h
    have hin : (cfg4.win w).isOut = false := by revert w; decide
    exact (W9_arr m ρ c w).trans (((dat4 (V8 m ρ) c).arrAt_in w hin _).trans (A_eq4 (V8 m ρ) c w))
  · exact W9_of_ne m ρ c r fun w e => h ⟨w, e⟩
theorem across11 {r : Ref sig .tc} (hr : r ≠ main_v70) :
    W11 m ρ c (Proc.devRef .tc r) = W10 m ρ c (Proc.devRef .tc r) := by
  by_cases h : ∃ w, Pipeline.arrRef spec5 w = r
  · obtain ⟨w, rfl⟩ := h
    have hin : (cfg5.win w).isOut = false := by revert w; decide
    exact (W11_arr m ρ c w).trans (((dat5 (V10 m ρ) c).arrAt_in w hin _).trans (A_eq5 (V10 m ρ) c w))
  · exact W11_of_ne m ρ c r fun w e => h ⟨w, e⟩
theorem across13 {r : Ref sig .tc} (hr : r ≠ main_v104) :
    W13 m ρ c (Proc.devRef .tc r) = W12 m ρ c (Proc.devRef .tc r) := by
  by_cases h : ∃ w, Pipeline.arrRef spec6 w = r
  · obtain ⟨w, rfl⟩ := h
    have hin : (cfg6.win w).isOut = false := by revert w; decide
    exact (W13_arr m ρ c w).trans (((dat6 (V12 m ρ) c).arrAt_in w hin _).trans (A_eq6 (V12 m ρ) c w))
  · exact W13_of_ne m ρ c r fun w e => h ⟨w, e⟩
theorem across15 {r : Ref sig .tc} (hr : r ≠ main_v106) :
    W15 m ρ c (Proc.devRef .tc r) = W14 m ρ c (Proc.devRef .tc r) := by
  by_cases h : ∃ w, Pipeline.arrRef spec7 w = r
  · obtain ⟨w, rfl⟩ := h
    have hin : (cfg7.win w).isOut = false := by revert w; decide
    exact (W15_arr m ρ c w).trans (((dat7 (V14 m ρ) c).arrAt_in w hin _).trans (A_eq7 (V14 m ρ) c w))
  · exact W15_of_ne m ρ c r fun w e => h ⟨w, e⟩

/-! ## Names: the arguments' launch contents and the regions' outputs -/

/-- Argument 0 as launched. -/
abbrev A0 : S100000x128.Idx → EReal := m ((c : Thread nD τ).loc main_arg0)
/-- Argument 1 as launched. -/
abbrev A1 : S20000x384.Idx → EReal := m ((c : Thread nD τ).loc main_arg1)
/-- Argument 2 as launched. -/
abbrev A2 : IVec S1600000 32 := m ((c : Thread nD τ).loc main_arg2)
/-- Argument 3 as launched. -/
abbrev A3 : IVec S1600000 32 := m ((c : Thread nD τ).loc main_arg3)
/-- Argument 4 as launched. -/
abbrev A4 : IVec S2000000 32 := m ((c : Thread nD τ).loc main_arg4)
/-- Argument 5 as launched. -/
abbrev A5 : IVec S2000000 32 := m ((c : Thread nD τ).loc main_arg5)
/-- Argument 6 as launched. -/
abbrev A6 : IVec S2000000 32 := m ((c : Thread nD τ).loc main_arg6)
/-- Argument 7 as launched. -/
abbrev A7 : IVec S2000000 32 := m ((c : Thread nD τ).loc main_arg7)
/-- Argument 8 as launched. -/
abbrev A8 : S128x128.Idx → EReal := m ((c : Thread nD τ).loc main_arg8)
/-- Argument 9 as launched. -/
abbrev A9 : S128.Idx → EReal := m ((c : Thread nD τ).loc main_arg9)
/-- Argument 10 as launched. -/
abbrev A10 : S384x128.Idx → EReal := m ((c : Thread nD τ).loc main_arg10)
/-- Argument 11 as launched. -/
abbrev A11 : S128.Idx → EReal := m ((c : Thread nD τ).loc main_arg11)
/-- Argument 12 as launched. -/
abbrev A12 : S128x128.Idx → EReal := m ((c : Thread nD τ).loc main_arg12)
/-- Argument 13 as launched. -/
abbrev A13 : S128.Idx → EReal := m ((c : Thread nD τ).loc main_arg13)
/-- Argument 14 as launched. -/
abbrev A14 : S128x128.Idx → EReal := m ((c : Thread nD τ).loc main_arg14)
/-- Argument 15 as launched. -/
abbrev A15 : S128x128.Idx → EReal := m ((c : Thread nD τ).loc main_arg15)
/-- Argument 16 as launched. -/
abbrev A16 : S128.Idx → EReal := m ((c : Thread nD τ).loc main_arg16)
/-- Argument 17 as launched. -/
abbrev A17 : S128x128.Idx → EReal := m ((c : Thread nD τ).loc main_arg17)
/-- Argument 18 as launched. -/
abbrev A18 : S128x128.Idx → EReal := m ((c : Thread nD τ).loc main_arg18)
/-- Argument 19 as launched. -/
abbrev A19 : S128.Idx → EReal := m ((c : Thread nD τ).loc main_arg19)
/-- Argument 20 as launched. -/
abbrev A20 : S128x128.Idx → EReal := m ((c : Thread nD τ).loc main_arg20)
/-- Argument 21 as launched. -/
abbrev A21 : S128x64.Idx → EReal := m ((c : Thread nD τ).loc main_arg21)
/-- Argument 22 as launched. -/
abbrev A22 : S64.Idx → EReal := m ((c : Thread nD τ).loc main_arg22)
/-- Argument 23 as launched. -/
abbrev A23 : S128x64.Idx → EReal := m ((c : Thread nD τ).loc main_arg23)
/-- Argument 24 as launched. -/
abbrev A24 : S128x64.Idx → EReal := m ((c : Thread nD τ).loc main_arg24)
/-- Argument 25 as launched. -/
abbrev A25 : S64.Idx → EReal := m ((c : Thread nD τ).loc main_arg25)
/-- Argument 26 as launched. -/
abbrev A26 : S128x64.Idx → EReal := m ((c : Thread nD τ).loc main_arg26)
/-- Argument 27 as launched. -/
abbrev A27 : S128x64.Idx → EReal := m ((c : Thread nD τ).loc main_arg27)
/-- Argument 28 as launched. -/
abbrev A28 : S64.Idx → EReal := m ((c : Thread nD τ).loc main_arg28)
/-- Argument 29 as launched. -/
abbrev A29 : S128x64.Idx → EReal := m ((c : Thread nD τ).loc main_arg29)
/-- Region 0's output array when the region has run. -/
abbrev Ku : S100000x128.Idx → EReal := (dat0 (F := Ideal) (V1 m ρ) c).arrAt 3 cfg0.N
/-- Region 1's output array when the region has run. -/
abbrev Ka : S20000x128.Idx → EReal := (dat1 (F := Ideal) (V3 m ρ) c).arrAt 3 cfg1.N
/-- Region 2's output array when the region has run. -/
abbrev Ku1 : S100000x128.Idx → EReal := (dat2 (F := Ideal) (V5 m ρ) c).arrAt 9 cfg2.N
/-- Region 3's output array when the region has run. -/
abbrev Ka1 : S20000x128.Idx → EReal := (dat3 (F := Ideal) (V7 m ρ) c).arrAt 6 cfg3.N
/-- Region 4's output array when the region has run. -/
abbrev Kp : S100000x128.Idx → EReal := (dat4 (F := Ideal) (V8 m ρ) c).arrAt 3 cfg4.N
/-- Region 5's output array when the region has run. -/
abbrev Kprb : S20000x64.Idx → EReal := (dat5 (F := Ideal) (V10 m ρ) c).arrAt 2 cfg5.N
/-- Region 6's output array when the region has run. -/
abbrev Ku2 : S100000x64.Idx → EReal := (dat6 (F := Ideal) (V12 m ρ) c).arrAt 7 cfg6.N
/-- Region 7's output array when the region has run. -/
abbrev Ka2 : S20000x64.Idx → EReal := (dat7 (F := Ideal) (V14 m ρ) c).arrAt 5 cfg7.N

/-- The left half (columns 0 … 63) of region 4's output. -/
abbrev PFF : S100000x64.Idx → EReal := fun j => Kp m ρ c (ix2 (j 0) ⟨(j 1).val, by have := idx2_lt1 j; omega⟩)
/-- The right half (columns 64 … 127) of region 4's output. -/
abbrev PREV : S100000x64.Idx → EReal := fun j => Kp m ρ c (ix2 (j 0) ⟨(j 1).val + 64, by have := idx2_lt1 j; omega⟩)

/-! ## Buffers chased back through the run

An argument is written by nothing, so at every boundary it holds its launch contents; a region's output holds what
the region left until something writes it again (nothing does); a buffer a stretch of host operations wrote holds
that until the next stretch that writes it (none does). -/

theorem W0_arg9 : W0 m ρ c (Proc.devRef .tc main_arg9) = A9 m c := rfl
theorem W1_arg0 : W1 m ρ c (Proc.devRef .tc main_arg0) = A0 m c :=
  (host1 m ρ c (r := main_arg0) (by decide))
theorem W1_arg8 : W1 m ρ c (Proc.devRef .tc main_arg8) = A8 m c :=
  (host1 m ρ c (r := main_arg8) (by decide))
theorem W2_arg11 : W2 m ρ c (Proc.devRef .tc main_arg11) = A11 m c :=
  (across2 m ρ c (r := main_arg11) (by decide)).trans ((host1 m ρ c (r := main_arg11) (by decide)))
theorem W3_arg1 : W3 m ρ c (Proc.devRef .tc main_arg1) = A1 m c :=
  (host3 m ρ c (r := main_arg1) (by decide)).trans ((across2 m ρ c (r := main_arg1) (by decide)).trans ((host1 m ρ c (r := main_arg1) (by decide))))
theorem W3_arg10 : W3 m ρ c (Proc.devRef .tc main_arg10) = A10 m c :=
  (host3 m ρ c (r := main_arg10) (by decide)).trans ((across2 m ρ c (r := main_arg10) (by decide)).trans ((host1 m ρ c (r := main_arg10) (by decide))))
theorem W4_arg2 : W4 m ρ c (Proc.devRef .tc main_arg2) = A2 m c :=
  (across4 m ρ c (r := main_arg2) (by decide)).trans ((host3 m ρ c (r := main_arg2) (by decide)).trans ((across2 m ρ c (r := main_arg2) (by decide)).trans ((host1 m ρ c (r := main_arg2) (by decide)))))
theorem W4_arg3 : W4 m ρ c (Proc.devRef .tc main_arg3) = A3 m c :=
  (across4 m ρ c (r := main_arg3) (by decide)).trans ((host3 m ρ c (r := main_arg3) (by decide)).trans ((across2 m ρ c (r := main_arg3) (by decide)).trans ((host1 m ρ c (r := main_arg3) (by decide)))))
theorem W4_arg6 : W4 m ρ c (Proc.devRef .tc main_arg6) = A6 m c :=
  (across4 m ρ c (r := main_arg6) (by decide)).trans ((host3 m ρ c (r := main_arg6) (by decide)).trans ((across2 m ρ c (r := main_arg6) (by decide)).trans ((host1 m ρ c (r := main_arg6) (by decide)))))
theorem W4_arg7 : W4 m ρ c (Proc.devRef .tc main_arg7) = A7 m c :=
  (across4 m ρ c (r := main_arg7) (by decide)).trans ((host3 m ρ c (r := main_arg7) (by decide)).trans ((across2 m ρ c (r := main_arg7) (by decide)).trans ((host1 m ρ c (r := main_arg7) (by decide)))))
theorem W4_arg14 : W4 m ρ c (Proc.devRef .tc main_arg14) = A14 m c :=
  (across4 m ρ c (r := main_arg14) (by decide)).trans ((host3 m ρ c (r := main_arg14) (by decide)).trans ((across2 m ρ c (r := main_arg14) (by decide)).trans ((host1 m ρ c (r := main_arg14) (by decide)))))
theorem W4_arg20 : W4 m ρ c (Proc.devRef .tc main_arg20) = A20 m c :=
  (across4 m ρ c (r := main_arg20) (by decide)).trans ((host3 m ρ c (r := main_arg20) (by decide)).trans ((across2 m ρ c (r := main_arg20) (by decide)).trans ((host1 m ρ c (r := main_arg20) (by decide)))))
theorem W4_arg13 : W4 m ρ c (Proc.devRef .tc main_arg13) = A13 m c :=
  (across4 m ρ c (r := main_arg13) (by decide)).trans ((host3 m ρ c (r := main_arg13) (by decide)).trans ((across2 m ρ c (r := main_arg13) (by decide)).trans ((host1 m ρ c (r := main_arg13) (by decide)))))
theorem W4_arg19 : W4 m ρ c (Proc.devRef .tc main_arg19) = A19 m c :=
  (across4 m ρ c (r := main_arg19) (by decide)).trans ((host3 m ρ c (r := main_arg19) (by decide)).trans ((across2 m ρ c (r := main_arg19) (by decide)).trans ((host1 m ρ c (r := main_arg19) (by decide)))))
theorem W4_arg4 : W4 m ρ c (Proc.devRef .tc main_arg4) = A4 m c :=
  (across4 m ρ c (r := main_arg4) (by decide)).trans ((host3 m ρ c (r := main_arg4) (by decide)).trans ((across2 m ρ c (r := main_arg4) (by decide)).trans ((host1 m ρ c (r := main_arg4) (by decide)))))
theorem W4_arg5 : W4 m ρ c (Proc.devRef .tc main_arg5) = A5 m c :=
  (across4 m ρ c (r := main_arg5) (by decide)).trans ((host3 m ρ c (r := main_arg5) (by decide)).trans ((across2 m ρ c (r := main_arg5) (by decide)).trans ((host1 m ρ c (r := main_arg5) (by decide)))))
theorem W5_arg12 : W5 m ρ c (Proc.devRef .tc main_arg12) = A12 m c :=
  (host5 m ρ c (r := main_arg12) (by decide)).trans ((across4 m ρ c (r := main_arg12) (by decide)).trans ((host3 m ρ c (r := main_arg12) (by decide)).trans ((across2 m ρ c (r := main_arg12) (by decide)).trans ((host1 m ρ c (r := main_arg12) (by decide))))))
theorem W5_arg18 : W5 m ρ c (Proc.devRef .tc main_arg18) = A18 m c :=
  (host5 m ρ c (r := main_arg18) (by decide)).trans ((across4 m ρ c (r := main_arg18) (by decide)).trans ((host3 m ρ c (r := main_arg18) (by decide)).trans ((across2 m ρ c (r := main_arg18) (by decide)).trans ((host1 m ρ c (r := main_arg18) (by decide))))))
theorem W6_arg16 : W6 m ρ c (Proc.devRef .tc main_arg16) = A16 m c :=
  (across6 m ρ c (r := main_arg16) (by decide)).trans ((host5 m ρ c (r := main_arg16) (by decide)).trans ((across4 m ρ c (r := main_arg16) (by decide)).trans ((host3 m ρ c (r := main_arg16) (by decide)).trans ((across2 m ρ c (r := main_arg16) (by decide)).trans ((host1 m ρ c (r := main_arg16) (by decide)))))))
theorem W7_arg15 : W7 m ρ c (Proc.devRef .tc main_arg15) = A15 m c :=
  (host7 m ρ c (r := main_arg15) (by decide)).trans ((across6 m ρ c (r := main_arg15) (by decide)).trans ((host5 m ρ c (r := main_arg15) (by decide)).trans ((across4 m ρ c (r := main_arg15) (by decide)).trans ((host3 m ρ c (r := main_arg15) (by decide)).trans ((across2 m ρ c (r := main_arg15) (by decide)).trans ((host1 m ρ c (r := main_arg15) (by decide))))))))
theorem W7_arg17 : W7 m ρ c (Proc.devRef .tc main_arg17) = A17 m c :=
  (host7 m ρ c (r := main_arg17) (by decide)).trans ((across6 m ρ c (r := main_arg17) (by decide)).trans ((host5 m ρ c (r := main_arg17) (by decide)).trans ((across4 m ρ c (r := main_arg17) (by decide)).trans ((host3 m ρ c (r := main_arg17) (by decide)).trans ((across2 m ρ c (r := main_arg17) (by decide)).trans ((host1 m ρ c (r := main_arg17) (by decide))))))))
theorem W8_arg21 : W8 m ρ c (Proc.devRef .tc main_arg21) = A21 m c :=
  (across8 m ρ c (r := main_arg21) (by decide)).trans ((host7 m ρ c (r := main_arg21) (by decide)).trans ((across6 m ρ c (r := main_arg21) (by decide)).trans ((host5 m ρ c (r := main_arg21) (by decide)).trans ((across4 m ρ c (r := main_arg21) (by decide)).trans ((host3 m ρ c (r := main_arg21) (by decide)).trans ((across2 m ρ c (r := main_arg21) (by decide)).trans ((host1 m ρ c (r := main_arg21) (by decide)))))))))
theorem W8_arg24 : W8 m ρ c (Proc.devRef .tc main_arg24) = A24 m c :=
  (across8 m ρ c (r := main_arg24) (by decide)).trans ((host7 m ρ c (r := main_arg24) (by decide)).trans ((across6 m ρ c (r := main_arg24) (by decide)).trans ((host5 m ρ c (r := main_arg24) (by decide)).trans ((across4 m ρ c (r := main_arg24) (by decide)).trans ((host3 m ρ c (r := main_arg24) (by decide)).trans ((across2 m ρ c (r := main_arg24) (by decide)).trans ((host1 m ρ c (r := main_arg24) (by decide)))))))))
theorem W10_arg27 : W10 m ρ c (Proc.devRef .tc main_arg27) = A27 m c :=
  (host10 m ρ c (r := main_arg27) (by decide)).trans ((across9 m ρ c (r := main_arg27) (by decide)).trans ((across8 m ρ c (r := main_arg27) (by decide)).trans ((host7 m ρ c (r := main_arg27) (by decide)).trans ((across6 m ρ c (r := main_arg27) (by decide)).trans ((host5 m ρ c (r := main_arg27) (by decide)).trans ((across4 m ρ c (r := main_arg27) (by decide)).trans ((host3 m ρ c (r := main_arg27) (by decide)).trans ((across2 m ρ c (r := main_arg27) (by decide)).trans ((host1 m ρ c (r := main_arg27) (by decide)))))))))))
theorem W11_arg2 : W11 m ρ c (Proc.devRef .tc main_arg2) = A2 m c :=
  (across11 m ρ c (r := main_arg2) (by decide)).trans ((host10 m ρ c (r := main_arg2) (by decide)).trans ((across9 m ρ c (r := main_arg2) (by decide)).trans ((across8 m ρ c (r := main_arg2) (by decide)).trans ((host7 m ρ c (r := main_arg2) (by decide)).trans ((across6 m ρ c (r := main_arg2) (by decide)).trans ((host5 m ρ c (r := main_arg2) (by decide)).trans ((across4 m ρ c (r := main_arg2) (by decide)).trans ((host3 m ρ c (r := main_arg2) (by decide)).trans ((across2 m ρ c (r := main_arg2) (by decide)).trans ((host1 m ρ c (r := main_arg2) (by decide))))))))))))
theorem W11_arg3 : W11 m ρ c (Proc.devRef .tc main_arg3) = A3 m c :=
  (across11 m ρ c (r := main_arg3) (by decide)).trans ((host10 m ρ c (r := main_arg3) (by decide)).trans ((across9 m ρ c (r := main_arg3) (by decide)).trans ((across8 m ρ c (r := main_arg3) (by decide)).trans ((host7 m ρ c (r := main_arg3) (by decide)).trans ((across6 m ρ c (r := main_arg3) (by decide)).trans ((host5 m ρ c (r := main_arg3) (by decide)).trans ((across4 m ρ c (r := main_arg3) (by decide)).trans ((host3 m ρ c (r := main_arg3) (by decide)).trans ((across2 m ρ c (r := main_arg3) (by decide)).trans ((host1 m ρ c (r := main_arg3) (by decide))))))))))))
theorem W11_arg6 : W11 m ρ c (Proc.devRef .tc main_arg6) = A6 m c :=
  (across11 m ρ c (r := main_arg6) (by decide)).trans ((host10 m ρ c (r := main_arg6) (by decide)).trans ((across9 m ρ c (r := main_arg6) (by decide)).trans ((across8 m ρ c (r := main_arg6) (by decide)).trans ((host7 m ρ c (r := main_arg6) (by decide)).trans ((across6 m ρ c (r := main_arg6) (by decide)).trans ((host5 m ρ c (r := main_arg6) (by decide)).trans ((across4 m ρ c (r := main_arg6) (by decide)).trans ((host3 m ρ c (r := main_arg6) (by decide)).trans ((across2 m ρ c (r := main_arg6) (by decide)).trans ((host1 m ρ c (r := main_arg6) (by decide))))))))))))
theorem W11_arg7 : W11 m ρ c (Proc.devRef .tc main_arg7) = A7 m c :=
  (across11 m ρ c (r := main_arg7) (by decide)).trans ((host10 m ρ c (r := main_arg7) (by decide)).trans ((across9 m ρ c (r := main_arg7) (by decide)).trans ((across8 m ρ c (r := main_arg7) (by decide)).trans ((host7 m ρ c (r := main_arg7) (by decide)).trans ((across6 m ρ c (r := main_arg7) (by decide)).trans ((host5 m ρ c (r := main_arg7) (by decide)).trans ((across4 m ρ c (r := main_arg7) (by decide)).trans ((host3 m ρ c (r := main_arg7) (by decide)).trans ((across2 m ρ c (r := main_arg7) (by decide)).trans ((host1 m ρ c (r := main_arg7) (by decide))))))))))))
theorem W11_arg23 : W11 m ρ c (Proc.devRef .tc main_arg23) = A23 m c :=
  (across11 m ρ c (r := main_arg23) (by decide)).trans ((host10 m ρ c (r := main_arg23) (by decide)).trans ((across9 m ρ c (r := main_arg23) (by decide)).trans ((across8 m ρ c (r := main_arg23) (by decide)).trans ((host7 m ρ c (r := main_arg23) (by decide)).trans ((across6 m ρ c (r := main_arg23) (by decide)).trans ((host5 m ρ c (r := main_arg23) (by decide)).trans ((across4 m ρ c (r := main_arg23) (by decide)).trans ((host3 m ρ c (r := main_arg23) (by decide)).trans ((across2 m ρ c (r := main_arg23) (by decide)).trans ((host1 m ρ c (r := main_arg23) (by decide))))))))))))
theorem W11_arg29 : W11 m ρ c (Proc.devRef .tc main_arg29) = A29 m c :=
  (across11 m ρ c (r := main_arg29) (by decide)).trans ((host10 m ρ c (r := main_arg29) (by decide)).trans ((across9 m ρ c (r := main_arg29) (by decide)).trans ((across8 m ρ c (r := main_arg29) (by decide)).trans ((host7 m ρ c (r := main_arg29) (by decide)).trans ((across6 m ρ c (r := main_arg29) (by decide)).trans ((host5 m ρ c (r := main_arg29) (by decide)).trans ((across4 m ρ c (r := main_arg29) (by decide)).trans ((host3 m ρ c (r := main_arg29) (by decide)).trans ((across2 m ρ c (r := main_arg29) (by decide)).trans ((host1 m ρ c (r := main_arg29) (by decide))))))))))))
theorem W11_arg22 : W11 m ρ c (Proc.devRef .tc main_arg22) = A22 m c :=
  (across11 m ρ c (r := main_arg22) (by decide)).trans ((host10 m ρ c (r := main_arg22) (by decide)).trans ((across9 m ρ c (r := main_arg22) (by decide)).trans ((across8 m ρ c (r := main_arg22) (by decide)).trans ((host7 m ρ c (r := main_arg22) (by decide)).trans ((across6 m ρ c (r := main_arg22) (by decide)).trans ((host5 m ρ c (r := main_arg22) (by decide)).trans ((across4 m ρ c (r := main_arg22) (by decide)).trans ((host3 m ρ c (r := main_arg22) (by decide)).trans ((across2 m ρ c (r := main_arg22) (by decide)).trans ((host1 m ρ c (r := main_arg22) (by decide))))))))))))
theorem W11_arg28 : W11 m ρ c (Proc.devRef .tc main_arg28) = A28 m c :=
  (across11 m ρ c (r := main_arg28) (by decide)).trans ((host10 m ρ c (r := main_arg28) (by decide)).trans ((across9 m ρ c (r := main_arg28) (by decide)).trans ((across8 m ρ c (r := main_arg28) (by decide)).trans ((host7 m ρ c (r := main_arg28) (by decide)).trans ((across6 m ρ c (r := main_arg28) (by decide)).trans ((host5 m ρ c (r := main_arg28) (by decide)).trans ((across4 m ρ c (r := main_arg28) (by decide)).trans ((host3 m ρ c (r := main_arg28) (by decide)).trans ((across2 m ρ c (r := main_arg28) (by decide)).trans ((host1 m ρ c (r := main_arg28) (by decide))))))))))))
theorem W11_arg4 : W11 m ρ c (Proc.devRef .tc main_arg4) = A4 m c :=
  (across11 m ρ c (r := main_arg4) (by decide)).trans ((host10 m ρ c (r := main_arg4) (by decide)).trans ((across9 m ρ c (r := main_arg4) (by decide)).trans ((across8 m ρ c (r := main_arg4) (by decide)).trans ((host7 m ρ c (r := main_arg4) (by decide)).trans ((across6 m ρ c (r := main_arg4) (by decide)).trans ((host5 m ρ c (r := main_arg4) (by decide)).trans ((across4 m ρ c (r := main_arg4) (by decide)).trans ((host3 m ρ c (r := main_arg4) (by decide)).trans ((across2 m ρ c (r := main_arg4) (by decide)).trans ((host1 m ρ c (r := main_arg4) (by decide))))))))))))
theorem W11_arg5 : W11 m ρ c (Proc.devRef .tc main_arg5) = A5 m c :=
  (across11 m ρ c (r := main_arg5) (by decide)).trans ((host10 m ρ c (r := main_arg5) (by decide)).trans ((across9 m ρ c (r := main_arg5) (by decide)).trans ((across8 m ρ c (r := main_arg5) (by decide)).trans ((host7 m ρ c (r := main_arg5) (by decide)).trans ((across6 m ρ c (r := main_arg5) (by decide)).trans ((host5 m ρ c (r := main_arg5) (by decide)).trans ((across4 m ρ c (r := main_arg5) (by decide)).trans ((host3 m ρ c (r := main_arg5) (by decide)).trans ((across2 m ρ c (r := main_arg5) (by decide)).trans ((host1 m ρ c (r := main_arg5) (by decide))))))))))))
theorem W13_arg25 : W13 m ρ c (Proc.devRef .tc main_arg25) = A25 m c :=
  (across13 m ρ c (r := main_arg25) (by decide)).trans ((host12 m ρ c (r := main_arg25) (by decide)).trans ((across11 m ρ c (r := main_arg25) (by decide)).trans ((host10 m ρ c (r := main_arg25) (by decide)).trans ((across9 m ρ c (r := main_arg25) (by decide)).trans ((across8 m ρ c (r := main_arg25) (by decide)).trans ((host7 m ρ c (r := main_arg25) (by decide)).trans ((across6 m ρ c (r := main_arg25) (by decide)).trans ((host5 m ρ c (r := main_arg25) (by decide)).trans ((across4 m ρ c (r := main_arg25) (by decide)).trans ((host3 m ρ c (r := main_arg25) (by decide)).trans ((across2 m ρ c (r := main_arg25) (by decide)).trans ((host1 m ρ c (r := main_arg25) (by decide))))))))))))))
theorem W14_arg26 : W14 m ρ c (Proc.devRef .tc main_arg26) = A26 m c :=
  (host14 m ρ c (r := main_arg26) (by decide)).trans ((across13 m ρ c (r := main_arg26) (by decide)).trans ((host12 m ρ c (r := main_arg26) (by decide)).trans ((across11 m ρ c (r := main_arg26) (by decide)).trans ((host10 m ρ c (r := main_arg26) (by decide)).trans ((across9 m ρ c (r := main_arg26) (by decide)).trans ((across8 m ρ c (r := main_arg26) (by decide)).trans ((host7 m ρ c (r := main_arg26) (by decide)).trans ((across6 m ρ c (r := main_arg26) (by decide)).trans ((host5 m ρ c (r := main_arg26) (by decide)).trans ((across4 m ρ c (r := main_arg26) (by decide)).trans ((host3 m ρ c (r := main_arg26) (by decide)).trans ((across2 m ρ c (r := main_arg26) (by decide)).trans ((host1 m ρ c (r := main_arg26) (by decide)))))))))))))))

theorem W4_v1 : W4 m ρ c (Proc.devRef .tc main_v1) = Ku m ρ c :=
  (across4 m ρ c (r := main_v1) (by decide)).trans ((host3 m ρ c (r := main_v1) (by decide)).trans ((W2_arr m ρ c 3)))
theorem W5_v1 : W5 m ρ c (Proc.devRef .tc main_v1) = Ku m ρ c :=
  (host5 m ρ c (r := main_v1) (by decide)).trans ((across4 m ρ c (r := main_v1) (by decide)).trans ((host3 m ρ c (r := main_v1) (by decide)).trans ((W2_arr m ρ c 3))))
theorem W4_v3 : W4 m ρ c (Proc.devRef .tc main_v3) = Ka m ρ c :=
  (W4_arr m ρ c 3)
theorem W7_v3 : W7 m ρ c (Proc.devRef .tc main_v3) = Ka m ρ c :=
  (host7 m ρ c (r := main_v3) (by decide)).trans ((across6 m ρ c (r := main_v3) (by decide)).trans ((host5 m ρ c (r := main_v3) (by decide)).trans ((W4_arr m ρ c 3))))
theorem W8_v64 : W8 m ρ c (Proc.devRef .tc main_v64) = Ku1 m ρ c :=
  (across8 m ρ c (r := main_v64) (by decide)).trans ((host7 m ρ c (r := main_v64) (by decide)).trans ((W6_arr m ρ c 9)))
theorem W12_v64 : W12 m ρ c (Proc.devRef .tc main_v64) = Ku1 m ρ c :=
  (host12 m ρ c (r := main_v64) (by decide)).trans ((across11 m ρ c (r := main_v64) (by decide)).trans ((host10 m ρ c (r := main_v64) (by decide)).trans ((across9 m ρ c (r := main_v64) (by decide)).trans ((across8 m ρ c (r := main_v64) (by decide)).trans ((host7 m ρ c (r := main_v64) (by decide)).trans ((W6_arr m ρ c 9)))))))
theorem W10_v66 : W10 m ρ c (Proc.devRef .tc main_v66) = Ka1 m ρ c :=
  (host10 m ρ c (r := main_v66) (by decide)).trans ((across9 m ρ c (r := main_v66) (by decide)).trans ((W8_arr m ρ c 6)))
theorem W14_v66 : W14 m ρ c (Proc.devRef .tc main_v66) = Ka1 m ρ c :=
  (host14 m ρ c (r := main_v66) (by decide)).trans ((across13 m ρ c (r := main_v66) (by decide)).trans ((host12 m ρ c (r := main_v66) (by decide)).trans ((across11 m ρ c (r := main_v66) (by decide)).trans ((host10 m ρ c (r := main_v66) (by decide)).trans ((across9 m ρ c (r := main_v66) (by decide)).trans ((W8_arr m ρ c 6)))))))
theorem W9_v67 : W9 m ρ c (Proc.devRef .tc main_v67) = Kp m ρ c :=
  (W9_arr m ρ c 3)
theorem W11_v70 : W11 m ρ c (Proc.devRef .tc main_v70) = Kprb m ρ c :=
  (W11_arr m ρ c 2)
theorem W15_v104 : W15 m ρ c (Proc.devRef .tc main_v104) = Ku2 m ρ c :=
  (across15 m ρ c (r := main_v104) (by decide)).trans ((host14 m ρ c (r := main_v104) (by decide)).trans ((W13_arr m ρ c 7)))
theorem W15_v106 : W15 m ρ c (Proc.devRef .tc main_v106) = Ka2 m ρ c :=
  (W15_arr m ρ c 5)

theorem W7_v60 : W7 m ρ c (Proc.devRef .tc main_v60) = W5 m ρ c (Proc.devRef .tc main_v60) :=
  (host7 m ρ c (r := main_v60) (by decide)).trans ((across6 m ρ c (r := main_v60) (by decide)))
theorem W7_v30 : W7 m ρ c (Proc.devRef .tc main_v30) = W5 m ρ c (Proc.devRef .tc main_v30) :=
  (host7 m ρ c (r := main_v30) (by decide)).trans ((across6 m ρ c (r := main_v30) (by decide)))
theorem W12_v12 : W12 m ρ c (Proc.devRef .tc main_v12) = W5 m ρ c (Proc.devRef .tc main_v12) :=
  (host12 m ρ c (r := main_v12) (by decide)).trans ((across11 m ρ c (r := main_v12) (by decide)).trans ((host10 m ρ c (r := main_v12) (by decide)).trans ((across9 m ρ c (r := main_v12) (by decide)).trans ((across8 m ρ c (r := main_v12) (by decide)).trans ((host7 m ρ c (r := main_v12) (by decide)).trans ((across6 m ρ c (r := main_v12) (by decide))))))))
theorem W12_v21 : W12 m ρ c (Proc.devRef .tc main_v21) = W5 m ρ c (Proc.devRef .tc main_v21) :=
  (host12 m ρ c (r := main_v21) (by decide)).trans ((across11 m ρ c (r := main_v21) (by decide)).trans ((host10 m ρ c (r := main_v21) (by decide)).trans ((across9 m ρ c (r := main_v21) (by decide)).trans ((across8 m ρ c (r := main_v21) (by decide)).trans ((host7 m ρ c (r := main_v21) (by decide)).trans ((across6 m ρ c (r := main_v21) (by decide))))))))
theorem W14_v100 : W14 m ρ c (Proc.devRef .tc main_v100) = W12 m ρ c (Proc.devRef .tc main_v100) :=
  (host14 m ρ c (r := main_v100) (by decide)).trans ((across13 m ρ c (r := main_v100) (by decide)))
theorem W14_v30 : W14 m ρ c (Proc.devRef .tc main_v30) = W5 m ρ c (Proc.devRef .tc main_v30) :=
  (host14 m ρ c (r := main_v30) (by decide)).trans ((across13 m ρ c (r := main_v30) (by decide)).trans ((host12 m ρ c (r := main_v30) (by decide)).trans ((across11 m ρ c (r := main_v30) (by decide)).trans ((host10 m ρ c (r := main_v30) (by decide)).trans ((across9 m ρ c (r := main_v30) (by decide)).trans ((across8 m ρ c (r := main_v30) (by decide)).trans ((host7 m ρ c (r := main_v30) (by decide)).trans ((across6 m ρ c (r := main_v30) (by decide))))))))))
theorem W11_v68 : W11 m ρ c (Proc.devRef .tc main_v68) = W10 m ρ c (Proc.devRef .tc main_v68) :=
  (across11 m ρ c (r := main_v68) (by decide))
theorem W11_v69 : W11 m ρ c (Proc.devRef .tc main_v69) = W10 m ρ c (Proc.devRef .tc main_v69) :=
  (across11 m ρ c (r := main_v69) (by decide))

/-- The left half of region 4's output, as region 6's stretch of host operations finds it. -/
theorem W11_v68_PFF : W11 m ρ c (Proc.devRef .tc main_v68) = PFF m ρ c := by
  rw [W11_v68 m ρ c]
  funext j
  obtain ⟨r, k, rfl⟩ : ∃ r k, j = ix2 r k := ⟨j 0, j 1, eq_ix2 j⟩
  exact H5_v68 (W9 m ρ c) (Kp m ρ c) (W9_v67 m ρ c) r k

/-- The right half of region 4's output, as region 6's stretch of host operations finds it. -/
theorem W11_v69_PREV : W11 m ρ c (Proc.devRef .tc main_v69) = PREV m ρ c := by
  rw [W11_v69 m ρ c]
  funext j
  obtain ⟨r, k, rfl⟩ : ∃ r k, j = ix2 r k := ⟨j 0, j 1, eq_ix2 j⟩
  exact H5_v69 (W9 m ρ c) (Kp m ρ c) (W9_v67 m ρ c) r k

/-- The left half read at an entry. -/
theorem PFF_apply (r : Fin 100000) (k : Fin 64) : PFF m ρ c (ix2 r k) = Kp m ρ c (ix2 r ⟨k.val, by omega⟩) := rfl
/-- The right half read at an entry. -/
theorem PREV_apply (r : Fin 100000) (k : Fin 64) : PREV m ρ c (ix2 r k) = Kp m ρ c (ix2 r ⟨k.val + 64, by omega⟩) := rfl

end Cert.KernelIdeal.Entry

end
-- ==== Proof.Entry0.lean ====
/-
  Region 0 (the user projection) at its entry: the user features and the weight as launched, and the bias recast as
  one row.
-/
import proofs.«119514_j10857677324737_2_alg».proof.Proof.EntryLib

set_option maxRecDepth 16384

noncomputable section

open scoped BigOperators

namespace Cert.KernelIdeal.Entry

open Idealize.ShloMosaic Idealize.ShloMosaic.ValueIdx Idealize.ShloMosaic.TcCoe
open Cert.KernelIdeal Cert.KernelIdeal.Gen Cert.EdgeSum

variable (m : (ℓ : Loc nD τ sig) → Buf (Elt Ideal) ℓ) (ρ : Dev nD → PrngReg) (c : Dev nD)

/-- Window 0: argument 0 as launched. -/
theorem E0_0 : (V1 m ρ c (Pipeline.arrRef spec0 0) : S100000x128.Idx → EReal) = A0 m c := by
  show W1 m ρ c (Proc.devRef .tc main_arg0) = _
  exact W1_arg0 m ρ c

/-- Window 1: argument 8 as launched. -/
theorem E0_1 : (V1 m ρ c (Pipeline.arrRef spec0 1) : S128x128.Idx → EReal) = A8 m c := by
  show W1 m ρ c (Proc.devRef .tc main_arg8) = _
  exact W1_arg8 m ρ c

/-- Window 2 (`main_v0`): argument 9 recast as one row. -/
theorem E0_2 (j : Fin 128) : (V1 m ρ c (Pipeline.arrRef spec0 2) : S1x128.Idx → EReal) (ix2 0 j) = A9 m c (ix1 j) :=
  H0_v0 (W0 m ρ c) (A9 m c) (W0_arg9 m ρ c) 0 j

end Cert.KernelIdeal.Entry

end
-- ==== Proof.Entry1.lean ====
/-
  Region 1 (the author projection) at its entry: the author features and the weight as launched, and the bias recast
  as one row.
-/
import proofs.«119514_j10857677324737_2_alg».proof.Proof.EntryLib

set_option maxRecDepth 16384

noncomputable section

open scoped BigOperators

namespace Cert.KernelIdeal.Entry

open Idealize.ShloMosaic Idealize.ShloMosaic.ValueIdx Idealize.ShloMosaic.TcCoe
open Cert.KernelIdeal Cert.KernelIdeal.Gen Cert.EdgeSum

variable (m : (ℓ : Loc nD τ sig) → Buf (Elt Ideal) ℓ) (ρ : Dev nD → PrngReg) (c : Dev nD)

/-- Window 0: argument 1 as launched. -/
theorem E1_0 : (V3 m ρ c (Pipeline.arrRef spec1 0) : S20000x384.Idx → EReal) = A1 m c := by
  show W3 m ρ c (Proc.devRef .tc main_arg1) = _
  exact W3_arg1 m ρ c

/-- Window 1: argument 10 as launched. -/
theorem E1_1 : (V3 m ρ c (Pipeline.arrRef spec1 1) : S384x128.Idx → EReal) = A10 m c := by
  show W3 m ρ c (Proc.devRef .tc main_arg10) = _
  exact W3_arg10 m ρ c

/-- Window 2 (`main_v2`): argument 11 recast as one row. -/
theorem E1_2 (j : Fin 128) : (V3 m ρ c (Pipeline.arrRef spec1 2) : S1x128.Idx → EReal) (ix2 0 j) = A11 m c (ix1 j) :=
  H1_v2 (W2 m ρ c) (A11 m c) (W2_arg11 m ρ c) 0 j

end Cert.KernelIdeal.Entry

end
-- ==== Proof.Entry2.lean ====
/-
  Region 2 (the first layer's user update) at its entry: the two aggregations into user rows as sums over the edges
  of the projected rows, the two reciprocal-degree columns, the user projection as region 0 left it, two weights as
  launched, the sum of two weights and the sum of two biases recast as one row.
-/
import proofs.«119514_j10857677324737_2_alg».proof.Proof.EntryLib

set_option maxRecDepth 16384

noncomputable section

open scoped BigOperators

namespace Cert.KernelIdeal.Entry

open Idealize.ShloMosaic Idealize.ShloMosaic.ValueIdx Idealize.ShloMosaic.TcCoe
open Cert.KernelIdeal Cert.KernelIdeal.Gen Cert.EdgeSum

variable (m : (ℓ : Loc nD τ sig) → Buf (Elt Ideal) ℓ) (ρ : Dev nD → PrngReg) (c : Dev nD)

/-- Window 0 (`main_v40`): region 0's output gathered along the 1600000 edges and added at their destinations. -/
theorem E2_0 (i : Fin 100000) (k : Fin 128) :
    (V5 m ρ c (Pipeline.arrRef spec2 0) : S100000x128.Idx → EReal) (ix2 i k)
      = 0 + ∑ e : Fin 1600000, edge2 (Ns := 100000) (by norm_num) 100000#32 (Ku m ρ c) (A2 m c) (A3 m c) i k e := by
  exact H2_v40 (W4 m ρ c) (Ku m ρ c) (A2 m c) (A3 m c) (W4_v1 m ρ c) (W4_arg2 m ρ c) (W4_arg3 m ρ c) i k

/-- Window 1 (`main_v12`): one over the larger of a row's count of those edges and one. -/
theorem E2_1 (i : Fin 100000) :
    (V5 m ρ c (Pipeline.arrRef spec2 1) : S100000x1.Idx → EReal) (ix2 i 0) = Ideal.div 1 (max (cntFF (A3 m c) (ix1 i)) 1) := by
  exact H2_v12 (W4 m ρ c) (A3 m c) (W4_arg3 m ρ c) i 0

/-- Window 2 (`main_v50`): region 1's output gathered along the 2000000 edges and added at their destinations. -/
theorem E2_2 (i : Fin 100000) (k : Fin 128) :
    (V5 m ρ c (Pipeline.arrRef spec2 2) : S100000x128.Idx → EReal) (ix2 i k)
      = 0 + ∑ e : Fin 2000000, edge2 (Ns := 20000) (by norm_num) 20000#32 (Ka m ρ c) (A6 m c) (A7 m c) i k e := by
  exact H2_v50 (W4 m ρ c) (Ka m ρ c) (A6 m c) (A7 m c) (W4_v3 m ρ c) (W4_arg6 m ρ c) (W4_arg7 m ρ c) i k

/-- Window 3 (`main_v21`): one over the larger of a row's count of those edges and one. -/
theorem E2_3 (i : Fin 100000) :
    (V5 m ρ c (Pipeline.arrRef spec2 3) : S100000x1.Idx → EReal) (ix2 i 0) = Ideal.div 1 (max (cntRB (A7 m c) (ix1 i)) 1) := by
  exact H2_v21 (W4 m ρ c) (A7 m c) (W4_arg7 m ρ c) i 0

/-- Window 4: the output of an earlier region, as that region left it. -/
theorem E2_4 : (V5 m ρ c (Pipeline.arrRef spec2 4) : S100000x128.Idx → EReal) = Ku m ρ c := by
  show W5 m ρ c (Proc.devRef .tc main_v1) = _
  exact W5_v1 m ρ c

/-- Window 5: argument 12 as launched. -/
theorem E2_5 : (V5 m ρ c (Pipeline.arrRef spec2 5) : S128x128.Idx → EReal) = A12 m c := by
  show W5 m ρ c (Proc.devRef .tc main_arg12) = _
  exact W5_arg12 m ρ c

/-- Window 6: argument 18 as launched. -/
theorem E2_6 : (V5 m ρ c (Pipeline.arrRef spec2 6) : S128x128.Idx → EReal) = A18 m c := by
  show W5 m ρ c (Proc.devRef .tc main_arg18) = _
  exact W5_arg18 m ρ c

/-- Window 7 (`main_v61`): the sum of arguments 14 and 20, entry by entry. -/
theorem E2_7 (j : S128x128.Idx) :
    (V5 m ρ c (Pipeline.arrRef spec2 7) : S128x128.Idx → EReal) j = A14 m c j + A20 m c j :=
  H2_v61 (W4 m ρ c) (A14 m c) (A20 m c) (W4_arg14 m ρ c) (W4_arg20 m ρ c) j

/-- Window 8 (`main_v63`): the sum of arguments 13 and 19, recast as one row. -/
theorem E2_8 (j : Fin 128) :
    (V5 m ρ c (Pipeline.arrRef spec2 8) : S1x128.Idx → EReal) (ix2 0 j) = A13 m c (ix1 j) + A19 m c (ix1 j) :=
  H2_v63 (W4 m ρ c) (A13 m c) (A19 m c) (W4_arg13 m ρ c) (W4_arg19 m ρ c) 0 j

end Cert.KernelIdeal.Entry

end
-- ==== Proof.Entry3.lean ====
/-
  Region 3 (the first layer's author update) at its entry: the aggregation into author rows as a sum over the edges
  of the projected user rows, its reciprocal-degree column, the author projection as region 1 left it, two weights as
  launched, and the bias recast as one row.
-/
import proofs.«119514_j10857677324737_2_alg».proof.Proof.EntryLib

set_option maxRecDepth 16384

noncomputable section

open scoped BigOperators

namespace Cert.KernelIdeal.Entry

open Idealize.ShloMosaic Idealize.ShloMosaic.ValueIdx Idealize.ShloMosaic.TcCoe
open Cert.KernelIdeal Cert.KernelIdeal.Gen Cert.EdgeSum

variable (m : (ℓ : Loc nD τ sig) → Buf (Elt Ideal) ℓ) (ρ : Dev nD → PrngReg) (c : Dev nD)

/-- Window 0 (`main_v60`): region 0's output gathered along the 2000000 edges and added at their destinations. -/
theorem E3_0 (i : Fin 20000) (k : Fin 128) :
    (V7 m ρ c (Pipeline.arrRef spec3 0) : S20000x128.Idx → EReal) (ix2 i k)
      = 0 + ∑ e : Fin 2000000, edge2 (Ns := 100000) (by norm_num) 100000#32 (Ku m ρ c) (A4 m c) (A5 m c) i k e := by
  show (W7 m ρ c (Proc.devRef .tc main_v60) : S20000x128.Idx → EReal) (ix2 i k) = _
  rw [W7_v60 m ρ c]
  exact H2_v60 (W4 m ρ c) (Ku m ρ c) (A4 m c) (A5 m c) (W4_v1 m ρ c) (W4_arg4 m ρ c) (W4_arg5 m ρ c) i k

/-- Window 1 (`main_v30`): one over the larger of a row's count of those edges and one. -/
theorem E3_1 (i : Fin 20000) :
    (V7 m ρ c (Pipeline.arrRef spec3 1) : S20000x1.Idx → EReal) (ix2 i 0) = Ideal.div 1 (max (cntREV (A5 m c) (ix1 i)) 1) := by
  show (W7 m ρ c (Proc.devRef .tc main_v30) : S20000x1.Idx → EReal) (ix2 i 0) = _
  rw [W7_v30 m ρ c]
  exact H2_v30 (W4 m ρ c) (A5 m c) (W4_arg5 m ρ c) i 0

/-- Window 2: the output of an earlier region, as that region left it. -/
theorem E3_2 : (V7 m ρ c (Pipeline.arrRef spec3 2) : S20000x128.Idx → EReal) = Ka m ρ c := by
  show W7 m ρ c (Proc.devRef .tc main_v3) = _
  exact W7_v3 m ρ c

/-- Window 3: argument 15 as launched. -/
theorem E3_3 : (V7 m ρ c (Pipeline.arrRef spec3 3) : S128x128.Idx → EReal) = A15 m c := by
  show W7 m ρ c (Proc.devRef .tc main_arg15) = _
  exact W7_arg15 m ρ c

/-- Window 4: argument 17 as launched. -/
theorem E3_4 : (V7 m ρ c (Pipeline.arrRef spec3 4) : S128x128.Idx → EReal) = A17 m c := by
  show W7 m ρ c (Proc.devRef .tc main_arg17) = _
  exact W7_arg17 m ρ c

/-- Window 5 (`main_v65`): argument 16 recast as one row. -/
theorem E3_5 (j : Fin 128) : (V7 m ρ c (Pipeline.arrRef spec3 5) : S1x128.Idx → EReal) (ix2 0 j) = A16 m c (ix1 j) :=
  H3_v65 (W6 m ρ c) (A16 m c) (W6_arg16 m ρ c) 0 j

end Cert.KernelIdeal.Entry

end
-- ==== Proof.Entry4.lean ====
/-
  Region 4 (the second layer's two user-side projections) at its entry: the first layer's user output as region 2
  left it, and the two weights as launched.
-/
import proofs.«119514_j10857677324737_2_alg».proof.Proof.EntryLib

set_option maxRecDepth 16384

noncomputable section

open scoped BigOperators

namespace Cert.KernelIdeal.Entry

open Idealize.ShloMosaic Idealize.ShloMosaic.ValueIdx Idealize.ShloMosaic.TcCoe
open Cert.KernelIdeal Cert.KernelIdeal.Gen Cert.EdgeSum

variable (m : (ℓ : Loc nD τ sig) → Buf (Elt Ideal) ℓ) (ρ : Dev nD → PrngReg) (c : Dev nD)

/-- Window 0: the output of an earlier region, as that region left it. -/
theorem E4_0 : (V8 m ρ c (Pipeline.arrRef spec4 0) : S100000x128.Idx → EReal) = Ku1 m ρ c := by
  show W8 m ρ c (Proc.devRef .tc main_v64) = _
  exact W8_v64 m ρ c

/-- Window 1: argument 21 as launched. -/
theorem E4_1 : (V8 m ρ c (Pipeline.arrRef spec4 1) : S128x64.Idx → EReal) = A21 m c := by
  show W8 m ρ c (Proc.devRef .tc main_arg21) = _
  exact W8_arg21 m ρ c

/-- Window 2: argument 24 as launched. -/
theorem E4_2 : (V8 m ρ c (Pipeline.arrRef spec4 2) : S128x64.Idx → EReal) = A24 m c := by
  show W8 m ρ c (Proc.devRef .tc main_arg24) = _
  exact W8_arg24 m ρ c

end Cert.KernelIdeal.Entry

end
-- ==== Proof.Entry5.lean ====
/-
  Region 5 (the second layer's author-side projection) at its entry: the first layer's author output as region 3
  left it, and the weight as launched.
-/
import proofs.«119514_j10857677324737_2_alg».proof.Proof.EntryLib

set_option maxRecDepth 16384

noncomputable section

open scoped BigOperators

namespace Cert.KernelIdeal.Entry

open Idealize.ShloMosaic Idealize.ShloMosaic.ValueIdx Idealize.ShloMosaic.TcCoe
open Cert.KernelIdeal Cert.KernelIdeal.Gen Cert.EdgeSum

variable (m : (ℓ : Loc nD τ sig) → Buf (Elt Ideal) ℓ) (ρ : Dev nD → PrngReg) (c : Dev nD)

/-- Window 0: the output of an earlier region, as that region left it. -/
theorem E5_0 : (V10 m ρ c (Pipeline.arrRef spec5 0) : S20000x128.Idx → EReal) = Ka1 m ρ c := by
  show W10 m ρ c (Proc.devRef .tc main_v66) = _
  exact W10_v66 m ρ c

/-- Window 1: argument 27 as launched. -/
theorem E5_1 : (V10 m ρ c (Pipeline.arrRef spec5 1) : S128x64.Idx → EReal) = A27 m c := by
  show W10 m ρ c (Proc.devRef .tc main_arg27) = _
  exact W10_arg27 m ρ c

end Cert.KernelIdeal.Entry

end
-- ==== Proof.Entry6.lean ====
/-
  Region 6 (the second layer's user update) at its entry: the two aggregations into user rows as sums over the edges,
  of the left half of region 4's output and of region 5's output, the two reciprocal-degree columns (the first
  layer's), the first layer's user output as region 2 left it, the sum of two weights and the sum of two biases recast
  as one row.
-/
import proofs.«119514_j10857677324737_2_alg».proof.Proof.EntryLib

set_option maxRecDepth 16384

noncomputable section

open scoped BigOperators

namespace Cert.KernelIdeal.Entry

open Idealize.ShloMosaic Idealize.ShloMosaic.ValueIdx Idealize.ShloMosaic.TcCoe
open Cert.KernelIdeal Cert.KernelIdeal.Gen Cert.EdgeSum

variable (m : (ℓ : Loc nD τ sig) → Buf (Elt Ideal) ℓ) (ρ : Dev nD → PrngReg) (c : Dev nD)

/-- Window 0 (`main_v80`): the left half of region 4's output gathered along the 1600000 edges and added at their destinations. -/
theorem E6_0 (i : Fin 100000) (k : Fin 64) :
    (V12 m ρ c (Pipeline.arrRef spec6 0) : S100000x64.Idx → EReal) (ix2 i k)
      = 0 + ∑ e : Fin 1600000, edge2 (Ns := 100000) (by norm_num) 100000#32 (PFF m ρ c) (A2 m c) (A3 m c) i k e := by
  exact H6_v80 (W11 m ρ c) (PFF m ρ c) (A2 m c) (A3 m c) (W11_v68_PFF m ρ c) (W11_arg2 m ρ c) (W11_arg3 m ρ c) i k

/-- Window 1 (`main_v12`): one over the larger of a row's count of those edges and one. -/
theorem E6_1 (i : Fin 100000) :
    (V12 m ρ c (Pipeline.arrRef spec6 1) : S100000x1.Idx → EReal) (ix2 i 0) = Ideal.div 1 (max (cntFF (A3 m c) (ix1 i)) 1) := by
  show (W12 m ρ c (Proc.devRef .tc main_v12) : S100000x1.Idx → EReal) (ix2 i 0) = _
  rw [W12_v12 m ρ c]
  exact H2_v12 (W4 m ρ c) (A3 m c) (W4_arg3 m ρ c) i 0

/-- Window 2 (`main_v90`): region 5's output gathered along the 2000000 edges and added at their destinations. -/
theorem E6_2 (i : Fin 100000) (k : Fin 64) :
    (V12 m ρ c (Pipeline.arrRef spec6 2) : S100000x64.Idx → EReal) (ix2 i k)
      = 0 + ∑ e : Fin 2000000, edge2 (Ns := 20000) (by norm_num) 20000#32 (Kprb m ρ c) (A6 m c) (A7 m c) i k e := by
  exact H6_v90 (W11 m ρ c) (Kprb m ρ c) (A6 m c) (A7 m c) (W11_v70 m ρ c) (W11_arg6 m ρ c) (W11_arg7 m ρ c) i k

/-- Window 3 (`main_v21`): one over the larger of a row's count of those edges and one. -/
theorem E6_3 (i : Fin 100000) :
    (V12 m ρ c (Pipeline.arrRef spec6 3) : S100000x1.Idx → EReal) (ix2 i 0) = Ideal.div 1 (max (cntRB (A7 m c) (ix1 i)) 1) := by
  show (W12 m ρ c (Proc.devRef .tc main_v21) : S100000x1.Idx → EReal) (ix2 i 0) = _
  rw [W12_v21 m ρ c]
  exact H2_v21 (W4 m ρ c) (A7 m c) (W4_arg7 m ρ c) i 0

/-- Window 4: the output of an earlier region, as that region left it. -/
theorem E6_4 : (V12 m ρ c (Pipeline.arrRef spec6 4) : S100000x128.Idx → EReal) = Ku1 m ρ c := by
  show W12 m ρ c (Proc.devRef .tc main_v64) = _
  exact W12_v64 m ρ c

/-- Window 5 (`main_v101`): the sum of arguments 23 and 29, entry by entry. -/
theorem E6_5 (j : S128x64.Idx) :
    (V12 m ρ c (Pipeline.arrRef spec6 5) : S128x64.Idx → EReal) j = A23 m c j + A29 m c j :=
  H6_v101 (W11 m ρ c) (A23 m c) (A29 m c) (W11_arg23 m ρ c) (W11_arg29 m ρ c) j

/-- Window 6 (`main_v103`): the sum of arguments 22 and 28, recast as one row. -/
theorem E6_6 (j : Fin 64) :
    (V12 m ρ c (Pipeline.arrRef spec6 6) : S1x64.Idx → EReal) (ix2 0 j) = A22 m c (ix1 j) + A28 m c (ix1 j) :=
  H6_v103 (W11 m ρ c) (A22 m c) (A28 m c) (W11_arg22 m ρ c) (W11_arg28 m ρ c) 0 j

end Cert.KernelIdeal.Entry

end
-- ==== Proof.Entry7.lean ====
/-
  Region 7 (the second layer's author update) at its entry: the aggregation into author rows as a sum over the edges
  of the right half of region 4's output, its reciprocal-degree column (the first layer's), the first layer's author
  output as region 3 left it, a weight as launched, and the bias recast as one row.
-/
import proofs.«119514_j10857677324737_2_alg».proof.Proof.EntryLib

set_option maxRecDepth 16384

noncomputable section

open scoped BigOperators

namespace Cert.KernelIdeal.Entry

open Idealize.ShloMosaic Idealize.ShloMosaic.ValueIdx Idealize.ShloMosaic.TcCoe
open Cert.KernelIdeal Cert.KernelIdeal.Gen Cert.EdgeSum

variable (m : (ℓ : Loc nD τ sig) → Buf (Elt Ideal) ℓ) (ρ : Dev nD → PrngReg) (c : Dev nD)

/-- Window 0 (`main_v100`): the right half of region 4's output gathered along the 2000000 edges and added at their destinations. -/
theorem E7_0 (i : Fin 20000) (k : Fin 64) :
    (V14 m ρ c (Pipeline.arrRef spec7 0) : S20000x64.Idx → EReal) (ix2 i k)
      = 0 + ∑ e : Fin 2000000, edge2 (Ns := 100000) (by norm_num) 100000#32 (PREV m ρ c) (A4 m c) (A5 m c) i k e := by
  show (W14 m ρ c (Proc.devRef .tc main_v100) : S20000x64.Idx → EReal) (ix2 i k) = _
  rw [W14_v100 m ρ c]
  exact H6_v100 (W11 m ρ c) (PREV m ρ c) (A4 m c) (A5 m c) (W11_v69_PREV m ρ c) (W11_arg4 m ρ c) (W11_arg5 m ρ c) i k

/-- Window 1 (`main_v30`): one over the larger of a row's count of those edges and one. -/
theorem E7_1 (i : Fin 20000) :
    (V14 m ρ c (Pipeline.arrRef spec7 1) : S20000x1.Idx → EReal) (ix2 i 0) = Ideal.div 1 (max (cntREV (A5 m c) (ix1 i)) 1) := by
  show (W14 m ρ c (Proc.devRef .tc main_v30) : S20000x1.Idx → EReal) (ix2 i 0) = _
  rw [W14_v30 m ρ c]
  exact H2_v30 (W4 m ρ c) (A5 m c) (W4_arg5 m ρ c) i 0

/-- Window 2: the output of an earlier region, as that region left it. -/
theorem E7_2 : (V14 m ρ c (Pipeline.arrRef spec7 2) : S20000x128.Idx → EReal) = Ka1 m ρ c := by
  show W14 m ρ c (Proc.devRef .tc main_v66) = _
  exact W14_v66 m ρ c

/-- Window 3: argument 26 as launched. -/
theorem E7_3 : (V14 m ρ c (Pipeline.arrRef spec7 3) : S128x64.Idx → EReal) = A26 m c := by
  show W14 m ρ c (Proc.devRef .tc main_arg26) = _
  exact W14_arg26 m ρ c

/-- Window 4 (`main_v105`): argument 25 recast as one row. -/
theorem E7_4 (j : Fin 64) : (V14 m ρ c (Pipeline.arrRef spec7 4) : S1x64.Idx → EReal) (ix2 0 j) = A25 m c (ix1 j) :=
  H7_v105 (W13 m ρ c) (A25 m c) (W13_arg25 m ρ c) 0 j

end Cert.KernelIdeal.Entry

end
-- ==== Proof.EntryEnd.lean ====
/-
  The end of the run: the two results are what regions 6 and 7 left in their output arrays.
-/
import proofs.«119514_j10857677324737_2_alg».proof.Proof.EntryLib

set_option maxRecDepth 16384

noncomputable section

open scoped BigOperators

namespace Cert.KernelIdeal.Entry

open Idealize.ShloMosaic Idealize.ShloMosaic.ValueIdx Idealize.ShloMosaic.TcCoe
open Cert.KernelIdeal Cert.KernelIdeal.Gen Cert.EdgeSum

variable (m : (ℓ : Loc nD τ sig) → Buf (Elt Ideal) ℓ) (ρ : Dev nD → PrngReg) (c : Dev nD)

/-- The user result is region 6's output. -/
theorem END_user : W15 m ρ c (Proc.devRef .tc main_v104) = Ku2 m ρ c := W15_v104 m ρ c
/-- The author result is region 7's output. -/
theorem END_author : W15 m ρ c (Proc.devRef .tc main_v106) = Ka2 m ρ c := W15_v106 m ρ c

end Cert.KernelIdeal.Entry

end
-- ==== Proof.SageReal.lean ====
/-
  The real arithmetic behind a two-layer mean-aggregating graph network computed two ways.

  One program forms, for a destination node, the mean of its neighbours' features as `(Σ_e x_src(e)) / c`, multiplies by a
  weight matrix, adds a bias and the node's own features times a second weight matrix, and adds two such relation
  terms. The other multiplies the edge sum by a reciprocal column, shares one product for the two relations' own-feature
  terms (the weight matrices added first) and one bias (the biases added first), and in the second layer projects
  the features by the weight matrix BEFORE summing over the edges. On real numbers the two agree by distributivity
  and an exchange of two finite sums; on the extended reals those laws fail at the infinities, so the identities are
  stated here for real numbers and carried to the extended reals through the coercion (`coe_sum`, `coe_max`).
  The divisor `c` is only known to be at least one (it may be infinite); its reciprocal is then a real number
  (`inv_real`), and that real number is all the arithmetic uses.
-/
import Mathlib.Data.EReal.Inv
import Mathlib.Algebra.BigOperators.Ring.Finset
import Mathlib.Tactic.Ring

noncomputable section

open scoped BigOperators

namespace Cert.Sage

/-- The coercion of a finite real sum is the sum of the coercions. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The coercion of a maximum of two reals is the maximum of the coercions. -/
theorem coe_max (a b : ℝ) : ((max a b : ℝ) : EReal) = max (a : EReal) (b : EReal) :=
  Monotone.map_max (f := fun r : ℝ => (r : EReal)) (fun _ _ h => EReal.coe_le_coe_iff.2 h)

/-- The reciprocal of an extended real that is at least one is a real number (zero at the infinity). -/
theorem inv_real (c : EReal) (hc : (1 : EReal) ≤ c) : ∃ r : ℝ, c⁻¹ = (r : EReal) := by
  induction c using EReal.rec with
  | bot => exact absurd (le_bot_iff.1 hc) (EReal.coe_ne_bot 1)
  | coe r => exact ⟨r⁻¹, (EReal.coe_inv r).symm⟩
  | top => exact ⟨0, by rw [EReal.inv_top]; rfl⟩

section Real

variable {κ ε : Type*} [Fintype κ] [Fintype ε]

/-- Two relation terms sharing the own-feature product and the bias. -/
theorem two_relations (S1 S2 x W1 W2 R1 R2 : κ → ℝ) (c1 c2 b1 b2 : ℝ) :
    max ((((∑ k, (S1 k * c1) * W1 k) + (∑ k, (S2 k * c2) * W2 k)) + (∑ k, x k * (R1 k + R2 k))) + (b1 + b2)) 0
      = max ((((∑ k, (S1 k * c1) * W1 k) + b1) + (∑ k, x k * R1 k))
          + (((∑ k, (S2 k * c2) * W2 k) + b2) + (∑ k, x k * R2 k))) 0 := by
  congr 1
  simp only [mul_add, Finset.sum_add_distrib]
  ring

/-- One relation term: the bias added last or in the middle. -/
theorem one_relation (P Q b : ℝ) : max ((P + Q) + b) 0 = max ((P + b) + Q) 0 := by
  congr 1; ring

/-- Projecting before summing over the edges: `(Σ_e [h e] Σ_k y e k · W k) · c = Σ_k ((Σ_e [h e] y e k) · c) · W k`. -/
theorem project_first (h : ε → Prop) [DecidablePred h] (y : ε → κ → ℝ) (W : κ → ℝ) (c : ℝ) :
    (∑ e, if h e then (∑ k, y e k * W k) else 0) * c = ∑ k, ((∑ e, if h e then y e k else 0) * c) * W k := by
  simp only [Finset.sum_mul]
  rw [Finset.sum_comm]
  refine Finset.sum_congr rfl fun e _ => ?_
  by_cases he : h e
  · simp only [if_pos he, Finset.sum_mul]
    exact Finset.sum_congr rfl fun k _ => by ring
  · simp only [if_neg he, zero_mul, Finset.sum_const_zero]

/-- The second layer's two relation terms, each projected first. -/
theorem two_relations_projected (P1 P2 Q1 Q2 c1 c2 b1 b2 : ℝ) (x R1 R2 : κ → ℝ)
    (h1 : P1 * c1 = Q1) (h2 : P2 * c2 = Q2) :
    max ((((P1 * c1) + (P2 * c2)) + (∑ k, x k * (R1 k + R2 k))) + (b1 + b2)) 0
      = max (((Q1 + b1) + (∑ k, x k * R1 k)) + ((Q2 + b2) + (∑ k, x k * R2 k))) 0 := by
  rw [h1, h2]
  congr 1
  simp only [mul_add, Finset.sum_add_distrib]
  ring

end Real

end Cert.Sage

end
-- ==== Proof.SageNet.lean ====
/-
  A two-layer mean-aggregating network on a graph with two node types, as a function of real arrays.

  Node types: `u` (100000 nodes) and `a` (20000 nodes). Three relations: `ff` (u → u, 1600000 edges), `rb` (a → u,
  2000000 edges), `rev` (u → a, 2000000 edges). An edge `e` of a relation has a source row `s e` (already wrapped and
  clamped into the source table) and a destination `d e`, an integer that may fall outside the target (the edge is
  then dropped). `c` is, per destination node, the reciprocal of the in-degree clamped below by one.

  First both node types are embedded by a dense layer and a rectifier. A layer then computes, per relation, the
  mean of the neighbours' features times a weight matrix plus a bias plus the node's own features times a second
  matrix; relation terms into the same node type are added; a rectifier follows. The second layer maps width 128 to 64.
-/
import proofs.«119514_j10857677324737_2_alg».proof.Proof.SageReal

noncomputable section

open scoped BigOperators

namespace Cert.Sage

/-- The network's parameters, inputs and graph, as real arrays. -/
structure Net where
  xu : Fin 100000 → Fin 128 → ℝ
  xa : Fin 20000 → Fin 384 → ℝ
  Wu : Fin 128 → Fin 128 → ℝ
  bu : Fin 128 → ℝ
  Wa : Fin 384 → Fin 128 → ℝ
  ba : Fin 128 → ℝ
  ffWl : Fin 128 → Fin 128 → ℝ
  ffbl : Fin 128 → ℝ
  ffWr : Fin 128 → Fin 128 → ℝ
  revWl : Fin 128 → Fin 128 → ℝ
  revbl : Fin 128 → ℝ
  revWr : Fin 128 → Fin 128 → ℝ
  rbWl : Fin 128 → Fin 128 → ℝ
  rbbl : Fin 128 → ℝ
  rbWr : Fin 128 → Fin 128 → ℝ
  ffWl2 : Fin 128 → Fin 64 → ℝ
  ffbl2 : Fin 64 → ℝ
  ffWr2 : Fin 128 → Fin 64 → ℝ
  revWl2 : Fin 128 → Fin 64 → ℝ
  revbl2 : Fin 64 → ℝ
  revWr2 : Fin 128 → Fin 64 → ℝ
  rbWl2 : Fin 128 → Fin 64 → ℝ
  rbbl2 : Fin 64 → ℝ
  rbWr2 : Fin 128 → Fin 64 → ℝ
  sff : Fin 1600000 → Fin 100000
  dff : Fin 1600000 → ℤ
  srev : Fin 2000000 → Fin 100000
  drev : Fin 2000000 → ℤ
  srb : Fin 2000000 → Fin 20000
  drb : Fin 2000000 → ℤ
  cff : Fin 100000 → ℝ
  crb : Fin 100000 → ℝ
  crev : Fin 20000 → ℝ

namespace Net

variable (n : Net)

/-- A dense layer with a rectifier. -/
def u (i : Fin 100000) (j : Fin 128) : ℝ := max ((∑ k, n.xu i k * n.Wu k j) + n.bu j) 0
def a (i : Fin 20000) (j : Fin 128) : ℝ := max ((∑ k, n.xa i k * n.Wa k j) + n.ba j) 0

/-- The sum over a relation's edges into destination `i` of the source rows of a table. -/
def esum {E Ns Nd C : ℕ} (s : Fin E → Fin Ns) (d : Fin E → ℤ) (x : Fin Ns → Fin C → ℝ) (i : Fin Nd) (k : Fin C) : ℝ :=
  ∑ e, if d e = (i.val : ℤ) then x (s e) k else 0

/-- One relation's term of a layer: the mean of the neighbours through `Wl`, the bias, the node itself through `Wr`. -/
def term {Nd K C : ℕ} (S : Fin Nd → Fin K → ℝ) (c : Fin Nd → ℝ) (Wl : Fin K → Fin C → ℝ) (bl : Fin C → ℝ)
    (xd : Fin Nd → Fin K → ℝ) (Wr : Fin K → Fin C → ℝ) (i : Fin Nd) (j : Fin C) : ℝ :=
  ((∑ k, (S i k * c i) * Wl k j) + bl j) + (∑ k, xd i k * Wr k j)

def u1 (i : Fin 100000) (j : Fin 128) : ℝ :=
  max (term (esum n.sff n.dff n.u) n.cff n.ffWl n.ffbl n.u n.ffWr i j
      + term (esum n.srb n.drb n.a) n.crb n.rbWl n.rbbl n.u n.rbWr i j) 0
def a1 (i : Fin 20000) (j : Fin 128) : ℝ :=
  max (term (esum n.srev n.drev n.u) n.crev n.revWl n.revbl n.a n.revWr i j) 0
def u2 (i : Fin 100000) (j : Fin 64) : ℝ :=
  max (term (esum n.sff n.dff n.u1) n.cff n.ffWl2 n.ffbl2 n.u1 n.ffWr2 i j
      + term (esum n.srb n.drb n.a1) n.crb n.rbWl2 n.rbbl2 n.u1 n.rbWr2 i j) 0
def a2 (i : Fin 20000) (j : Fin 64) : ℝ :=
  max (term (esum n.srev n.drev n.u1) n.crev n.revWl2 n.revbl2 n.a1 n.revWr2 i j) 0

end Net

end Cert.Sage

end
-- ==== Proof.Reads.lean ====
/-
  Extended-real arrays that hold real numbers, read through the coercion.

  `Is2 X x` says the matrix `X` of extended reals holds the real matrix `x` entry by entry, `Is1` the same for a vector.
  Through such readings an edge sum over real rows is the coercion of the real edge sum (`esum_read`), and dividing a
  real by a divisor at least one — or multiplying it by that divisor's reciprocal — is the coercion of the product with
  the reciprocal's real value (`mean_read`, `recip_read`): off zero the quotient of the extended reals is the product
  with the inverse, and a divisor at least one is not zero. `Reads` collects what ties a program's thirty argument
  arrays and three in-degree counts to a real network; `ofArrays` builds that network from arrays known to be finite.
-/
import proofs.«119514_j10857677324737_2_alg».proof.Proof.EdgeSum
import proofs.«119514_j10857677324737_2_alg».proof.Proof.SageNet
import Idealize.ShloMosaic.PureOps.Ideal

noncomputable section

open scoped BigOperators

namespace Cert.Sage

open Idealize.ShloMosaic Idealize.ShloMosaic.ValueIdx Cert.Lib.Rows Cert.Lib.EdgeAggregate Cert.EdgeSum

/-- The matrix `X` holds the real matrix `x`. -/
def Is2 {M N : ℕ} (X : (⟨2, ![M, N]⟩ : Shape).Idx → EReal) (x : Fin M → Fin N → ℝ) : Prop :=
  ∀ i j, X (ix2 i j) = (x i j : EReal)

/-- The vector `X` holds the real vector `x`. -/
def Is1 {N : ℕ} (X : (⟨1, ![N]⟩ : Shape).Idx → EReal) (x : Fin N → ℝ) : Prop :=
  ∀ j, X (ix1 j) = (x j : EReal)

theorem coe_ite (p : Prop) [Decidable p] (a : ℝ) :
    (if p then (a : EReal) else 0) = ((if p then a else 0 : ℝ) : EReal) := by
  split_ifs <;> rfl

/-- The edge sum of a table that holds real rows is the coercion of the real edge sum. -/
theorem esum_read {E Ns Nd C : ℕ} (hN : 0 < Ns) (cN : BitVec 32) (X : (⟨2, ![Ns, C]⟩ : Shape).Idx → EReal)
    (x : Fin Ns → Fin C → ℝ) (hX : Is2 X x) (src dst : IVec ⟨1, ![E]⟩ 32) (s : Fin E → Fin Ns) (d : Fin E → ℤ)
    (hs : ∀ e, srcRow Ns hN cN (src (ix1 e)) = s e) (hd : ∀ e, (dst (ix1 e)).toInt = d e) (i : Fin Nd) (k : Fin C) :
    0 + ∑ e : Fin E, edge2 hN cN X src dst i k e = ((Net.esum s d x i k : ℝ) : EReal) := by
  unfold Net.esum edge2
  rw [zero_add, coe_sum]
  refine Finset.sum_congr rfl fun e _ => ?_
  rw [hd e, hs e, hX, coe_ite]

theorem max_one_ne_zero (C : EReal) : max C 1 ≠ 0 := fun e => by
  have h := le_max_right C 1
  rw [e] at h
  exact absurd h (by norm_num)

/-- The reciprocal of a divisor at least one, as the program computes it, is the real reciprocal. -/
theorem recip_read (C : EReal) (r : ℝ) (h : (max C 1)⁻¹ = (r : EReal)) : Ideal.div 1 (max C 1) = (r : EReal) := by
  unfold Ideal.div
  rw [if_neg (max_one_ne_zero C), one_mul, h]

/-- A real divided by a divisor at least one is the real times the real reciprocal. -/
theorem mean_read (a : ℝ) (C : EReal) (r : ℝ) (h : (max C 1)⁻¹ = (r : EReal)) :
    Ideal.div (a : EReal) (max C 1) = ((a * r : ℝ) : EReal) := by
  unfold Ideal.div
  rw [if_neg (max_one_ne_zero C), h, EReal.coe_mul]

/-- What ties thirty argument arrays and three in-degree count vectors to a real network. -/
structure Net.Reads (n : Net)
    (x0 : (⟨2, ![100000, 128]⟩ : Shape).Idx → EReal)
    (x1 : (⟨2, ![20000, 384]⟩ : Shape).Idx → EReal)
    (x2 x3 : IVec ⟨1, ![1600000]⟩ 32)
    (x4 x5 x6 x7 : IVec ⟨1, ![2000000]⟩ 32)
    (x8 : (⟨2, ![128, 128]⟩ : Shape).Idx → EReal)
    (x9 : (⟨1, ![128]⟩ : Shape).Idx → EReal)
    (x10 : (⟨2, ![384, 128]⟩ : Shape).Idx → EReal)
    (x11 : (⟨1, ![128]⟩ : Shape).Idx → EReal)
    (x12 : (⟨2, ![128, 128]⟩ : Shape).Idx → EReal)
    (x13 : (⟨1, ![128]⟩ : Shape).Idx → EReal)
    (x14 : (⟨2, ![128, 128]⟩ : Shape).Idx → EReal)
    (x15 : (⟨2, ![128, 128]⟩ : Shape).Idx → EReal)
    (x16 : (⟨1, ![128]⟩ : Shape).Idx → EReal)
    (x17 : (⟨2, ![128, 128]⟩ : Shape).Idx → EReal)
    (x18 : (⟨2, ![128, 128]⟩ : Shape).Idx → EReal)
    (x19 : (⟨1, ![128]⟩ : Shape).Idx → EReal)
    (x20 : (⟨2, ![128, 128]⟩ : Shape).Idx → EReal)
    (x21 : (⟨2, ![128, 64]⟩ : Shape).Idx → EReal)
    (x22 : (⟨1, ![64]⟩ : Shape).Idx → EReal)
    (x23 : (⟨2, ![128, 64]⟩ : Shape).Idx → EReal)
    (x24 : (⟨2, ![128, 64]⟩ : Shape).Idx → EReal)
    (x25 : (⟨1, ![64]⟩ : Shape).Idx → EReal)
    (x26 : (⟨2, ![128, 64]⟩ : Shape).Idx → EReal)
    (x27 : (⟨2, ![128, 64]⟩ : Shape).Idx → EReal)
    (x28 : (⟨1, ![64]⟩ : Shape).Idx → EReal)
    (x29 : (⟨2, ![128, 64]⟩ : Shape).Idx → EReal)
    (Cff Crb : (⟨1, ![100000]⟩ : Shape).Idx → EReal)
    (Crev : (⟨1, ![20000]⟩ : Shape).Idx → EReal) : Prop where
  h0 : Is2 x0 n.xu
  h1 : Is2 x1 n.xa
  h8 : Is2 x8 n.Wu
  h9 : Is1 x9 n.bu
  h10 : Is2 x10 n.Wa
  h11 : Is1 x11 n.ba
  h12 : Is2 x12 n.ffWl
  h13 : Is1 x13 n.ffbl
  h14 : Is2 x14 n.ffWr
  h15 : Is2 x15 n.revWl
  h16 : Is1 x16 n.revbl
  h17 : Is2 x17 n.revWr
  h18 : Is2 x18 n.rbWl
  h19 : Is1 x19 n.rbbl
  h20 : Is2 x20 n.rbWr
  h21 : Is2 x21 n.ffWl2
  h22 : Is1 x22 n.ffbl2
  h23 : Is2 x23 n.ffWr2
  h24 : Is2 x24 n.revWl2
  h25 : Is1 x25 n.revbl2
  h26 : Is2 x26 n.revWr2
  h27 : Is2 x27 n.rbWl2
  h28 : Is1 x28 n.rbbl2
  h29 : Is2 x29 n.rbWr2
  sff : ∀ e, srcRow 100000 (by norm_num) 100000#32 (x2 (ix1 e)) = n.sff e
  dff : ∀ e, (x3 (ix1 e)).toInt = n.dff e
  srev : ∀ e, srcRow 100000 (by norm_num) 100000#32 (x4 (ix1 e)) = n.srev e
  drev : ∀ e, (x5 (ix1 e)).toInt = n.drev e
  srb : ∀ e, srcRow 20000 (by norm_num) 20000#32 (x6 (ix1 e)) = n.srb e
  drb : ∀ e, (x7 (ix1 e)).toInt = n.drb e
  cff : ∀ i, (max (Cff (ix1 i)) 1)⁻¹ = (n.cff i : EReal)
  crb : ∀ i, (max (Crb (ix1 i)) 1)⁻¹ = (n.crb i : EReal)
  crev : ∀ i, (max (Crev (ix1 i)) 1)⁻¹ = (n.crev i : EReal)

/-- The real matrix a finite extended-real matrix holds. -/
def real2 {M N : ℕ} (X : (⟨2, ![M, N]⟩ : Shape).Idx → EReal) : Fin M → Fin N → ℝ := fun i j => (X (ix2 i j)).toReal
def real1 {N : ℕ} (X : (⟨1, ![N]⟩ : Shape).Idx → EReal) : Fin N → ℝ := fun j => (X (ix1 j)).toReal

theorem is2_real2 {M N : ℕ} (X : (⟨2, ![M, N]⟩ : Shape).Idx → EReal) (h : ∀ idx, ∃ r : ℝ, X idx = (r : EReal)) :
    Is2 X (real2 X) := fun i j => by
  obtain ⟨r, hr⟩ := h (ix2 i j)
  simp only [real2, hr, EReal.toReal_coe]

theorem is1_real1 {N : ℕ} (X : (⟨1, ![N]⟩ : Shape).Idx → EReal) (h : ∀ idx, ∃ r : ℝ, X idx = (r : EReal)) :
    Is1 X (real1 X) := fun j => by
  obtain ⟨r, hr⟩ := h (ix1 j)
  simp only [real1, hr, EReal.toReal_coe]

/-- The real reciprocal of a count clamped below by one. -/
def recip {N : ℕ} (Cn : (⟨1, ![N]⟩ : Shape).Idx → EReal) : Fin N → ℝ := fun i => ((max (Cn (ix1 i)) 1)⁻¹).toReal

theorem recip_spec {N : ℕ} (Cn : (⟨1, ![N]⟩ : Shape).Idx → EReal) (i : Fin N) :
    (max (Cn (ix1 i)) 1)⁻¹ = (recip Cn i : EReal) := by
  obtain ⟨r, hr⟩ := inv_real (max (Cn (ix1 i)) 1) (le_max_right _ _)
  simp only [recip, hr, EReal.toReal_coe]

/-- The network a program's arrays hold. -/
def Net.ofArrays
    (x0 : (⟨2, ![100000, 128]⟩ : Shape).Idx → EReal)
    (x1 : (⟨2, ![20000, 384]⟩ : Shape).Idx → EReal)
    (x2 x3 : IVec ⟨1, ![1600000]⟩ 32)
    (x4 x5 x6 x7 : IVec ⟨1, ![2000000]⟩ 32)
    (x8 : (⟨2, ![128, 128]⟩ : Shape).Idx → EReal)
    (x9 : (⟨1, ![128]⟩ : Shape).Idx → EReal)
    (x10 : (⟨2, ![384, 128]⟩ : Shape).Idx → EReal)
    (x11 : (⟨1, ![128]⟩ : Shape).Idx → EReal)
    (x12 : (⟨2, ![128, 128]⟩ : Shape).Idx → EReal)
    (x13 : (⟨1, ![128]⟩ : Shape).Idx → EReal)
    (x14 : (⟨2, ![128, 128]⟩ : Shape).Idx → EReal)
    (x15 : (⟨2, ![128, 128]⟩ : Shape).Idx → EReal)
    (x16 : (⟨1, ![128]⟩ : Shape).Idx → EReal)
    (x17 : (⟨2, ![128, 128]⟩ : Shape).Idx → EReal)
    (x18 : (⟨2, ![128, 128]⟩ : Shape).Idx → EReal)
    (x19 : (⟨1, ![128]⟩ : Shape).Idx → EReal)
    (x20 : (⟨2, ![128, 128]⟩ : Shape).Idx → EReal)
    (x21 : (⟨2, ![128, 64]⟩ : Shape).Idx → EReal)
    (x22 : (⟨1, ![64]⟩ : Shape).Idx → EReal)
    (x23 : (⟨2, ![128, 64]⟩ : Shape).Idx → EReal)
    (x24 : (⟨2, ![128, 64]⟩ : Shape).Idx → EReal)
    (x25 : (⟨1, ![64]⟩ : Shape).Idx → EReal)
    (x26 : (⟨2, ![128, 64]⟩ : Shape).Idx → EReal)
    (x27 : (⟨2, ![128, 64]⟩ : Shape).Idx → EReal)
    (x28 : (⟨1, ![64]⟩ : Shape).Idx → EReal)
    (x29 : (⟨2, ![128, 64]⟩ : Shape).Idx → EReal)
    (Cff Crb : (⟨1, ![100000]⟩ : Shape).Idx → EReal)
    (Crev : (⟨1, ![20000]⟩ : Shape).Idx → EReal) : Net where
  xu := real2 x0
  xa := real2 x1
  Wu := real2 x8
  bu := real1 x9
  Wa := real2 x10
  ba := real1 x11
  ffWl := real2 x12
  ffbl := real1 x13
  ffWr := real2 x14
  revWl := real2 x15
  revbl := real1 x16
  revWr := real2 x17
  rbWl := real2 x18
  rbbl := real1 x19
  rbWr := real2 x20
  ffWl2 := real2 x21
  ffbl2 := real1 x22
  ffWr2 := real2 x23
  revWl2 := real2 x24
  revbl2 := real1 x25
  revWr2 := real2 x26
  rbWl2 := real2 x27
  rbbl2 := real1 x28
  rbWr2 := real2 x29
  sff := fun e => srcRow 100000 (by norm_num) 100000#32 (x2 (ix1 e))
  dff := fun e => (x3 (ix1 e)).toInt
  srev := fun e => srcRow 100000 (by norm_num) 100000#32 (x4 (ix1 e))
  drev := fun e => (x5 (ix1 e)).toInt
  srb := fun e => srcRow 20000 (by norm_num) 20000#32 (x6 (ix1 e))
  drb := fun e => (x7 (ix1 e)).toInt
  cff := recip Cff
  crb := recip Crb
  crev := recip Crev

/-- Arrays that are finite everywhere are read by the network they hold. -/
theorem Net.reads_ofArrays
    (x0 : (⟨2, ![100000, 128]⟩ : Shape).Idx → EReal)
    (x1 : (⟨2, ![20000, 384]⟩ : Shape).Idx → EReal)
    (x2 x3 : IVec ⟨1, ![1600000]⟩ 32)
    (x4 x5 x6 x7 : IVec ⟨1, ![2000000]⟩ 32)
    (x8 : (⟨2, ![128, 128]⟩ : Shape).Idx → EReal)
    (x9 : (⟨1, ![128]⟩ : Shape).Idx → EReal)
    (x10 : (⟨2, ![384, 128]⟩ : Shape).Idx → EReal)
    (x11 : (⟨1, ![128]⟩ : Shape).Idx → EReal)
    (x12 : (⟨2, ![128, 128]⟩ : Shape).Idx → EReal)
    (x13 : (⟨1, ![128]⟩ : Shape).Idx → EReal)
    (x14 : (⟨2, ![128, 128]⟩ : Shape).Idx → EReal)
    (x15 : (⟨2, ![128, 128]⟩ : Shape).Idx → EReal)
    (x16 : (⟨1, ![128]⟩ : Shape).Idx → EReal)
    (x17 : (⟨2, ![128, 128]⟩ : Shape).Idx → EReal)
    (x18 : (⟨2, ![128, 128]⟩ : Shape).Idx → EReal)
    (x19 : (⟨1, ![128]⟩ : Shape).Idx → EReal)
    (x20 : (⟨2, ![128, 128]⟩ : Shape).Idx → EReal)
    (x21 : (⟨2, ![128, 64]⟩ : Shape).Idx → EReal)
    (x22 : (⟨1, ![64]⟩ : Shape).Idx → EReal)
    (x23 : (⟨2, ![128, 64]⟩ : Shape).Idx → EReal)
    (x24 : (⟨2, ![128, 64]⟩ : Shape).Idx → EReal)
    (x25 : (⟨1, ![64]⟩ : Shape).Idx → EReal)
    (x26 : (⟨2, ![128, 64]⟩ : Shape).Idx → EReal)
    (x27 : (⟨2, ![128, 64]⟩ : Shape).Idx → EReal)
    (x28 : (⟨1, ![64]⟩ : Shape).Idx → EReal)
    (x29 : (⟨2, ![128, 64]⟩ : Shape).Idx → EReal)
    (Cff Crb : (⟨1, ![100000]⟩ : Shape).Idx → EReal)
    (Crev : (⟨1, ![20000]⟩ : Shape).Idx → EReal)
    (f0 : ∀ idx, ∃ r : ℝ, x0 idx = (r : EReal))
    (f1 : ∀ idx, ∃ r : ℝ, x1 idx = (r : EReal))
    (f8 : ∀ idx, ∃ r : ℝ, x8 idx = (r : EReal))
    (f9 : ∀ idx, ∃ r : ℝ, x9 idx = (r : EReal))
    (f10 : ∀ idx, ∃ r : ℝ, x10 idx = (r : EReal))
    (f11 : ∀ idx, ∃ r : ℝ, x11 idx = (r : EReal))
    (f12 : ∀ idx, ∃ r : ℝ, x12 idx = (r : EReal))
    (f13 : ∀ idx, ∃ r : ℝ, x13 idx = (r : EReal))
    (f14 : ∀ idx, ∃ r : ℝ, x14 idx = (r : EReal))
    (f15 : ∀ idx, ∃ r : ℝ, x15 idx = (r : EReal))
    (f16 : ∀ idx, ∃ r : ℝ, x16 idx = (r : EReal))
    (f17 : ∀ idx, ∃ r : ℝ, x17 idx = (r : EReal))
    (f18 : ∀ idx, ∃ r : ℝ, x18 idx = (r : EReal))
    (f19 : ∀ idx, ∃ r : ℝ, x19 idx = (r : EReal))
    (f20 : ∀ idx, ∃ r : ℝ, x20 idx = (r : EReal))
    (f21 : ∀ idx, ∃ r : ℝ, x21 idx = (r : EReal))
    (f22 : ∀ idx, ∃ r : ℝ, x22 idx = (r : EReal))
    (f23 : ∀ idx, ∃ r : ℝ, x23 idx = (r : EReal))
    (f24 : ∀ idx, ∃ r : ℝ, x24 idx = (r : EReal))
    (f25 : ∀ idx, ∃ r : ℝ, x25 idx = (r : EReal))
    (f26 : ∀ idx, ∃ r : ℝ, x26 idx = (r : EReal))
    (f27 : ∀ idx, ∃ r : ℝ, x27 idx = (r : EReal))
    (f28 : ∀ idx, ∃ r : ℝ, x28 idx = (r : EReal))
    (f29 : ∀ idx, ∃ r : ℝ, x29 idx = (r : EReal)) :
    (Net.ofArrays x0 x1 x2 x3 x4 x5 x6 x7 x8 x9 x10 x11 x12 x13 x14 x15 x16 x17 x18 x19 x20 x21 x22 x23 x24 x25 x26 x27 x28 x29 Cff Crb Crev).Reads
      x0 x1 x2 x3 x4 x5 x6 x7 x8 x9 x10 x11 x12 x13 x14 x15 x16 x17 x18 x19 x20 x21 x22 x23 x24 x25 x26 x27 x28 x29 Cff Crb Crev where
  h0 := is2_real2 x0 f0
  h1 := is2_real2 x1 f1
  h8 := is2_real2 x8 f8
  h9 := is1_real1 x9 f9
  h10 := is2_real2 x10 f10
  h11 := is1_real1 x11 f11
  h12 := is2_real2 x12 f12
  h13 := is1_real1 x13 f13
  h14 := is2_real2 x14 f14
  h15 := is2_real2 x15 f15
  h16 := is1_real1 x16 f16
  h17 := is2_real2 x17 f17
  h18 := is2_real2 x18 f18
  h19 := is1_real1 x19 f19
  h20 := is2_real2 x20 f20
  h21 := is2_real2 x21 f21
  h22 := is1_real1 x22 f22
  h23 := is2_real2 x23 f23
  h24 := is2_real2 x24 f24
  h25 := is1_real1 x25 f25
  h26 := is2_real2 x26 f26
  h27 := is2_real2 x27 f27
  h28 := is1_real1 x28 f28
  h29 := is2_real2 x29 f29
  sff := fun _ => rfl
  dff := fun _ => rfl
  srev := fun _ => rfl
  drev := fun _ => rfl
  srb := fun _ => rfl
  drb := fun _ => rfl
  cff := recip_spec Cff
  crb := recip_spec Crb
  crev := recip_spec Crev

end Cert.Sage

end
-- ==== Proof.Stages.lean ====
/-
  One entry of each layer, read through the coercion.

  Each lemma takes one output entry's formula as a program writes it on the extended reals — sums over the feature
  axis of products of entries that hold real numbers, a divisor at least one or its reciprocal, a bias, a rectifier —
  and states that it is the coercion of the real network's formula for that entry. The two programs' arrangements
  differ (a reciprocal multiplied in against a quotient; one shared product and one shared bias for two relations
  against two of each; a projection applied before the edge sum against after it); the real identities that join them
  are distributivity and an exchange of finite sums, used on real numbers only.
-/
import proofs.«119514_j10857677324737_2_alg».proof.Proof.Reads

noncomputable section

open scoped BigOperators

namespace Cert.Sage

open Idealize.ShloMosaic

variable {K : ℕ}

/-- A dense layer with a rectifier. -/
theorem dense_read (X W : Fin K → EReal) (β : EReal) (x w : Fin K → ℝ) (b : ℝ)
    (hX : ∀ k, X k = (x k : EReal)) (hW : ∀ k, W k = (w k : EReal)) (hβ : β = (b : EReal)) :
    max ((∑ k, X k * W k) + β) 0 = ((max ((∑ k, x k * w k) + b) 0 : ℝ) : EReal) := by
  simp only [hX, hW, hβ, coe_max, EReal.coe_add, coe_sum, EReal.coe_mul, EReal.coe_zero]

/-- A product of a row that holds reals with a column that holds reals. -/
theorem dot_read (X W : Fin K → EReal) (x w : Fin K → ℝ)
    (hX : ∀ k, X k = (x k : EReal)) (hW : ∀ k, W k = (w k : EReal)) :
    (∑ k, X k * W k) = ((∑ k, x k * w k : ℝ) : EReal) := by
  simp only [hX, hW, coe_sum, EReal.coe_mul]

/-- Two relations, the reciprocal multiplied in, one shared own-feature product and one shared bias. -/
theorem two_relations_shared (S1 S2 Xd W1 W2 R : Fin K → EReal) (I1 I2 β : EReal)
    (s1 s2 xd w1 w2 r1 r2 : Fin K → ℝ) (c1 c2 b1 b2 : ℝ)
    (hS1 : ∀ k, S1 k = (s1 k : EReal)) (hS2 : ∀ k, S2 k = (s2 k : EReal)) (hXd : ∀ k, Xd k = (xd k : EReal))
    (hW1 : ∀ k, W1 k = (w1 k : EReal)) (hW2 : ∀ k, W2 k = (w2 k : EReal))
    (hR : ∀ k, R k = (r1 k : EReal) + (r2 k : EReal)) (hI1 : I1 = (c1 : EReal)) (hI2 : I2 = (c2 : EReal))
    (hβ : β = (b1 : EReal) + (b2 : EReal)) :
    max ((((∑ k, (S1 k * I1) * W1 k) + (∑ k, (S2 k * I2) * W2 k)) + (∑ k, Xd k * R k)) + β) 0
      = ((max ((((∑ k, (s1 k * c1) * w1 k) + b1) + (∑ k, xd k * r1 k))
          + (((∑ k, (s2 k * c2) * w2 k) + b2) + (∑ k, xd k * r2 k))) 0 : ℝ) : EReal) := by
  rw [← two_relations]
  simp only [hS1, hS2, hXd, hW1, hW2, hR, hI1, hI2, hβ, coe_max, EReal.coe_add, coe_sum, EReal.coe_mul, EReal.coe_zero]

/-- Two relations, each mean a quotient, each with its own product and bias. -/
theorem two_relations_quotient (S1 S2 Xd W1 W2 R1 R2 : Fin K → EReal) (C1 C2 β1 β2 : EReal)
    (s1 s2 xd w1 w2 r1 r2 : Fin K → ℝ) (c1 c2 b1 b2 : ℝ)
    (hS1 : ∀ k, S1 k = (s1 k : EReal)) (hS2 : ∀ k, S2 k = (s2 k : EReal)) (hXd : ∀ k, Xd k = (xd k : EReal))
    (hW1 : ∀ k, W1 k = (w1 k : EReal)) (hW2 : ∀ k, W2 k = (w2 k : EReal))
    (hR1 : ∀ k, R1 k = (r1 k : EReal)) (hR2 : ∀ k, R2 k = (r2 k : EReal))
    (hC1 : (max C1 1)⁻¹ = (c1 : EReal)) (hC2 : (max C2 1)⁻¹ = (c2 : EReal))
    (hβ1 : β1 = (b1 : EReal)) (hβ2 : β2 = (b2 : EReal)) :
    max ((((∑ k, Ideal.div (S1 k) (max C1 1) * W1 k) + β1) + (∑ k, Xd k * R1 k))
        + (((∑ k, Ideal.div (S2 k) (max C2 1) * W2 k) + β2) + (∑ k, Xd k * R2 k))) 0
      = ((max ((((∑ k, (s1 k * c1) * w1 k) + b1) + (∑ k, xd k * r1 k))
          + (((∑ k, (s2 k * c2) * w2 k) + b2) + (∑ k, xd k * r2 k))) 0 : ℝ) : EReal) := by
  simp only [hS1, hS2, hXd, hW1, hW2, hR1, hR2, hβ1, hβ2, mean_read _ _ _ hC1, mean_read _ _ _ hC2,
    coe_max, EReal.coe_add, coe_sum, EReal.coe_mul, EReal.coe_zero]

/-- One relation, the reciprocal multiplied in, the bias added last. -/
theorem one_relation_shared (S Xd Wl Wr : Fin K → EReal) (I β : EReal) (s xd wl wr : Fin K → ℝ) (c b : ℝ)
    (hS : ∀ k, S k = (s k : EReal)) (hXd : ∀ k, Xd k = (xd k : EReal))
    (hWl : ∀ k, Wl k = (wl k : EReal)) (hWr : ∀ k, Wr k = (wr k : EReal)) (hI : I = (c : EReal)) (hβ : β = (b : EReal)) :
    max (((∑ k, (S k * I) * Wl k) + (∑ k, Xd k * Wr k)) + β) 0
      = ((max (((∑ k, (s k * c) * wl k) + b) + (∑ k, xd k * wr k)) 0 : ℝ) : EReal) := by
  rw [← one_relation]
  simp only [hS, hXd, hWl, hWr, hI, hβ, coe_max, EReal.coe_add, coe_sum, EReal.coe_mul, EReal.coe_zero]

/-- One relation, the mean a quotient, the bias in the middle. -/
theorem one_relation_quotient (S Xd Wl Wr : Fin K → EReal) (C β : EReal) (s xd wl wr : Fin K → ℝ) (c b : ℝ)
    (hS : ∀ k, S k = (s k : EReal)) (hXd : ∀ k, Xd k = (xd k : EReal))
    (hWl : ∀ k, Wl k = (wl k : EReal)) (hWr : ∀ k, Wr k = (wr k : EReal)) (hC : (max C 1)⁻¹ = (c : EReal))
    (hβ : β = (b : EReal)) :
    max (((∑ k, Ideal.div (S k) (max C 1) * Wl k) + β) + (∑ k, Xd k * Wr k)) 0
      = ((max (((∑ k, (s k * c) * wl k) + b) + (∑ k, xd k * wr k)) 0 : ℝ) : EReal) := by
  simp only [hS, hXd, hWl, hWr, hβ, mean_read _ _ _ hC, coe_max, EReal.coe_add, coe_sum, EReal.coe_mul, EReal.coe_zero]

/-- Two relations whose edge sums were taken of the projected features. -/
theorem two_relations_projected_read (P1 P2 I1 I2 β : EReal) (Xd R : Fin K → EReal)
    (p1 p2 c1 c2 b1 b2 q1 q2 : ℝ) (xd r1 r2 : Fin K → ℝ)
    (hP1 : P1 = (p1 : EReal)) (hP2 : P2 = (p2 : EReal)) (hI1 : I1 = (c1 : EReal)) (hI2 : I2 = (c2 : EReal))
    (hXd : ∀ k, Xd k = (xd k : EReal)) (hR : ∀ k, R k = (r1 k : EReal) + (r2 k : EReal))
    (hβ : β = (b1 : EReal) + (b2 : EReal)) (h1 : p1 * c1 = q1) (h2 : p2 * c2 = q2) :
    max ((((P1 * I1) + (P2 * I2)) + (∑ k, Xd k * R k)) + β) 0
      = ((max (((q1 + b1) + (∑ k, xd k * r1 k)) + ((q2 + b2) + (∑ k, xd k * r2 k))) 0 : ℝ) : EReal) := by
  rw [← two_relations_projected p1 p2 q1 q2 c1 c2 b1 b2 xd r1 r2 h1 h2]
  simp only [hP1, hP2, hI1, hI2, hXd, hR, hβ, coe_max, EReal.coe_add, coe_sum, EReal.coe_mul, EReal.coe_zero]

/-- One relation whose edge sum was taken of the projected features. -/
theorem one_relation_projected_read (P I β : EReal) (Xd Wr : Fin K → EReal) (p c b q : ℝ) (xd wr : Fin K → ℝ)
    (hP : P = (p : EReal)) (hI : I = (c : EReal)) (hXd : ∀ k, Xd k = (xd k : EReal))
    (hWr : ∀ k, Wr k = (wr k : EReal)) (hβ : β = (b : EReal)) (h : p * c = q) :
    max (((P * I) + (∑ k, Xd k * Wr k)) + β) 0 = ((max ((q + b) + (∑ k, xd k * wr k)) 0 : ℝ) : EReal) := by
  rw [← h, ← one_relation]
  simp only [hP, hI, hXd, hWr, hβ, coe_max, EReal.coe_add, coe_sum, EReal.coe_mul, EReal.coe_zero]

/-- The edge sum of projected rows, times the reciprocal, is the projection of the edge sum times the reciprocal. -/
theorem esum_projected {E Ns Nd C : ℕ} (s : Fin E → Fin Ns) (d : Fin E → ℤ) (x : Fin Ns → Fin K → ℝ) (W : Fin K → Fin C → ℝ)
    (c : ℝ) (i : Fin Nd) (j : Fin C) :
    Net.esum s d (fun r j => ∑ k, x r k * W k j) i j * c = ∑ k, (Net.esum s d x i k * c) * W k j := by
  unfold Net.esum
  exact project_first (fun e => d e = (i.val : ℤ)) (fun e k => x (s e) k) (fun k => W k j) c

end Cert.Sage

end
-- ==== Proof.KernelValue.lean ====
/-
  The kernel program's region outputs hold the real network's arrays.

  Region by region, in program order: what a region finds at its entry is an argument as launched, an earlier
  region's output, or a host stretch's result of those (a bias row, two weight matrices added, an edge sum onto zeros,
  a reciprocal in-degree column, a column half of a projection); the region's output entry is its body's formula of
  those; and with the arguments holding the network's parameters that formula is the coercion of the network's value.
-/
import proofs.«119514_j10857677324737_2_alg».proof.Proof.Region0
import proofs.«119514_j10857677324737_2_alg».proof.Proof.Region1
import proofs.«119514_j10857677324737_2_alg».proof.Proof.Region2
import proofs.«119514_j10857677324737_2_alg».proof.Proof.Region3
import proofs.«119514_j10857677324737_2_alg».proof.Proof.Region4
import proofs.«119514_j10857677324737_2_alg».proof.Proof.Region5
import proofs.«119514_j10857677324737_2_alg».proof.Proof.Region6
import proofs.«119514_j10857677324737_2_alg».proof.Proof.Region7
import proofs.«119514_j10857677324737_2_alg».proof.Proof.Entry0
import proofs.«119514_j10857677324737_2_alg».proof.Proof.Entry1
import proofs.«119514_j10857677324737_2_alg».proof.Proof.Entry2
import proofs.«119514_j10857677324737_2_alg».proof.Proof.Entry3
import proofs.«119514_j10857677324737_2_alg».proof.Proof.Entry4
import proofs.«119514_j10857677324737_2_alg».proof.Proof.Entry5
import proofs.«119514_j10857677324737_2_alg».proof.Proof.Entry6
import proofs.«119514_j10857677324737_2_alg».proof.Proof.Entry7
import proofs.«119514_j10857677324737_2_alg».proof.Proof.EntryEnd
import proofs.«119514_j10857677324737_2_alg».proof.Proof.Stages

noncomputable section

open scoped BigOperators

namespace Cert.KernelIdeal.KValue

open Cert.KernelIdeal Cert.KernelIdeal.Gen Cert.KernelIdeal.Entry Cert.Sage Cert.EdgeSum
open Idealize.ShloMosaic Idealize.ShloMosaic.ValueIdx

variable (m : (ℓ : Loc nD τ sig) → Buf (Elt Ideal) ℓ) (ρ : Dev nD → PrngReg) (c : Dev nD) (n : Net)
  (hn : n.Reads (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c) (A24 m c) (A25 m c) (A26 m c) (A27 m c) (A28 m c) (A29 m c) (cntFF (A3 m c)) (cntRB (A7 m c)) (cntREV (A5 m c)))

include hn

/-- Region 0: the user embedding. -/
theorem k_u (i : Fin 100000) (j : Fin 128) : Ku m ρ c (ix2 i j) = ((n.u i j : ℝ) : EReal) :=
  (Region0.out_apply (V1 m ρ) c (Ku m ρ c) (A0 m c) (A8 m c) (V1 m ρ c (Pipeline.arrRef spec0 2) : S1x128.Idx → EReal)
    rfl (E0_0 m ρ c).symm (E0_1 m ρ c).symm rfl i j).trans
  (dense_read (fun k => A0 m c (ix2 i k)) (fun k => A8 m c (ix2 k j)) _ (fun k => n.xu i k) (fun k => n.Wu k j) (n.bu j)
    (fun k => hn.h0 i k) (fun k => hn.h8 k j) ((E0_2 m ρ c j).trans (hn.h9 j)))

/-- Region 1: the app embedding. -/
theorem k_a (i : Fin 20000) (j : Fin 128) : Ka m ρ c (ix2 i j) = ((n.a i j : ℝ) : EReal) :=
  (Region1.out_apply (V3 m ρ) c (Ka m ρ c) (A1 m c) (A10 m c) (V3 m ρ c (Pipeline.arrRef spec1 2) : S1x128.Idx → EReal)
    rfl (E1_0 m ρ c).symm (E1_1 m ρ c).symm rfl i j).trans
  (dense_read (fun k => A1 m c (ix2 i k)) (fun k => A10 m c (ix2 k j)) _ (fun k => n.xa i k) (fun k => n.Wa k j) (n.ba j)
    (fun k => hn.h1 i k) (fun k => hn.h10 k j) ((E1_2 m ρ c j).trans (hn.h11 j)))

/-- Region 2: the first layer's user features. -/
theorem k_u1 (i : Fin 100000) (j : Fin 128) : Ku1 m ρ c (ix2 i j) = ((n.u1 i j : ℝ) : EReal) :=
  (Region2.out_apply (V5 m ρ) c (Ku1 m ρ c)
    (V5 m ρ c (Pipeline.arrRef spec2 0) : S100000x128.Idx → EReal)
    (V5 m ρ c (Pipeline.arrRef spec2 1) : S100000x1.Idx → EReal)
    (V5 m ρ c (Pipeline.arrRef spec2 2) : S100000x128.Idx → EReal)
    (V5 m ρ c (Pipeline.arrRef spec2 3) : S100000x1.Idx → EReal)
    (V5 m ρ c (Pipeline.arrRef spec2 4) : S100000x128.Idx → EReal)
    (V5 m ρ c (Pipeline.arrRef spec2 5) : S128x128.Idx → EReal)
    (V5 m ρ c (Pipeline.arrRef spec2 6) : S128x128.Idx → EReal)
    (V5 m ρ c (Pipeline.arrRef spec2 7) : S128x128.Idx → EReal)
    (V5 m ρ c (Pipeline.arrRef spec2 8) : S1x128.Idx → EReal)
    rfl rfl rfl rfl rfl rfl rfl rfl rfl rfl i j).trans
  (two_relations_shared _ _ _ _ _ _ _ _ _
    (fun k => Net.esum n.sff n.dff n.u i k) (fun k => Net.esum n.srb n.drb n.a i k) (fun k => n.u i k)
    (fun k => n.ffWl k j) (fun k => n.rbWl k j) (fun k => n.ffWr k j) (fun k => n.rbWr k j) (n.cff i) (n.crb i) (n.ffbl j) (n.rbbl j)
    (fun k => (E2_0 m ρ c i k).trans (esum_read _ _ _ n.u (k_u m ρ c n hn) (A2 m c) (A3 m c) n.sff n.dff hn.sff hn.dff i k))
    (fun k => (E2_2 m ρ c i k).trans (esum_read _ _ _ n.a (k_a m ρ c n hn) (A6 m c) (A7 m c) n.srb n.drb hn.srb hn.drb i k))
    (fun k => (congrFun (E2_4 m ρ c) (ix2 i k)).trans (k_u m ρ c n hn i k))
    (fun k => (congrFun (E2_5 m ρ c) (ix2 k j)).trans (hn.h12 k j))
    (fun k => (congrFun (E2_6 m ρ c) (ix2 k j)).trans (hn.h18 k j))
    (fun k => (E2_7 m ρ c (ix2 k j)).trans (congrArg₂ (· + ·) (hn.h14 k j) (hn.h20 k j)))
    ((E2_1 m ρ c i).trans (recip_read _ _ (hn.cff i))) ((E2_3 m ρ c i).trans (recip_read _ _ (hn.crb i)))
    ((E2_8 m ρ c j).trans (congrArg₂ (· + ·) (hn.h13 j) (hn.h19 j))))

/-- Region 3: the first layer's app features. -/
theorem k_a1 (i : Fin 20000) (j : Fin 128) : Ka1 m ρ c (ix2 i j) = ((n.a1 i j : ℝ) : EReal) :=
  (Region3.out_apply (V7 m ρ) c (Ka1 m ρ c)
    (V7 m ρ c (Pipeline.arrRef spec3 0) : S20000x128.Idx → EReal)
    (V7 m ρ c (Pipeline.arrRef spec3 1) : S20000x1.Idx → EReal)
    (V7 m ρ c (Pipeline.arrRef spec3 2) : S20000x128.Idx → EReal)
    (V7 m ρ c (Pipeline.arrRef spec3 3) : S128x128.Idx → EReal)
    (V7 m ρ c (Pipeline.arrRef spec3 4) : S128x128.Idx → EReal)
    (V7 m ρ c (Pipeline.arrRef spec3 5) : S1x128.Idx → EReal)
    rfl rfl rfl rfl rfl rfl rfl i j).trans
  (one_relation_shared _ _ _ _ _ _
    (fun k => Net.esum n.srev n.drev n.u i k) (fun k => n.a i k) (fun k => n.revWl k j) (fun k => n.revWr k j) (n.crev i) (n.revbl j)
    (fun k => (E3_0 m ρ c i k).trans (esum_read _ _ _ n.u (k_u m ρ c n hn) (A4 m c) (A5 m c) n.srev n.drev hn.srev hn.drev i k))
    (fun k => (congrFun (E3_2 m ρ c) (ix2 i k)).trans (k_a m ρ c n hn i k))
    (fun k => (congrFun (E3_3 m ρ c) (ix2 k j)).trans (hn.h15 k j))
    (fun k => (congrFun (E3_4 m ρ c) (ix2 k j)).trans (hn.h17 k j))
    ((E3_1 m ρ c i).trans (recip_read _ _ (hn.crev i))) ((E3_5 m ρ c j).trans (hn.h16 j)))

/-- Region 4, left half: the user features projected for the user-to-user relation. -/
theorem k_pff : Is2 (PFF m ρ c) (fun r k => ∑ q, n.u1 r q * n.ffWl2 q k) := fun r k =>
  (PFF_apply m ρ c r k).trans
  ((Region4.out_apply_left (V8 m ρ) c (Kp m ρ c) (V8 m ρ c (Pipeline.arrRef spec4 0) : S100000x128.Idx → EReal) (V8 m ρ c (Pipeline.arrRef spec4 1) : S128x64.Idx → EReal) (V8 m ρ c (Pipeline.arrRef spec4 2) : S128x64.Idx → EReal)
    rfl rfl rfl rfl r k).trans
  (dot_read _ _ (fun q => n.u1 r q) (fun q => n.ffWl2 q k)
    (fun q => (congrFun (E4_0 m ρ c) (ix2 r q)).trans (k_u1 m ρ c n hn r q))
    (fun q => (congrFun (E4_1 m ρ c) (ix2 q k)).trans (hn.h21 q k))))

/-- Region 4, right half: the user features projected for the user-to-app relation. -/
theorem k_prev : Is2 (PREV m ρ c) (fun r k => ∑ q, n.u1 r q * n.revWl2 q k) := fun r k =>
  (PREV_apply m ρ c r k).trans
  ((Region4.out_apply_right (V8 m ρ) c (Kp m ρ c) (V8 m ρ c (Pipeline.arrRef spec4 0) : S100000x128.Idx → EReal) (V8 m ρ c (Pipeline.arrRef spec4 1) : S128x64.Idx → EReal) (V8 m ρ c (Pipeline.arrRef spec4 2) : S128x64.Idx → EReal)
    rfl rfl rfl rfl r k).trans
  (dot_read _ _ (fun q => n.u1 r q) (fun q => n.revWl2 q k)
    (fun q => (congrFun (E4_0 m ρ c) (ix2 r q)).trans (k_u1 m ρ c n hn r q))
    (fun q => (congrFun (E4_2 m ρ c) (ix2 q k)).trans (hn.h24 q k))))

/-- Region 5: the app features projected for the app-to-user relation. -/
theorem k_prb : Is2 (Kprb m ρ c) (fun r k => ∑ q, n.a1 r q * n.rbWl2 q k) := fun r k =>
  (Region5.out_apply (V10 m ρ) c (Kprb m ρ c) (V10 m ρ c (Pipeline.arrRef spec5 0) : S20000x128.Idx → EReal) (V10 m ρ c (Pipeline.arrRef spec5 1) : S128x64.Idx → EReal)
    rfl rfl rfl r k).trans
  (dot_read _ _ (fun q => n.a1 r q) (fun q => n.rbWl2 q k)
    (fun q => (congrFun (E5_0 m ρ c) (ix2 r q)).trans (k_a1 m ρ c n hn r q))
    (fun q => (congrFun (E5_1 m ρ c) (ix2 q k)).trans (hn.h27 q k)))

/-- Region 6: the first result, the second layer's user features. -/
theorem k_u2 (i : Fin 100000) (j : Fin 64) : Ku2 m ρ c (ix2 i j) = ((n.u2 i j : ℝ) : EReal) :=
  (Region6.out_apply (V12 m ρ) c (Ku2 m ρ c)
    (V12 m ρ c (Pipeline.arrRef spec6 0) : S100000x64.Idx → EReal)
    (V12 m ρ c (Pipeline.arrRef spec6 1) : S100000x1.Idx → EReal)
    (V12 m ρ c (Pipeline.arrRef spec6 2) : S100000x64.Idx → EReal)
    (V12 m ρ c (Pipeline.arrRef spec6 3) : S100000x1.Idx → EReal)
    (V12 m ρ c (Pipeline.arrRef spec6 4) : S100000x128.Idx → EReal)
    (V12 m ρ c (Pipeline.arrRef spec6 5) : S128x64.Idx → EReal)
    (V12 m ρ c (Pipeline.arrRef spec6 6) : S1x64.Idx → EReal)
    rfl rfl rfl rfl rfl rfl rfl rfl i j).trans
  (two_relations_projected_read _ _ _ _ _ _ _
    (Net.esum n.sff n.dff (fun r k => ∑ q, n.u1 r q * n.ffWl2 q k) i j)
    (Net.esum n.srb n.drb (fun r k => ∑ q, n.a1 r q * n.rbWl2 q k) i j)
    (n.cff i) (n.crb i) (n.ffbl2 j) (n.rbbl2 j)
    (∑ k, (Net.esum n.sff n.dff n.u1 i k * n.cff i) * n.ffWl2 k j)
    (∑ k, (Net.esum n.srb n.drb n.a1 i k * n.crb i) * n.rbWl2 k j)
    (fun k => n.u1 i k) (fun k => n.ffWr2 k j) (fun k => n.rbWr2 k j)
    ((E6_0 m ρ c i j).trans (esum_read _ _ _ _ (k_pff m ρ c n hn) (A2 m c) (A3 m c) n.sff n.dff hn.sff hn.dff i j))
    ((E6_2 m ρ c i j).trans (esum_read _ _ _ _ (k_prb m ρ c n hn) (A6 m c) (A7 m c) n.srb n.drb hn.srb hn.drb i j))
    ((E6_1 m ρ c i).trans (recip_read _ _ (hn.cff i))) ((E6_3 m ρ c i).trans (recip_read _ _ (hn.crb i)))
    (fun k => (congrFun (E6_4 m ρ c) (ix2 i k)).trans (k_u1 m ρ c n hn i k))
    (fun k => (E6_5 m ρ c (ix2 k j)).trans (congrArg₂ (· + ·) (hn.h23 k j) (hn.h29 k j)))
    ((E6_6 m ρ c j).trans (congrArg₂ (· + ·) (hn.h22 j) (hn.h28 j)))
    (esum_projected n.sff n.dff n.u1 n.ffWl2 (n.cff i) i j) (esum_projected n.srb n.drb n.a1 n.rbWl2 (n.crb i) i j))

/-- Region 7: the second result, the second layer's app features. -/
theorem k_a2 (i : Fin 20000) (j : Fin 64) : Ka2 m ρ c (ix2 i j) = ((n.a2 i j : ℝ) : EReal) :=
  (Region7.out_apply (V14 m ρ) c (Ka2 m ρ c)
    (V14 m ρ c (Pipeline.arrRef spec7 0) : S20000x64.Idx → EReal)
    (V14 m ρ c (Pipeline.arrRef spec7 1) : S20000x1.Idx → EReal)
    (V14 m ρ c (Pipeline.arrRef spec7 2) : S20000x128.Idx → EReal)
    (V14 m ρ c (Pipeline.arrRef spec7 3) : S128x64.Idx → EReal)
    (V14 m ρ c (Pipeline.arrRef spec7 4) : S1x64.Idx → EReal)
    rfl rfl rfl rfl rfl rfl i j).trans
  (one_relation_projected_read _ _ _ _ _
    (Net.esum n.srev n.drev (fun r k => ∑ q, n.u1 r q * n.revWl2 q k) i j) (n.crev i) (n.revbl2 j)
    (∑ k, (Net.esum n.srev n.drev n.u1 i k * n.crev i) * n.revWl2 k j)
    (fun k => n.a1 i k) (fun k => n.revWr2 k j)
    ((E7_0 m ρ c i j).trans (esum_read _ _ _ _ (k_prev m ρ c n hn) (A4 m c) (A5 m c) n.srev n.drev hn.srev hn.drev i j))
    ((E7_1 m ρ c i).trans (recip_read _ _ (hn.crev i)))
    (fun k => (congrFun (E7_2 m ρ c) (ix2 i k)).trans (k_a1 m ρ c n hn i k))
    (fun k => (congrFun (E7_3 m ρ c) (ix2 k j)).trans (hn.h26 k j))
    ((E7_4 m ρ c j).trans (hn.h25 j))
    (esum_projected n.srev n.drev n.u1 n.revWl2 (n.crev i) i j))

end Cert.KernelIdeal.KValue

end
-- ==== Proof.RefRead.lean ====
/-
  The reference program read at an index, on the extended reals.

  The reference computes a two-layer heterogeneous GraphSAGE network over two node types ("user", 100000 nodes, and
  "app", 20000 nodes) and three edge relations. This module reads the stages of that program entry by entry:

  * the two input projections `u = max (x_user W_u + b_u) 0` and `a = max (x_app W_a + b_a) 0`;
  * the six aggregations (three relations, two layers): rows of a node table taken at the edges' sources and added at
    the edges' destinations, each read at entry `(i, k)` as `0` plus the sum over all edges of the edge's contribution;
  * the four SAGE stages: the aggregation divided by the in-degree count (at least one), times a weight matrix, plus a
    bias, plus the destination's own features times a second weight matrix, summed over the relations that arrive at
    the node type, and clipped below at zero.

  Every statement is an identity between terms: no finiteness of the inputs is used. The in-degree counts are kept as
  the program's own terms (they are never read entry by entry here).
-/
import proofs.«119514_j10857677324737_2_alg».proof.Proof.Gen.ReferenceIdeal.Read
import proofs.«119514_j10857677324737_2_alg».proof.Proof.EdgeSum
import Idealize.ShloMosaic.Lib.IdealHost

noncomputable section

open scoped BigOperators

namespace Cert.ReferenceIdeal.RefRead

open Cert.ReferenceIdeal Cert.ReferenceIdeal.Gen Cert.ReferenceIdeal.Read Cert.EdgeSum Cert.Lib.Rows Cert.Lib.EdgeAggregate
open Idealize.ShloMosaic Idealize.ShloMosaic.ValueIdx

/-- Two index functions into a rank-2 shape agree when both coordinates do. -/
local macro "idx2" : tactic =>
  `(tactic| exact funext fun a => Fin.ext (by match a with | ⟨0, _⟩ => rfl | ⟨1, _⟩ => rfl))
/-- Two index functions into a rank-1 shape agree when the coordinate does. -/
local macro "idx1" : tactic =>
  `(tactic| exact funext fun a => Fin.ext (by match a with | ⟨0, _⟩ => rfl))

variable (x0 : (⟨S100000x128, .f32⟩ : BufTy).Contents (Elt Ideal)) (x1 : (⟨S20000x384, .f32⟩ : BufTy).Contents (Elt Ideal))
  (x2 x3 : (⟨S1600000, .i32⟩ : BufTy).Contents (Elt Ideal)) (x4 x5 x6 x7 : (⟨S2000000, .i32⟩ : BufTy).Contents (Elt Ideal))
  (x8 : (⟨S128x128, .f32⟩ : BufTy).Contents (Elt Ideal)) (x9 : (⟨S128, .f32⟩ : BufTy).Contents (Elt Ideal))
  (x10 : (⟨S384x128, .f32⟩ : BufTy).Contents (Elt Ideal)) (x11 : (⟨S128, .f32⟩ : BufTy).Contents (Elt Ideal))
  (x12 : (⟨S128x128, .f32⟩ : BufTy).Contents (Elt Ideal)) (x13 : (⟨S128, .f32⟩ : BufTy).Contents (Elt Ideal))
  (x14 x15 : (⟨S128x128, .f32⟩ : BufTy).Contents (Elt Ideal)) (x16 : (⟨S128, .f32⟩ : BufTy).Contents (Elt Ideal))
  (x17 x18 : (⟨S128x128, .f32⟩ : BufTy).Contents (Elt Ideal)) (x19 : (⟨S128, .f32⟩ : BufTy).Contents (Elt Ideal))
  (x20 : (⟨S128x128, .f32⟩ : BufTy).Contents (Elt Ideal))
  (x21 : (⟨S128x64, .f32⟩ : BufTy).Contents (Elt Ideal)) (x22 : (⟨S64, .f32⟩ : BufTy).Contents (Elt Ideal))
  (x23 x24 : (⟨S128x64, .f32⟩ : BufTy).Contents (Elt Ideal)) (x25 : (⟨S64, .f32⟩ : BufTy).Contents (Elt Ideal))
  (x26 x27 : (⟨S128x64, .f32⟩ : BufTy).Contents (Elt Ideal)) (x28 : (⟨S64, .f32⟩ : BufTy).Contents (Elt Ideal))
  (x29 : (⟨S128x64, .f32⟩ : BufTy).Contents (Elt Ideal))

/-- The f32 word of zero is the extended real `0`, as the constant the program clips against. -/
theorem zero_word : FloatOps.ofBits (F := Ideal) .f32 0x00000000#32 = (0 : EReal) := Ideal.ofBits_zero_f32

/-- The f32 word `0x3F800000` is the extended real `1`. -/
theorem one_word : FloatOps.ofBits (F := Ideal) .f32 0x3F800000#32 = (1 : EReal) := Ideal.ofBits_one_f32

/-- The user projection at entry `(i, j)`. -/
theorem u_apply (i : Fin 100000) (j : Fin 128) :
    val_main_v4 (F := Ideal) x0 x8 x9 (ix2 i j)
      = max ((∑ k : Fin 128, x0 (ix2 i k) * x8 (ix2 k j)) + x9 (ix1 j)) 0 := by
  have el : ∀ k : Fin 128, lidx_main_v0 (ix2 i j) k = ix2 i k := fun k => by idx2
  have er : ∀ k : Fin 128, ridx_main_v0 (ix2 i j) k = ix2 k j := fun k => by idx2
  have eb : idx_main_v1 (idx_main_v2 (ix2 i j)) = ix1 j := by idx1
  rw [val_main_v4_apply, val_main_v3_apply, val_main_v0_apply, val_main_v2_apply, val_main_v1_apply,
    val_main_call0_v0_apply, val_main_call0_cst_apply, eb, zero_word]
  simp only [el, er, Ideal.maximumf_def, Ideal.addf_def]

/-- The app projection at entry `(i, j)`. -/
theorem a_apply (i : Fin 20000) (j : Fin 128) :
    val_main_v9 (F := Ideal) x1 x10 x11 (ix2 i j)
      = max ((∑ k : Fin 384, x1 (ix2 i k) * x10 (ix2 k j)) + x11 (ix1 j)) 0 := by
  have el : ∀ k : Fin 384, lidx_main_v5 (ix2 i j) k = ix2 i k := fun k => by idx2
  have er : ∀ k : Fin 384, ridx_main_v5 (ix2 i j) k = ix2 k j := fun k => by idx2
  have eb : idx_main_v6 (idx_main_v7 (ix2 i j)) = ix1 j := by idx1
  rw [val_main_v9_apply, val_main_v8_apply, val_main_v5_apply, val_main_v7_apply, val_main_v6_apply,
    val_main_call1_v0_apply, val_main_call1_cst_apply, eb, zero_word]
  simp only [el, er, Ideal.maximumf_def, Ideal.addf_def]

/-- Layer 1, the user-to-user relation: the aggregation of `u` at entry `(i, k)`. -/
theorem agg_v19_apply (i : Fin 100000) (k : Fin 128) :
    val_main_v19 (F := Ideal) x0 x2 x3 x8 x9 (ix2 i k)
      = 0 + ∑ e : Fin 1600000, edge2 (Ns := 100000) (by norm_num) 100000#32
          (val_main_v4 (F := Ideal) x0 x8 x9) x2 x3 i k e := by
  unfold val_main_v19 val_main_v16
  generalize val_main_v4 (F := Ideal) x0 x8 x9 = u
  exact gather_scatter_apply (Ns := 100000) (Nd := 100000) (E := 1600000) (C := 128) (by norm_num) 100000#32
    _ _ _ _ _ u x2 x3 i k

/-- Layer 1, the app-to-user relation: the aggregation of `a` at entry `(i, k)`. -/
theorem agg_v44_apply (i : Fin 100000) (k : Fin 128) :
    val_main_v44 (F := Ideal) x1 x6 x7 x10 x11 (ix2 i k)
      = 0 + ∑ e : Fin 2000000, edge2 (Ns := 20000) (by norm_num) 20000#32
          (val_main_v9 (F := Ideal) x1 x10 x11) x6 x7 i k e := by
  unfold val_main_v44 val_main_v41
  generalize val_main_v9 (F := Ideal) x1 x10 x11 = t
  exact gather_scatter_apply (Ns := 20000) (Nd := 100000) (E := 2000000) (C := 128) (by norm_num) 20000#32
    _ _ _ _ _ t x6 x7 i k

/-- Layer 1, the user-to-app relation: the aggregation of `u` at entry `(i, k)`. -/
theorem agg_v71_apply (i : Fin 20000) (k : Fin 128) :
    val_main_v71 (F := Ideal) x0 x4 x5 x8 x9 (ix2 i k)
      = 0 + ∑ e : Fin 2000000, edge2 (Ns := 100000) (by norm_num) 100000#32
          (val_main_v4 (F := Ideal) x0 x8 x9) x4 x5 i k e := by
  unfold val_main_v71 val_main_v68
  generalize val_main_v4 (F := Ideal) x0 x8 x9 = t
  exact gather_scatter_apply (Ns := 100000) (Nd := 20000) (E := 2000000) (C := 128) (by norm_num) 100000#32
    _ _ _ _ _ t x4 x5 i k

/-- Layer 2, the user-to-user relation: the aggregation of the layer-1 user stage at entry `(i, k)`. -/
theorem agg_v97_apply (i : Fin 100000) (k : Fin 128) :
    val_main_v97 (F := Ideal) x0 x1 x2 x3 x6 x7 x8 x9 x10 x11 x12 x13 x14 x18 x19 x20 (ix2 i k)
      = 0 + ∑ e : Fin 1600000, edge2 (Ns := 100000) (by norm_num) 100000#32
          (val_main_v61 (F := Ideal) x0 x1 x2 x3 x6 x7 x8 x9 x10 x11 x12 x13 x14 x18 x19 x20) x2 x3 i k e := by
  unfold val_main_v97 val_main_v94
  generalize val_main_v61 (F := Ideal) x0 x1 x2 x3 x6 x7 x8 x9 x10 x11 x12 x13 x14 x18 x19 x20 = t
  exact gather_scatter_apply (Ns := 100000) (Nd := 100000) (E := 1600000) (C := 128) (by norm_num) 100000#32
    _ _ _ _ _ t x2 x3 i k

/-- Layer 2, the app-to-user relation: the aggregation of the layer-1 app stage at entry `(i, k)`. -/
theorem agg_v122_apply (i : Fin 100000) (k : Fin 128) :
    val_main_v122 (F := Ideal) x0 x1 x4 x5 x6 x7 x8 x9 x10 x11 x15 x16 x17 (ix2 i k)
      = 0 + ∑ e : Fin 2000000, edge2 (Ns := 20000) (by norm_num) 20000#32
          (val_main_v87 (F := Ideal) x0 x1 x4 x5 x8 x9 x10 x11 x15 x16 x17) x6 x7 i k e := by
  unfold val_main_v122 val_main_v119
  generalize val_main_v87 (F := Ideal) x0 x1 x4 x5 x8 x9 x10 x11 x15 x16 x17 = t
  exact gather_scatter_apply (Ns := 20000) (Nd := 100000) (E := 2000000) (C := 128) (by norm_num) 20000#32
    _ _ _ _ _ t x6 x7 i k

/-- Layer 2, the user-to-app relation: the aggregation of the layer-1 user stage at entry `(i, k)`. -/
theorem agg_v149_apply (i : Fin 20000) (k : Fin 128) :
    val_main_v149 (F := Ideal) x0 x1 x2 x3 x4 x5 x6 x7 x8 x9 x10 x11 x12 x13 x14 x18 x19 x20 (ix2 i k)
      = 0 + ∑ e : Fin 2000000, edge2 (Ns := 100000) (by norm_num) 100000#32
          (val_main_v61 (F := Ideal) x0 x1 x2 x3 x6 x7 x8 x9 x10 x11 x12 x13 x14 x18 x19 x20) x4 x5 i k e := by
  unfold val_main_v149 val_main_v146
  generalize val_main_v61 (F := Ideal) x0 x1 x2 x3 x6 x7 x8 x9 x10 x11 x12 x13 x14 x18 x19 x20 = t
  exact gather_scatter_apply (Ns := 100000) (Nd := 20000) (E := 2000000) (C := 128) (by norm_num) 100000#32
    _ _ _ _ _ t x4 x5 i k

/-- The in-degree counts are recomputed in layer 2 by the same operations on the same destinations: they are the
    layer-1 counts. -/
theorem cnt_v101_eq : val_main_v101 (F := Ideal) x3 = val_main_v23 (F := Ideal) x3 := rfl
theorem cnt_v126_eq : val_main_v126 (F := Ideal) x7 = val_main_v48 (F := Ideal) x7 := rfl
theorem cnt_v153_eq : val_main_v153 (F := Ideal) x5 = val_main_v75 (F := Ideal) x5 := rfl

end Cert.ReferenceIdeal.RefRead

end
-- ==== Proof.RefRead2.lean ====
/-
  The reference program read at an index, on the extended reals: the four SAGE stages.

  A SAGE branch (one edge relation arriving at a node type, in one layer) is
  `(agg / max cnt 1) W_l + b_l + x_dst W_r`: at entry `(i, j)` the sum over `k` of the aggregation's entry `(i, k)`
  divided by the destination's in-degree count (at least one) times `W_l[k, j]`, plus the bias `b_l[j]`, plus the sum
  over `k` of the destination's own features `x_dst[i, k]` times `W_r[k, j]`, associated as the program adds them:
  `((agg W_l + b_l) + x_dst W_r)`. A stage is the sum of the branches that arrive at its node type, clipped below at
  zero. The aggregations and the counts stay the program's own terms.
-/
import proofs.«119514_j10857677324737_2_alg».proof.Proof.RefRead

noncomputable section

open scoped BigOperators

namespace Cert.ReferenceIdeal.RefRead

open Cert.ReferenceIdeal Cert.ReferenceIdeal.Gen Cert.ReferenceIdeal.Read
open Idealize.ShloMosaic Idealize.ShloMosaic.ValueIdx

/-- Two index functions into a rank-2 shape agree when both coordinates do. -/
local macro "idx2" : tactic =>
  `(tactic| exact funext fun a => Fin.ext (by match a with | ⟨0, _⟩ => rfl | ⟨1, _⟩ => rfl))
/-- Two index functions into a rank-1 shape agree when the coordinate does. -/
local macro "idx1" : tactic =>
  `(tactic| exact funext fun a => Fin.ext (by match a with | ⟨0, _⟩ => rfl))

variable (x0 : (⟨S100000x128, .f32⟩ : BufTy).Contents (Elt Ideal)) (x1 : (⟨S20000x384, .f32⟩ : BufTy).Contents (Elt Ideal))
  (x2 x3 : (⟨S1600000, .i32⟩ : BufTy).Contents (Elt Ideal)) (x4 x5 x6 x7 : (⟨S2000000, .i32⟩ : BufTy).Contents (Elt Ideal))
  (x8 : (⟨S128x128, .f32⟩ : BufTy).Contents (Elt Ideal)) (x9 : (⟨S128, .f32⟩ : BufTy).Contents (Elt Ideal))
  (x10 : (⟨S384x128, .f32⟩ : BufTy).Contents (Elt Ideal)) (x11 : (⟨S128, .f32⟩ : BufTy).Contents (Elt Ideal))
  (x12 : (⟨S128x128, .f32⟩ : BufTy).Contents (Elt Ideal)) (x13 : (⟨S128, .f32⟩ : BufTy).Contents (Elt Ideal))
  (x14 x15 : (⟨S128x128, .f32⟩ : BufTy).Contents (Elt Ideal)) (x16 : (⟨S128, .f32⟩ : BufTy).Contents (Elt Ideal))
  (x17 x18 : (⟨S128x128, .f32⟩ : BufTy).Contents (Elt Ideal)) (x19 : (⟨S128, .f32⟩ : BufTy).Contents (Elt Ideal))
  (x20 : (⟨S128x128, .f32⟩ : BufTy).Contents (Elt Ideal))
  (x21 : (⟨S128x64, .f32⟩ : BufTy).Contents (Elt Ideal)) (x22 : (⟨S64, .f32⟩ : BufTy).Contents (Elt Ideal))
  (x23 x24 : (⟨S128x64, .f32⟩ : BufTy).Contents (Elt Ideal)) (x25 : (⟨S64, .f32⟩ : BufTy).Contents (Elt Ideal))
  (x26 x27 : (⟨S128x64, .f32⟩ : BufTy).Contents (Elt Ideal)) (x28 : (⟨S64, .f32⟩ : BufTy).Contents (Elt Ideal))
  (x29 : (⟨S128x64, .f32⟩ : BufTy).Contents (Elt Ideal))

/-- Layer 1, the user-to-user branch of the user stage at entry `(i, j)`. -/
theorem sage_v34_apply (i : Fin 100000) (j : Fin 128) :
    val_main_v34 (F := Ideal) x0 x2 x3 x8 x9 x12 x13 x14 (ix2 i j)
      = ((∑ k : Fin 128, Ideal.div (val_main_v19 (F := Ideal) x0 x2 x3 x8 x9 (ix2 i k)) (max (val_main_v23 (F := Ideal) x3 (ix1 i)) 1) * x12 (ix2 k j))
          + x13 (ix1 j))
        + ∑ k : Fin 128, val_main_v4 (F := Ideal) x0 x8 x9 (ix2 i k) * x14 (ix2 k j) := by
  have el : ∀ k : Fin 128, lidx_main_v29 (ix2 i j) k = ix2 i k := fun k => by idx2
  have er : ∀ k : Fin 128, ridx_main_v29 (ix2 i j) k = ix2 k j := fun k => by idx2
  have el' : ∀ k : Fin 128, lidx_main_v33 (ix2 i j) k = ix2 i k := fun k => by idx2
  have er' : ∀ k : Fin 128, ridx_main_v33 (ix2 i j) k = ix2 k j := fun k => by idx2
  have ec : ∀ k : Fin 128, idx_main_v26 (idx_main_v27 (ix2 i k)) = ix1 i := fun k => by idx1
  have eb : idx_main_v30 (idx_main_v31 (ix2 i j)) = ix1 j := by idx1
  have hd : ∀ k : Fin 128, val_main_v28 (F := Ideal) x0 x2 x3 x8 x9 (lidx_main_v29 (ix2 i j) k)
      = Ideal.div (val_main_v19 (F := Ideal) x0 x2 x3 x8 x9 (ix2 i k)) (max (val_main_v23 (F := Ideal) x3 (ix1 i)) 1) := fun k => by
    rw [el, val_main_v28_apply, val_main_v27_apply, val_main_v26_apply, ec, val_main_v25_apply,
      val_main_v24_apply, val_main_cst_3_apply, one_word, Ideal.hostDivf_def, Ideal.maximumf_def]
  rw [val_main_v34_apply, val_main_v32_apply, val_main_v29_apply, val_main_v33_apply,
    val_main_v31_apply, val_main_v30_apply, eb]
  simp only [hd, er, el', er', Ideal.addf_def]

/-- Layer 1, the app-to-user branch of the user stage at entry `(i, j)`. -/
theorem sage_v59_apply (i : Fin 100000) (j : Fin 128) :
    val_main_v59 (F := Ideal) x0 x1 x6 x7 x8 x9 x10 x11 x18 x19 x20 (ix2 i j)
      = ((∑ k : Fin 128, Ideal.div (val_main_v44 (F := Ideal) x1 x6 x7 x10 x11 (ix2 i k)) (max (val_main_v48 (F := Ideal) x7 (ix1 i)) 1) * x18 (ix2 k j))
          + x19 (ix1 j))
        + ∑ k : Fin 128, val_main_v4 (F := Ideal) x0 x8 x9 (ix2 i k) * x20 (ix2 k j) := by
  have el : ∀ k : Fin 128, lidx_main_v54 (ix2 i j) k = ix2 i k := fun k => by idx2
  have er : ∀ k : Fin 128, ridx_main_v54 (ix2 i j) k = ix2 k j := fun k => by idx2
  have el' : ∀ k : Fin 128, lidx_main_v58 (ix2 i j) k = ix2 i k := fun k => by idx2
  have er' : ∀ k : Fin 128, ridx_main_v58 (ix2 i j) k = ix2 k j := fun k => by idx2
  have ec : ∀ k : Fin 128, idx_main_v51 (idx_main_v52 (ix2 i k)) = ix1 i := fun k => by idx1
  have eb : idx_main_v55 (idx_main_v56 (ix2 i j)) = ix1 j := by idx1
  have hd : ∀ k : Fin 128, val_main_v53 (F := Ideal) x1 x6 x7 x10 x11 (lidx_main_v54 (ix2 i j) k)
      = Ideal.div (val_main_v44 (F := Ideal) x1 x6 x7 x10 x11 (ix2 i k)) (max (val_main_v48 (F := Ideal) x7 (ix1 i)) 1) := fun k => by
    rw [el, val_main_v53_apply, val_main_v52_apply, val_main_v51_apply, ec, val_main_v50_apply,
      val_main_v49_apply, val_main_cst_9_apply, one_word, Ideal.hostDivf_def, Ideal.maximumf_def]
  rw [val_main_v59_apply, val_main_v57_apply, val_main_v54_apply, val_main_v58_apply,
    val_main_v56_apply, val_main_v55_apply, eb]
  simp only [hd, er, el', er', Ideal.addf_def]

/-- Layer 1, the user-to-app branch (the only one) of the app stage at entry `(i, j)`. -/
theorem sage_v86_apply (i : Fin 20000) (j : Fin 128) :
    val_main_v86 (F := Ideal) x0 x1 x4 x5 x8 x9 x10 x11 x15 x16 x17 (ix2 i j)
      = ((∑ k : Fin 128, Ideal.div (val_main_v71 (F := Ideal) x0 x4 x5 x8 x9 (ix2 i k)) (max (val_main_v75 (F := Ideal) x5 (ix1 i)) 1) * x15 (ix2 k j))
          + x16 (ix1 j))
        + ∑ k : Fin 128, val_main_v9 (F := Ideal) x1 x10 x11 (ix2 i k) * x17 (ix2 k j) := by
  have el : ∀ k : Fin 128, lidx_main_v81 (ix2 i j) k = ix2 i k := fun k => by idx2
  have er : ∀ k : Fin 128, ridx_main_v81 (ix2 i j) k = ix2 k j := fun k => by idx2
  have el' : ∀ k : Fin 128, lidx_main_v85 (ix2 i j) k = ix2 i k := fun k => by idx2
  have er' : ∀ k : Fin 128, ridx_main_v85 (ix2 i j) k = ix2 k j := fun k => by idx2
  have ec : ∀ k : Fin 128, idx_main_v78 (idx_main_v79 (ix2 i k)) = ix1 i := fun k => by idx1
  have eb : idx_main_v82 (idx_main_v83 (ix2 i j)) = ix1 j := by idx1
  have hd : ∀ k : Fin 128, val_main_v80 (F := Ideal) x0 x4 x5 x8 x9 (lidx_main_v81 (ix2 i j) k)
      = Ideal.div (val_main_v71 (F := Ideal) x0 x4 x5 x8 x9 (ix2 i k)) (max (val_main_v75 (F := Ideal) x5 (ix1 i)) 1) := fun k => by
    rw [el, val_main_v80_apply, val_main_v79_apply, val_main_v78_apply, ec, val_main_v77_apply,
      val_main_v76_apply, val_main_cst_15_apply, one_word, Ideal.hostDivf_def, Ideal.maximumf_def]
  rw [val_main_v86_apply, val_main_v84_apply, val_main_v81_apply, val_main_v85_apply,
    val_main_v83_apply, val_main_v82_apply, eb]
  simp only [hd, er, el', er', Ideal.addf_def]

/-- Layer 2, the user-to-user branch of the user stage at entry `(i, j)`. -/
theorem sage_v112_apply (i : Fin 100000) (j : Fin 64) :
    val_main_v112 (F := Ideal) x0 x1 x2 x3 x6 x7 x8 x9 x10 x11 x12 x13 x14 x18 x19 x20 x21 x22 x23 (ix2 i j)
      = ((∑ k : Fin 128, Ideal.div (val_main_v97 (F := Ideal) x0 x1 x2 x3 x6 x7 x8 x9 x10 x11 x12 x13 x14 x18 x19 x20 (ix2 i k)) (max (val_main_v101 (F := Ideal) x3 (ix1 i)) 1) * x21 (ix2 k j))
          + x22 (ix1 j))
        + ∑ k : Fin 128, val_main_v61 (F := Ideal) x0 x1 x2 x3 x6 x7 x8 x9 x10 x11 x12 x13 x14 x18 x19 x20 (ix2 i k) * x23 (ix2 k j) := by
  have el : ∀ k : Fin 128, lidx_main_v107 (ix2 i j) k = ix2 i k := fun k => by idx2
  have er : ∀ k : Fin 128, ridx_main_v107 (ix2 i j) k = ix2 k j := fun k => by idx2
  have el' : ∀ k : Fin 128, lidx_main_v111 (ix2 i j) k = ix2 i k := fun k => by idx2
  have er' : ∀ k : Fin 128, ridx_main_v111 (ix2 i j) k = ix2 k j := fun k => by idx2
  have ec : ∀ k : Fin 128, idx_main_v104 (idx_main_v105 (ix2 i k)) = ix1 i := fun k => by idx1
  have eb : idx_main_v108 (idx_main_v109 (ix2 i j)) = ix1 j := by idx1
  have hd : ∀ k : Fin 128, val_main_v106 (F := Ideal) x0 x1 x2 x3 x6 x7 x8 x9 x10 x11 x12 x13 x14 x18 x19 x20 (lidx_main_v107 (ix2 i j) k)
      = Ideal.div (val_main_v97 (F := Ideal) x0 x1 x2 x3 x6 x7 x8 x9 x10 x11 x12 x13 x14 x18 x19 x20 (ix2 i k)) (max (val_main_v101 (F := Ideal) x3 (ix1 i)) 1) := fun k => by
    rw [el, val_main_v106_apply, val_main_v105_apply, val_main_v104_apply, ec, val_main_v103_apply,
      val_main_v102_apply, val_main_cst_21_apply, one_word, Ideal.hostDivf_def, Ideal.maximumf_def]
  rw [val_main_v112_apply, val_main_v110_apply, val_main_v107_apply, val_main_v111_apply,
    val_main_v109_apply, val_main_v108_apply, eb]
  simp only [hd, er, el', er', Ideal.addf_def]

/-- Layer 2, the app-to-user branch of the user stage at entry `(i, j)`. -/
theorem sage_v137_apply (i : Fin 100000) (j : Fin 64) :
    val_main_v137 (F := Ideal) x0 x1 x2 x3 x4 x5 x6 x7 x8 x9 x10 x11 x12 x13 x14 x15 x16 x17 x18 x19 x20 x27 x28 x29 (ix2 i j)
      = ((∑ k : Fin 128, Ideal.div (val_main_v122 (F := Ideal) x0 x1 x4 x5 x6 x7 x8 x9 x10 x11 x15 x16 x17 (ix2 i k)) (max (val_main_v126 (F := Ideal) x7 (ix1 i)) 1) * x27 (ix2 k j))
          + x28 (ix1 j))
        + ∑ k : Fin 128, val_main_v61 (F := Ideal) x0 x1 x2 x3 x6 x7 x8 x9 x10 x11 x12 x13 x14 x18 x19 x20 (ix2 i k) * x29 (ix2 k j) := by
  have el : ∀ k : Fin 128, lidx_main_v132 (ix2 i j) k = ix2 i k := fun k => by idx2
  have er : ∀ k : Fin 128, ridx_main_v132 (ix2 i j) k = ix2 k j := fun k => by idx2
  have el' : ∀ k : Fin 128, lidx_main_v136 (ix2 i j) k = ix2 i k := fun k => by idx2
  have er' : ∀ k : Fin 128, ridx_main_v136 (ix2 i j) k = ix2 k j := fun k => by idx2
  have ec : ∀ k : Fin 128, idx_main_v129 (idx_main_v130 (ix2 i k)) = ix1 i := fun k => by idx1
  have eb : idx_main_v133 (idx_main_v134 (ix2 i j)) = ix1 j := by idx1
  have hd : ∀ k : Fin 128, val_main_v131 (F := Ideal) x0 x1 x4 x5 x6 x7 x8 x9 x10 x11 x15 x16 x17 (lidx_main_v132 (ix2 i j) k)
      = Ideal.div (val_main_v122 (F := Ideal) x0 x1 x4 x5 x6 x7 x8 x9 x10 x11 x15 x16 x17 (ix2 i k)) (max (val_main_v126 (F := Ideal) x7 (ix1 i)) 1) := fun k => by
    rw [el, val_main_v131_apply, val_main_v130_apply, val_main_v129_apply, ec, val_main_v128_apply,
      val_main_v127_apply, val_main_cst_27_apply, one_word, Ideal.hostDivf_def, Ideal.maximumf_def]
  rw [val_main_v137_apply, val_main_v135_apply, val_main_v132_apply, val_main_v136_apply,
    val_main_v134_apply, val_main_v133_apply, eb]
  simp only [hd, er, el', er', Ideal.addf_def]

/-- Layer 2, the user-to-app branch (the only one) of the app stage at entry `(i, j)`. -/
theorem sage_v164_apply (i : Fin 20000) (j : Fin 64) :
    val_main_v164 (F := Ideal) x0 x1 x2 x3 x4 x5 x6 x7 x8 x9 x10 x11 x12 x13 x14 x15 x16 x17 x18 x19 x20 x24 x25 x26 (ix2 i j)
      = ((∑ k : Fin 128, Ideal.div (val_main_v149 (F := Ideal) x0 x1 x2 x3 x4 x5 x6 x7 x8 x9 x10 x11 x12 x13 x14 x18 x19 x20 (ix2 i k)) (max (val_main_v153 (F := Ideal) x5 (ix1 i)) 1) * x24 (ix2 k j))
          + x25 (ix1 j))
        + ∑ k : Fin 128, val_main_v87 (F := Ideal) x0 x1 x4 x5 x8 x9 x10 x11 x15 x16 x17 (ix2 i k) * x26 (ix2 k j) := by
  have el : ∀ k : Fin 128, lidx_main_v159 (ix2 i j) k = ix2 i k := fun k => by idx2
  have er : ∀ k : Fin 128, ridx_main_v159 (ix2 i j) k = ix2 k j := fun k => by idx2
  have el' : ∀ k : Fin 128, lidx_main_v163 (ix2 i j) k = ix2 i k := fun k => by idx2
  have er' : ∀ k : Fin 128, ridx_main_v163 (ix2 i j) k = ix2 k j := fun k => by idx2
  have ec : ∀ k : Fin 128, idx_main_v156 (idx_main_v157 (ix2 i k)) = ix1 i := fun k => by idx1
  have eb : idx_main_v160 (idx_main_v161 (ix2 i j)) = ix1 j := by idx1
  have hd : ∀ k : Fin 128, val_main_v158 (F := Ideal) x0 x1 x2 x3 x4 x5 x6 x7 x8 x9 x10 x11 x12 x13 x14 x18 x19 x20 (lidx_main_v159 (ix2 i j) k)
      = Ideal.div (val_main_v149 (F := Ideal) x0 x1 x2 x3 x4 x5 x6 x7 x8 x9 x10 x11 x12 x13 x14 x18 x19 x20 (ix2 i k)) (max (val_main_v153 (F := Ideal) x5 (ix1 i)) 1) := fun k => by
    rw [el, val_main_v158_apply, val_main_v157_apply, val_main_v156_apply, ec, val_main_v155_apply,
      val_main_v154_apply, val_main_cst_33_apply, one_word, Ideal.hostDivf_def, Ideal.maximumf_def]
  rw [val_main_v164_apply, val_main_v162_apply, val_main_v159_apply, val_main_v163_apply,
    val_main_v161_apply, val_main_v160_apply, eb]
  simp only [hd, er, el', er', Ideal.addf_def]

/-- Layer 1, the user stage at entry `(i, j)`: the two branches added, clipped below at zero. -/
theorem u1_apply (i : Fin 100000) (j : Fin 128) :
    val_main_v61 (F := Ideal) x0 x1 x2 x3 x6 x7 x8 x9 x10 x11 x12 x13 x14 x18 x19 x20 (ix2 i j)
      = max ((((∑ k : Fin 128, Ideal.div (val_main_v19 (F := Ideal) x0 x2 x3 x8 x9 (ix2 i k)) (max (val_main_v23 (F := Ideal) x3 (ix1 i)) 1) * x12 (ix2 k j))
          + x13 (ix1 j))
        + ∑ k : Fin 128, val_main_v4 (F := Ideal) x0 x8 x9 (ix2 i k) * x14 (ix2 k j))
        + (((∑ k : Fin 128, Ideal.div (val_main_v44 (F := Ideal) x1 x6 x7 x10 x11 (ix2 i k)) (max (val_main_v48 (F := Ideal) x7 (ix1 i)) 1) * x18 (ix2 k j))
          + x19 (ix1 j))
        + ∑ k : Fin 128, val_main_v4 (F := Ideal) x0 x8 x9 (ix2 i k) * x20 (ix2 k j))) 0 := by
  rw [val_main_v61_apply, val_main_v60_apply, sage_v34_apply, sage_v59_apply,
    val_main_call2_v0_apply, val_main_call2_cst_apply, zero_word]
  simp only [Ideal.maximumf_def, Ideal.addf_def]

/-- Layer 1, the app stage at entry `(i, j)`: its branch clipped below at zero. -/
theorem a1_apply (i : Fin 20000) (j : Fin 128) :
    val_main_v87 (F := Ideal) x0 x1 x4 x5 x8 x9 x10 x11 x15 x16 x17 (ix2 i j)
      = max (((∑ k : Fin 128, Ideal.div (val_main_v71 (F := Ideal) x0 x4 x5 x8 x9 (ix2 i k)) (max (val_main_v75 (F := Ideal) x5 (ix1 i)) 1) * x15 (ix2 k j))
          + x16 (ix1 j))
        + ∑ k : Fin 128, val_main_v9 (F := Ideal) x1 x10 x11 (ix2 i k) * x17 (ix2 k j)) 0 := by
  rw [val_main_v87_apply, sage_v86_apply, val_main_call3_v0_apply, val_main_call3_cst_apply, zero_word]
  simp only [Ideal.maximumf_def]

/-- Layer 2, the user stage (the first output) at entry `(i, j)`. -/
theorem u2_apply (i : Fin 100000) (j : Fin 64) :
    val_main_v139 (F := Ideal) x0 x1 x2 x3 x4 x5 x6 x7 x8 x9 x10 x11 x12 x13 x14 x15 x16 x17 x18 x19 x20 x21 x22 x23 x27 x28 x29 (ix2 i j)
      = max ((((∑ k : Fin 128, Ideal.div (val_main_v97 (F := Ideal) x0 x1 x2 x3 x6 x7 x8 x9 x10 x11 x12 x13 x14 x18 x19 x20 (ix2 i k)) (max (val_main_v101 (F := Ideal) x3 (ix1 i)) 1) * x21 (ix2 k j))
          + x22 (ix1 j))
        + ∑ k : Fin 128, val_main_v61 (F := Ideal) x0 x1 x2 x3 x6 x7 x8 x9 x10 x11 x12 x13 x14 x18 x19 x20 (ix2 i k) * x23 (ix2 k j))
        + (((∑ k : Fin 128, Ideal.div (val_main_v122 (F := Ideal) x0 x1 x4 x5 x6 x7 x8 x9 x10 x11 x15 x16 x17 (ix2 i k)) (max (val_main_v126 (F := Ideal) x7 (ix1 i)) 1) * x27 (ix2 k j))
          + x28 (ix1 j))
        + ∑ k : Fin 128, val_main_v61 (F := Ideal) x0 x1 x2 x3 x6 x7 x8 x9 x10 x11 x12 x13 x14 x18 x19 x20 (ix2 i k) * x29 (ix2 k j))) 0 := by
  rw [val_main_v139_apply, val_main_v138_apply, sage_v112_apply, sage_v137_apply,
    val_main_call4_v0_apply, val_main_call4_cst_apply, zero_word]
  simp only [Ideal.maximumf_def, Ideal.addf_def]

/-- Layer 2, the app stage (the second output) at entry `(i, j)`. -/
theorem a2_apply (i : Fin 20000) (j : Fin 64) :
    val_main_v165 (F := Ideal) x0 x1 x2 x3 x4 x5 x6 x7 x8 x9 x10 x11 x12 x13 x14 x15 x16 x17 x18 x19 x20 x24 x25 x26 (ix2 i j)
      = max (((∑ k : Fin 128, Ideal.div (val_main_v149 (F := Ideal) x0 x1 x2 x3 x4 x5 x6 x7 x8 x9 x10 x11 x12 x13 x14 x18 x19 x20 (ix2 i k)) (max (val_main_v153 (F := Ideal) x5 (ix1 i)) 1) * x24 (ix2 k j))
          + x25 (ix1 j))
        + ∑ k : Fin 128, val_main_v87 (F := Ideal) x0 x1 x4 x5 x8 x9 x10 x11 x15 x16 x17 (ix2 i k) * x26 (ix2 k j)) 0 := by
  rw [val_main_v165_apply, sage_v164_apply, val_main_call5_v0_apply, val_main_call5_cst_apply, zero_word]
  simp only [Ideal.maximumf_def]

end Cert.ReferenceIdeal.RefRead

end
-- ==== Proof.RefValue.lean ====
/-
  The reference program's arrays hold the real network's arrays.

  Stage by stage: the two embeddings, the three edge sums of each layer, and the four layer outputs, each read at an
  entry, are the coercions of the real network's values — given that the thirty arguments hold the network's
  parameters (`Reads`), with the in-degree counts the program computes kept as they are.
-/
import proofs.«119514_j10857677324737_2_alg».proof.Proof.RefRead
import proofs.«119514_j10857677324737_2_alg».proof.Proof.RefRead2
import proofs.«119514_j10857677324737_2_alg».proof.Proof.Stages

noncomputable section

open scoped BigOperators

namespace Cert.ReferenceIdeal.RefValue

open Cert.ReferenceIdeal Cert.ReferenceIdeal.Read Cert.ReferenceIdeal.RefRead Cert.Sage Cert.EdgeSum
open Idealize.ShloMosaic Idealize.ShloMosaic.ValueIdx

variable (x0 : (⟨S100000x128, .f32⟩ : BufTy).Contents (Elt Ideal)) (x1 : (⟨S20000x384, .f32⟩ : BufTy).Contents (Elt Ideal)) (x2 : (⟨S1600000, .i32⟩ : BufTy).Contents (Elt Ideal)) (x3 : (⟨S1600000, .i32⟩ : BufTy).Contents (Elt Ideal)) (x4 : (⟨S2000000, .i32⟩ : BufTy).Contents (Elt Ideal)) (x5 : (⟨S2000000, .i32⟩ : BufTy).Contents (Elt Ideal)) (x6 : (⟨S2000000, .i32⟩ : BufTy).Contents (Elt Ideal)) (x7 : (⟨S2000000, .i32⟩ : BufTy).Contents (Elt Ideal)) (x8 : (⟨S128x128, .f32⟩ : BufTy).Contents (Elt Ideal)) (x9 : (⟨S128, .f32⟩ : BufTy).Contents (Elt Ideal)) (x10 : (⟨S384x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128x128, .f32⟩ : BufTy).Contents (Elt Ideal)) (x16 : (⟨S128, .f32⟩ : BufTy).Contents (Elt Ideal)) (x17 : (⟨S128x128, .f32⟩ : BufTy).Contents (Elt Ideal)) (x18 : (⟨S128x128, .f32⟩ : BufTy).Contents (Elt Ideal)) (x19 : (⟨S128, .f32⟩ : BufTy).Contents (Elt Ideal)) (x20 : (⟨S128x128, .f32⟩ : BufTy).Contents (Elt Ideal)) (x21 : (⟨S128x64, .f32⟩ : BufTy).Contents (Elt Ideal)) (x22 : (⟨S64, .f32⟩ : BufTy).Contents (Elt Ideal)) (x23 : (⟨S128x64, .f32⟩ : BufTy).Contents (Elt Ideal)) (x24 : (⟨S128x64, .f32⟩ : BufTy).Contents (Elt Ideal)) (x25 : (⟨S64, .f32⟩ : BufTy).Contents (Elt Ideal)) (x26 : (⟨S128x64, .f32⟩ : BufTy).Contents (Elt Ideal)) (x27 : (⟨S128x64, .f32⟩ : BufTy).Contents (Elt Ideal)) (x28 : (⟨S64, .f32⟩ : BufTy).Contents (Elt Ideal)) (x29 : (⟨S128x64, .f32⟩ : BufTy).Contents (Elt Ideal))
variable (n : Net)
  (hn : n.Reads x0 x1 x2 x3 x4 x5 x6 x7 x8 x9 x10 x11 x12 x13 x14 x15 x16 x17 x18 x19 x20 x21 x22 x23 x24 x25 x26 x27 x28 x29 (val_main_v23 (F := Ideal) x3) (val_main_v48 (F := Ideal) x7) (val_main_v75 (F := Ideal) x5))

include hn

theorem ref_u (i : Fin 100000) (j : Fin 128) : val_main_v4 (F := Ideal) x0 x8 x9 (ix2 i j) = ((n.u i j : ℝ) : EReal) := by
  rw [u_apply]
  exact dense_read (fun k => x0 (ix2 i k)) (fun k => x8 (ix2 k j)) (x9 (ix1 j)) (fun k => n.xu i k) (fun k => n.Wu k j) (n.bu j)
    (fun k => hn.h0 i k) (fun k => hn.h8 k j) (hn.h9 j)

theorem ref_a (i : Fin 20000) (j : Fin 128) : val_main_v9 (F := Ideal) x1 x10 x11 (ix2 i j) = ((n.a i j : ℝ) : EReal) := by
  rw [a_apply]
  exact dense_read (fun k => x1 (ix2 i k)) (fun k => x10 (ix2 k j)) (x11 (ix1 j)) (fun k => n.xa i k) (fun k => n.Wa k j) (n.ba j)
    (fun k => hn.h1 i k) (fun k => hn.h10 k j) (hn.h11 j)

theorem ref_s19 (i : Fin 100000) (k : Fin 128) : val_main_v19 (F := Ideal) x0 x2 x3 x8 x9 (ix2 i k) = ((Net.esum n.sff n.dff n.u i k : ℝ) : EReal) := by
  rw [agg_v19_apply]
  exact esum_read _ _ _ n.u (fun r q => ref_u x0 x1 x2 x3 x4 x5 x6 x7 x8 x9 x10 x11 x12 x13 x14 x15 x16 x17 x18 x19 x20 x21 x22 x23 x24 x25 x26 x27 x28 x29 n hn r q) x2 x3 n.sff n.dff hn.sff hn.dff i k

theorem ref_s44 (i : Fin 100000) (k : Fin 128) : val_main_v44 (F := Ideal) x1 x6 x7 x10 x11 (ix2 i k) = ((Net.esum n.srb n.drb n.a i k : ℝ) : EReal) := by
  rw [agg_v44_apply]
  exact esum_read _ _ _ n.a (fun r q => ref_a x0 x1 x2 x3 x4 x5 x6 x7 x8 x9 x10 x11 x12 x13 x14 x15 x16 x17 x18 x19 x20 x21 x22 x23 x24 x25 x26 x27 x28 x29 n hn r q) x6 x7 n.srb n.drb hn.srb hn.drb i k

theorem ref_s71 (i : Fin 20000) (k : Fin 128) : val_main_v71 (F := Ideal) x0 x4 x5 x8 x9 (ix2 i k) = ((Net.esum n.srev n.drev n.u i k : ℝ) : EReal) := by
  rw [agg_v71_apply]
  exact esum_read _ _ _ n.u (fun r q => ref_u x0 x1 x2 x3 x4 x5 x6 x7 x8 x9 x10 x11 x12 x13 x14 x15 x16 x17 x18 x19 x20 x21 x22 x23 x24 x25 x26 x27 x28 x29 n hn r q) x4 x5 n.srev n.drev hn.srev hn.drev i k

theorem ref_u1 (i : Fin 100000) (j : Fin 128) : val_main_v61 (F := Ideal) x0 x1 x2 x3 x6 x7 x8 x9 x10 x11 x12 x13 x14 x18 x19 x20 (ix2 i j) = ((n.u1 i j : ℝ) : EReal) := by
  rw [u1_apply]
  exact two_relations_quotient (fun k => (val_main_v19 (F := Ideal) x0 x2 x3 x8 x9) (ix2 i k)) (fun k => (val_main_v44 (F := Ideal) x1 x6 x7 x10 x11) (ix2 i k)) (fun k => (val_main_v4 (F := Ideal) x0 x8 x9) (ix2 i k))
    (fun k => x12 (ix2 k j)) (fun k => x18 (ix2 k j)) (fun k => x14 (ix2 k j)) (fun k => x20 (ix2 k j))
    (val_main_v23 (F := Ideal) x3 (ix1 i)) (val_main_v48 (F := Ideal) x7 (ix1 i)) (x13 (ix1 j)) (x19 (ix1 j))
    (fun k => Net.esum n.sff n.dff n.u i k) (fun k => Net.esum n.srb n.drb n.a i k) (fun k => n.u i k)
    (fun k => n.ffWl k j) (fun k => n.rbWl k j) (fun k => n.ffWr k j) (fun k => n.rbWr k j) (n.cff i) (n.crb i) (n.ffbl j) (n.rbbl j)
    (fun k => ref_s19 x0 x1 x2 x3 x4 x5 x6 x7 x8 x9 x10 x11 x12 x13 x14 x15 x16 x17 x18 x19 x20 x21 x22 x23 x24 x25 x26 x27 x28 x29 n hn i k) (fun k => ref_s44 x0 x1 x2 x3 x4 x5 x6 x7 x8 x9 x10 x11 x12 x13 x14 x15 x16 x17 x18 x19 x20 x21 x22 x23 x24 x25 x26 x27 x28 x29 n hn i k) (fun k => ref_u x0 x1 x2 x3 x4 x5 x6 x7 x8 x9 x10 x11 x12 x13 x14 x15 x16 x17 x18 x19 x20 x21 x22 x23 x24 x25 x26 x27 x28 x29 n hn i k)
    (fun k => hn.h12 k j) (fun k => hn.h18 k j) (fun k => hn.h14 k j) (fun k => hn.h20 k j) (hn.cff i) (hn.crb i) (hn.h13 j) (hn.h19 j)

theorem ref_a1 (i : Fin 20000) (j : Fin 128) : val_main_v87 (F := Ideal) x0 x1 x4 x5 x8 x9 x10 x11 x15 x16 x17 (ix2 i j) = ((n.a1 i j : ℝ) : EReal) := by
  rw [a1_apply]
  exact one_relation_quotient (fun k => (val_main_v71 (F := Ideal) x0 x4 x5 x8 x9) (ix2 i k)) (fun k => (val_main_v9 (F := Ideal) x1 x10 x11) (ix2 i k)) (fun k => x15 (ix2 k j)) (fun k => x17 (ix2 k j))
    (val_main_v75 (F := Ideal) x5 (ix1 i)) (x16 (ix1 j)) (fun k => Net.esum n.srev n.drev n.u i k) (fun k => n.a i k) (fun k => n.revWl k j) (fun k => n.revWr k j) (n.crev i) (n.revbl j)
    (fun k => ref_s71 x0 x1 x2 x3 x4 x5 x6 x7 x8 x9 x10 x11 x12 x13 x14 x15 x16 x17 x18 x19 x20 x21 x22 x23 x24 x25 x26 x27 x28 x29 n hn i k) (fun k => ref_a x0 x1 x2 x3 x4 x5 x6 x7 x8 x9 x10 x11 x12 x13 x14 x15 x16 x17 x18 x19 x20 x21 x22 x23 x24 x25 x26 x27 x28 x29 n hn i k) (fun k => hn.h15 k j) (fun k => hn.h17 k j) (hn.crev i) (hn.h16 j)

theorem ref_s97 (i : Fin 100000) (k : Fin 128) : val_main_v97 (F := Ideal) x0 x1 x2 x3 x6 x7 x8 x9 x10 x11 x12 x13 x14 x18 x19 x20 (ix2 i k) = ((Net.esum n.sff n.dff n.u1 i k : ℝ) : EReal) := by
  rw [agg_v97_apply]
  exact esum_read _ _ _ n.u1 (fun r q => ref_u1 x0 x1 x2 x3 x4 x5 x6 x7 x8 x9 x10 x11 x12 x13 x14 x15 x16 x17 x18 x19 x20 x21 x22 x23 x24 x25 x26 x27 x28 x29 n hn r q) x2 x3 n.sff n.dff hn.sff hn.dff i k

theorem ref_s122 (i : Fin 100000) (k : Fin 128) : val_main_v122 (F := Ideal) x0 x1 x4 x5 x6 x7 x8 x9 x10 x11 x15 x16 x17 (ix2 i k) = ((Net.esum n.srb n.drb n.a1 i k : ℝ) : EReal) := by
  rw [agg_v122_apply]
  exact esum_read _ _ _ n.a1 (fun r q => ref_a1 x0 x1 x2 x3 x4 x5 x6 x7 x8 x9 x10 x11 x12 x13 x14 x15 x16 x17 x18 x19 x20 x21 x22 x23 x24 x25 x26 x27 x28 x29 n hn r q) x6 x7 n.srb n.drb hn.srb hn.drb i k

theorem ref_s149 (i : Fin 20000) (k : Fin 128) : val_main_v149 (F := Ideal) x0 x1 x2 x3 x4 x5 x6 x7 x8 x9 x10 x11 x12 x13 x14 x18 x19 x20 (ix2 i k) = ((Net.esum n.srev n.drev n.u1 i k : ℝ) : EReal) := by
  rw [agg_v149_apply]
  exact esum_read _ _ _ n.u1 (fun r q => ref_u1 x0 x1 x2 x3 x4 x5 x6 x7 x8 x9 x10 x11 x12 x13 x14 x15 x16 x17 x18 x19 x20 x21 x22 x23 x24 x25 x26 x27 x28 x29 n hn r q) x4 x5 n.srev n.drev hn.srev hn.drev i k

/-- The first result: the second layer's user features. -/
theorem ref_u2 (i : Fin 100000) (j : Fin 64) : val_main_v139 (F := Ideal) x0 x1 x2 x3 x4 x5 x6 x7 x8 x9 x10 x11 x12 x13 x14 x15 x16 x17 x18 x19 x20 x21 x22 x23 x27 x28 x29 (ix2 i j) = ((n.u2 i j : ℝ) : EReal) := by
  rw [u2_apply]
  exact two_relations_quotient (fun k => (val_main_v97 (F := Ideal) x0 x1 x2 x3 x6 x7 x8 x9 x10 x11 x12 x13 x14 x18 x19 x20) (ix2 i k)) (fun k => (val_main_v122 (F := Ideal) x0 x1 x4 x5 x6 x7 x8 x9 x10 x11 x15 x16 x17) (ix2 i k)) (fun k => (val_main_v61 (F := Ideal) x0 x1 x2 x3 x6 x7 x8 x9 x10 x11 x12 x13 x14 x18 x19 x20) (ix2 i k))
    (fun k => x21 (ix2 k j)) (fun k => x27 (ix2 k j)) (fun k => x23 (ix2 k j)) (fun k => x29 (ix2 k j))
    (val_main_v101 (F := Ideal) x3 (ix1 i)) (val_main_v126 (F := Ideal) x7 (ix1 i)) (x22 (ix1 j)) (x28 (ix1 j))
    (fun k => Net.esum n.sff n.dff n.u1 i k) (fun k => Net.esum n.srb n.drb n.a1 i k) (fun k => n.u1 i k)
    (fun k => n.ffWl2 k j) (fun k => n.rbWl2 k j) (fun k => n.ffWr2 k j) (fun k => n.rbWr2 k j) (n.cff i) (n.crb i) (n.ffbl2 j) (n.rbbl2 j)
    (fun k => ref_s97 x0 x1 x2 x3 x4 x5 x6 x7 x8 x9 x10 x11 x12 x13 x14 x15 x16 x17 x18 x19 x20 x21 x22 x23 x24 x25 x26 x27 x28 x29 n hn i k) (fun k => ref_s122 x0 x1 x2 x3 x4 x5 x6 x7 x8 x9 x10 x11 x12 x13 x14 x15 x16 x17 x18 x19 x20 x21 x22 x23 x24 x25 x26 x27 x28 x29 n hn i k) (fun k => ref_u1 x0 x1 x2 x3 x4 x5 x6 x7 x8 x9 x10 x11 x12 x13 x14 x15 x16 x17 x18 x19 x20 x21 x22 x23 x24 x25 x26 x27 x28 x29 n hn i k)
    (fun k => hn.h21 k j) (fun k => hn.h27 k j) (fun k => hn.h23 k j) (fun k => hn.h29 k j) (hn.cff i) (hn.crb i) (hn.h22 j) (hn.h28 j)

/-- The second result: the second layer's app features. -/
theorem ref_a2 (i : Fin 20000) (j : Fin 64) : val_main_v165 (F := Ideal) x0 x1 x2 x3 x4 x5 x6 x7 x8 x9 x10 x11 x12 x13 x14 x15 x16 x17 x18 x19 x20 x24 x25 x26 (ix2 i j) = ((n.a2 i j : ℝ) : EReal) := by
  rw [a2_apply]
  exact one_relation_quotient (fun k => (val_main_v149 (F := Ideal) x0 x1 x2 x3 x4 x5 x6 x7 x8 x9 x10 x11 x12 x13 x14 x18 x19 x20) (ix2 i k)) (fun k => (val_main_v87 (F := Ideal) x0 x1 x4 x5 x8 x9 x10 x11 x15 x16 x17) (ix2 i k)) (fun k => x24 (ix2 k j)) (fun k => x26 (ix2 k j))
    (val_main_v153 (F := Ideal) x5 (ix1 i)) (x25 (ix1 j)) (fun k => Net.esum n.srev n.drev n.u1 i k) (fun k => n.a1 i k) (fun k => n.revWl2 k j) (fun k => n.revWr2 k j) (n.crev i) (n.revbl2 j)
    (fun k => ref_s149 x0 x1 x2 x3 x4 x5 x6 x7 x8 x9 x10 x11 x12 x13 x14 x15 x16 x17 x18 x19 x20 x21 x22 x23 x24 x25 x26 x27 x28 x29 n hn i k) (fun k => ref_a1 x0 x1 x2 x3 x4 x5 x6 x7 x8 x9 x10 x11 x12 x13 x14 x15 x16 x17 x18 x19 x20 x21 x22 x23 x24 x25 x26 x27 x28 x29 n hn i k) (fun k => hn.h24 k j) (fun k => hn.h26 k j) (hn.crev i) (hn.h25 j)

end Cert.ReferenceIdeal.RefValue

end
-- ==== Proof.LibFiniteEntry.lean ====
/-
  The "every input is finite" precondition, read at one entry, on the extended reals.

  Such a precondition tests each float argument `x` by `all (|x| < +inf)`: elementwise `|x[i]| < inf` against the f32
  pattern `0x7F800000`, reduced by `and` to one bit. There `|a| = max a (-a)`, the pattern is `⊤`, and `max a (-a) < ⊤`
  excludes both `a = ⊤` and `a = ⊥`: the entry is a real number (`entry_real`, for an array of any shape, from its
  elementwise test being 1 at that entry; the reduction's bit gives that through `Host.reduce_andi_all`, which asks for
  the `Subsingleton` instance below). Also here: the f32 pattern of 1.0 is the real number 1 (`ofBits_one_real`).
-/
import Idealize.ShloMosaic.PureOps.Ideal
import Idealize.ShloMosaic.Lib.ReduceAll

noncomputable section

namespace Cert.Lib.FiniteEntry

open Idealize.ShloMosaic

/-- The scalar shape has one index. -/
instance : Subsingleton (⟨0, ![]⟩ : Shape).Idx := ⟨fun a b => funext fun d => d.elim0⟩

/-- The f32 pattern `0x7F800000` is `+inf`. -/
theorem ofBits_inf : Ideal.ofBits .f32 0x7F800000#32 = ⊤ := by
  simp [Ideal.ofBits, Ideal.ieee]

/-- The f32 pattern `0x3F800000` is the real number 1. -/
theorem ofBits_one_real : ∃ r : ℝ, Ideal.ofBits .f32 0x3F800000#32 = (r : EReal) :=
  ⟨1, by simp [Ideal.ofBits, Ideal.ieee, -EReal.coe_mul]; norm_num⟩

/-- An extended real whose absolute value is below `+inf` is a real number. -/
theorem real_of_abs_lt_inf (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | coe r => exact ⟨r, rfl⟩
  | top => simp [Ideal.cmp] at h

/-- One argument's elementwise test `|x| < inf`, 1 at entry `i`: that entry is a real number. -/
theorem entry_real {s : Shape} (hb : (⟨0, ![]⟩ : Shape).BroadcastsInDim s (![] : Fin 0 → Fin s.rank)) (x : FVec Ideal s .f32)
    (i : s.Idx)
    (h : cmpf .olt (Host.absf x) (broadcastInDim s ![] hb (constant (F := Ideal) ⟨0, ![]⟩ .f32 0x7F800000#32)) i = 1#1) :
    ∃ r : ℝ, x i = (r : EReal) :=
  real_of_abs_lt_inf (x i) h

end Cert.Lib.FiniteEntry

end
-- ==== Proof.Finite.lean ====
/-
  The precondition "every float input is finite", opened.

  The predicate tests each of the twenty-four float arguments by `all (|x| < +inf)` and joins the twenty-four bits by
  `and`. If the joined bit is one then every bit is one, every elementwise test is one at every entry, and an
  extended real whose absolute value is below `+inf` is a real number: each float argument holds real numbers only.
-/
import proofs.«119514_j10857677324737_2_alg».proof.Pre_finite_inputs
import proofs.«119514_j10857677324737_2_alg».proof.Proof.LibFiniteEntry
import Idealize.ShloMosaic.Lib.ValueIdx

noncomputable section

namespace Cert.Finite

open Idealize.ShloMosaic Cert.Pre_finite_inputs Cert.Pre_finite_inputs.Facts Cert.Lib.FiniteEntry

variable [Cert.Pre_finite_inputs.Facts]

/-- The conjunction of two one-bit scalars is one exactly when both are. -/
theorem andi_ix0 (x y : IVec S_ 1) :
    andi x y ValueIdx.ix0 = 1#1 ↔ x ValueIdx.ix0 = 1#1 ∧ y ValueIdx.ix0 = 1#1 := IntOp.andi_eq_one

/-- One argument's bit: the reduction of its elementwise test is one, so every entry is a real number. -/
theorem real_of_bit {s : Shape} {axes : List (Fin s.rank)} (hb : S_.BroadcastsInDim s (![] : Fin 0 → Fin s.rank)) (hr : s.ReducesTo axes S_)
    (x : FVec Ideal s .f32)
    (h : Host.reduce IntOp.andi (cmpf .olt (Host.absf x) (broadcastInDim s ![] hb (constant (F := Ideal) S_ .f32 0x7F800000#32)))
        (constantI S_ 1 1#1) hr h_S_ ValueIdx.ix0 = 1#1) (i : s.Idx) : ∃ r : ℝ, x i = (r : EReal) :=
  entry_real hb x i (Host.reduce_andi_all _ _ hr h_S_ ValueIdx.ix0 h i)

/-- Under the precondition every float argument holds real numbers. -/
theorem real_of_pre (a0 : FVec Ideal S100000x128 .f32) (a1 : FVec Ideal S20000x384 .f32) (a2 : IVec S1600000 32) (a3 : IVec S1600000 32) (a4 : IVec S2000000 32) (a5 : IVec S2000000 32) (a6 : IVec S2000000 32) (a7 : IVec S2000000 32) (a8 : FVec Ideal S128x128 .f32) (a9 : FVec Ideal S128 .f32) (a10 : FVec Ideal S384x128 .f32) (a11 : FVec Ideal S128 .f32) (a12 : FVec Ideal S128x128 .f32) (a13 : FVec Ideal S128 .f32) (a14 : FVec Ideal S128x128 .f32) (a15 : FVec Ideal S128x128 .f32) (a16 : FVec Ideal S128 .f32) (a17 : FVec Ideal S128x128 .f32) (a18 : FVec Ideal S128x128 .f32) (a19 : FVec Ideal S128 .f32) (a20 : FVec Ideal S128x128 .f32) (a21 : FVec Ideal S128x64 .f32) (a22 : FVec Ideal S64 .f32) (a23 : FVec Ideal S128x64 .f32) (a24 : FVec Ideal S128x64 .f32) (a25 : FVec Ideal S64 .f32) (a26 : FVec Ideal S128x64 .f32) (a27 : FVec Ideal S128x64 .f32) (a28 : FVec Ideal S64 .f32) (a29 : FVec Ideal S128x64 .f32)
    (h : Cert.Pre_finite_inputs.fn (F := Ideal) a0 a1 a2 a3 a4 a5 a6 a7 a8 a9 a10 a11 a12 a13 a14 a15 a16 a17 a18 a19 a20 a21 a22 a23 a24 a25 a26 a27 a28 a29 = fun _ => 1#1) :
    (∀ i, ∃ r : ℝ, a0 i = (r : EReal))
    ∧ (∀ i, ∃ r : ℝ, a1 i = (r : EReal))
    ∧ (∀ i, ∃ r : ℝ, a8 i = (r : EReal))
    ∧ (∀ i, ∃ r : ℝ, a9 i = (r : EReal))
    ∧ (∀ i, ∃ r : ℝ, a10 i = (r : EReal))
    ∧ (∀ i, ∃ r : ℝ, a11 i = (r : EReal))
    ∧ (∀ i, ∃ r : ℝ, a12 i = (r : EReal))
    ∧ (∀ i, ∃ r : ℝ, a13 i = (r : EReal))
    ∧ (∀ i, ∃ r : ℝ, a14 i = (r : EReal))
    ∧ (∀ i, ∃ r : ℝ, a15 i = (r : EReal))
    ∧ (∀ i, ∃ r : ℝ, a16 i = (r : EReal))
    ∧ (∀ i, ∃ r : ℝ, a17 i = (r : EReal))
    ∧ (∀ i, ∃ r : ℝ, a18 i = (r : EReal))
    ∧ (∀ i, ∃ r : ℝ, a19 i = (r : EReal))
    ∧ (∀ i, ∃ r : ℝ, a20 i = (r : EReal))
    ∧ (∀ i, ∃ r : ℝ, a21 i = (r : EReal))
    ∧ (∀ i, ∃ r : ℝ, a22 i = (r : EReal))
    ∧ (∀ i, ∃ r : ℝ, a23 i = (r : EReal))
    ∧ (∀ i, ∃ r : ℝ, a24 i = (r : EReal))
    ∧ (∀ i, ∃ r : ℝ, a25 i = (r : EReal))
    ∧ (∀ i, ∃ r : ℝ, a26 i = (r : EReal))
    ∧ (∀ i, ∃ r : ℝ, a27 i = (r : EReal))
    ∧ (∀ i, ∃ r : ℝ, a28 i = (r : EReal))
    ∧ (∀ i, ∃ r : ℝ, a29 i = (r : EReal)) := by
  have h1 := congrFun h ValueIdx.ix0
  dsimp only [Cert.Pre_finite_inputs.fn, fn_part1, fn_part2, fn_part3, fn_part4, fn_part5, fn_part6] at h1
  simp only [andi_ix0] at h1
  obtain ⟨⟨⟨⟨⟨⟨⟨⟨⟨⟨⟨⟨⟨⟨⟨⟨⟨⟨⟨⟨⟨⟨⟨hb0, hb1⟩, hb8⟩, hb9⟩, hb10⟩, hb11⟩, hb12⟩, hb13⟩, hb14⟩, hb15⟩, hb16⟩, hb17⟩, hb18⟩, hb19⟩, hb20⟩, hb21⟩, hb22⟩, hb23⟩, hb24⟩, hb25⟩, hb26⟩, hb27⟩, hb28⟩, hb29⟩ := h1
  exact ⟨real_of_bit _ _ a0 hb0,
    real_of_bit _ _ a1 hb1,
    real_of_bit _ _ a8 hb8,
    real_of_bit _ _ a9 hb9,
    real_of_bit _ _ a10 hb10,
    real_of_bit _ _ a11 hb11,
    real_of_bit _ _ a12 hb12,
    real_of_bit _ _ a13 hb13,
    real_of_bit _ _ a14 hb14,
    real_of_bit _ _ a15 hb15,
    real_of_bit _ _ a16 hb16,
    real_of_bit _ _ a17 hb17,
    real_of_bit _ _ a18 hb18,
    real_of_bit _ _ a19 hb19,
    real_of_bit _ _ a20 hb20,
    real_of_bit _ _ a21 hb21,
    real_of_bit _ _ a22 hb22,
    real_of_bit _ _ a23 hb23,
    real_of_bit _ _ a24 hb24,
    real_of_bit _ _ a25 hb25,
    real_of_bit _ _ a26 hb26,
    real_of_bit _ _ a27 hb27,
    real_of_bit _ _ a28 hb28,
    real_of_bit _ _ a29 hb29⟩

end Cert.Finite

end
-- ==== Proof.lean ====
/-
  A two-layer mean-aggregating network on a two-type graph: a kernel program of eight fused dense stages among host
  gathers and scatter-adds, against a reference written with plain array operations.

  The three frames: the kernel programs' are the generated launch proofs over their eight regions; the reference has
  no kernel, and its frame is its generated run with the results dropped. The idealization rewrote nothing, so there is
  nothing to preserve.

  The value claim. Both programs compute, per destination node, means of neighbours' features over three relations,
  dense maps and rectifiers, twice. The kernel program multiplies an edge sum by a reciprocal in-degree where the
  reference divides; it adds the two relations' own-feature weight matrices and biases before one product where the
  reference forms two; and in the second layer it projects the features to the output width BEFORE gathering and
  summing over the edges, where the reference projects the mean afterwards. On the extended reals distributivity and
  the exchange of the two sums fail at the infinities, so the precondition is used: every float argument holds real
  numbers, hence so does every intermediate array, and both programs' results are the coercions of one real network's
  outputs (the arguments agreeing, the in-degree counts being the same term of the same destinations).
-/
import proofs.«119514_j10857677324737_2_alg».proof.Defs
import proofs.«119514_j10857677324737_2_alg».proof.Proof.Gen.Kernel
import proofs.«119514_j10857677324737_2_alg».proof.Proof.Gen.Kernel.Frame
import proofs.«119514_j10857677324737_2_alg».proof.Proof.Gen.KernelIdeal
import proofs.«119514_j10857677324737_2_alg».proof.Proof.Gen.KernelIdeal.Frame
import proofs.«119514_j10857677324737_2_alg».proof.Proof.Gen.ReferenceIdeal
import proofs.«119514_j10857677324737_2_alg».proof.Proof.Gen.Pre_finite_inputs
import proofs.«119514_j10857677324737_2_alg».proof.Proof.Gen.ReferenceIdeal.Run
import proofs.«119514_j10857677324737_2_alg».proof.Proof.Gen.ReferenceIdeal.Read
import proofs.«119514_j10857677324737_2_alg».proof.Proof.KernelRun
import proofs.«119514_j10857677324737_2_alg».proof.Proof.KernelValue
import proofs.«119514_j10857677324737_2_alg».proof.Proof.RefValue
import proofs.«119514_j10857677324737_2_alg».proof.Proof.Finite
import Idealize.ShloMosaic.Adequacy
import Idealize.ShloMosaic.Init

noncomputable section

namespace Cert.Proof

open Idealize.ShloMosaic Idealize.ShloMosaic.ValueIdx Idealize.SL.Sem Cert.Sage

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

section Value

open Cert.KernelIdeal.Entry

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- The real network the kernel program's arguments hold. -/
def net : Net :=
  Net.ofArrays (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c) (A24 m c) (A25 m c) (A26 m c) (A27 m c) (A28 m c) (A29 m c) (cntFF (A3 m c)) (cntRB (A7 m c)) (cntREV (A5 m c))

end Value

theorem algebraic : Cert.algebraic_KernelIdeal_ReferenceIdeal := by
  intro m g m' g' hpre hagree
  refine ⟨fun c => Cert.KernelIdeal.Gen.W15 m g c (Proc.devRef .tc Cert.KernelIdeal.main_v104),
    fun c => Cert.KernelIdeal.Gen.W15 m g c (Proc.devRef .tc Cert.KernelIdeal.main_v106),
    Cert.KernelIdeal.ValueRun.run (F := Ideal) m g, ?_⟩
  refine (θ_run Cert.ReferenceIdeal.defs _ _).mono (fun r h c => ?_) (Cert.ReferenceIdeal.Value.run (F := Ideal) m' g')
  obtain ⟨h139, h165, hargs⟩ := h c
  obtain ⟨e0, e1, e2, e3, e4, e5, e6, e7, e8, e9, e10, e11, e12, e13, e14, e15, e16, e17, e18, e19, e20, e21, e22, e23, e24, e25, e26, e27, e28, e29⟩ := hagree c
  obtain ⟨f0, f1, f8, f9, f10, f11, f12, f13, f14, f15, f16, f17, f18, f19, f20, f21, f22, f23, f24, f25, f26, f27, f28, f29⟩ := Cert.Finite.real_of_pre _ _ _ _ _ _ _ _ _ _ _ _ _ _ _ _ _ _ _ _ _ _ _ _ _ _ _ _ _ _ (hpre c)
  have hK : (net m c).Reads (Cert.KernelIdeal.Entry.A0 m c) (Cert.KernelIdeal.Entry.A1 m c) (Cert.KernelIdeal.Entry.A2 m c) (Cert.KernelIdeal.Entry.A3 m c) (Cert.KernelIdeal.Entry.A4 m c) (Cert.KernelIdeal.Entry.A5 m c) (Cert.KernelIdeal.Entry.A6 m c) (Cert.KernelIdeal.Entry.A7 m c) (Cert.KernelIdeal.Entry.A8 m c) (Cert.KernelIdeal.Entry.A9 m c) (Cert.KernelIdeal.Entry.A10 m c) (Cert.KernelIdeal.Entry.A11 m c) (Cert.KernelIdeal.Entry.A12 m c) (Cert.KernelIdeal.Entry.A13 m c) (Cert.KernelIdeal.Entry.A14 m c) (Cert.KernelIdeal.Entry.A15 m c) (Cert.KernelIdeal.Entry.A16 m c) (Cert.KernelIdeal.Entry.A17 m c) (Cert.KernelIdeal.Entry.A18 m c) (Cert.KernelIdeal.Entry.A19 m c) (Cert.KernelIdeal.Entry.A20 m c) (Cert.KernelIdeal.Entry.A21 m c) (Cert.KernelIdeal.Entry.A22 m c) (Cert.KernelIdeal.Entry.A23 m c) (Cert.KernelIdeal.Entry.A24 m c) (Cert.KernelIdeal.Entry.A25 m c) (Cert.KernelIdeal.Entry.A26 m c) (Cert.KernelIdeal.Entry.A27 m c) (Cert.KernelIdeal.Entry.A28 m c) (Cert.KernelIdeal.Entry.A29 m c)
      (Cert.KernelIdeal.Entry.cntFF (Cert.KernelIdeal.Entry.A3 m c)) (Cert.KernelIdeal.Entry.cntRB (Cert.KernelIdeal.Entry.A7 m c))
      (Cert.KernelIdeal.Entry.cntREV (Cert.KernelIdeal.Entry.A5 m c)) :=
    Net.reads_ofArrays (Cert.KernelIdeal.Entry.A0 m c) (Cert.KernelIdeal.Entry.A1 m c) (Cert.KernelIdeal.Entry.A2 m c) (Cert.KernelIdeal.Entry.A3 m c) (Cert.KernelIdeal.Entry.A4 m c) (Cert.KernelIdeal.Entry.A5 m c) (Cert.KernelIdeal.Entry.A6 m c) (Cert.KernelIdeal.Entry.A7 m c) (Cert.KernelIdeal.Entry.A8 m c) (Cert.KernelIdeal.Entry.A9 m c) (Cert.KernelIdeal.Entry.A10 m c) (Cert.KernelIdeal.Entry.A11 m c) (Cert.KernelIdeal.Entry.A12 m c) (Cert.KernelIdeal.Entry.A13 m c) (Cert.KernelIdeal.Entry.A14 m c) (Cert.KernelIdeal.Entry.A15 m c) (Cert.KernelIdeal.Entry.A16 m c) (Cert.KernelIdeal.Entry.A17 m c) (Cert.KernelIdeal.Entry.A18 m c) (Cert.KernelIdeal.Entry.A19 m c) (Cert.KernelIdeal.Entry.A20 m c) (Cert.KernelIdeal.Entry.A21 m c) (Cert.KernelIdeal.Entry.A22 m c) (Cert.KernelIdeal.Entry.A23 m c) (Cert.KernelIdeal.Entry.A24 m c) (Cert.KernelIdeal.Entry.A25 m c) (Cert.KernelIdeal.Entry.A26 m c) (Cert.KernelIdeal.Entry.A27 m c) (Cert.KernelIdeal.Entry.A28 m c) (Cert.KernelIdeal.Entry.A29 m c)
      (Cert.KernelIdeal.Entry.cntFF (Cert.KernelIdeal.Entry.A3 m c)) (Cert.KernelIdeal.Entry.cntRB (Cert.KernelIdeal.Entry.A7 m c)) (Cert.KernelIdeal.Entry.cntREV (Cert.KernelIdeal.Entry.A5 m c))
      f0 f1 f8 f9 f10 f11 f12 f13 f14 f15 f16 f17 f18 f19 f20 f21 f22 f23 f24 f25 f26 f27 f28 f29
  have hR : (net m c).Reads (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) (m' ((c.tc : Thread Cert.ReferenceIdeal.nD Cert.ReferenceIdeal.τ).loc Cert.ReferenceIdeal.main_arg27)) (m' ((c.tc : Thread Cert.ReferenceIdeal.nD Cert.ReferenceIdeal.τ).loc Cert.ReferenceIdeal.main_arg28)) (m' ((c.tc : Thread Cert.ReferenceIdeal.nD Cert.ReferenceIdeal.τ).loc Cert.ReferenceIdeal.main_arg29))
      (Cert.ReferenceIdeal.Read.val_main_v23 (F := Ideal) (m' ((c.tc : Thread Cert.ReferenceIdeal.nD Cert.ReferenceIdeal.τ).loc Cert.ReferenceIdeal.main_arg3)))
      (Cert.ReferenceIdeal.Read.val_main_v48 (F := Ideal) (m' ((c.tc : Thread Cert.ReferenceIdeal.nD Cert.ReferenceIdeal.τ).loc Cert.ReferenceIdeal.main_arg7)))
      (Cert.ReferenceIdeal.Read.val_main_v75 (F := Ideal) (m' ((c.tc : Thread Cert.ReferenceIdeal.nD Cert.ReferenceIdeal.τ).loc Cert.ReferenceIdeal.main_arg5))) := by
    rw [e0, e1, e2, e3, e4, e5, e6, e7, e8, e9, e10, e11, e12, e13, e14, e15, e16, e17, e18, e19, e20, e21, e22, e23, e24, e25, e26, e27, e28, e29]
    exact hK
  refine ⟨h139.trans ?_, h165.trans ?_, hargs⟩
  · refine ((Cert.ReferenceIdeal.Read.val_main_v139_eq m' c).trans ?_).trans (Cert.KernelIdeal.Entry.END_user m g c).symm
    show (_ : Cert.KernelIdeal.S100000x64.Idx → EReal) = Cert.KernelIdeal.Entry.Ku2 m g c
    funext j
    obtain ⟨p, q, rfl⟩ : ∃ (p : Fin 100000) (q : Fin 64), j = ix2 p q := ⟨j 0, j 1, eq_ix2 j⟩
    exact (Cert.ReferenceIdeal.RefValue.ref_u2 _ _ _ _ _ _ _ _ _ _ _ _ _ _ _ _ _ _ _ _ _ _ _ _ _ _ _ _ _ _ (net m c) hR p q).trans
      (Cert.KernelIdeal.KValue.k_u2 m g c (net m c) hK p q).symm
  · refine ((Cert.ReferenceIdeal.Read.val_main_v165_eq m' c).trans ?_).trans (Cert.KernelIdeal.Entry.END_author m g c).symm
    show (_ : Cert.KernelIdeal.S20000x64.Idx → EReal) = Cert.KernelIdeal.Entry.Ka2 m g c
    funext j
    obtain ⟨p, q, rfl⟩ : ∃ (p : Fin 20000) (q : Fin 64), j = ix2 p q := ⟨j 0, j 1, eq_ix2 j⟩
    exact (Cert.ReferenceIdeal.RefValue.ref_a2 _ _ _ _ _ _ _ _ _ _ _ _ _ _ _ _ _ _ _ _ _ _ _ _ _ _ _ _ _ _ (net m c) hR p q).trans
      (Cert.KernelIdeal.KValue.k_a2 m g c (net m c) hK p q).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
